-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x196x256 : Shape := ⟨3, ![32, 196, 256]⟩
abbrev S100x256 : Shape := ⟨2, ![100, 256]⟩
abbrev S196x6272 : Shape := ⟨2, ![196, 6272]⟩
abbrev S_ : Shape := ⟨0, ![]⟩
abbrev S32x196 : Shape := ⟨2, ![32, 196]⟩
abbrev S100 : Shape := ⟨1, ![100]⟩

class Facts : Prop where
  bcast_S_S32x196x256 : S_.BroadcastsInDim S32x196x256 (![] : Fin 0 → Fin S32x196x256.rank)
  reducesTo_S32x196x256_S_d0_1_2 : S32x196x256.ReducesTo [0, 1, 2] S_
  h_S_ : 0 < S_.numel
  bcast_S_S100x256 : S_.BroadcastsInDim S100x256 (![] : Fin 0 → Fin S100x256.rank)
  reducesTo_S100x256_S_d0_1 : S100x256.ReducesTo [0, 1] S_
  reducesTo_S32x196x256_S32x196_d2 : S32x196x256.ReducesTo [2] S32x196
  bcast_S_S32x196 : S_.BroadcastsInDim S32x196 (![] : Fin 0 → Fin S32x196.rank)
  reducesTo_S32x196_S_d0_1 : S32x196.ReducesTo [0, 1] S_
  reducesTo_S100x256_S100_d1 : S100x256.ReducesTo [1] S100
  bcast_S_S100 : S_.BroadcastsInDim S100 (![] : Fin 0 → Fin S100.rank)
  reducesTo_S100_S_d0 : S100.ReducesTo [0] S_

variable [Facts]

def fn_part1 {F : FTy → Type} [FloatOps F] (main_v14 : IVec S_ 1) (main_v15 : FVec F S100x256 .f32) (main_cst_5 : FVec F S_ .f32) : IVec S_ 1 :=
  let main_v16 : FVec F S100 .f32 := (fun x v => Host.reduceAdd x v reducesTo_S100x256_S100_d1 h_S_) main_v15 main_cst_5
  let main_cst_6 : FVec F S_ .f32 := constant S_ .f32 0x00000000#32
  let main_v17 : FVec F S100 .f32 := broadcastInDim S100 ![] bcast_S_S100 main_cst_6
  let main_v18 : IVec S100 1 := cmpf .ogt main_v16 main_v17
  let main_c_7 : IVec S_ 1 := constantI S_ 1 1#1
  let main_v19 : IVec S_ 1 := (fun x v => Host.reduce IntOp.andi x v reducesTo_S100_S_d0 h_S_) main_v18 main_c_7
  let main_v20 : IVec S_ 1 := andi main_v14 main_v19
  main_v20

def fn {F : FTy → Type} [FloatOps F] (main_arg0 : FVec F S32x196x256 .f32) (main_arg1 : FVec F S100x256 .f32) (main_arg2 : IVec S196x6272 1) : IVec S_ 1 :=
  let main_v0 : FVec F S32x196x256 .f32 := Host.absf main_arg0
  let main_cst : FVec F S_ .f32 := constant S_ .f32 0x7F800000#32
  let main_v1 : FVec F S32x196x256 .f32 := broadcastInDim S32x196x256 ![] bcast_S_S32x196x256 main_cst
  let main_v2 : IVec S32x196x256 1 := cmpf .olt main_v0 main_v1
  let main_c : IVec S_ 1 := constantI S_ 1 1#1
  let main_v3 : IVec S_ 1 := (fun x v => Host.reduce IntOp.andi x v reducesTo_S32x196x256_S_d0_1_2 h_S_) main_v2 main_c
  let main_v4 : FVec F S100x256 .f32 := Host.absf main_arg1
  let main_cst_0 : FVec F S_ .f32 := constant S_ .f32 0x7F800000#32
  let main_v5 : FVec F S100x256 .f32 := broadcastInDim S100x256 ![] bcast_S_S100x256 main_cst_0
  let main_v6 : IVec S100x256 1 := cmpf .olt main_v4 main_v5
  let main_c_1 : IVec S_ 1 := constantI S_ 1 1#1
  let main_v7 : IVec S_ 1 := (fun x v => Host.reduce IntOp.andi x v reducesTo_S100x256_S_d0_1 h_S_) main_v6 main_c_1
  let main_v8 : IVec S_ 1 := andi main_v3 main_v7
  let main_v9 : FVec F S32x196x256 .f32 := mulf main_arg0 main_arg0
  let main_cst_2 : FVec F S_ .f32 := constant S_ .f32 0x00000000#32
  let main_v10 : FVec F S32x196 .f32 := (fun x v => Host.reduceAdd x v reducesTo_S32x196x256_S32x196_d2 h_S_) main_v9 main_cst_2
  let main_cst_3 : FVec F S_ .f32 := constant S_ .f32 0x00000000#32
  let main_v11 : FVec F S32x196 .f32 := broadcastInDim S32x196 ![] bcast_S_S32x196 main_cst_3
  let main_v12 : IVec S32x196 1 := cmpf .ogt main_v10 main_v11
  let main_c_4 : IVec S_ 1 := constantI S_ 1 1#1
  let main_v13 : IVec S_ 1 := (fun x v => Host.reduce IntOp.andi x v reducesTo_S32x196_S_d0_1 h_S_) main_v12 main_c_4
  let main_v14 : IVec S_ 1 := andi main_v8 main_v13
  let main_v15 : FVec F S100x256 .f32 := mulf main_arg1 main_arg1
  let main_cst_5 : FVec F S_ .f32 := constant S_ .f32 0x00000000#32
  fn_part1 (F := F) main_v14 main_v15 main_cst_5
-- ==== Kernel.lean ====
abbrev S32x196x256 : Shape := ⟨3, ![32, 196, 256]⟩
abbrev S100x256 : Shape := ⟨2, ![100, 256]⟩
abbrev S196x6272 : Shape := ⟨2, ![196, 6272]⟩
abbrev S6272x256 : Shape := ⟨2, ![6272, 256]⟩
abbrev S6272x1 : Shape := ⟨2, ![6272, 1]⟩
abbrev S6272 : Shape := ⟨1, ![6272]⟩
abbrev S100 : Shape := ⟨1, ![100]⟩
abbrev S100x1 : Shape := ⟨2, ![100, 1]⟩
abbrev S256x100 : Shape := ⟨2, ![256, 100]⟩
abbrev S6272x100 : Shape := ⟨2, ![6272, 100]⟩
abbrev S32x196x1 : Shape := ⟨3, ![32, 196, 1]⟩
abbrev S1x6272 : Shape := ⟨2, ![1, 6272]⟩
abbrev S1x196x256 : Shape := ⟨3, ![1, 196, 256]⟩
abbrev S1x196x1 : Shape := ⟨3, ![1, 196, 1]⟩
abbrev S196x1 : Shape := ⟨2, ![196, 1]⟩
abbrev S196x256 : Shape := ⟨2, ![196, 256]⟩
abbrev S896x256 : Shape := ⟨2, ![896, 256]⟩
abbrev S1x896 : Shape := ⟨2, ![1, 896]⟩
abbrev S196x896 : Shape := ⟨2, ![196, 896]⟩
abbrev S256x896 : Shape := ⟨2, ![256, 896]⟩
abbrev S196 : Shape := ⟨1, ![196]⟩
abbrev S32x196 : Shape := ⟨2, ![32, 196]⟩
abbrev S_ : Shape := ⟨0, ![]⟩
abbrev S32 : Shape := ⟨1, ![32]⟩

abbrev nBuf : Space → Nat
  | .hbm => 28
  | .vmem => 19
  | .smem => 0
  | _ => 0

abbrev bufTy : (tb : Table) → Fin (tcTables nBuf tb) → BufTy
  | .hbm, ⟨0, _⟩ => ⟨S32x196x256, .f32⟩
  | .hbm, ⟨1, _⟩ => ⟨S100x256, .f32⟩
  | .hbm, ⟨2, _⟩ => ⟨S196x6272, .i1⟩
  | .hbm, ⟨3, _⟩ => ⟨S6272x256, .f32⟩
  | .hbm, ⟨4, _⟩ => ⟨S6272x256, .f32⟩
  | .hbm, ⟨5, _⟩ => ⟨S6272x1, .f32⟩
  | .hbm, ⟨6, _⟩ => ⟨S32x196x256, .f32⟩
  | .hbm, ⟨7, _⟩ => ⟨S32x196x1, .f32⟩
  | .hbm, ⟨8, _⟩ => ⟨S1x6272, .f32⟩
  | .hbm, ⟨9, _⟩ => ⟨S196x6272, .f32⟩
  | .hbm, ⟨10, _⟩ => ⟨S32x196x1, .f32⟩
  | .hbm, ⟨11, _⟩ => ⟨S32x196x1, .f32⟩
  | .hbm, ⟨12, _⟩ => ⟨S32x196, .f32⟩
  | .hbm, ⟨13, _⟩ => ⟨S_, .f32⟩
  | .hbm, ⟨14, _⟩ => ⟨S32, .f32⟩
  | .hbm, ⟨15, _⟩ => ⟨S32x196, .f32⟩
  | .hbm, ⟨16, _⟩ => ⟨S_, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S6272x256, .f32⟩
  | .local _ .vmem, ⟨1, _⟩ => ⟨S100x256, .f32⟩
  | .local _ .vmem, ⟨2, _⟩ => ⟨S6272x256, .f32⟩
  | .local _ .vmem, ⟨3, _⟩ => ⟨S6272x1, .f32⟩
  | .local _ .vmem, ⟨4, _⟩ => ⟨S1x196x256, .f32⟩
  | .local _ .vmem, ⟨5, _⟩ => ⟨S1x196x256, .f32⟩
  | .local _ .vmem, ⟨6, _⟩ => ⟨S6272x256, .f32⟩
  | .local _ .vmem, ⟨7, _⟩ => ⟨S1x196x1, .f32⟩
  | .local _ .vmem, ⟨8, _⟩ => ⟨S1x196x1, .f32⟩
  | .local _ .vmem, ⟨9, _⟩ => ⟨S1x6272, .f32⟩
  | .local _ .vmem, ⟨10, _⟩ => ⟨S196x6272, .f32⟩
  | .local _ .vmem, ⟨11, _⟩ => ⟨S1x196x1, .f32⟩
  | .local _ .vmem, ⟨12, _⟩ => ⟨S1x196x1, .f32⟩
  | .local _ .vmem, ⟨13, _⟩ => ⟨S1x196x1, .f32⟩
  | .local _ .vmem, ⟨14, _⟩ => ⟨S1x196x1, .f32⟩
  | .local _ .vmem, ⟨15, _⟩ => ⟨S196x1, .f32⟩
  | .local _ .vmem, ⟨16, _⟩ => ⟨S196x1, .f32⟩
  | .local _ .vmem, ⟨17, _⟩ => ⟨S196x1, .f32⟩
  | .local _ .vmem, ⟨18, _⟩ => ⟨S196x1, .f32⟩
  | _, _ => ⟨S32x196x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc1_scratch0 : Ref sig .tc := ⟨.vmem, 15, rfl⟩
abbrev cc1_scratch1 : Ref sig .tc := ⟨.vmem, 16, rfl⟩
abbrev cc1_scratch2 : Ref sig .tc := ⟨.vmem, 17, rfl⟩
abbrev cc1_scratch3 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem5_0 : DmaSem sig := 11
abbrev cc1_sem5_1 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S6272x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S100x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6272x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6272x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![32, 7], ![false, false]⟩

def k1_mult1 (i : grid1.Coords) : BitVec 32 :=
  let arg1 : BitVec 32 := BitVec.ofNat 32 (i 1).val
  let c896_i32 : BitVec 32 := 896#32
  let v7 : BitVec 32 := Scalar.muli arg1 c896_i32
  v7
def k1_off1 (i : grid1.Coords) : Fin 2 → Nat :=
  let arg1 : BitVec 32 := BitVec.ofNat 32 (i 1).val
  let c896_i32 : BitVec 32 := 896#32
  let v7 : BitVec 32 := Scalar.muli arg1 c896_i32
  let v8 : BitVec 32 := v7
  let v9 : Index := Scalar.indexCast v8
  let c0_6 : Index := 0#32
  ![v9.toNat, 0]
def k1_off2 (i : grid1.Coords) : Fin 2 → Nat :=
  let c0_7 : Index := 0#32
  let arg1 : BitVec 32 := BitVec.ofNat 32 (i 1).val
  let c896_i32 : BitVec 32 := 896#32
  let v7 : BitVec 32 := Scalar.muli arg1 c896_i32
  let v8 : BitVec 32 := v7
  let v12 : Index := Scalar.indexCast v8
  ![0, v12.toNat]
def k1_off3 (i : grid1.Coords) : Fin 2 → Nat :=
  let c0_8 : Index := 0#32
  let arg1 : BitVec 32 := BitVec.ofNat 32 (i 1).val
  let c896_i32 : BitVec 32 := 896#32
  let v7 : BitVec 32 := Scalar.muli arg1 c896_i32
  let v8 : BitVec 32 := v7
  let v15 : Index := Scalar.indexCast v8
  ![0, v15.toNat]
def k1_cond2 (i : grid1.Coords) : BitVec 1 :=
  let arg1 : BitVec 32 := BitVec.ofNat 32 (i 1).val
  let c6_i32 : BitVec 32 := 6#32
  let v77 : BitVec 1 := Scalar.cmpi .eq arg1 c6_i32
  let v78 : BitVec 32 := Scalar.extui v77
  let c0_i32_30 : BitVec 32 := 0#32
  let v79 : BitVec 1 := Scalar.cmpi .ne v78 c0_i32_30
  v79

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x196x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S6272x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x196x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x6272 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S196x6272 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x196x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x196x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  shapeCasts_S32x196x256_S6272x256 : S32x196x256.ShapeCasts S6272x256
  inb_S6272x256_S6272x256_0_0 : ∀ a, (![0, 0] : Fin 2 → Nat) a + S6272x256.size a ≤ S6272x256.size a
  h_S6272x256 : 0 < S6272x256.numel
  shapeCasts_S6272x256_S6272x256 : S6272x256.ShapeCasts S6272x256
  inb_S100x256_S100x256_0_0 : ∀ a, (![0, 0] : Fin 2 → Nat) a + S100x256.size a ≤ S100x256.size a
  h_S100x256 : 0 < S100x256.numel
  reduces_S6272x256_S6272 : S6272x256.Reduces [1] S6272
  shapeCasts_S6272_S6272x1 : S6272.ShapeCasts S6272x1
  broadcasts_S6272x1_S6272x256 : S6272x1.Broadcasts S6272x256
  reduces_S100x256_S100 : S100x256.Reduces [1] S100
  shapeCasts_S100_S100x1 : S100.ShapeCasts S100x1
  broadcasts_S100x1_S100x256 : S100x1.Broadcasts S100x256
  transposes_S100x256_p1_0_S256x100 : S100x256.Transposes [1, 0] S256x100
  reduces_S6272x100_S6272 : S6272x100.Reduces [1] S6272
  inb_S6272x1_S6272x1_0_0 : ∀ a, (![0, 0] : Fin 2 → Nat) a + S6272x1.size a ≤ S6272x1.size a
  h_S6272x1 : 0 < S6272x1.numel
  shapeCasts_S6272x256_S32x196x256 : S6272x256.ShapeCasts S32x196x256
  shapeCasts_S6272x1_S32x196x1 : S6272x1.ShapeCasts S32x196x1
  shapeCasts_S6272x1_S1x6272 : S6272x1.ShapeCasts S1x6272
  inb_S196x1_S196x1_0_0 : ∀ a, (![0, 0] : Fin 2 → Nat) a + S196x1.size a ≤ S196x1.size a
  h_S196x1 : 0 < S196x1.numel
  shapeCasts_S196x1_S196x1 : S196x1.ShapeCasts S196x1
  inb_S1x196x256_S1x196x256_0_0_0 : ∀ a, (![0, 0, 0] : Fin 3 → Nat) a + S1x196x256.size a ≤ S1x196x256.size a
  h_S1x196x256 : 0 < S1x196x256.numel
  shapeCasts_S1x196x256_S196x256 : S1x196x256.ShapeCasts S196x256
  inb_S1x196x1_S1x196x1_0_0_0 : ∀ a, (![0, 0, 0] : Fin 3 → Nat) a + S1x196x1.size a ≤ S1x196x1.size a
  h_S1x196x1 : 0 < S1x196x1.numel
  shapeCasts_S1x196x1_S196x1 : S1x196x1.ShapeCasts S196x1
  h_S896x256 : 0 < S896x256.numel
  shapeCasts_S896x256_S896x256 : S896x256.ShapeCasts S896x256
  h_S1x896 : 0 < S1x896.numel
  shapeCasts_S1x896_S1x896 : S1x896.ShapeCasts S1x896
  h_S196x896 : 0 < S196x896.numel
  shapeCasts_S196x896_S196x896 : S196x896.ShapeCasts S196x896
  transposes_S896x256_p1_0_S256x896 : S896x256.Transposes [1, 0] S256x896
  iota_S196x1_d0_w32 : S196x1.Iotas .tc 32 [0]
  iota_S1x896_d1_w32 : S1x896.Iotas .tc 32 [1]
  broadcasts_S1x896_S196x896 : S1x896.Broadcasts S196x896
  broadcasts_S196x1_S196x896 : S196x1.Broadcasts S196x896
  natLt_1_32 : 1 < 32
  reduces_S196x896_S196 : S196x896.Reduces [1] S196
  shapeCasts_S196_S196x1 : S196.ShapeCasts S196x1
  shapeCasts_S196x1_S1x196x1 : S196x1.ShapeCasts S1x196x1
  shapeCasts_S32x196x1_S32x196 : S32x196x1.ShapeCasts S32x196
  reducesTo_S32x196_S32_d1 : S32x196.ReducesTo [1] S32
  h_S_ : 0 < S_.numel
  bcast_S_S32 : S_.BroadcastsInDim S32 (![] : Fin 0 → Fin S32.rank)
  reducesTo_S32_S_d0 : S32.ReducesTo [0] S_
  dot_S6272x256_S256x100_S6272x100_1_0_0_1_n_n_wf : DotDims.WF S6272x256 S256x100 S6272x100 [1] [0] [0] [1] [] []
  dot_S196x256_S256x896_S196x896_1_0_0_1_n_n_wf : DotDims.WF S196x256 S256x896 S196x896 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S6272x256.size a ≤ S6272x256.size a
  hwx0_0 : ∀ i : grid0.Coords, EltTy.bits .f32 = 32 ∨ (Rect.block (s := S6272x256) S6272x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x256.size a ≤ S100x256.size a
  hwx0_1 : ∀ i : grid0.Coords, EltTy.bits .f32 = 32 ∨ (Rect.block (s := S100x256) S100x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6272x256.size a ≤ S6272x256.size a
  hwx0_2 : ∀ i : grid0.Coords, EltTy.bits .f32 = 32 ∨ (Rect.block (s := S6272x256) S6272x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6272x1.size a ≤ S6272x1.size a
  hwx0_3 : ∀ i : grid0.Coords, EltTy.bits .f32 = 32 ∨ (Rect.block (s := S6272x1) S6272x1.size (cc0_transform_3 i) (hinb0_3 i)).WholeWords (EltTy.packing .f32)
  hrank1 : 0 < grid1.rank
  k1_mult1_dvd : ∀ i : grid1.Coords, 896 ∣ (k1_mult1 i).toNat
  k1_off1_inb : ∀ i : grid1.Coords, ∀ a, (k1_off1 i) a + S896x256.size a ≤ S6272x256.size a
  k1_off2_inb : ∀ i : grid1.Coords, ∀ a, (k1_off2 i) a + S1x896.size a ≤ S1x6272.size a
  k1_off3_inb : ∀ i : grid1.Coords, ∀ a, (k1_off3 i) a + S196x896.size a ≤ S196x6272.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x196x256.size a ≤ S32x196x256.size a
  hwx1_0 : ∀ i : grid1.Coords, EltTy.bits .f32 = 32 ∨ (Rect.block (s := S32x196x256) S1x196x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S6272x256.size a ≤ S6272x256.size a
  hwx1_1 : ∀ i : grid1.Coords, EltTy.bits .f32 = 32 ∨ (Rect.block (s := S6272x256) S6272x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x196x1.size a ≤ S32x196x1.size a
  hwx1_2 : ∀ i : grid1.Coords, EltTy.bits .f32 = 32 ∨ (Rect.block (s := S32x196x1) S1x196x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x6272.size a ≤ S1x6272.size a
  hwx1_3 : ∀ i : grid1.Coords, EltTy.bits .f32 = 32 ∨ (Rect.block (s := S1x6272) S1x6272.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S196x6272.size a ≤ S196x6272.size a
  hwx1_4 : ∀ i : grid1.Coords, EltTy.bits .f32 = 32 ∨ (Rect.block (s := S196x6272) S196x6272.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x196x1.size a ≤ S32x196x1.size a
  hwx1_5 : ∀ i : grid1.Coords, EltTy.bits .f32 = 32 ∨ (Rect.block (s := S32x196x1) S1x196x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x196x1.size a ≤ S32x196x1.size a
  hwx1_6 : ∀ i : grid1.Coords, EltTy.bits .f32 = 32 ∨ (Rect.block (s := S32x196x1) S1x196x1.size (cc1_transform_6 i) (hinb1_6 i)).WholeWords (EltTy.packing .f32)

variable [Facts₀]

def dot_S6272x256_S256x100_S6272x100_1_0_0_1_n_n : DotDims S6272x256 S256x100 S6272x100 where
  lhsContracting := [1]
  rhsContracting := [0]
  lhsNonContracting := [0]
  rhsNonContracting := [1]
  lhsBatch := []
  rhsBatch := []
  wf := dot_S6272x256_S256x100_S6272x100_1_0_0_1_n_n_wf
def dot_S196x256_S256x896_S196x896_1_0_0_1_n_n : DotDims S196x256 S256x896 S196x896 where
  lhsContracting := [1]
  rhsContracting := [0]
  lhsNonContracting := [0]
  rhsNonContracting := [1]
  lhsBatch := []
  rhsBatch := []
  wf := dot_S196x256_S256x896_S196x896_1_0_0_1_n_n_wf

abbrev win0_0 : Pipeline.Window sig grid0 :=
  Pipeline.Window.ofSpec (Memref.whole main_v0) S6272x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S100x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S6272x256.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S6272x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S1x196x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S6272x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x196x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x6272.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S196x6272.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6_0) S1x196x1.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v6_1) S1x196x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

class Facts : Prop extends Facts₀ where

variable [Facts]
-- ==== ReferenceIdeal.lean ====
abbrev S32x196x256 : Shape := ⟨3, ![32, 196, 256]⟩
abbrev S100x256 : Shape := ⟨2, ![100, 256]⟩
abbrev S196x6272 : Shape := ⟨2, ![196, 6272]⟩
abbrev S_ : Shape := ⟨0, ![]⟩
abbrev S100 : Shape := ⟨1, ![100]⟩
abbrev S100x1 : Shape := ⟨2, ![100, 1]⟩
abbrev S32x196 : Shape := ⟨2, ![32, 196]⟩
abbrev S32x196x1 : Shape := ⟨3, ![32, 196, 1]⟩
abbrev S6272x256 : Shape := ⟨2, ![6272, 256]⟩
abbrev S256x100 : Shape := ⟨2, ![256, 100]⟩
abbrev S6272x100 : Shape := ⟨2, ![6272, 100]⟩
abbrev S6272 : Shape := ⟨1, ![6272]⟩
abbrev S256x6272 : Shape := ⟨2, ![256, 6272]⟩
abbrev S6272x6272 : Shape := ⟨2, ![6272, 6272]⟩
abbrev S6272x1 : Shape := ⟨2, ![6272, 1]⟩
abbrev S1x6272 : Shape := ⟨2, ![1, 6272]⟩
abbrev S196 : Shape := ⟨1, ![196]⟩
abbrev S196x1 : Shape := ⟨2, ![196, 1]⟩
abbrev S196x2 : Shape := ⟨2, ![196, 2]⟩
abbrev S1x196x1x6272 : Shape := ⟨4, ![1, 196, 1, 6272]⟩
abbrev S32x196x1x6272 : Shape := ⟨4, ![32, 196, 1, 6272]⟩
abbrev S32x1229312 : Shape := ⟨2, ![32, 1229312]⟩
abbrev S32 : Shape := ⟨1, ![32]⟩

abbrev nBuf : Space → Nat
  | .hbm => 99
  | .vmem => 0
  | .smem => 0
  | _ => 0

abbrev bufTy : (tb : Table) → Fin (tcTables nBuf tb) → BufTy
  | .hbm, ⟨0, _⟩ => ⟨S32x196x256, .f32⟩
  | .hbm, ⟨1, _⟩ => ⟨S100x256, .f32⟩
  | .hbm, ⟨2, _⟩ => ⟨S196x6272, .i1⟩
  | .hbm, ⟨3, _⟩ => ⟨S100x256, .f32⟩
  | .hbm, ⟨4, _⟩ => ⟨S_, .f32⟩
  | .hbm, ⟨5, _⟩ => ⟨S100, .f32⟩
  | .hbm, ⟨6, _⟩ => ⟨S100x1, .f32⟩
  | .hbm, ⟨7, _⟩ => ⟨S100x1, .f32⟩
  | .hbm, ⟨8, _⟩ => ⟨S100x256, .f32⟩
  | .hbm, ⟨9, _⟩ => ⟨S100x256, .f32⟩
  | .hbm, ⟨10, _⟩ => ⟨S32x196x256, .f32⟩
  | .hbm, ⟨11, _⟩ => ⟨S_, .f32⟩
  | .hbm, ⟨12, _⟩ => ⟨S32x196, .f32⟩
  | .hbm, ⟨13, _⟩ => ⟨S32x196x1, .f32⟩
  | .hbm, ⟨14, _⟩ => ⟨S32x196x1, .f32⟩
  | .hbm, ⟨15, _⟩ => ⟨S32x196x256, .f32⟩
  | .hbm, ⟨16, _⟩ => ⟨S32x196x256, .f32⟩
  | .hbm, ⟨17, _⟩ => ⟨S6272x256, .f32⟩
  | .hbm, ⟨18, _⟩ => ⟨S256x100, .f32⟩
  | .hbm, ⟨19, _⟩ => ⟨S6272x100, .f32⟩
  | .hbm, ⟨20, _⟩ => ⟨S_, .f32⟩
  | .hbm, ⟨21, _⟩ => ⟨S6272, .f32⟩
  | .hbm, ⟨22, _⟩ => ⟨S256x6272, .f32⟩
  | .hbm, ⟨23, _⟩ => ⟨S6272x6272, .f32⟩
  | .hbm, ⟨24, _⟩ => ⟨S6272x1, .f32⟩
  | .hbm, ⟨25, _⟩ => ⟨S6272x6272, .f32⟩
  | .hbm, ⟨26, _⟩ => ⟨S6272x6272, .i1⟩
  | .hbm, ⟨27, _⟩ => ⟨S1x6272, .f32⟩
  | .hbm, ⟨28, _⟩ => ⟨S6272x6272, .f32⟩
  | .hbm, ⟨29, _⟩ => ⟨S6272x6272, .i1⟩
  | .hbm, ⟨30, _⟩ => ⟨S6272x6272, .i1⟩
  | .hbm, ⟨31, _⟩ => ⟨S_, .f32⟩
  | .hbm, ⟨32, _⟩ => ⟨S196x6272, .f32⟩
  | .hbm, ⟨33, _⟩ => ⟨S196, .i32⟩
  | .hbm, ⟨34, _⟩ => ⟨S196, .i32⟩
  | .hbm, ⟨35, _⟩ => ⟨S_, .i32⟩
  | .hbm, ⟨36, _⟩ => ⟨S196, .i32⟩
  | .hbm, ⟨37, _⟩ => ⟨S196, .i1⟩
  | .hbm, ⟨38, _⟩ => ⟨S_, .i32⟩
  | .hbm, ⟨39, _⟩ => ⟨S196, .i32⟩
  | .hbm, ⟨40, _⟩ => ⟨S196, .i32⟩
  | .hbm, ⟨41, _⟩ => ⟨S196, .i32⟩
  | .hbm, ⟨42, _⟩ => ⟨S_, .i32⟩
  | .hbm, ⟨43, _⟩ => ⟨S196, .i32⟩
  | .hbm, ⟨44, _⟩ => ⟨S196, .i1⟩
  | .hbm, ⟨45, _⟩ => ⟨S_, .i32⟩
  | .hbm, ⟨46, _⟩ => ⟨S196, .i32⟩
  | .hbm, ⟨47, _⟩ => ⟨S196, .i32⟩
  | .hbm, ⟨48, _⟩ => ⟨S196, .i32⟩
  | .hbm, ⟨49, _⟩ => ⟨S196x1, .i32⟩
  | .hbm, ⟨50, _⟩ => ⟨S196x1, .i32⟩
  | .hbm, ⟨51, _⟩ => ⟨S196x2, .i32⟩
  | .hbm, ⟨52, _⟩ => ⟨S_, .f32⟩
  | .hbm, ⟨53, _⟩ => ⟨S196, .f32⟩
  | .hbm, ⟨54, _⟩ => ⟨S196x6272, .f32⟩
  | .hbm, ⟨55, _⟩ => ⟨S1x196x1x6272, .f32⟩
  | .hbm, ⟨56, _⟩ => ⟨S32x196x1x6272, .f32⟩
  | .hbm, ⟨57, _⟩ => ⟨S6272x6272, .f32⟩
  | .hbm, ⟨58, _⟩ => ⟨S1x196x1x6272, .i1⟩
  | .hbm, ⟨59, _⟩ => ⟨S32x196x1x6272, .i1⟩
  | .hbm, ⟨60, _⟩ => ⟨S6272x6272, .i1⟩
  | .hbm, ⟨61, _⟩ => ⟨S6272x6272, .i1⟩
  | .hbm, ⟨62, _⟩ => ⟨S6272x6272, .f32⟩
  | .hbm, ⟨63, _⟩ => ⟨S6272x6272, .f32⟩
  | .hbm, ⟨64, _⟩ => ⟨S6272x6272, .f32⟩
  | .hbm, ⟨65, _⟩ => ⟨S6272x6272, .f32⟩
  | .hbm, ⟨66, _⟩ => ⟨S_, .f32⟩
  | .hbm, ⟨67, _⟩ => ⟨S6272x6272, .f32⟩
  | .hbm, ⟨68, _⟩ => ⟨S6272x6272, .f32⟩
  | .hbm, ⟨69, _⟩ => ⟨S_, .f32⟩
  | .hbm, ⟨70, _⟩ => ⟨S6272, .f32⟩
  | .hbm, ⟨71, _⟩ => ⟨S6272x1, .f32⟩
  | .hbm, ⟨72, _⟩ => ⟨S6272x6272, .f32⟩
  | .hbm, ⟨73, _⟩ => ⟨S6272x6272, .f32⟩
  | .hbm, ⟨74, _⟩ => ⟨S6272x6272, .f32⟩
  | .hbm, ⟨75, _⟩ => ⟨S6272x6272, .f32⟩
  | .hbm, ⟨76, _⟩ => ⟨S_, .f32⟩
  | .hbm, ⟨77, _⟩ => ⟨S6272, .f32⟩
  | .hbm, ⟨78, _⟩ => ⟨S6272x1, .f32⟩
  | .hbm, ⟨79, _⟩ => ⟨S6272x1, .f32⟩
  | .hbm, ⟨80, _⟩ => ⟨S6272x6272, .f32⟩
  | .hbm, ⟨81, _⟩ => ⟨S6272x6272, .f32⟩
  | .hbm, ⟨82, _⟩ => ⟨S6272x6272, .f32⟩
  | .hbm, ⟨83, _⟩ => ⟨S32x1229312, .f32⟩
  | .hbm, ⟨84, _⟩ => ⟨S_, .f32⟩
  | .hbm, ⟨85, _⟩ => ⟨S32, .f32⟩
  | .hbm, ⟨86, _⟩ => ⟨S32x1229312, .f32⟩
  | .hbm, ⟨87, _⟩ => ⟨S_, .f32⟩
  | .hbm, ⟨88, _⟩ => ⟨S32, .f32⟩
  | .hbm, ⟨89, _⟩ => ⟨S_, .f32⟩
  | .hbm, ⟨90, _⟩ => ⟨S32, .f32⟩
  | .hbm, ⟨91, _⟩ => ⟨S32, .f32⟩
  | .hbm, ⟨92, _⟩ => ⟨S32, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S32x196x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c : Ref sig .tc := ⟨.hbm, 35, rfl⟩
abbrev main_v22 : Ref sig .tc := ⟨.hbm, 36, rfl⟩
abbrev main_v23 : Ref sig .tc := ⟨.hbm, 37, rfl⟩
abbrev main_c_1 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_2 : Ref sig .tc := ⟨.hbm, 42, rfl⟩
abbrev main_v27 : Ref sig .tc := ⟨.hbm, 43, rfl⟩
abbrev main_v28 : Ref sig .tc := ⟨.hbm, 44, rfl⟩
abbrev main_c_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_5 : Ref sig .tc := ⟨.hbm, 66, rfl⟩
abbrev main_v48 : Ref sig .tc := ⟨.hbm, 67, rfl⟩
abbrev main_v49 : Ref sig .tc := ⟨.hbm, 68, rfl⟩
abbrev main_cst_6 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_7 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_8 : Ref sig .tc := ⟨.hbm, 84, rfl⟩
abbrev main_v63 : Ref sig .tc := ⟨.hbm, 85, rfl⟩
abbrev main_v64 : Ref sig .tc := ⟨.hbm, 86, rfl⟩
abbrev main_cst_9 : Ref sig .tc := ⟨.hbm, 87, rfl⟩
abbrev main_v65 : Ref sig .tc := ⟨.hbm, 88, rfl⟩
abbrev main_cst_10 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_11 : Ref sig .tc := ⟨.hbm, 93, rfl⟩
abbrev main_v69 : Ref sig .tc := ⟨.hbm, 94, rfl⟩
abbrev main_cst_12 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩

abbrev nD : Nat := 1
abbrev τ : Topo := Topo.v7x

variable {F : FTy → Type} [FloatOps F]

class Facts₀ : Prop where
  reducesTo_S100x256_S100_d1 : S100x256.ReducesTo [1] S100
  h_S_ : 0 < S_.numel
  bcast_S100_S100x1_0 : S100.BroadcastsInDim S100x1 (![0] : Fin 1 → Fin S100x1.rank)
  bcast_S100x1_S100x256_0_1 : S100x1.BroadcastsInDim S100x256 (![0, 1] : Fin 2 → Fin S100x256.rank)
  reducesTo_S32x196x256_S32x196_d2 : S32x196x256.ReducesTo [2] S32x196
  bcast_S32x196_S32x196x1_0_1 : S32x196.BroadcastsInDim S32x196x1 (![0, 1] : Fin 2 → Fin S32x196x1.rank)
  bcast_S32x196x1_S32x196x256_0_1_2 : S32x196x1.BroadcastsInDim S32x196x256 (![0, 1, 2] : Fin 3 → Fin S32x196x256.rank)
  shapeCasts_S32x196x256_S6272x256 : S32x196x256.ShapeCasts S6272x256
  transposes_S100x256_S256x100_1_0 : S100x256.Transposes [1, 0] S256x100
  reducesTo_S6272x100_S6272_d1 : S6272x100.ReducesTo [1] S6272
  transposes_S6272x256_S256x6272_1_0 : S6272x256.Transposes [1, 0] S256x6272
  bcast_S6272_S6272x1_0 : S6272.BroadcastsInDim S6272x1 (![0] : Fin 1 → Fin S6272x1.rank)
  bcast_S6272x1_S6272x6272_0_1 : S6272x1.BroadcastsInDim S6272x6272 (![0, 1] : Fin 2 → Fin S6272x6272.rank)
  bcast_S6272_S1x6272_1 : S6272.BroadcastsInDim S1x6272 (![1] : Fin 1 → Fin S1x6272.rank)
  bcast_S1x6272_S6272x6272_0_1 : S1x6272.BroadcastsInDim S6272x6272 (![0, 1] : Fin 2 → Fin S6272x6272.rank)
  bcast_S_S196x6272 : S_.BroadcastsInDim S196x6272 (![] : Fin 0 → Fin S196x6272.rank)
  bcast_S_S196 : S_.BroadcastsInDim S196 (![] : Fin 0 → Fin S196.rank)
  bcast_S196_S196x1_0 : S196.BroadcastsInDim S196x1 (![0] : Fin 1 → Fin S196x1.rank)
  concatenates_S196x1_S196x1_S196x2_d1 : Shape.Concatenates [S196x1, S196x1] S196x2 1
  shapeCasts_S196x6272_S1x196x1x6272 : S196x6272.ShapeCasts S1x196x1x6272
  bcast_S1x196x1x6272_S32x196x1x6272_0_1_2_3 : S1x196x1x6272.BroadcastsInDim S32x196x1x6272 (![0, 1, 2, 3] : Fin 4 → Fin S32x196x1x6272.rank)
  shapeCasts_S32x196x1x6272_S6272x6272 : S32x196x1x6272.ShapeCasts S6272x6272
  bcast_S_S6272x6272 : S_.BroadcastsInDim S6272x6272 (![] : Fin 0 → Fin S6272x6272.rank)
  reducesTo_S6272x6272_S6272_d1 : S6272x6272.ReducesTo [1] S6272
  shapeCasts_S6272x6272_S32x1229312 : S6272x6272.ShapeCasts S32x1229312
  reducesTo_S32x1229312_S32_d1 : S32x1229312.ReducesTo [1] S32
  bcast_S_S32 : S_.BroadcastsInDim S32 (![] : Fin 0 → Fin S32.rank)
  reducesTo_S32_S_d0 : S32.ReducesTo [0] S_
  dot_S6272x256_S256x100_S6272x100_1_0_0_1_n_n_wf : DotDims.WF S6272x256 S256x100 S6272x100 [1] [0] [0] [1] [] []
  dot_S6272x256_S256x6272_S6272x6272_1_0_0_1_n_n_wf : DotDims.WF S6272x256 S256x6272 S6272x6272 [1] [0] [0] [1] [] []
  scatter_S196x6272_S196x2_S196_n_01_01_1_wf : ScatterDims.WF S196x6272 S196x2 S196 [] [0, 1] [0, 1] 1

variable [Facts₀]

def dot_S6272x256_S256x100_S6272x100_1_0_0_1_n_n : DotDims S6272x256 S256x100 S6272x100 where
  lhsContracting := [1]
  rhsContracting := [0]
  lhsNonContracting := [0]
  rhsNonContracting := [1]
  lhsBatch := []
  rhsBatch := []
  wf := dot_S6272x256_S256x100_S6272x100_1_0_0_1_n_n_wf
def dot_S6272x256_S256x6272_S6272x6272_1_0_0_1_n_n : DotDims S6272x256 S256x6272 S6272x6272 where
  lhsContracting := [1]
  rhsContracting := [0]
  lhsNonContracting := [0]
  rhsNonContracting := [1]
  lhsBatch := []
  rhsBatch := []
  wf := dot_S6272x256_S256x6272_S6272x6272_1_0_0_1_n_n_wf
def scatter_S196x6272_S196x2_S196_n_01_01_1 : ScatterDims S196x6272 S196x2 S196 where
  updateWindowDims := []
  insertedWindowDims := [0, 1]
  scatterDimsToOperandDims := [0, 1]
  indexVectorDim := 1
  wf := scatter_S196x6272_S196x2_S196_n_01_01_1_wf

class Facts : Prop extends Facts₀ where

variable [Facts]
-- ==== Proof.K.Reg0.lean ====
/- Region 0 of the program (the normalisation kernel, a grid of one point over four whole-array windows), at
   any float model: each window's block at the point, what the body leaves in the two output windows' buffers
   as a function of the two input blocks, the body's triple, the pipeline's proof data and its body obligation. -/
import proofs.«149911_j6408091205873_1_alg».proof.Proof.Gen.Kernel.Launch
import proofs.«149911_j6408091205873_1_alg».proof.Proof.Gen.Kernel.Skeleton
import proofs.«149911_j6408091205873_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the core's buffer contents when the region is entered: the parameter the region's half is stated at
variable (V : (c : Dev nD) → (b : Ref sig .tc) → Buf (Elt F) ((c : Thread nD τ).loc b))

/-! # Region 0: the normalisation kernel, at the entry contents V -/

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is V's and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each window's buffer, whole -/

abbrev r0_0 : Rect S6272x256 := Rect.unit (s := S6272x256) ![0, 0] S6272x256.size inb_S6272x256_S6272x256_0_0
abbrev r0_1 : Rect S100x256 := Rect.unit (s := S100x256) ![0, 0] S100x256.size inb_S100x256_S100x256_0_0
abbrev r0_2 : Rect S6272x256 := Rect.unit (s := S6272x256) ![0, 0] S6272x256.size inb_S6272x256_S6272x256_0_0
abbrev r0_3 : Rect S6272x1 := Rect.unit (s := S6272x1) ![0, 0] S6272x1.size inb_S6272x1_S6272x1_0_0

/-! ## What the body leaves in each output window's buffer -/

/-- Window 2's staging buffer after the body, from input window 0's block: its one store, whole. -/
def out0_2 (x0 : Vec F S6272x256 .f32) : Vec F S6272x256 .f32 :=
  View.canon [⟨r0_2, k0_pay1 (View.ld x0 r0_0)⟩]

/-- Window 3's staging buffer after the body, from the two input windows' blocks: its one store, whole. -/
def out0_3 (x0 : Vec F S6272x256 .f32) (x1 : Vec F S100x256 .f32) : Vec F S6272x1 .f32 :=
  View.canon [⟨r0_3, k0_pay2 (View.ld x0 r0_0) (View.ld x1 r0_1)⟩]

/-- The store tiles the buffer, so it covers it. -/
theorem cover0_2 (p0 : Vec F S6272x256 .f32) (y : S6272x256.Idx) :
    ∃ pc ∈ ([⟨r0_2, p0⟩] : List (View.Piece (Elt F) S6272x256 .f32)), y ∈ pc.1.set :=
  View.cover_of_tiled [⟨r0_2, p0⟩] S6272x256.size (by rfl) y

theorem cover0_3 (p0 : Vec F S6272x1 .f32) (y : S6272x1.Idx) :
    ∃ pc ∈ ([⟨r0_3, p0⟩] : List (View.Piece (Elt F) S6272x1 .f32)), y ∈ pc.1.set :=
  View.cover_of_tiled [⟨r0_3, p0⟩] S6272x1.size (by rfl) y

/-! ## The body's triple -/

set_option maxHeartbeats 1000000 in
/-- The kernel body on whole staging memrefs, the inputs' at read contents and the outputs' at anything, runs to
    the continuation holding the inputs' as they were and each output's at its closed form of the inputs'. -/
theorem sound_kernel0 (c : Dev nD) (E : Set ℕ) (i : grid0.Coords)
    (arg1 : Memref sig .tc .vmem S6272x256 .f32) (harg1 : arg1.IsWhole) (arg2 : Memref sig .tc .vmem S100x256 .f32) (harg2 : arg2.IsWhole)
    (arg3 : Memref sig .tc .vmem S6272x256 .f32) (harg3 : arg3.IsWhole) (arg4 : Memref sig .tc .vmem S6272x1 .f32) (harg4 : arg4.IsWhole)
    (x0 : Vec F S6272x256 .f32) (x1 : Vec F S100x256 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x0 x1)) -∗ K ⟨⟩))
      ⊢ wp frame (wpE (defs₀ (F := F)) Variants.none c none) E (cc0__normalize_kernel i arg1 harg1 arg2 harg2 arg3 harg3 arg4 harg4) K := by
  simp only [cc0__normalize_kernel_eq_skeleton]; unfold cc0__normalize_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## The pipeline's proof data -/

/-- The proof data of the pipeline on core c: the arrays as the region finds them; after the body at point t
    each input's buffer at its block and each output's at its closed form of the input blocks; the scoped rest and
    the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Fr

end
-- ==== Proof.K.Reg1Base.lean ====
/- Region 1 of the program (the blocked loss kernel, a grid of 32 × 7 points over seven windows and four scratch
   buffers carried from point to point), at any float model: what the three whole-body runs of its kernel share —
   each window's block at a point, the input windows' buffers at every point, the body's two branch conditions
   decided over the grid, where the two output windows are idle, the staging and scratch memrefs, and the class
   invariant with the four scratch memrefs owned at some contents. -/
import proofs.«149911_j6408091205873_1_alg».proof.Proof.Gen.Kernel.Launch
import proofs.«149911_j6408091205873_1_alg».proof.Proof.Gen.Kernel.Skeleton
import proofs.«149911_j6408091205873_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the core's buffer contents when the region is entered: the parameter the region's half is stated at
variable (V : (c : Dev nD) → (b : Ref sig .tc) → Buf (Elt F) ((c : Thread nD τ).loc b))

/-! # Region 1: the blocked loss kernel, at the entry contents V -/

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is V's and whose body leaves the block in place: the window is uncut and never idle, and where
    it is not fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is V's and whose body leaves the block in place: the window is uncut and never idle, and where
    it is not fetched its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is V's and whose body leaves the block in place: the window is uncut and never idle, and where
    it is not fetched its block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is V's and whose body leaves the block in place: the window is uncut and never idle, and where
    it is not fetched its block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is V's and whose body leaves the block in place: the window is uncut and never idle, and where
    it is not fetched its block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The body's branch conditions -/

/-- The condition of the body's first branch (the column block is the first of its row block), from the grid
    coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 7) — decided over the grid. -/
theorem hcond1_0 : ∀ t : Fin cfg1.N, cond1_0 (grid1.coords t) ↔ t.val % 7 = 0 :=
  (by decide +kernel : ∀ t : Fin grid1.N, cond1_0 (grid1.coords t) ↔ t.val % 7 = 0)

/-- The condition of the body's second branch (the column block is the last of its row block), from the grid
    coordinates. -/
abbrev cond1_1 (i : grid1.Coords) : Prop := k1_cond2 i = 1#1
/-- It holds at the points ≡ 6 (mod 7) — decided over the grid. -/
theorem hcond1_1 : ∀ t : Fin cfg1.N, cond1_1 (grid1.coords t) ↔ t.val % 7 = 6 :=
  (by decide +kernel : ∀ t : Fin grid1.N, cond1_1 (grid1.coords t) ↔ t.val % 7 = 6)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- At the points of case A the configuration calls output 5 idle: the case stores nothing into it. -/
theorem idleAt1_5_A : ∀ t : Fin cfg1.N, cond1_0 (grid1.coords t) → ¬cond1_1 (grid1.coords t) → cfg1.idle 5 (grid1.coords t) = true := by decide +kernel
/-- At the points of case A the pipeline does not write output 5's block back. -/
theorem noFlush1_5_A : ∀ t : Fin cfg1.N, cond1_0 (grid1.coords t) → ¬cond1_1 (grid1.coords t) → (cfg1.win 5).flush t = false := by decide +kernel
/-- At the points of case B the configuration calls output 5 idle: the case stores nothing into it. -/
theorem idleAt1_5_B : ∀ t : Fin cfg1.N, ¬cond1_0 (grid1.coords t) → ¬cond1_1 (grid1.coords t) → cfg1.idle 5 (grid1.coords t) = true := by decide +kernel
/-- At the points of case B the pipeline does not write output 5's block back. -/
theorem noFlush1_5_B : ∀ t : Fin cfg1.N, ¬cond1_0 (grid1.coords t) → ¬cond1_1 (grid1.coords t) → (cfg1.win 5).flush t = false := by decide +kernel
/-- At the points of case C the configuration calls output 5 live: the case stores into it. -/
theorem liveAt1_5_C : ∀ t : Fin cfg1.N, ¬cond1_0 (grid1.coords t) → cond1_1 (grid1.coords t) → cfg1.idle 5 (grid1.coords t) = false := by decide +kernel
/-- At the points of case A the configuration calls output 6 idle: the case stores nothing into it. -/
theorem idleAt1_6_A : ∀ t : Fin cfg1.N, cond1_0 (grid1.coords t) → ¬cond1_1 (grid1.coords t) → cfg1.idle 6 (grid1.coords t) = true := by decide +kernel
/-- At the points of case A the pipeline does not write output 6's block back. -/
theorem noFlush1_6_A : ∀ t : Fin cfg1.N, cond1_0 (grid1.coords t) → ¬cond1_1 (grid1.coords t) → (cfg1.win 6).flush t = false := by decide +kernel
/-- At the points of case B the configuration calls output 6 idle: the case stores nothing into it. -/
theorem idleAt1_6_B : ∀ t : Fin cfg1.N, ¬cond1_0 (grid1.coords t) → ¬cond1_1 (grid1.coords t) → cfg1.idle 6 (grid1.coords t) = true := by decide +kernel
/-- At the points of case B the pipeline does not write output 6's block back. -/
theorem noFlush1_6_B : ∀ t : Fin cfg1.N, ¬cond1_0 (grid1.coords t) → ¬cond1_1 (grid1.coords t) → (cfg1.win 6).flush t = false := by decide +kernel
/-- At the points of case C the configuration calls output 6 live: the case stores into it. -/
theorem liveAt1_6_C : ∀ t : Fin cfg1.N, ¬cond1_0 (grid1.coords t) → cond1_1 (grid1.coords t) → cfg1.idle 6 (grid1.coords t) = false := by decide +kernel

/-! ## The kernel body's memrefs -/

/-- One staging buffer of output window 5, through which its contents are stated (the choice does not matter). -/
abbrev VO1_5 : View sig .tc .vmem S1x196x1 .f32 := (Memref.whole cc1_stg5_0 : Memref sig .tc .vmem S1x196x1 .f32).view
/-- One staging buffer of output window 6, through which its contents are stated. -/
abbrev VO1_6 : View sig .tc .vmem S1x196x1 .f32 := (Memref.whole cc1_stg6_0 : Memref sig .tc .vmem S1x196x1 .f32).view
/-- Each window's current staging memref at point t, spelled as the pipeline passes it, and its wholeness. -/
abbrev ms1_0 (t : Fin cfg1.N) : Memref sig .tc .vmem S1x196x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S6272x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x196x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x6272 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S196x6272 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x196x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x196x1 .f32 := win1_6.stage (cfg1.slots t 6)
abbrev hs1_6 (t : Fin cfg1.N) : (ms1_6 t).IsWhole := hstage1_6 ((cfg1.slots t 6).cast nbuf1_6)
/-- The scratch operands: whole scoped buffers of the kernel's own, passed beside the windows. -/
abbrev scM1_0 : Memref sig .tc .vmem S196x1 .f32 := Memref.whole cc1_scratch0
abbrev scM1_1 : Memref sig .tc .vmem S196x1 .f32 := Memref.whole cc1_scratch1
abbrev scM1_2 : Memref sig .tc .vmem S196x1 .f32 := Memref.whole cc1_scratch2
abbrev scM1_3 : Memref sig .tc .vmem S196x1 .f32 := Memref.whole cc1_scratch3
/-- The scratch operands the kernel carries between points, as views: what each holds is stated through its view. -/
abbrev VS1_0 : View sig .tc .vmem S196x1 .f32 := scM1_0.view
abbrev VS1_1 : View sig .tc .vmem S196x1 .f32 := scM1_1.view
abbrev VS1_2 : View sig .tc .vmem S196x1 .f32 := scM1_2.view
abbrev VS1_3 : View sig .tc .vmem S196x1 .f32 := scM1_3.view

/-- The class invariant with the four scratch operands as memrefs owned at some contents: what the body obligation
    hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.Kernel.Fr

end
-- ==== Proof.K.Reg1RunA.lean ====
/- Region 1's kernel body run whole, in case A of its two branch conditions (first branch taken, second not: the first column block of a row block): the pieces its stores leave in each output
   window's buffer and in each of the four scratch buffers, with the triple that on whole memrefs — the inputs' at
   their contents, the two idle outputs' at contents handed back untouched, the four scratch buffers at anything (the case stores each whole before it loads it) — the body runs to a continuation holding the inputs as they were and each stored buffer
   with its pieces written. -/
import proofs.«149911_j6408091205873_1_alg».proof.Proof.K.Reg1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave, as pieces (last first), in case A, with the proof of its triple. -/
noncomputable def kernelRun1_A (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : cond1_0 i) (hc1 : ¬cond1_1 i)
    (x0 : Vec F S1x196x256 .f32) (x1 : Vec F S6272x256 .f32) (x2 : Vec F S1x196x1 .f32) (x3 : Vec F S1x6272 .f32) (x4 : Vec F S196x6272 .f32) :
    Σ' (L5 : List (View.Piece (Elt F) S1x196x1 .f32)) (L6 : List (View.Piece (Elt F) S1x196x1 .f32)) (LS0 : List (View.Piece (Elt F) S196x1 .f32)) (LS1 : List (View.Piece (Elt F) S196x1 .f32)) (LS2 : List (View.Piece (Elt F) S196x1 .f32)), { LS3 : List (View.Piece (Elt F) S196x1 .f32) //
      ∀ (xi5 : Vec F S1x196x1 .f32) (xi6 : Vec F S1x196x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11 arg12 harg12) K } := by
  refine ⟨[], [], ?_, ?_, ?_, ?_, fun xi5 xi6 E K => ?run⟩
  case run =>
    simp only [cc1_kernel_eq_skeleton]; unfold cc1_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.Kernel.Fr

end
-- ==== Proof.K.Reg1RunB.lean ====
/- Region 1's kernel body run whole, in case B of its two branch conditions (neither branch taken: a middle column block): the pieces its stores leave in each output
   window's buffer and in each of the four scratch buffers, with the triple that on whole memrefs — the inputs' at
   their contents, the two idle outputs' at contents handed back untouched, the four scratch buffers at the contents the point before left — the body runs to a continuation holding the inputs as they were and each stored buffer
   with its pieces written. -/
import proofs.«149911_j6408091205873_1_alg».proof.Proof.K.Reg1RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave, as pieces (last first), in case B, with the proof of its triple. -/
noncomputable def kernelRun1_B (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : ¬cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) :
    Σ' (L5 : List (View.Piece (Elt F) S1x196x1 .f32)) (L6 : List (View.Piece (Elt F) S1x196x1 .f32)) (LS0 : List (View.Piece (Elt F) S196x1 .f32)) (LS1 : List (View.Piece (Elt F) S196x1 .f32)) (LS2 : List (View.Piece (Elt F) S196x1 .f32)), { LS3 : List (View.Piece (Elt F) S196x1 .f32) //
      ∀ (xi5 : Vec F S1x196x1 .f32) (xi6 : Vec F S1x196x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11 arg12 harg12) K } := by
  refine ⟨[], [], ?_, ?_, ?_, ?_, fun xi5 xi6 E K => ?run⟩
  case run =>
    simp only [cc1_kernel_eq_skeleton]; unfold cc1_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.Kernel.Fr

end
-- ==== Proof.K.Reg1RunC.lean ====
/- Region 1's kernel body run whole, in case C of its two branch conditions (first branch not taken, second taken: the last column block of a row block): the pieces its stores leave in each output
   window's buffer and in each of the four scratch buffers, with the triple that on whole memrefs — the inputs' at
   their contents, the outputs' at anything, the four scratch buffers at the contents the point before left — the body runs to a continuation holding the inputs as they were and each stored buffer
   with its pieces written. -/
import proofs.«149911_j6408091205873_1_alg».proof.Proof.K.Reg1RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave, as pieces (last first), in case C, with the proof of its triple. -/
noncomputable def kernelRun1_C (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) :
    Σ' (L5 : List (View.Piece (Elt F) S1x196x1 .f32)) (L6 : List (View.Piece (Elt F) S1x196x1 .f32)) (LS0 : List (View.Piece (Elt F) S196x1 .f32)) (LS1 : List (View.Piece (Elt F) S196x1 .f32)) (LS2 : List (View.Piece (Elt F) S196x1 .f32)), { LS3 : List (View.Piece (Elt F) S196x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc1_kernel_eq_skeleton]; unfold cc1_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    isplitl [HS1]; · iexists _; iexact HS1
    isplitl [HS2]; · iexists _; iexact HS2
    iexists _; iexact HS3

end Cert.Kernel.Fr

end
-- ==== Proof.K.Reg1Outs.lean ====
/- Region 1 of the program (the blocked loss kernel), at any float model: what each case of the kernel body leaves in
   the two output windows' buffers and in the four scratch buffers carried from point to point, and the accumulation
   of these over the grid, with its three case equations. -/
import proofs.«149911_j6408091205873_1_alg».proof.Proof.K.Reg1RunC

-- membership in a rectangle of long extents: the elaborator's structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the core's buffer contents when the region is entered: the parameter the region's half is stated at
variable (V : (c : Dev nD) → (b : Ref sig .tc) → Buf (Elt F) ((c : Thread nD τ).loc b))

/-! ## What each case leaves in the outputs' buffers and in the scratch buffers -/

/-! ### Case A (the first column block of a row block) -/

/-- Case A stores nothing into output 5 (the window is idle at its points and not written back there): a placeholder (junk read back) that nothing consults, since at these points the window is neither written back nor read at the next point. -/
def out1_A_5 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : cond1_0 i) (hc1 : ¬cond1_1 i)
    (x0 : Vec F S1x196x256 .f32) (x1 : Vec F S6272x256 .f32) (x2 : Vec F S1x196x1 .f32) (x3 : Vec F S1x6272 .f32) (x4 : Vec F S196x6272 .f32) : Vec F S1x196x1 .f32 :=
  VO1_5.read (Elt F) (VO1_5.writes (Elt F) VO1_5.junk (kernelRun1_A c i arg2 harg2 arg3 harg3 arg4 harg4 arg5 harg5 arg6 harg6 arg7 harg7 arg8 harg8 arg9 harg9 arg10 harg10 arg11 harg11 arg12 harg12 hc0 hc1 x0 x1 x2 x3 x4).1)

/-- Case A stores nothing into output 6 (the window is idle at its points and not written back there): a placeholder (junk read back) that nothing consults, since at these points the window is neither written back nor read at the next point. -/
def out1_A_6 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : cond1_0 i) (hc1 : ¬cond1_1 i)
    (x0 : Vec F S1x196x256 .f32) (x1 : Vec F S6272x256 .f32) (x2 : Vec F S1x196x1 .f32) (x3 : Vec F S1x6272 .f32) (x4 : Vec F S196x6272 .f32) : Vec F S1x196x1 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 arg11 harg11 arg12 harg12 hc0 hc1 x0 x1 x2 x3 x4).2.1)

/-- What case A leaves in scratch buffer 0: its pieces read back over junk. -/
def sout1_A_0 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : cond1_0 i) (hc1 : ¬cond1_1 i)
    (x0 : Vec F S1x196x256 .f32) (x1 : Vec F S6272x256 .f32) (x2 : Vec F S1x196x1 .f32) (x3 : Vec F S1x6272 .f32) (x4 : Vec F S196x6272 .f32) : Vec F S196x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.1)

/-- What case A leaves in scratch buffer 1: its pieces read back over junk. -/
def sout1_A_1 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : cond1_0 i) (hc1 : ¬cond1_1 i)
    (x0 : Vec F S1x196x256 .f32) (x1 : Vec F S6272x256 .f32) (x2 : Vec F S1x196x1 .f32) (x3 : Vec F S1x6272 .f32) (x4 : Vec F S196x6272 .f32) : Vec F S196x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.2.1)

/-- What case A leaves in scratch buffer 2: its pieces read back over junk. -/
def sout1_A_2 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : cond1_0 i) (hc1 : ¬cond1_1 i)
    (x0 : Vec F S1x196x256 .f32) (x1 : Vec F S6272x256 .f32) (x2 : Vec F S1x196x1 .f32) (x3 : Vec F S1x6272 .f32) (x4 : Vec F S196x6272 .f32) : Vec F S196x1 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.2.2.1)

/-- What case A leaves in scratch buffer 3: its pieces read back over junk. -/
def sout1_A_3 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : cond1_0 i) (hc1 : ¬cond1_1 i)
    (x0 : Vec F S1x196x256 .f32) (x1 : Vec F S6272x256 .f32) (x2 : Vec F S1x196x1 .f32) (x3 : Vec F S1x6272 .f32) (x4 : Vec F S196x6272 .f32) : Vec F S196x1 .f32 :=
  VS1_3.read (Elt F) (VS1_3.writes (Elt F) VS1_3.junk (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.2.2.2.1)

/-! ### Case B (a middle column block) -/

/-- Case B stores nothing into output 5 (the window is idle at its points and not written back there): a placeholder (junk read back) that nothing consults, since at these points the window is neither written back nor read at the next point. -/
def out1_B_5 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : ¬cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) : Vec F S1x196x1 .f32 :=
  VO1_5.read (Elt F) (VO1_5.writes (Elt F) VO1_5.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).1)

/-- Case B stores nothing into output 6 (the window is idle at its points and not written back there): a placeholder (junk read back) that nothing consults, since at these points the window is neither written back nor read at the next point. -/
def out1_B_6 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : ¬cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) : Vec F S1x196x1 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.1)

/-- What case B leaves in scratch buffer 0: its pieces read back over junk. -/
def sout1_B_0 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : ¬cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) : Vec F S196x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.1)

/-- What case B leaves in scratch buffer 1: its pieces read back over junk. -/
def sout1_B_1 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : ¬cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) : Vec F S196x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1)

/-- What case B leaves in scratch buffer 2: its pieces read back over junk. -/
def sout1_B_2 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : ¬cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) : Vec F S196x1 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1)

/-- What case B leaves in scratch buffer 3: its pieces read back over junk. -/
def sout1_B_3 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : ¬cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) : Vec F S196x1 .f32 :=
  VS1_3.read (Elt F) (VS1_3.writes (Elt F) VS1_3.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.2.1)

/-! ### Case C (the last column block of a row block) -/

/-- What case C leaves in output 5's staging buffer: its pieces read back over junk. -/
def out1_C_5 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) : Vec F S1x196x1 .f32 :=
  VO1_5.read (Elt F) (VO1_5.writes (Elt F) VO1_5.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).1)

/-- What case C leaves in output 6's staging buffer: its pieces read back over junk. -/
def out1_C_6 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) : Vec F S1x196x1 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.1)

/-- What case C leaves in scratch buffer 0: its pieces read back over junk. -/
def sout1_C_0 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) : Vec F S196x1 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.1)

/-- What case C leaves in scratch buffer 1: its pieces read back over junk. -/
def sout1_C_1 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) : Vec F S196x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1)

/-- What case C leaves in scratch buffer 2: its pieces read back over junk. -/
def sout1_C_2 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) : Vec F S196x1 .f32 :=
  VS1_2.read (Elt F) (VS1_2.writes (Elt F) VS1_2.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1)

/-- What case C leaves in scratch buffer 3: its pieces read back over junk. -/
def sout1_C_3 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) : Vec F S196x1 .f32 :=
  VS1_3.read (Elt F) (VS1_3.writes (Elt F) VS1_3.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.2.1)

/-! ## What the outputs and the scratch buffers hold after each point -/

/-- The accumulation. What the two outputs' staging buffers and the four scratch buffers hold after the body at
    position n (a tuple: outputs 5 and 6, then the scratch buffers in order): the case the closed forms of the two
    conditions select at n, run at the point's memrefs and input blocks, the scratch buffers at what this leaves at
    n - 1. An assignment of the conditions no point meets is no case. -/
def outsAt1 (c : Dev nD) : (n : ℕ) → n < cfg1.N → Vec F S1x196x1 .f32 × Vec F S1x196x1 .f32 × Vec F S196x1 .f32 × Vec F S196x1 .f32 × Vec F S196x1 .f32 × Vec F S196x1 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩),
          out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩),
          sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩),
          sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩),
          sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩),
          sout1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 7 = 0 then
      if h1 : (n + 1) % 7 = 6 then
        False.elim (by have hN : n + 1 < 224 := lt_of_lt_of_eq hn (show cfg1.N = 224 from N_1); omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩),
          out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩),
          sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩),
          sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩),
          sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩),
          sout1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 7 = 6 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2,
          out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2,
          sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2,
          sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2,
          sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2,
          sout1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2,
          out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2,
          sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2,
          sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2,
          sout1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2)

/-- The accumulation at a point of case A: that case's contents. -/
theorem outsAt1_A (c : Dev nD) (t : Fin cfg1.N) (h0 : t.val % 7 = 0) (h1 : ¬t.val % 7 = 6) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t),
          out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t),
          sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t),
          sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t),
          sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t),
          sout1_A_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- The accumulation at a point of case B: that case's contents, over what the point before left. -/
theorem outsAt1_B (c : Dev nD) (t : Fin cfg1.N) (h0 : ¬t.val % 7 = 0) (h1 : ¬t.val % 7 = 6) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
          out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
          sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
          sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
          sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
          sout1_B_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- The accumulation at a point of case C: that case's contents, over what the point before left. -/
theorem outsAt1_C (c : Dev nD) (t : Fin cfg1.N) (h0 : ¬t.val % 7 = 0) (h1 : t.val % 7 = 6) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
          out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
          sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
          sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
          sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
          sout1_C_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

end Regions

end Cert.Kernel.Fr

end
-- ==== Proof.K.Reg1.lean ====
/- Region 1 of the program (the blocked loss kernel), at any float model: each case's pieces cover the buffers it
   fills; the region's invariant with the four scratch buffers at what the point before left; the pipeline's proof
   data and its body obligation. -/
import proofs.«149911_j6408091205873_1_alg».proof.Proof.K.Reg1Outs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the core's buffer contents when the region is entered: the parameter the region's half is stated at
variable (V : (c : Dev nD) → (b : Ref sig .tc) → Buf (Elt F) ((c : Thread nD τ).loc b))

/-! ## Each case's pieces cover the buffers it fills -/

/-- Case A's pieces for scratch buffer 0, carried between points, tile it, so they cover it. -/
theorem scover1_A_0 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : cond1_0 i) (hc1 : ¬cond1_1 i)
    (x0 : Vec F S1x196x256 .f32) (x1 : Vec F S6272x256 .f32) (x2 : Vec F S1x196x1 .f32) (x3 : Vec F S1x6272 .f32) (x4 : Vec F S196x6272 .f32) (y : S196x1.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.1 S196x1.size (by sl_kernel_rfl) y

/-- Case A's pieces for scratch buffer 1, carried between points, tile it, so they cover it. -/
theorem scover1_A_1 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : cond1_0 i) (hc1 : ¬cond1_1 i)
    (x0 : Vec F S1x196x256 .f32) (x1 : Vec F S6272x256 .f32) (x2 : Vec F S1x196x1 .f32) (x3 : Vec F S1x6272 .f32) (x4 : Vec F S196x6272 .f32) (y : S196x1.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.2.1 S196x1.size (by sl_kernel_rfl) y

/-- Case A's pieces for scratch buffer 2, carried between points, tile it, so they cover it. -/
theorem scover1_A_2 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : cond1_0 i) (hc1 : ¬cond1_1 i)
    (x0 : Vec F S1x196x256 .f32) (x1 : Vec F S6272x256 .f32) (x2 : Vec F S1x196x1 .f32) (x3 : Vec F S1x6272 .f32) (x4 : Vec F S196x6272 .f32) (y : S196x1.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.2.2.1 S196x1.size (by sl_kernel_rfl) y

/-- Case A's pieces for scratch buffer 3, carried between points, tile it, so they cover it. -/
theorem scover1_A_3 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : cond1_0 i) (hc1 : ¬cond1_1 i)
    (x0 : Vec F S1x196x256 .f32) (x1 : Vec F S6272x256 .f32) (x2 : Vec F S1x196x1 .f32) (x3 : Vec F S1x6272 .f32) (x4 : Vec F S196x6272 .f32) (y : S196x1.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.2.2.2.1 S196x1.size (by sl_kernel_rfl) y

/-- Case B's pieces for scratch buffer 0, carried between points, tile it, so they cover it. -/
theorem scover1_B_0 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : ¬cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) (y : S196x1.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.1 S196x1.size (by sl_kernel_rfl) y

/-- Case B's pieces for scratch buffer 1, carried between points, tile it, so they cover it. -/
theorem scover1_B_1 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : ¬cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) (y : S196x1.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1 S196x1.size (by sl_kernel_rfl) y

/-- Case B's pieces for scratch buffer 2, carried between points, tile it, so they cover it. -/
theorem scover1_B_2 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : ¬cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) (y : S196x1.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1 S196x1.size (by sl_kernel_rfl) y

/-- Case B's pieces for scratch buffer 3, carried between points, tile it, so they cover it. -/
theorem scover1_B_3 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : ¬cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) (y : S196x1.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.2.1 S196x1.size (by sl_kernel_rfl) y

/-- Case C's pieces for output 5 tile its block, so they cover it. -/
theorem cover1_C_5 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) (y : S1x196x1.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).1 S1x196x1.size (by sl_kernel_rfl) y

/-- Case C's pieces for output 6 tile its block, so they cover it. -/
theorem cover1_C_6 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) (y : S1x196x1.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.1 S1x196x1.size (by sl_kernel_rfl) y

/-- Case C's pieces for scratch buffer 0, carried between points, tile it, so they cover it. -/
theorem scover1_C_0 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) (y : S196x1.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.1 S196x1.size (by sl_kernel_rfl) y

/-- Case C's pieces for scratch buffer 1, carried between points, tile it, so they cover it. -/
theorem scover1_C_1 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) (y : S196x1.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1 S196x1.size (by sl_kernel_rfl) y

/-- Case C's pieces for scratch buffer 2, carried between points, tile it, so they cover it. -/
theorem scover1_C_2 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) (y : S196x1.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1 S196x1.size (by sl_kernel_rfl) y

/-- Case C's pieces for scratch buffer 3, carried between points, tile it, so they cover it. -/
theorem scover1_C_3 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) (y : S196x1.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.2.1 S196x1.size (by sl_kernel_rfl) y

/-! ## The region's invariant -/

/-- The region invariant before position n: before the first point the class's (every scratch buffer at anything);
    afterwards the scoped rest with the four staging buffers of the region before at anything, each carried scratch
    buffer at what the point before left in it (the accumulation's scratch components), and the generator register
    at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ owns (c : Thread nD τ) scM1_0 fullShare ((outsAt1 V c n hn).2.2.1) ∗ owns (c : Thread nD τ) scM1_1 fullShare ((outsAt1 V c n hn).2.2.2.1) ∗ owns (c : Thread nD τ) scM1_2 fullShare ((outsAt1 V c n hn).2.2.2.2.1) ∗ owns (c : Thread nD τ) scM1_3 fullShare ((outsAt1 V c n hn).2.2.2.2.2)) ∗ (∃ r, prngReg c r))

theorem PhiS1_zero (c : Dev nD) (n : ℕ) (h : n ≤ cfg1.N) (hz : n = 0) : PhiS1 V c n h = Pipeline.ΦA spec1 c := by
  subst hz; rfl

/-- After point n (before point n + 1): the carried scratch buffers at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ owns (c : Thread nD τ) scM1_0 fullShare ((outsAt1 V c n hn).2.2.1) ∗ owns (c : Thread nD τ) scM1_1 fullShare ((outsAt1 V c n hn).2.2.2.1) ∗ owns (c : Thread nD τ) scM1_2 fullShare ((outsAt1 V c n hn).2.2.2.2.1) ∗ owns (c : Thread nD τ) scM1_3 fullShare ((outsAt1 V c n hn).2.2.2.2.2)) ∗ (∃ r, prngReg c r)) := rfl

/-- Before a point that is not the first: the carried scratch buffers at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ owns (c : Thread nD τ) scM1_0 fullShare ((outsAt1 V c (n - 1) (by omega)).2.2.1) ∗ owns (c : Thread nD τ) scM1_1 fullShare ((outsAt1 V c (n - 1) (by omega)).2.2.2.1) ∗ owns (c : Thread nD τ) scM1_2 fullShare ((outsAt1 V c (n - 1) (by omega)).2.2.2.2.1) ∗ owns (c : Thread nD τ) scM1_3 fullShare ((outsAt1 V c (n - 1) (by omega)).2.2.2.2.2)) ∗ (∃ r, prngReg c r)) := by
  cases n with
  | zero => exact absurd rfl hz
  | succ n => rfl

/-! ## The pipeline's proof data -/

/-- The proof data of the pipeline on core c: the arrays as the region finds them; after the body at point t each
    input's buffer at its block and the two outputs' at the accumulation's components; the invariant the class's
    before the first point, then the scoped rest with the carried scratch buffers at the accumulation's components;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant before the first point is the class's. -/
theorem Phi1_zero (c : Dev nD) : (dat1 V c).Φ 0 = Pipeline.ΦA spec1 c := rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2.1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 6400000 in
/-- The body at any point: the inputs' memrefs hold their blocks; the closed forms say which case the point is in; so
    the case's run applies; the invariant hands the body the carried scratch buffers at what the point before left
    (at anything at the first point) and the generator register at some state, and takes the scratch buffers back at
    this point's contents, their pieces covering them; an output idle at the point is handed back untouched; the core
    owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 224 := lt_of_lt_of_eq t.isLt (show cfg1.N = 224 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 7 = 0
  · by_cases h1 : t.val % 7 = 6
    · exfalso; omega
    · rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0 sout1_A_1 sout1_A_2 sout1_A_3; (try dsimp only)
      by_cases hz : t.val = 0
      · rw [PhiS1_castSucc V c t, PhiS1_zero V c _ _ hz, PhiA1_eq]
        iintro ⟨⟨⟨Hr0, Hr1, Hr2, Hr3, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        isplitl [HS3]; · iexact HS3
        iintro ⟨H0, H1, H2, H3, H4, H5, H6, ⟨%es0, HS0⟩, ⟨%es1, HS1⟩, ⟨%es2, HS2⟩, ⟨%es3, HS3⟩⟩
        isplitl [Hr0 Hr1 Hr2 Hr3 HS0 HS1 HS2 HS3 Hg]
        · isplitl [Hr0 Hr1 Hr2 Hr3 HS0 HS1 HS2 HS3]
          · isplitl [Hr0]; · iexact Hr0
            isplitl [Hr1]; · iexact Hr1
            isplitl [Hr2]; · iexact Hr2
            isplitl [Hr3]; · iexact Hr3
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _ _ _ _ _ _ _ _ _ _ _)
            unfold owns; iexists _; isplitr
            swap; · iexact HS3
            ipureintro; exact View.read_writes_of_cover _ _ _ _ _ (scover1_A_3 c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
      · rw [PhiS1_castSucc V c t, PhiS1_pos V c _ _ hz]
        iintro ⟨⟨⟨Hr0, Hr1, Hr2, Hr3, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        isplitl [HS3]; · iexists _; iexact HS3
        iintro ⟨H0, H1, H2, H3, H4, H5, H6, ⟨%es0, HS0⟩, ⟨%es1, HS1⟩, ⟨%es2, HS2⟩, ⟨%es3, HS3⟩⟩
        isplitl [Hr0 Hr1 Hr2 Hr3 HS0 HS1 HS2 HS3 Hg]
        · isplitl [Hr0 Hr1 Hr2 Hr3 HS0 HS1 HS2 HS3]
          · isplitl [Hr0]; · iexact Hr0
            isplitl [Hr1]; · iexact Hr1
            isplitl [Hr2]; · iexact Hr2
            isplitl [Hr3]; · iexact Hr3
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _ _ _ _ _ _ _ _ _ _ _)
            unfold owns; iexists _; isplitr
            swap; · iexact HS3
            ipureintro; exact View.read_writes_of_cover _ _ _ _ _ (scover1_A_3 c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
  · by_cases h1 : t.val % 7 = 6
    · rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_5 out1_C_6 sout1_C_0 sout1_C_1 sout1_C_2 sout1_C_3; (try dsimp only)
      have hz : t.val ≠ 0 := fun hz => h0 (by rw [hz])
      rw [PhiS1_castSucc V c t, PhiS1_pos V c _ _ hz]
      iintro ⟨⟨⟨Hr0, Hr1, Hr2, Hr3, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _ _ _).2.2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, ⟨%e5, H5⟩, ⟨%e6, H6⟩, ⟨%es0, HS0⟩, ⟨%es1, HS1⟩, ⟨%es2, HS2⟩, ⟨%es3, HS3⟩⟩
      isplitl [Hr0 Hr1 Hr2 Hr3 HS0 HS1 HS2 HS3 Hg]
      · isplitl [Hr0 Hr1 Hr2 Hr3 HS0 HS1 HS2 HS3]
        · isplitl [Hr0]; · iexact Hr0
          isplitl [Hr1]; · iexact Hr1
          isplitl [Hr2]; · iexact Hr2
          isplitl [Hr3]; · iexact Hr3
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_C_2 c _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover1_C_3 c _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_C_5 c _ _ _ _ _ _ _ _ _ _ _ _ _ _ _ _ _ _ _ _ _ _ _ _ _ _ _ _ _ _ _ _ _ _)
      unfold owns; iexists _; isplitr
      swap; · iexact H6
      ipureintro; exact View.read_writes_of_cover _ _ _ _ _ (cover1_C_6 c _ _ _ _ _ _ _ _ _ _ _ _ _ _ _ _ _ _ _ _ _ _ _ _ _ _ _ _ _ _ _ _ _ _)
    · rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0 sout1_B_1 sout1_B_2 sout1_B_3; (try dsimp only)
      have hz : t.val ≠ 0 := fun hz => h0 (by rw [hz])
      rw [PhiS1_castSucc V c t, PhiS1_pos V c _ _ hz]
      iintro ⟨⟨⟨Hr0, Hr1, Hr2, Hr3, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ _ _).2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%es0, HS0⟩, ⟨%es1, HS1⟩, ⟨%es2, HS2⟩, ⟨%es3, HS3⟩⟩
      isplitl [Hr0 Hr1 Hr2 Hr3 HS0 HS1 HS2 HS3 Hg]
      · isplitl [Hr0 Hr1 Hr2 Hr3 HS0 HS1 HS2 HS3]
        · isplitl [Hr0]; · iexact Hr0
          isplitl [Hr1]; · iexact Hr1
          isplitl [Hr2]; · iexact Hr2
          isplitl [Hr3]; · iexact Hr3
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover1_B_3 c _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives the class's back: the carried scratch buffers' named contents
    are forgotten. -/
theorem Phi1_out (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨Hr0, Hr1, Hr2, Hr3, HS0, HS1, HS2, HS3⟩, Hg⟩
  isplitl [Hr0 Hr1 Hr2 Hr3 HS0 HS1 HS2 HS3]
  · isplitl [Hr0]; · iexact Hr0
    isplitl [Hr1]; · iexact Hr1
    isplitl [Hr2]; · iexact Hr2
    isplitl [Hr3]; · iexact Hr3
    isplitl [HS0]; · iexists _; iexact HS0
    isplitl [HS1]; · iexists _; iexact HS1
    isplitl [HS2]; · iexists _; iexact HS2
    iexists _; iexact HS3
  iexact Hg

/-- The same after the last point. -/
theorem hout1 (c : Dev nD) : (dat1 V c).Φ (Fin.last cfg1.N) ⊢ (Pipeline.ΦA spec1 c : sProp 𝕄) :=
  Phi1_out V c _ (by rw [Fin.val_last]; have : cfg1.N = 224 := N_1; omega)

end Regions

end Cert.Kernel.Fr

end
-- ==== Proof.K.Run.lean ====
/-
  The run of the whole program: @main is a reshape, the normalising kernel's region, three reshapes and a
  conversion of the mask, the main kernel's region, and sixteen closing host operations. The contents of every
  buffer at each of the six boundaries are written as a fold from the launch memory — a stretch of host operations
  applies them, a region replaces its windows' arrays by what its write-backs leave — and every weakly fair
  execution ends with every unscoped buffer at the last fold. The three argument arrays are never written, so the
  fold at them is the launch memory.
-/
import proofs.«149911_j6408091205873_1_alg».proof.Proof.K.Reg0
import proofs.«149911_j6408091205873_1_alg».proof.Proof.K.Reg1
import proofs.«149911_j6408091205873_1_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first reshape (the first region's entry). -/
abbrev W1 : Dev nD → Valuation τ sig (Elt F) := fun c => StableHlo.after hostOps0 (W0 m ρ c)
/-- The same read at the TensorCore's references. -/
abbrev E1 : (c : Dev nD) → (b : Ref sig .tc) → Buf (Elt F) ((c : Thread nD τ).loc b) := fun c b => W1 m ρ c b
/-- At the first region's exit: its arrays at what its write-backs leave, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev X2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = X2 m ρ c (Pipeline.arrRef spec0 w) :=
  (W2_arr m ρ c w).symm
theorem hrest0 (c : Dev nD) : ∀ b, b ∉ Finset.univ.image (Pipeline.arrRef spec0) → X2 m ρ c b = E1 m ρ c b :=
  fun b hb => W2_of_ne m ρ c b fun w e => hb (Finset.mem_image.mpr ⟨w, Finset.mem_univ _, e⟩)

/-- After the three reshapes and the mask's conversion (the second region's entry). -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev X4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = X4 m ρ c (Pipeline.arrRef spec1 w) :=
  (W4_arr m ρ c w).symm
theorem hrest1 (c : Dev nD) : ∀ b, b ∉ Finset.univ.image (Pipeline.arrRef spec1) → X4 m ρ c b = E3 m ρ c b :=
  fun b hb => W4_of_ne m ρ c b fun w e => hb (Finset.mem_image.mpr ⟨w, Finset.mem_univ _, e⟩)

/-- After the closing host operations: the contents the program ends with. -/
abbrev W5 : Dev nD → Valuation τ sig (Elt F) := fun c => StableHlo.after hostOps2 (W4 m ρ c)

/-! ## The arguments end as launched -/

/-- `main_arg0` is at its launch contents at every boundary: no host operation writes it and no region changes it. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-- `main_arg1` is at its launch contents at every boundary: no host operation writes it and no region changes it. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 1).trans (((dat0 (E1 m ρ) c).arrAt_in 1 rfl _).trans (A_eq0 (E1 m ρ) c 1))
    _ = W0 m ρ c (Proc.devRef .tc main_arg1) := StableHlo.after_of_writes_sub hostOps0 _ hostOps0_writes (by decide)
    _ = m ((c : Thread nD τ).loc main_arg1) := rfl

/-- `main_arg2` is at its launch contents at every boundary: no host operation writes it and no region changes it. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-! ## The proof data of both pipelines and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The two regions as segments -/

/-- The class invariant of region 1 split into what the region gives back: the generator register and the scoped rest. -/
theorem PhiA1_split (c : Dev nD) : (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

set_option backward.isDefEq.respectTransparency.types false in
/-- Region 0 over the thread state: entered with every unscoped buffer at `W1`, left with them at `W2`. Its
    arrays are split out of the unscoped buffers and put back at the contents the write-backs leave; the generator
    register goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (X2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its
    arrays are split out of the unscoped buffers and put back at the contents the write-backs leave; the generator
    register goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from Phi1_zero (E3 m ρ) c]; unfold Pipeline.ΦA
    iintro ⟨Hp, -, Hr⟩
    isplitl [Hr]; · iexact Hr
    iexact Hp
  hout c := by
    rw [Pipeline.ownSems0_none]
    exact BI.Entails.trans (show (pdats m ρ 1 c).Φ (Fin.last (Pipeline.pin (pcfgs (F := F)) adm 1).N) ⊢ (Pipeline.ΦA spec1 c : sProp 𝕄) from hout1 (E3 m ρ) c) (PhiA1_split c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (X4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev msegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (msegs m ρ) := (main_chain c).trans (by chain_rfl)

set_option backward.isDefEq.respectTransparency.types false in
/-- Every weakly fair execution of @main from `m` with zero counters terminates, nothing faulting, and ends with every
    unscoped buffer of every core at the last fold `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (msegs m ρ)
    (fun c Q => by rw [main_run m ρ c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.Kernel.Fr

end
-- ==== Proof.KI.Reg0.lean ====
/- Region 0 of the program (the normalisation kernel, a grid of one point over four whole-array windows), at
   any float model: each window's block at the point, what the body leaves in the two output windows' buffers
   as a function of the two input blocks, the body's triple, the pipeline's proof data and its body obligation. -/
import proofs.«149911_j6408091205873_1_alg».proof.Proof.Gen.KernelIdeal.Launch
import proofs.«149911_j6408091205873_1_alg».proof.Proof.Gen.KernelIdeal.Skeleton
import proofs.«149911_j6408091205873_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Regions
-- the core's buffer contents when the region is entered: the parameter the region's half is stated at
variable (V : (c : Dev nD) → (b : Ref sig .tc) → Buf (Elt F) ((c : Thread nD τ).loc b))

/-! # Region 0: the normalisation kernel, at the entry contents V -/

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is V's and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each window's buffer, whole -/

abbrev r0_0 : Rect S6272x256 := Rect.unit (s := S6272x256) ![0, 0] S6272x256.size inb_S6272x256_S6272x256_0_0
abbrev r0_1 : Rect S100x256 := Rect.unit (s := S100x256) ![0, 0] S100x256.size inb_S100x256_S100x256_0_0
abbrev r0_2 : Rect S6272x256 := Rect.unit (s := S6272x256) ![0, 0] S6272x256.size inb_S6272x256_S6272x256_0_0
abbrev r0_3 : Rect S6272x1 := Rect.unit (s := S6272x1) ![0, 0] S6272x1.size inb_S6272x1_S6272x1_0_0

/-! ## What the body leaves in each output window's buffer -/

/-- Window 2's staging buffer after the body, from input window 0's block: its one store, whole. -/
def out0_2 (x0 : Vec F S6272x256 .f32) : Vec F S6272x256 .f32 :=
  View.canon [⟨r0_2, k0_pay1 (View.ld x0 r0_0)⟩]

/-- Window 3's staging buffer after the body, from the two input windows' blocks: its one store, whole. -/
def out0_3 (x0 : Vec F S6272x256 .f32) (x1 : Vec F S100x256 .f32) : Vec F S6272x1 .f32 :=
  View.canon [⟨r0_3, k0_pay2 (View.ld x0 r0_0) (View.ld x1 r0_1)⟩]

/-- The store tiles the buffer, so it covers it. -/
theorem cover0_2 (p0 : Vec F S6272x256 .f32) (y : S6272x256.Idx) :
    ∃ pc ∈ ([⟨r0_2, p0⟩] : List (View.Piece (Elt F) S6272x256 .f32)), y ∈ pc.1.set :=
  View.cover_of_tiled [⟨r0_2, p0⟩] S6272x256.size (by rfl) y

theorem cover0_3 (p0 : Vec F S6272x1 .f32) (y : S6272x1.Idx) :
    ∃ pc ∈ ([⟨r0_3, p0⟩] : List (View.Piece (Elt F) S6272x1 .f32)), y ∈ pc.1.set :=
  View.cover_of_tiled [⟨r0_3, p0⟩] S6272x1.size (by rfl) y

/-! ## The body's triple -/

set_option maxHeartbeats 1000000 in
/-- The kernel body on whole staging memrefs, the inputs' at read contents and the outputs' at anything, runs to
    the continuation holding the inputs' as they were and each output's at its closed form of the inputs'. -/
theorem sound_kernel0 (c : Dev nD) (E : Set ℕ) (i : grid0.Coords)
    (arg1 : Memref sig .tc .vmem S6272x256 .f32) (harg1 : arg1.IsWhole) (arg2 : Memref sig .tc .vmem S100x256 .f32) (harg2 : arg2.IsWhole)
    (arg3 : Memref sig .tc .vmem S6272x256 .f32) (harg3 : arg3.IsWhole) (arg4 : Memref sig .tc .vmem S6272x1 .f32) (harg4 : arg4.IsWhole)
    (x0 : Vec F S6272x256 .f32) (x1 : Vec F S100x256 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x0 x1)) -∗ K ⟨⟩))
      ⊢ wp frame (wpE (defs₀ (F := F)) Variants.none c none) E (cc0__normalize_kernel i arg1 harg1 arg2 harg2 arg3 harg3 arg4 harg4) K := by
  simp only [cc0__normalize_kernel_eq_skeleton]; unfold cc0__normalize_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## The pipeline's proof data -/

/-- The proof data of the pipeline on core c: the arrays as the region finds them; after the body at point t
    each input's buffer at its block and each output's at its closed form of the input blocks; the scoped rest and
    the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Fr

end
-- ==== Proof.KI.Reg1Base.lean ====
/- Region 1 of the program (the blocked loss kernel, a grid of 32 × 7 points over seven windows and four scratch
   buffers carried from point to point), at any float model: what the three whole-body runs of its kernel share —
   each window's block at a point, the input windows' buffers at every point, the body's two branch conditions
   decided over the grid, where the two output windows are idle, the staging and scratch memrefs, and the class
   invariant with the four scratch memrefs owned at some contents. -/
import proofs.«149911_j6408091205873_1_alg».proof.Proof.Gen.KernelIdeal.Launch
import proofs.«149911_j6408091205873_1_alg».proof.Proof.Gen.KernelIdeal.Skeleton
import proofs.«149911_j6408091205873_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Regions
-- the core's buffer contents when the region is entered: the parameter the region's half is stated at
variable (V : (c : Dev nD) → (b : Ref sig .tc) → Buf (Elt F) ((c : Thread nD τ).loc b))

/-! # Region 1: the blocked loss kernel, at the entry contents V -/

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is V's and whose body leaves the block in place: the window is uncut and never idle, and where
    it is not fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is V's and whose body leaves the block in place: the window is uncut and never idle, and where
    it is not fetched its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is V's and whose body leaves the block in place: the window is uncut and never idle, and where
    it is not fetched its block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is V's and whose body leaves the block in place: the window is uncut and never idle, and where
    it is not fetched its block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is V's and whose body leaves the block in place: the window is uncut and never idle, and where
    it is not fetched its block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The body's branch conditions -/

/-- The condition of the body's first branch (the column block is the first of its row block), from the grid
    coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 7) — decided over the grid. -/
theorem hcond1_0 : ∀ t : Fin cfg1.N, cond1_0 (grid1.coords t) ↔ t.val % 7 = 0 :=
  (by decide +kernel : ∀ t : Fin grid1.N, cond1_0 (grid1.coords t) ↔ t.val % 7 = 0)

/-- The condition of the body's second branch (the column block is the last of its row block), from the grid
    coordinates. -/
abbrev cond1_1 (i : grid1.Coords) : Prop := k1_cond2 i = 1#1
/-- It holds at the points ≡ 6 (mod 7) — decided over the grid. -/
theorem hcond1_1 : ∀ t : Fin cfg1.N, cond1_1 (grid1.coords t) ↔ t.val % 7 = 6 :=
  (by decide +kernel : ∀ t : Fin grid1.N, cond1_1 (grid1.coords t) ↔ t.val % 7 = 6)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- At the points of case A the configuration calls output 5 idle: the case stores nothing into it. -/
theorem idleAt1_5_A : ∀ t : Fin cfg1.N, cond1_0 (grid1.coords t) → ¬cond1_1 (grid1.coords t) → cfg1.idle 5 (grid1.coords t) = true := by decide +kernel
/-- At the points of case A the pipeline does not write output 5's block back. -/
theorem noFlush1_5_A : ∀ t : Fin cfg1.N, cond1_0 (grid1.coords t) → ¬cond1_1 (grid1.coords t) → (cfg1.win 5).flush t = false := by decide +kernel
/-- At the points of case B the configuration calls output 5 idle: the case stores nothing into it. -/
theorem idleAt1_5_B : ∀ t : Fin cfg1.N, ¬cond1_0 (grid1.coords t) → ¬cond1_1 (grid1.coords t) → cfg1.idle 5 (grid1.coords t) = true := by decide +kernel
/-- At the points of case B the pipeline does not write output 5's block back. -/
theorem noFlush1_5_B : ∀ t : Fin cfg1.N, ¬cond1_0 (grid1.coords t) → ¬cond1_1 (grid1.coords t) → (cfg1.win 5).flush t = false := by decide +kernel
/-- At the points of case C the configuration calls output 5 live: the case stores into it. -/
theorem liveAt1_5_C : ∀ t : Fin cfg1.N, ¬cond1_0 (grid1.coords t) → cond1_1 (grid1.coords t) → cfg1.idle 5 (grid1.coords t) = false := by decide +kernel
/-- At the points of case A the configuration calls output 6 idle: the case stores nothing into it. -/
theorem idleAt1_6_A : ∀ t : Fin cfg1.N, cond1_0 (grid1.coords t) → ¬cond1_1 (grid1.coords t) → cfg1.idle 6 (grid1.coords t) = true := by decide +kernel
/-- At the points of case A the pipeline does not write output 6's block back. -/
theorem noFlush1_6_A : ∀ t : Fin cfg1.N, cond1_0 (grid1.coords t) → ¬cond1_1 (grid1.coords t) → (cfg1.win 6).flush t = false := by decide +kernel
/-- At the points of case B the configuration calls output 6 idle: the case stores nothing into it. -/
theorem idleAt1_6_B : ∀ t : Fin cfg1.N, ¬cond1_0 (grid1.coords t) → ¬cond1_1 (grid1.coords t) → cfg1.idle 6 (grid1.coords t) = true := by decide +kernel
/-- At the points of case B the pipeline does not write output 6's block back. -/
theorem noFlush1_6_B : ∀ t : Fin cfg1.N, ¬cond1_0 (grid1.coords t) → ¬cond1_1 (grid1.coords t) → (cfg1.win 6).flush t = false := by decide +kernel
/-- At the points of case C the configuration calls output 6 live: the case stores into it. -/
theorem liveAt1_6_C : ∀ t : Fin cfg1.N, ¬cond1_0 (grid1.coords t) → cond1_1 (grid1.coords t) → cfg1.idle 6 (grid1.coords t) = false := by decide +kernel

/-! ## The kernel body's memrefs -/

/-- One staging buffer of output window 5, through which its contents are stated (the choice does not matter). -/
abbrev VO1_5 : View sig .tc .vmem S1x196x1 .f32 := (Memref.whole cc1_stg5_0 : Memref sig .tc .vmem S1x196x1 .f32).view
/-- One staging buffer of output window 6, through which its contents are stated. -/
abbrev VO1_6 : View sig .tc .vmem S1x196x1 .f32 := (Memref.whole cc1_stg6_0 : Memref sig .tc .vmem S1x196x1 .f32).view
/-- Each window's current staging memref at point t, spelled as the pipeline passes it, and its wholeness. -/
abbrev ms1_0 (t : Fin cfg1.N) : Memref sig .tc .vmem S1x196x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S6272x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x196x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x6272 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S196x6272 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x196x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x196x1 .f32 := win1_6.stage (cfg1.slots t 6)
abbrev hs1_6 (t : Fin cfg1.N) : (ms1_6 t).IsWhole := hstage1_6 ((cfg1.slots t 6).cast nbuf1_6)
/-- The scratch operands: whole scoped buffers of the kernel's own, passed beside the windows. -/
abbrev scM1_0 : Memref sig .tc .vmem S196x1 .f32 := Memref.whole cc1_scratch0
abbrev scM1_1 : Memref sig .tc .vmem S196x1 .f32 := Memref.whole cc1_scratch1
abbrev scM1_2 : Memref sig .tc .vmem S196x1 .f32 := Memref.whole cc1_scratch2
abbrev scM1_3 : Memref sig .tc .vmem S196x1 .f32 := Memref.whole cc1_scratch3
/-- The scratch operands the kernel carries between points, as views: what each holds is stated through its view. -/
abbrev VS1_0 : View sig .tc .vmem S196x1 .f32 := scM1_0.view
abbrev VS1_1 : View sig .tc .vmem S196x1 .f32 := scM1_1.view
abbrev VS1_2 : View sig .tc .vmem S196x1 .f32 := scM1_2.view
abbrev VS1_3 : View sig .tc .vmem S196x1 .f32 := scM1_3.view

/-- The class invariant with the four scratch operands as memrefs owned at some contents: what the body obligation
    hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.KernelIdeal.Fr

end
-- ==== Proof.KI.Reg1RunA.lean ====
/- Region 1's kernel body run whole, in case A of its two branch conditions (first branch taken, second not: the first column block of a row block): the pieces its stores leave in each output
   window's buffer and in each of the four scratch buffers, with the triple that on whole memrefs — the inputs' at
   their contents, the two idle outputs' at contents handed back untouched, the four scratch buffers at anything (the case stores each whole before it loads it) — the body runs to a continuation holding the inputs as they were and each stored buffer
   with its pieces written. -/
import proofs.«149911_j6408091205873_1_alg».proof.Proof.KI.Reg1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body's stores leave, as pieces (last first), in case A, with the proof of its triple. -/
noncomputable def kernelRun1_A (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : cond1_0 i) (hc1 : ¬cond1_1 i)
    (x0 : Vec F S1x196x256 .f32) (x1 : Vec F S6272x256 .f32) (x2 : Vec F S1x196x1 .f32) (x3 : Vec F S1x6272 .f32) (x4 : Vec F S196x6272 .f32) :
    Σ' (L5 : List (View.Piece (Elt F) S1x196x1 .f32)) (L6 : List (View.Piece (Elt F) S1x196x1 .f32)) (LS0 : List (View.Piece (Elt F) S196x1 .f32)) (LS1 : List (View.Piece (Elt F) S196x1 .f32)) (LS2 : List (View.Piece (Elt F) S196x1 .f32)), { LS3 : List (View.Piece (Elt F) S196x1 .f32) //
      ∀ (xi5 : Vec F S1x196x1 .f32) (xi6 : Vec F S1x196x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11 arg12 harg12) K } := by
  refine ⟨[], [], ?_, ?_, ?_, ?_, fun xi5 xi6 E K => ?run⟩
  case run =>
    simp only [cc1_kernel_eq_skeleton]; unfold cc1_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.KernelIdeal.Fr

end
-- ==== Proof.KI.Reg1RunB.lean ====
/- Region 1's kernel body run whole, in case B of its two branch conditions (neither branch taken: a middle column block): the pieces its stores leave in each output
   window's buffer and in each of the four scratch buffers, with the triple that on whole memrefs — the inputs' at
   their contents, the two idle outputs' at contents handed back untouched, the four scratch buffers at the contents the point before left — the body runs to a continuation holding the inputs as they were and each stored buffer
   with its pieces written. -/
import proofs.«149911_j6408091205873_1_alg».proof.Proof.KI.Reg1RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body's stores leave, as pieces (last first), in case B, with the proof of its triple. -/
noncomputable def kernelRun1_B (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : ¬cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) :
    Σ' (L5 : List (View.Piece (Elt F) S1x196x1 .f32)) (L6 : List (View.Piece (Elt F) S1x196x1 .f32)) (LS0 : List (View.Piece (Elt F) S196x1 .f32)) (LS1 : List (View.Piece (Elt F) S196x1 .f32)) (LS2 : List (View.Piece (Elt F) S196x1 .f32)), { LS3 : List (View.Piece (Elt F) S196x1 .f32) //
      ∀ (xi5 : Vec F S1x196x1 .f32) (xi6 : Vec F S1x196x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11 arg12 harg12) K } := by
  refine ⟨[], [], ?_, ?_, ?_, ?_, fun xi5 xi6 E K => ?run⟩
  case run =>
    simp only [cc1_kernel_eq_skeleton]; unfold cc1_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.KernelIdeal.Fr

end
-- ==== Proof.KI.Reg1RunC.lean ====
/- Region 1's kernel body run whole, in case C of its two branch conditions (first branch not taken, second taken: the last column block of a row block): the pieces its stores leave in each output
   window's buffer and in each of the four scratch buffers, with the triple that on whole memrefs — the inputs' at
   their contents, the outputs' at anything, the four scratch buffers at the contents the point before left — the body runs to a continuation holding the inputs as they were and each stored buffer
   with its pieces written. -/
import proofs.«149911_j6408091205873_1_alg».proof.Proof.KI.Reg1RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body's stores leave, as pieces (last first), in case C, with the proof of its triple. -/
noncomputable def kernelRun1_C (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) :
    Σ' (L5 : List (View.Piece (Elt F) S1x196x1 .f32)) (L6 : List (View.Piece (Elt F) S1x196x1 .f32)) (LS0 : List (View.Piece (Elt F) S196x1 .f32)) (LS1 : List (View.Piece (Elt F) S196x1 .f32)) (LS2 : List (View.Piece (Elt F) S196x1 .f32)), { LS3 : List (View.Piece (Elt F) S196x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc1_kernel_eq_skeleton]; unfold cc1_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    isplitl [HS1]; · iexists _; iexact HS1
    isplitl [HS2]; · iexists _; iexact HS2
    iexists _; iexact HS3

end Cert.KernelIdeal.Fr

end
-- ==== Proof.KI.Reg1Outs.lean ====
/- Region 1 of the program (the blocked loss kernel), at any float model: what each case of the kernel body leaves in
   the two output windows' buffers and in the four scratch buffers carried from point to point, and the accumulation
   of these over the grid, with its three case equations. -/
import proofs.«149911_j6408091205873_1_alg».proof.Proof.KI.Reg1RunC

-- membership in a rectangle of long extents: the elaborator's structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Regions
-- the core's buffer contents when the region is entered: the parameter the region's half is stated at
variable (V : (c : Dev nD) → (b : Ref sig .tc) → Buf (Elt F) ((c : Thread nD τ).loc b))

/-! ## What each case leaves in the outputs' buffers and in the scratch buffers -/

/-! ### Case A (the first column block of a row block) -/

/-- Case A stores nothing into output 5 (the window is idle at its points and not written back there): a placeholder (junk read back) that nothing consults, since at these points the window is neither written back nor read at the next point. -/
def out1_A_5 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : cond1_0 i) (hc1 : ¬cond1_1 i)
    (x0 : Vec F S1x196x256 .f32) (x1 : Vec F S6272x256 .f32) (x2 : Vec F S1x196x1 .f32) (x3 : Vec F S1x6272 .f32) (x4 : Vec F S196x6272 .f32) : Vec F S1x196x1 .f32 :=
  VO1_5.read (Elt F) (VO1_5.writes (Elt F) VO1_5.junk (kernelRun1_A c i arg2 harg2 arg3 harg3 arg4 harg4 arg5 harg5 arg6 harg6 arg7 harg7 arg8 harg8 arg9 harg9 arg10 harg10 arg11 harg11 arg12 harg12 hc0 hc1 x0 x1 x2 x3 x4).1)

/-- Case A stores nothing into output 6 (the window is idle at its points and not written back there): a placeholder (junk read back) that nothing consults, since at these points the window is neither written back nor read at the next point. -/
def out1_A_6 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : cond1_0 i) (hc1 : ¬cond1_1 i)
    (x0 : Vec F S1x196x256 .f32) (x1 : Vec F S6272x256 .f32) (x2 : Vec F S1x196x1 .f32) (x3 : Vec F S1x6272 .f32) (x4 : Vec F S196x6272 .f32) : Vec F S1x196x1 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 arg11 harg11 arg12 harg12 hc0 hc1 x0 x1 x2 x3 x4).2.1)

/-- What case A leaves in scratch buffer 0: its pieces read back over junk. -/
def sout1_A_0 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : cond1_0 i) (hc1 : ¬cond1_1 i)
    (x0 : Vec F S1x196x256 .f32) (x1 : Vec F S6272x256 .f32) (x2 : Vec F S1x196x1 .f32) (x3 : Vec F S1x6272 .f32) (x4 : Vec F S196x6272 .f32) : Vec F S196x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.1)

/-- What case A leaves in scratch buffer 1: its pieces read back over junk. -/
def sout1_A_1 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : cond1_0 i) (hc1 : ¬cond1_1 i)
    (x0 : Vec F S1x196x256 .f32) (x1 : Vec F S6272x256 .f32) (x2 : Vec F S1x196x1 .f32) (x3 : Vec F S1x6272 .f32) (x4 : Vec F S196x6272 .f32) : Vec F S196x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.2.1)

/-- What case A leaves in scratch buffer 2: its pieces read back over junk. -/
def sout1_A_2 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : cond1_0 i) (hc1 : ¬cond1_1 i)
    (x0 : Vec F S1x196x256 .f32) (x1 : Vec F S6272x256 .f32) (x2 : Vec F S1x196x1 .f32) (x3 : Vec F S1x6272 .f32) (x4 : Vec F S196x6272 .f32) : Vec F S196x1 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.2.2.1)

/-- What case A leaves in scratch buffer 3: its pieces read back over junk. -/
def sout1_A_3 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : cond1_0 i) (hc1 : ¬cond1_1 i)
    (x0 : Vec F S1x196x256 .f32) (x1 : Vec F S6272x256 .f32) (x2 : Vec F S1x196x1 .f32) (x3 : Vec F S1x6272 .f32) (x4 : Vec F S196x6272 .f32) : Vec F S196x1 .f32 :=
  VS1_3.read (Elt F) (VS1_3.writes (Elt F) VS1_3.junk (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.2.2.2.1)

/-! ### Case B (a middle column block) -/

/-- Case B stores nothing into output 5 (the window is idle at its points and not written back there): a placeholder (junk read back) that nothing consults, since at these points the window is neither written back nor read at the next point. -/
def out1_B_5 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : ¬cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) : Vec F S1x196x1 .f32 :=
  VO1_5.read (Elt F) (VO1_5.writes (Elt F) VO1_5.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).1)

/-- Case B stores nothing into output 6 (the window is idle at its points and not written back there): a placeholder (junk read back) that nothing consults, since at these points the window is neither written back nor read at the next point. -/
def out1_B_6 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : ¬cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) : Vec F S1x196x1 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.1)

/-- What case B leaves in scratch buffer 0: its pieces read back over junk. -/
def sout1_B_0 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : ¬cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) : Vec F S196x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.1)

/-- What case B leaves in scratch buffer 1: its pieces read back over junk. -/
def sout1_B_1 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : ¬cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) : Vec F S196x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1)

/-- What case B leaves in scratch buffer 2: its pieces read back over junk. -/
def sout1_B_2 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : ¬cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) : Vec F S196x1 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1)

/-- What case B leaves in scratch buffer 3: its pieces read back over junk. -/
def sout1_B_3 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : ¬cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) : Vec F S196x1 .f32 :=
  VS1_3.read (Elt F) (VS1_3.writes (Elt F) VS1_3.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.2.1)

/-! ### Case C (the last column block of a row block) -/

/-- What case C leaves in output 5's staging buffer: its pieces read back over junk. -/
def out1_C_5 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) : Vec F S1x196x1 .f32 :=
  VO1_5.read (Elt F) (VO1_5.writes (Elt F) VO1_5.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).1)

/-- What case C leaves in output 6's staging buffer: its pieces read back over junk. -/
def out1_C_6 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) : Vec F S1x196x1 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.1)

/-- What case C leaves in scratch buffer 0: its pieces read back over junk. -/
def sout1_C_0 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) : Vec F S196x1 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.1)

/-- What case C leaves in scratch buffer 1: its pieces read back over junk. -/
def sout1_C_1 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) : Vec F S196x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1)

/-- What case C leaves in scratch buffer 2: its pieces read back over junk. -/
def sout1_C_2 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) : Vec F S196x1 .f32 :=
  VS1_2.read (Elt F) (VS1_2.writes (Elt F) VS1_2.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1)

/-- What case C leaves in scratch buffer 3: its pieces read back over junk. -/
def sout1_C_3 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) : Vec F S196x1 .f32 :=
  VS1_3.read (Elt F) (VS1_3.writes (Elt F) VS1_3.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.2.1)

/-! ## What the outputs and the scratch buffers hold after each point -/

/-- The accumulation. What the two outputs' staging buffers and the four scratch buffers hold after the body at
    position n (a tuple: outputs 5 and 6, then the scratch buffers in order): the case the closed forms of the two
    conditions select at n, run at the point's memrefs and input blocks, the scratch buffers at what this leaves at
    n - 1. An assignment of the conditions no point meets is no case. -/
def outsAt1 (c : Dev nD) : (n : ℕ) → n < cfg1.N → Vec F S1x196x1 .f32 × Vec F S1x196x1 .f32 × Vec F S196x1 .f32 × Vec F S196x1 .f32 × Vec F S196x1 .f32 × Vec F S196x1 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩),
          out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩),
          sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩),
          sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩),
          sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩),
          sout1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 7 = 0 then
      if h1 : (n + 1) % 7 = 6 then
        False.elim (by have hN : n + 1 < 224 := lt_of_lt_of_eq hn (show cfg1.N = 224 from N_1); omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩),
          out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩),
          sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩),
          sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩),
          sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩),
          sout1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 7 = 6 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2,
          out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2,
          sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2,
          sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2,
          sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2,
          sout1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2,
          out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2,
          sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2,
          sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2,
          sout1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2.1 (outsAt1 c n (Nat.lt_of_succ_lt hn)).2.2.2.2.1 (outsAt1 c n (Nat.lt_of_succ_lt hn)).2.2.2.2.2)

/-- The accumulation at a point of case A: that case's contents. -/
theorem outsAt1_A (c : Dev nD) (t : Fin cfg1.N) (h0 : t.val % 7 = 0) (h1 : ¬t.val % 7 = 6) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t),
          out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t),
          sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t),
          sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t),
          sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t),
          sout1_A_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- The accumulation at a point of case B: that case's contents, over what the point before left. -/
theorem outsAt1_B (c : Dev nD) (t : Fin cfg1.N) (h0 : ¬t.val % 7 = 0) (h1 : ¬t.val % 7 = 6) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
          out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
          sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
          sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
          sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
          sout1_B_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- The accumulation at a point of case C: that case's contents, over what the point before left. -/
theorem outsAt1_C (c : Dev nD) (t : Fin cfg1.N) (h0 : ¬t.val % 7 = 0) (h1 : t.val % 7 = 6) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
          out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
          sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
          sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
          sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2,
          sout1_C_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

end Regions

end Cert.KernelIdeal.Fr

end
-- ==== Proof.KI.Reg1.lean ====
/- Region 1 of the program (the blocked loss kernel), at any float model: each case's pieces cover the buffers it
   fills; the region's invariant with the four scratch buffers at what the point before left; the pipeline's proof
   data and its body obligation. -/
import proofs.«149911_j6408091205873_1_alg».proof.Proof.KI.Reg1Outs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Regions
-- the core's buffer contents when the region is entered: the parameter the region's half is stated at
variable (V : (c : Dev nD) → (b : Ref sig .tc) → Buf (Elt F) ((c : Thread nD τ).loc b))

/-! ## Each case's pieces cover the buffers it fills -/

/-- Case A's pieces for scratch buffer 0, carried between points, tile it, so they cover it. -/
theorem scover1_A_0 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : cond1_0 i) (hc1 : ¬cond1_1 i)
    (x0 : Vec F S1x196x256 .f32) (x1 : Vec F S6272x256 .f32) (x2 : Vec F S1x196x1 .f32) (x3 : Vec F S1x6272 .f32) (x4 : Vec F S196x6272 .f32) (y : S196x1.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.1 S196x1.size (by sl_kernel_rfl) y

/-- Case A's pieces for scratch buffer 1, carried between points, tile it, so they cover it. -/
theorem scover1_A_1 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : cond1_0 i) (hc1 : ¬cond1_1 i)
    (x0 : Vec F S1x196x256 .f32) (x1 : Vec F S6272x256 .f32) (x2 : Vec F S1x196x1 .f32) (x3 : Vec F S1x6272 .f32) (x4 : Vec F S196x6272 .f32) (y : S196x1.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.2.1 S196x1.size (by sl_kernel_rfl) y

/-- Case A's pieces for scratch buffer 2, carried between points, tile it, so they cover it. -/
theorem scover1_A_2 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : cond1_0 i) (hc1 : ¬cond1_1 i)
    (x0 : Vec F S1x196x256 .f32) (x1 : Vec F S6272x256 .f32) (x2 : Vec F S1x196x1 .f32) (x3 : Vec F S1x6272 .f32) (x4 : Vec F S196x6272 .f32) (y : S196x1.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.2.2.1 S196x1.size (by sl_kernel_rfl) y

/-- Case A's pieces for scratch buffer 3, carried between points, tile it, so they cover it. -/
theorem scover1_A_3 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : cond1_0 i) (hc1 : ¬cond1_1 i)
    (x0 : Vec F S1x196x256 .f32) (x1 : Vec F S6272x256 .f32) (x2 : Vec F S1x196x1 .f32) (x3 : Vec F S1x6272 .f32) (x4 : Vec F S196x6272 .f32) (y : S196x1.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.2.2.2.1 S196x1.size (by sl_kernel_rfl) y

/-- Case B's pieces for scratch buffer 0, carried between points, tile it, so they cover it. -/
theorem scover1_B_0 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : ¬cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) (y : S196x1.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.1 S196x1.size (by sl_kernel_rfl) y

/-- Case B's pieces for scratch buffer 1, carried between points, tile it, so they cover it. -/
theorem scover1_B_1 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : ¬cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) (y : S196x1.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1 S196x1.size (by sl_kernel_rfl) y

/-- Case B's pieces for scratch buffer 2, carried between points, tile it, so they cover it. -/
theorem scover1_B_2 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : ¬cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) (y : S196x1.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1 S196x1.size (by sl_kernel_rfl) y

/-- Case B's pieces for scratch buffer 3, carried between points, tile it, so they cover it. -/
theorem scover1_B_3 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : ¬cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) (y : S196x1.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.2.1 S196x1.size (by sl_kernel_rfl) y

/-- Case C's pieces for output 5 tile its block, so they cover it. -/
theorem cover1_C_5 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) (y : S1x196x1.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).1 S1x196x1.size (by sl_kernel_rfl) y

/-- Case C's pieces for output 6 tile its block, so they cover it. -/
theorem cover1_C_6 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) (y : S1x196x1.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.1 S1x196x1.size (by sl_kernel_rfl) y

/-- Case C's pieces for scratch buffer 0, carried between points, tile it, so they cover it. -/
theorem scover1_C_0 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) (y : S196x1.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.1 S196x1.size (by sl_kernel_rfl) y

/-- Case C's pieces for scratch buffer 1, carried between points, tile it, so they cover it. -/
theorem scover1_C_1 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) (y : S196x1.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1 S196x1.size (by sl_kernel_rfl) y

/-- Case C's pieces for scratch buffer 2, carried between points, tile it, so they cover it. -/
theorem scover1_C_2 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) (y : S196x1.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1 S196x1.size (by sl_kernel_rfl) y

/-- Case C's pieces for scratch buffer 3, carried between points, tile it, so they cover it. -/
theorem scover1_C_3 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) (y : S196x1.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.2.1 S196x1.size (by sl_kernel_rfl) y

/-! ## The region's invariant -/

/-- The region invariant before position n: before the first point the class's (every scratch buffer at anything);
    afterwards the scoped rest with the four staging buffers of the region before at anything, each carried scratch
    buffer at what the point before left in it (the accumulation's scratch components), and the generator register
    at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ owns (c : Thread nD τ) scM1_0 fullShare ((outsAt1 V c n hn).2.2.1) ∗ owns (c : Thread nD τ) scM1_1 fullShare ((outsAt1 V c n hn).2.2.2.1) ∗ owns (c : Thread nD τ) scM1_2 fullShare ((outsAt1 V c n hn).2.2.2.2.1) ∗ owns (c : Thread nD τ) scM1_3 fullShare ((outsAt1 V c n hn).2.2.2.2.2)) ∗ (∃ r, prngReg c r))

theorem PhiS1_zero (c : Dev nD) (n : ℕ) (h : n ≤ cfg1.N) (hz : n = 0) : PhiS1 V c n h = Pipeline.ΦA spec1 c := by
  subst hz; rfl

/-- After point n (before point n + 1): the carried scratch buffers at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ owns (c : Thread nD τ) scM1_0 fullShare ((outsAt1 V c n hn).2.2.1) ∗ owns (c : Thread nD τ) scM1_1 fullShare ((outsAt1 V c n hn).2.2.2.1) ∗ owns (c : Thread nD τ) scM1_2 fullShare ((outsAt1 V c n hn).2.2.2.2.1) ∗ owns (c : Thread nD τ) scM1_3 fullShare ((outsAt1 V c n hn).2.2.2.2.2)) ∗ (∃ r, prngReg c r)) := rfl

/-- Before a point that is not the first: the carried scratch buffers at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ owns (c : Thread nD τ) scM1_0 fullShare ((outsAt1 V c (n - 1) (by omega)).2.2.1) ∗ owns (c : Thread nD τ) scM1_1 fullShare ((outsAt1 V c (n - 1) (by omega)).2.2.2.1) ∗ owns (c : Thread nD τ) scM1_2 fullShare ((outsAt1 V c (n - 1) (by omega)).2.2.2.2.1) ∗ owns (c : Thread nD τ) scM1_3 fullShare ((outsAt1 V c (n - 1) (by omega)).2.2.2.2.2)) ∗ (∃ r, prngReg c r)) := by
  cases n with
  | zero => exact absurd rfl hz
  | succ n => rfl

/-! ## The pipeline's proof data -/

/-- The proof data of the pipeline on core c: the arrays as the region finds them; after the body at point t each
    input's buffer at its block and the two outputs' at the accumulation's components; the invariant the class's
    before the first point, then the scoped rest with the carried scratch buffers at the accumulation's components;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant before the first point is the class's. -/
theorem Phi1_zero (c : Dev nD) : (dat1 V c).Φ 0 = Pipeline.ΦA spec1 c := rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2.1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 6400000 in
/-- The body at any point: the inputs' memrefs hold their blocks; the closed forms say which case the point is in; so
    the case's run applies; the invariant hands the body the carried scratch buffers at what the point before left
    (at anything at the first point) and the generator register at some state, and takes the scratch buffers back at
    this point's contents, their pieces covering them; an output idle at the point is handed back untouched; the core
    owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 224 := lt_of_lt_of_eq t.isLt (show cfg1.N = 224 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 7 = 0
  · by_cases h1 : t.val % 7 = 6
    · exfalso; omega
    · rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0 sout1_A_1 sout1_A_2 sout1_A_3; (try dsimp only)
      by_cases hz : t.val = 0
      · rw [PhiS1_castSucc V c t, PhiS1_zero V c _ _ hz, PhiA1_eq]
        iintro ⟨⟨⟨Hr0, Hr1, Hr2, Hr3, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        isplitl [HS3]; · iexact HS3
        iintro ⟨H0, H1, H2, H3, H4, H5, H6, ⟨%es0, HS0⟩, ⟨%es1, HS1⟩, ⟨%es2, HS2⟩, ⟨%es3, HS3⟩⟩
        isplitl [Hr0 Hr1 Hr2 Hr3 HS0 HS1 HS2 HS3 Hg]
        · isplitl [Hr0 Hr1 Hr2 Hr3 HS0 HS1 HS2 HS3]
          · isplitl [Hr0]; · iexact Hr0
            isplitl [Hr1]; · iexact Hr1
            isplitl [Hr2]; · iexact Hr2
            isplitl [Hr3]; · iexact Hr3
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _ _ _ _ _ _ _ _ _ _ _)
            unfold owns; iexists _; isplitr
            swap; · iexact HS3
            ipureintro; exact View.read_writes_of_cover _ _ _ _ _ (scover1_A_3 c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
      · rw [PhiS1_castSucc V c t, PhiS1_pos V c _ _ hz]
        iintro ⟨⟨⟨Hr0, Hr1, Hr2, Hr3, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        isplitl [HS3]; · iexists _; iexact HS3
        iintro ⟨H0, H1, H2, H3, H4, H5, H6, ⟨%es0, HS0⟩, ⟨%es1, HS1⟩, ⟨%es2, HS2⟩, ⟨%es3, HS3⟩⟩
        isplitl [Hr0 Hr1 Hr2 Hr3 HS0 HS1 HS2 HS3 Hg]
        · isplitl [Hr0 Hr1 Hr2 Hr3 HS0 HS1 HS2 HS3]
          · isplitl [Hr0]; · iexact Hr0
            isplitl [Hr1]; · iexact Hr1
            isplitl [Hr2]; · iexact Hr2
            isplitl [Hr3]; · iexact Hr3
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _ _ _ _ _ _ _ _ _ _ _)
            unfold owns; iexists _; isplitr
            swap; · iexact HS3
            ipureintro; exact View.read_writes_of_cover _ _ _ _ _ (scover1_A_3 c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
  · by_cases h1 : t.val % 7 = 6
    · rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_5 out1_C_6 sout1_C_0 sout1_C_1 sout1_C_2 sout1_C_3; (try dsimp only)
      have hz : t.val ≠ 0 := fun hz => h0 (by rw [hz])
      rw [PhiS1_castSucc V c t, PhiS1_pos V c _ _ hz]
      iintro ⟨⟨⟨Hr0, Hr1, Hr2, Hr3, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _ _ _).2.2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, ⟨%e5, H5⟩, ⟨%e6, H6⟩, ⟨%es0, HS0⟩, ⟨%es1, HS1⟩, ⟨%es2, HS2⟩, ⟨%es3, HS3⟩⟩
      isplitl [Hr0 Hr1 Hr2 Hr3 HS0 HS1 HS2 HS3 Hg]
      · isplitl [Hr0 Hr1 Hr2 Hr3 HS0 HS1 HS2 HS3]
        · isplitl [Hr0]; · iexact Hr0
          isplitl [Hr1]; · iexact Hr1
          isplitl [Hr2]; · iexact Hr2
          isplitl [Hr3]; · iexact Hr3
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_C_2 c _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover1_C_3 c _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_C_5 c _ _ _ _ _ _ _ _ _ _ _ _ _ _ _ _ _ _ _ _ _ _ _ _ _ _ _ _ _ _ _ _ _ _)
      unfold owns; iexists _; isplitr
      swap; · iexact H6
      ipureintro; exact View.read_writes_of_cover _ _ _ _ _ (cover1_C_6 c _ _ _ _ _ _ _ _ _ _ _ _ _ _ _ _ _ _ _ _ _ _ _ _ _ _ _ _ _ _ _ _ _ _)
    · rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0 sout1_B_1 sout1_B_2 sout1_B_3; (try dsimp only)
      have hz : t.val ≠ 0 := fun hz => h0 (by rw [hz])
      rw [PhiS1_castSucc V c t, PhiS1_pos V c _ _ hz]
      iintro ⟨⟨⟨Hr0, Hr1, Hr2, Hr3, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ _ _).2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%es0, HS0⟩, ⟨%es1, HS1⟩, ⟨%es2, HS2⟩, ⟨%es3, HS3⟩⟩
      isplitl [Hr0 Hr1 Hr2 Hr3 HS0 HS1 HS2 HS3 Hg]
      · isplitl [Hr0 Hr1 Hr2 Hr3 HS0 HS1 HS2 HS3]
        · isplitl [Hr0]; · iexact Hr0
          isplitl [Hr1]; · iexact Hr1
          isplitl [Hr2]; · iexact Hr2
          isplitl [Hr3]; · iexact Hr3
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover1_B_3 c _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives the class's back: the carried scratch buffers' named contents
    are forgotten. -/
theorem Phi1_out (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨Hr0, Hr1, Hr2, Hr3, HS0, HS1, HS2, HS3⟩, Hg⟩
  isplitl [Hr0 Hr1 Hr2 Hr3 HS0 HS1 HS2 HS3]
  · isplitl [Hr0]; · iexact Hr0
    isplitl [Hr1]; · iexact Hr1
    isplitl [Hr2]; · iexact Hr2
    isplitl [Hr3]; · iexact Hr3
    isplitl [HS0]; · iexists _; iexact HS0
    isplitl [HS1]; · iexists _; iexact HS1
    isplitl [HS2]; · iexists _; iexact HS2
    iexists _; iexact HS3
  iexact Hg

/-- The same after the last point. -/
theorem hout1 (c : Dev nD) : (dat1 V c).Φ (Fin.last cfg1.N) ⊢ (Pipeline.ΦA spec1 c : sProp 𝕄) :=
  Phi1_out V c _ (by rw [Fin.val_last]; have : cfg1.N = 224 := N_1; omega)

end Regions

end Cert.KernelIdeal.Fr

end
-- ==== Proof.KI.Run.lean ====
/-
  The run of the whole program: @main is a reshape, the normalising kernel's region, three reshapes and a
  conversion of the mask, the main kernel's region, and sixteen closing host operations. The contents of every
  buffer at each of the six boundaries are written as a fold from the launch memory — a stretch of host operations
  applies them, a region replaces its windows' arrays by what its write-backs leave — and every weakly fair
  execution ends with every unscoped buffer at the last fold. The three argument arrays are never written, so the
  fold at them is the launch memory.
-/
import proofs.«149911_j6408091205873_1_alg».proof.Proof.KI.Reg0
import proofs.«149911_j6408091205873_1_alg».proof.Proof.KI.Reg1
import proofs.«149911_j6408091205873_1_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first reshape (the first region's entry). -/
abbrev W1 : Dev nD → Valuation τ sig (Elt F) := fun c => StableHlo.after hostOps0 (W0 m ρ c)
/-- The same read at the TensorCore's references. -/
abbrev E1 : (c : Dev nD) → (b : Ref sig .tc) → Buf (Elt F) ((c : Thread nD τ).loc b) := fun c b => W1 m ρ c b
/-- At the first region's exit: its arrays at what its write-backs leave, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev X2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = X2 m ρ c (Pipeline.arrRef spec0 w) :=
  (W2_arr m ρ c w).symm
theorem hrest0 (c : Dev nD) : ∀ b, b ∉ Finset.univ.image (Pipeline.arrRef spec0) → X2 m ρ c b = E1 m ρ c b :=
  fun b hb => W2_of_ne m ρ c b fun w e => hb (Finset.mem_image.mpr ⟨w, Finset.mem_univ _, e⟩)

/-- After the three reshapes and the mask's conversion (the second region's entry). -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev X4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = X4 m ρ c (Pipeline.arrRef spec1 w) :=
  (W4_arr m ρ c w).symm
theorem hrest1 (c : Dev nD) : ∀ b, b ∉ Finset.univ.image (Pipeline.arrRef spec1) → X4 m ρ c b = E3 m ρ c b :=
  fun b hb => W4_of_ne m ρ c b fun w e => hb (Finset.mem_image.mpr ⟨w, Finset.mem_univ _, e⟩)

/-- After the closing host operations: the contents the program ends with. -/
abbrev W5 : Dev nD → Valuation τ sig (Elt F) := fun c => StableHlo.after hostOps2 (W4 m ρ c)

/-! ## The arguments end as launched -/

/-- `main_arg0` is at its launch contents at every boundary: no host operation writes it and no region changes it. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-- `main_arg1` is at its launch contents at every boundary: no host operation writes it and no region changes it. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 1).trans (((dat0 (E1 m ρ) c).arrAt_in 1 rfl _).trans (A_eq0 (E1 m ρ) c 1))
    _ = W0 m ρ c (Proc.devRef .tc main_arg1) := StableHlo.after_of_writes_sub hostOps0 _ hostOps0_writes (by decide)
    _ = m ((c : Thread nD τ).loc main_arg1) := rfl

/-- `main_arg2` is at its launch contents at every boundary: no host operation writes it and no region changes it. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-! ## The proof data of both pipelines and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The two regions as segments -/

/-- The class invariant of region 1 split into what the region gives back: the generator register and the scoped rest. -/
theorem PhiA1_split (c : Dev nD) : (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

set_option backward.isDefEq.respectTransparency.types false in
/-- Region 0 over the thread state: entered with every unscoped buffer at `W1`, left with them at `W2`. Its
    arrays are split out of the unscoped buffers and put back at the contents the write-backs leave; the generator
    register goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (X2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its
    arrays are split out of the unscoped buffers and put back at the contents the write-backs leave; the generator
    register goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from Phi1_zero (E3 m ρ) c]; unfold Pipeline.ΦA
    iintro ⟨Hp, -, Hr⟩
    isplitl [Hr]; · iexact Hr
    iexact Hp
  hout c := by
    rw [Pipeline.ownSems0_none]
    exact BI.Entails.trans (show (pdats m ρ 1 c).Φ (Fin.last (Pipeline.pin (pcfgs (F := F)) adm 1).N) ⊢ (Pipeline.ΦA spec1 c : sProp 𝕄) from hout1 (E3 m ρ) c) (PhiA1_split c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (X4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev msegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (msegs m ρ) := (main_chain c).trans (by chain_rfl)

set_option backward.isDefEq.respectTransparency.types false in
/-- Every weakly fair execution of @main from `m` with zero counters terminates, nothing faulting, and ends with every
    unscoped buffer of every core at the last fold `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (msegs m ρ)
    (fun c Q => by rw [main_run m ρ c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.KernelIdeal.Fr

end
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.LibRank3.lean ====
/-
  Layout operations and one-axis reductions of rank-3 arrays read at an index written by coordinates.

  A reduction of `[a, b, c]` over its middle or its last axis with kept dimensions comes back over the reduced
  axis through a cast to `[a, 1, c]` (or `[a, b, 1]`) and a broadcast to `[a, b, c]`; the same two steps carry a
  matrix `[a, b]` along a new last axis (`[a, b] → [a, b, 1] → [a, b, c]`) or along a new middle axis
  (`[a, c] → [a, 1, c] → [a, b, c]`). Each is read here at `(i, j, k)`. The reductions: at the ideal values a sum
  over one axis is the `Fin`-indexed sum over that axis's coordinates, and a maximum over the last axis of a matrix
  is the fold of `max` over them. General lemmas: any extents.
-/
import Idealize.ShloMosaic.Lib.Pipeline.Value
import Idealize.ShloMosaic.Lib.ValueIdx
import Idealize.ShloMosaic.PureOps.Ideal.Laws

namespace Cert.LibRank3

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A matrix carried along a new last axis: `[a, b] → [a, b, 1] → [a, b, c]` at `(i, j, k)` is the matrix at `(i, j)`. -/
theorem keepLast_apply {a b c : ℕ} (x : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x h) h' (ix3 i j k) = x (ix2 i j) :=
  (broadcastTo_ab1_abc_apply _ h' i j k).trans (shapeCast_ab_ab1_apply x h i j 0)

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A matrix carried along a new middle axis: `[a, c] → [a, 1, c] → [a, b, c]` at `(i, j, k)` is the matrix at `(i, k)`. -/
theorem keepMid_apply {a b c : ℕ} (x : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ x h) h' (ix3 i j k) = x (ix2 i k) :=
  (broadcastTo_a1c_abc_apply _ h' i j k).trans (shapeCast_ac_a1c_apply x h i 0 k)

/-! ## One-axis reductions at the ideal values, at coordinates -/

variable {φ : FTy}

/-- The sum of an `[a, b]` matrix over its last axis, at row `i`. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ j : Fin b, src (ix2 i j) :=
  (Ideal.multiReduction_add_single src acc h hφ hacc (ix1 i)).trans
    (Finset.sum_congr rfl fun j _ => congrArg src (funext fun d => Fin.ext (by
      match d with | ⟨0, _⟩ => rfl | ⟨1, _⟩ => rfl)))

/-- The maximum of an `[a, b]` matrix over its last axis, at row `i`: the fold of `max` from the accumulator's value. -/
theorem max_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun j => src (ix2 i j)) :=
  (Ideal.multiReduction_maximumf_single src acc h hφ hacc (ix1 i)).trans
    (congrArg (Finset.fold max (Ideal.ofBits φ acc) · (Finset.univ : Finset (Fin b)))
      (funext fun j => congrArg src (funext fun d => Fin.ext (by
        match d with | ⟨0, _⟩ => rfl | ⟨1, _⟩ => rfl))))

/-- The sum of an `[a, b, c]` array over its middle axis, at `(i, k)`. -/
theorem sum_mid3 {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (funext fun d => Fin.ext (by
      match d with | ⟨0, _⟩ => rfl | ⟨1, _⟩ => rfl | ⟨2, _⟩ => rfl)))

/-- The sum of an `[a, b, c]` array over its last axis, at `(i, j)`. -/
theorem sum_last3 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun d => Fin.ext (by
      match d with | ⟨0, _⟩ => rfl | ⟨1, _⟩ => rfl | ⟨2, _⟩ => rfl)))

end Cert.LibRank3
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.KI.Reg0Value.lean ====
/- Region 0's two outputs at the ideal values, read index by index: the first is each row of the first input
   scaled by the reciprocal square root of the row's sum of squares; the second is, per row, the largest of the
   inner products of that scaled row with the likewise scaled rows of the second input. -/
import proofs.«149911_j6408091205873_1_alg».proof.Proof.KI.Reg0
import proofs.«149911_j6408091205873_1_alg».proof.Proof.LibKeepdims
import proofs.«149911_j6408091205873_1_alg».proof.Proof.LibRank3
import proofs.«149911_j6408091205873_1_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.Fr

open Cert.KernelIdeal Cert.KernelIdeal.Gen
open Idealize.ShloMosaic Idealize.ShloMosaic.ValueIdx
open scoped BigOperators

/-- The zero offsets of a rank-2 rectangle, spelt as a vector literal, are the zero function. -/
theorem hzPair : (![0, 0] : Fin 2 → Nat) = fun _ => 0 := funext fun a => by fin_cases a <;> rfl

/-- The word of negative infinity reads the bottom of the extended reals. -/
theorem ofBits_ninf : Ideal.ofBits .f32 0xFF800000#32 = (⊥ : EReal) := by
  simp [Ideal.ofBits, Ideal.ieee]

/-- A matrix with each row scaled by the reciprocal square root of the row's sum of squares, at an entry. -/
theorem rownorm_apply {a b : ℕ} (x : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (i : Fin a) (q : Fin b) :
    mulf x (broadcastTo ⟨2, ![a, b]⟩ (rsqrt (shapeCast ⟨2, ![a, 1]⟩
        (multiReduction .add [1] ⟨1, ![a]⟩ (mulf x x) 0x00000000#32 hr (.inl rfl) rfl) hc)) hb) (ix2 i q)
      = x (ix2 i q) * Ideal.rsqrt (∑ k : Fin b, x (ix2 i k) * x (ix2 i k)) := by
  rw [mulf_apply, Cert.LibKeepdims.broadcastTo_a1_ab_apply]
  show x (ix2 i q) * Ideal.rsqrt (shapeCast ⟨2, ![a, 1]⟩ _ hc (ix2 i (0 : Fin 1))) = _
  rw [Cert.LibKeepdims.shapeCast_a_a1_apply]
  exact congrArg (fun z => x (ix2 i q) * Ideal.rsqrt z) (Cert.LibRank3.sum_last2 (mulf x x) _ hr _ _ i)

/-- The first payload at an entry. -/
theorem k0_pay1_apply (v0 : Vec Ideal S6272x256 .f32) (i : Fin 6272) (q : Fin 256) :
    k0_pay1 (F := Ideal) v0 (ix2 i q) = v0 (ix2 i q) * Ideal.rsqrt (∑ k : Fin 256, v0 (ix2 i k) * v0 (ix2 i k)) := by
  unfold k0_pay1
  simp only [shapeCast_self]
  exact rownorm_apply v0 _ _ _ i q

/-- The first output at an entry. -/
theorem out0_2_apply (x0 : Vec Ideal S6272x256 .f32) (i : Fin 6272) (q : Fin 256) :
    out0_2 (F := Ideal) x0 (ix2 i q) = x0 (ix2 i q) * Ideal.rsqrt (∑ k : Fin 256, x0 (ix2 i k) * x0 (ix2 i k)) := by
  unfold out0_2
  rw [View.canon_unit_zero hzPair]
  simp only [View.ld_unit_zero (S := S6272x256) hzPair]
  exact k0_pay1_apply x0 i q

/-- The second payload at a row. -/
theorem k0_pay2_apply (v0 : Vec Ideal S6272x256 .f32) (v2 : Vec Ideal S100x256 .f32) (i : Fin 6272) :
    k0_pay2 (F := Ideal) v0 v2 (ix2 i 0)
      = (Finset.univ : Finset (Fin 100)).fold max ⊥ (fun k => ∑ q : Fin 256,
          (v0 (ix2 i q) * Ideal.rsqrt (∑ k' : Fin 256, v0 (ix2 i k') * v0 (ix2 i k')))
            * (v2 (ix2 k q) * Ideal.rsqrt (∑ k' : Fin 256, v2 (ix2 k k') * v2 (ix2 k k')))) := by
  unfold k0_pay2
  show shapeCast S6272x1 _ _ (ix2 i (0 : Fin 1)) = _
  rw [Cert.LibKeepdims.shapeCast_a_a1_apply]
  refine (Cert.LibRank3.max_last2 _ _ _ _ _ i).trans ?_
  rw [ofBits_ninf]
  refine congrArg (Finset.fold max ⊥ · (Finset.univ : Finset (Fin 100))) (funext fun k => ?_)
  refine (Cert.PlainDot.matmul_zero_ix2 _ rfl _ _ _ i k).trans ?_
  refine Finset.sum_congr rfl fun q _ => ?_
  exact congrArg₂ (· * ·) (k0_pay1_apply v0 i q)
    ((transpose_ix2_apply _ _ q k).trans (rownorm_apply v2 _ _ _ k q))

/-- The second output at a row. -/
theorem out0_3_apply (x0 : Vec Ideal S6272x256 .f32) (x1 : Vec Ideal S100x256 .f32) (i : Fin 6272) :
    out0_3 (F := Ideal) x0 x1 (ix2 i 0)
      = (Finset.univ : Finset (Fin 100)).fold max ⊥ (fun k => ∑ q : Fin 256,
          (x0 (ix2 i q) * Ideal.rsqrt (∑ k' : Fin 256, x0 (ix2 i k') * x0 (ix2 i k')))
            * (x1 (ix2 k q) * Ideal.rsqrt (∑ k' : Fin 256, x1 (ix2 k k') * x1 (ix2 k k')))) := by
  unfold out0_3
  rw [View.canon_unit_zero hzPair]
  simp only [View.ld_unit_zero (S := S6272x256) hzPair, View.ld_unit_zero (S := S100x256) hzPair]
  exact k0_pay2_apply x0 x1 i

end Cert.KernelIdeal.Fr

end
-- ==== Proof.KI.Reg0Array.lean ====
/- Region 0's two output arrays after the region, as whole-array functions of the contents the region is entered
   at: the grid has one point and every window's block is its whole array, so each output array ends holding what
   the body leaves in the window's buffer, computed from the two input arrays whole. -/
import proofs.«149911_j6408091205873_1_alg».proof.Proof.KI.Reg0
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

section Regions
variable (V : (c : Dev nD) → (b : Ref sig .tc) → Buf (Elt F) ((c : Thread nD τ).loc b))

/-- The printed index maps, decided over the grid: every window's block index is zero on both axes. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Each window's block at a point is its whole array: the block's index into the array is the index itself. -/
theorem emb0_0 (t : Fin cfg0.N) (j : S6272x256.Idx) : ((cfg0.win 0).blk t).view.emb j = j := by
  obtain ⟨e0, e1, -⟩ := idx_facts0 t
  funext a; apply Fin.ext
  match a with
  | ⟨0, _⟩ => show win0_0.index t (0 : Fin 2) * 6272 + 1 * (j 0).val = (j 0).val; omega
  | ⟨1, _⟩ => show win0_0.index t (1 : Fin 2) * 256 + 1 * (j 1).val = (j 1).val; omega

theorem emb0_1 (t : Fin cfg0.N) (j : S100x256.Idx) : ((cfg0.win 1).blk t).view.emb j = j := by
  obtain ⟨-, -, e0, e1, -⟩ := idx_facts0 t
  funext a; apply Fin.ext
  match a with
  | ⟨0, _⟩ => show win0_1.index t (0 : Fin 2) * 100 + 1 * (j 0).val = (j 0).val; omega
  | ⟨1, _⟩ => show win0_1.index t (1 : Fin 2) * 256 + 1 * (j 1).val = (j 1).val; omega

theorem emb0_2 (t : Fin cfg0.N) (j : S6272x256.Idx) : ((cfg0.win 2).blk t).view.emb j = j := by
  obtain ⟨-, -, -, -, e0, e1, -⟩ := idx_facts0 t
  funext a; apply Fin.ext
  match a with
  | ⟨0, _⟩ => show win0_2.index t (0 : Fin 2) * 6272 + 1 * (j 0).val = (j 0).val; omega
  | ⟨1, _⟩ => show win0_2.index t (1 : Fin 2) * 256 + 1 * (j 1).val = (j 1).val; omega

theorem emb0_3 (t : Fin cfg0.N) (j : S6272x1.Idx) : ((cfg0.win 3).blk t).view.emb j = j := by
  obtain ⟨-, -, -, -, -, -, e0, e1⟩ := idx_facts0 t
  funext a; apply Fin.ext
  match a with
  | ⟨0, _⟩ => show win0_3.index t (0 : Fin 2) * 6272 + 1 * (j 0).val = (j 0).val; omega
  | ⟨1, _⟩ => show win0_3.index t (1 : Fin 2) * 1 + 1 * (j 1).val = (j 1).val; omega

/-- The two input windows' blocks are their arrays as the region finds them. -/
theorem iblk0_0_eq (c : Dev nD) (t : Fin cfg0.N) : iblk0 V c 0 t = V c main_v0 := by
  funext j
  show V c main_v0 (((cfg0.win 0).blk t).view.emb j) = V c main_v0 j
  rw [emb0_0]

theorem iblk0_1_eq (c : Dev nD) (t : Fin cfg0.N) : iblk0 V c 1 t = V c main_arg1 := by
  funext j
  show V c main_arg1 (((cfg0.win 1).blk t).view.emb j) = V c main_arg1 j
  rw [emb0_1]

/-- For an output window whose block is its whole array, the part of a buffer's contents a point writes back is
    the block of those same contents taken as the array's: stated for any contents. -/
theorem cut_eq_read0_2 (t : Fin cfg0.N) (G : S6272x256.Idx → Elt F .f32) :
    (cfg0.win 2).cut (grid0.coords t) G = ((cfg0.win 2).blk t).view.read (Elt F) G := by
  funext j
  show G ((cfg0.win 2).xinj (grid0.coords t) j) = G (((cfg0.win 2).blk t).view.emb j)
  rw [emb0_2]

theorem cut_eq_read0_3 (t : Fin cfg0.N) (G : S6272x1.Idx → Elt F .f32) :
    (cfg0.win 3).cut (grid0.coords t) G = ((cfg0.win 3).blk t).view.read (Elt F) G := by
  funext j
  show G ((cfg0.win 3).xinj (grid0.coords t) j) = G (((cfg0.win 3).blk t).view.emb j)
  rw [emb0_3]

/-- What a point writes back of output window 2 is its block of the closed form of the input arrays. -/
theorem flushed0_2 (c : Dev nD) (t : Fin cfg0.N) :
    (dat0 V c).flushed 2 t = ((cfg0.win 2).blk t).view.read (Elt F) (out0_2 (V c main_v0)) := by
  show (cfg0.win 2).cut (grid0.coords t) ((dat0 V c).after 2 t) = _
  rw [after0_2, iblk0_0_eq]
  exact cut_eq_read0_2 t _

/-- The same for output window 3. -/
theorem flushed0_3 (c : Dev nD) (t : Fin cfg0.N) :
    (dat0 V c).flushed 3 t = ((cfg0.win 3).blk t).view.read (Elt F) (out0_3 (V c main_v0) (V c main_arg1)) := by
  show (cfg0.win 3).cut (grid0.coords t) ((dat0 V c).after 3 t) = _
  rw [after0_3, iblk0_0_eq, iblk0_1_eq]
  exact cut_eq_read0_3 t _

/-- An index of the array is in a point's block iff each coordinate is in the block's range on its axis. -/
theorem mem_blk0_2 (t : Fin cfg0.N) (i : S6272x256.Idx) :
    i ∈ ((cfg0.win 2).blk t).view.set ↔ ∀ a : Fin 2, win0_2.index t a * S6272x256.size a ≤ (i a).val ∧ (i a).val < win0_2.index t a * S6272x256.size a + S6272x256.size a := by
  show i ∈ ((View.whole main_v1_0).slice (win0_2.rect t)).set ↔ _
  rw [View.set_slice_whole, Rect.mem_set_unit]
  exact Iff.rfl

theorem mem_blk0_3 (t : Fin cfg0.N) (i : S6272x1.Idx) :
    i ∈ ((cfg0.win 3).blk t).view.set ↔ ∀ a : Fin 2, win0_3.index t a * S6272x1.size a ≤ (i a).val ∧ (i a).val < win0_3.index t a * S6272x1.size a + S6272x1.size a := by
  show i ∈ ((View.whole main_v1_1).slice (win0_3.rect t)).set ↔ _
  rw [View.set_slice_whole, Rect.mem_set_unit]
  exact Iff.rfl

/-- The one point's block covers output window 2's array. -/
theorem covered0_2 (i : S6272x256.Idx) : ∃ t : Fin cfg0.N, (cfg0.win 2).flush t = true ∧ i ∈ ((cfg0.win 2).blk t).view.set := by
  refine ⟨t0_0, flush0_2 t0_0, ?_⟩
  rw [mem_blk0_2]
  obtain ⟨-, -, -, -, e0, e1, -⟩ := idx_facts0 t0_0
  intro a
  match a with
  | ⟨0, _⟩ => show win0_2.index t0_0 (0 : Fin 2) * 6272 ≤ (i 0).val ∧ (i 0).val < win0_2.index t0_0 (0 : Fin 2) * 6272 + 6272; have hi : (i 0).val < 6272 := (i 0).isLt; omega
  | ⟨1, _⟩ => show win0_2.index t0_0 (1 : Fin 2) * 256 ≤ (i 1).val ∧ (i 1).val < win0_2.index t0_0 (1 : Fin 2) * 256 + 256; have hi : (i 1).val < 256 := (i 1).isLt; omega

theorem covered0_3 (i : S6272x1.Idx) : ∃ t : Fin cfg0.N, (cfg0.win 3).flush t = true ∧ i ∈ ((cfg0.win 3).blk t).view.set := by
  refine ⟨t0_0, flush0_3 t0_0, ?_⟩
  rw [mem_blk0_3]
  obtain ⟨-, -, -, -, -, -, e0, e1⟩ := idx_facts0 t0_0
  intro a
  match a with
  | ⟨0, _⟩ => show win0_3.index t0_0 (0 : Fin 2) * 6272 ≤ (i 0).val ∧ (i 0).val < win0_3.index t0_0 (0 : Fin 2) * 6272 + 6272; have hi : (i 0).val < 6272 := (i 0).isLt; omega
  | ⟨1, _⟩ => show win0_3.index t0_0 (1 : Fin 2) * 1 ≤ (i 1).val ∧ (i 1).val < win0_3.index t0_0 (1 : Fin 2) * 1 + 1; have hi : (i 1).val < 1 := (i 1).isLt; omega

/-- Output window 2's array after the region: the closed form of input window 0's array as the region finds it. -/
theorem arr0_2 (c : Dev nD) : (dat0 (F := F) V c).arrAt 2 cfg0.N = out0_2 (V c main_v0) :=
  (dat0 V c).arrAt_eq_of_cover 2 (out0_2 (V c main_v0)) (fun t _ => flushed0_2 V c t) covered0_2

/-- Output window 3's array after the region: the closed form of the two input windows' arrays. -/
theorem arr0_3 (c : Dev nD) : (dat0 (F := F) V c).arrAt 3 cfg0.N = out0_3 (V c main_v0) (V c main_arg1) :=
  (dat0 V c).arrAt_eq_of_cover 3 (out0_3 (V c main_v0) (V c main_arg1)) (fun t _ => flushed0_3 V c t) covered0_3

end Regions

end Cert.KernelIdeal.Fr

end
-- ==== Proof.Spec.lean ====
/-
  What the loss computes, as plain functions on the extended reals, and the running form a column-blocked
  evaluation of one row keeps.

  A row of logits `L` over a finite set of columns, with two 0/1 masks on the columns — `keep` (the columns that
  enter the softmax denominator) and `pos` (the positives) — contributes
    `rowNum = ∑ j, pos j · ((L j − M) − log (∑ j', exp (L j' − M) · keep j'))`,  `M` the largest logit of the row,
  and `rowCnt = ∑ j, pos j`.  A blocked evaluation visits the columns block by block and keeps four numbers: the
  running maximum, the denominator rescaled to it, `∑ pos · L` and `∑ pos` (`Online.step`); at the end it forms
  `(A − m · D) − log l · D` (`Online.out`).
-/
import Idealize.ShloMosaic.PureOps.Ideal
import Mathlib.Algebra.BigOperators.Fin
import Mathlib.Data.Fintype.BigOperators

noncomputable section

namespace Cert.Spec

open Idealize.ShloMosaic

/-- Entry `(i, q)` of a matrix whose rows are scaled by the reciprocal root of their sums of squares. -/
def unitRow {n d : ℕ} (x : Fin n → Fin d → EReal) (i : Fin n) (q : Fin d) : EReal :=
  x i q * Ideal.rsqrt (∑ k : Fin d, x i k * x i k)

/-- The inner product of row `i` of `a` with row `j` of `b`. -/
def dotRows {n n' d : ℕ} (a : Fin n → Fin d → EReal) (b : Fin n' → Fin d → EReal) (i : Fin n) (j : Fin n') : EReal :=
  ∑ q : Fin d, a i q * b j q

/-- The largest inner product of row `i` of `a` with a row of `b` (the fold of `max` from `-∞`). -/
def bestOf {n n' d : ℕ} (a : Fin n → Fin d → EReal) (b : Fin n' → Fin d → EReal) (i : Fin n) : EReal :=
  (Finset.univ : Finset (Fin n')).fold max ⊥ (fun k => dotRows a b i k)

/-- A proposition as the number 1 or 0. -/
def ind (p : Prop) [Decidable p] : EReal := if p then 1 else 0

/-! ## One row -/

section Row

variable {J : Type} [Fintype J]

/-- The largest logit of the row (the fold of `max` from `-∞`). -/
def rowMax (L : J → EReal) : EReal := (Finset.univ : Finset J).fold max ⊥ L

/-- The softmax denominator of the row over the kept columns, after the shift by the row's maximum. -/
def rowDen (L keep : J → EReal) : EReal := ∑ j, Ideal.exp (L j - rowMax L) * keep j

/-- The sum over the positives of the shifted log-probabilities. -/
def rowNum (L keep pos : J → EReal) : EReal := ∑ j, pos j * ((L j - rowMax L) - Ideal.log (rowDen L keep))

/-- The number of positives. -/
def rowCnt (pos : J → EReal) : EReal := ∑ j, pos j

end Row

/-! ## The masks and the logits of the 6272 × 6272 problem (32 batches of 196 rows) -/

section Problem

open Classical in
/-- Column `j` is a hit for row `i`: the similarity exceeds the threshold of the row or of the column. -/
def hit (s : Fin 6272 → Fin 6272 → EReal) (rp : Fin 6272 → EReal) (i j : Fin 6272) : EReal :=
  ind (rp i < s i j ∨ rp j < s i j)

/-- Every column but the one whose number is the row's position inside its batch. -/
def off (i j : Fin 6272) : EReal := ind (j.val ≠ i.val % 196)

/-- The row's position inside its batch. -/
def lrow (i : Fin 6272) : Fin 196 := ⟨i.val % 196, Nat.mod_lt _ (by decide)⟩

/-- The positives of row `i`. -/
def pos (s : Fin 6272 → Fin 6272 → EReal) (rp : Fin 6272 → EReal) (i j : Fin 6272) : EReal := hit s rp i j * off i j

/-- The columns kept in row `i`'s denominator: off the excluded column, a hit or neglected (`g`, 0/1, by position in the batch). -/
def keep (s : Fin 6272 → Fin 6272 → EReal) (rp : Fin 6272 → EReal) (g : Fin 196 → Fin 6272 → EReal) (i j : Fin 6272) : EReal :=
  off i j * max (hit s rp i j) (g (lrow i) j)

/-- The logits: the similarities times the inverse temperature `κ`. -/
def logit (κ : EReal) (s : Fin 6272 → Fin 6272 → EReal) (i j : Fin 6272) : EReal := s i j * κ

/-- Row `i`'s sum over its positives, and its number of positives. -/
def numRow (κ : EReal) (s : Fin 6272 → Fin 6272 → EReal) (rp : Fin 6272 → EReal) (g : Fin 196 → Fin 6272 → EReal) (i : Fin 6272) : EReal :=
  rowNum (logit κ s i) (keep s rp g i) (pos s rp i)
def cntRow (s : Fin 6272 → Fin 6272 → EReal) (rp : Fin 6272 → EReal) (i : Fin 6272) : EReal := rowCnt (pos s rp i)

/-- Row `r` of batch `b`. -/
def rowOf (b : Fin 32) (r : Fin 196) : Fin 6272 := ⟨b.val * 196 + r.val, by have := b.isLt; have := r.isLt; omega⟩

/-- A batch's two sums. -/
def numB (κ : EReal) (s : Fin 6272 → Fin 6272 → EReal) (rp : Fin 6272 → EReal) (g : Fin 196 → Fin 6272 → EReal) (b : Fin 32) : EReal :=
  ∑ r : Fin 196, numRow κ s rp g (rowOf b r)
def cntB (s : Fin 6272 → Fin 6272 → EReal) (rp : Fin 6272 → EReal) (b : Fin 32) : EReal := ∑ r : Fin 196, cntRow s rp (rowOf b r)

end Problem

end Cert.Spec

/-! ## The running form of one row, block of columns by block of columns -/

namespace Cert.Online

open Idealize.ShloMosaic

/-- What the blocked evaluation keeps for one row: the running maximum, the denominator rescaled to it, `∑ pos · L`, `∑ pos`. -/
structure St where
  m : EReal
  l : EReal
  A : EReal
  D : EReal

/-- Before the first block. -/
def init : St := ⟨⊥, 0, 0, 0⟩

variable {C : Type} [Fintype C]

/-- One block of columns `C`: the maximum is raised, the old denominator rescaled by `exp (m − m')` and the block's
    terms added; the two plain sums grow by the block's. -/
def step (s : St) (L keep pos : C → EReal) : St :=
  ⟨max s.m ((Finset.univ : Finset C).fold max ⊥ L),
   s.l * Ideal.exp (s.m - max s.m ((Finset.univ : Finset C).fold max ⊥ L))
     + ∑ c, Ideal.exp (L c - max s.m ((Finset.univ : Finset C).fold max ⊥ L)) * keep c,
   s.A + ∑ c, pos c * L c,
   s.D + ∑ c, pos c⟩

/-- After the first `k` blocks of `n`. -/
def run {n : ℕ} (L keep pos : Fin n → C → EReal) : (k : ℕ) → k ≤ n → St
  | 0, _ => init
  | k + 1, h => step (run L keep pos k (Nat.le_of_succ_le h)) (L ⟨k, h⟩) (keep ⟨k, h⟩) (pos ⟨k, h⟩)

/-- What is formed from the four numbers at the end. -/
def out (s : St) : EReal := (s.A - s.m * s.D) - Ideal.log s.l * s.D

end Cert.Online

end
-- ==== Proof.SpecArgs.lean ====
/-
  The specification's inputs read off the three argument arrays: the 32 × 196 rows of the first array numbered
  0 … 6271 (row `i` is row `i % 196` of batch `i / 196`), the rows of the second, and the third — a bit per
  (position in the batch, column) — as the numbers 0 and 1; then the unit rows, their similarities, the
  thresholds, the inverse temperature, and each batch's two sums.
-/
import proofs.«149911_j6408091205873_1_alg».proof.Proof.Spec
import Idealize.ShloMosaic.Lib.ValueIdx

noncomputable section

namespace Cert.Spec

open Idealize.ShloMosaic Idealize.ShloMosaic.ValueIdx

/-- Entry `q` of row `i` (of 6272) of the first argument `[32, 196, 256]`. -/
def rowsZ (x0 : (⟨3, ![32, 196, 256]⟩ : Shape).Idx → EReal) (i : Fin 6272) (q : Fin 256) : EReal :=
  x0 (ix3 (⟨i.val / 196, by have := i.isLt; omega⟩ : Fin 32) (⟨i.val % 196, Nat.mod_lt _ (by decide)⟩ : Fin 196) q)

/-- Entry `q` of row `k` of the second argument `[100, 256]`. -/
def rowsP (x1 : (⟨2, ![100, 256]⟩ : Shape).Idx → EReal) (k : Fin 100) (q : Fin 256) : EReal := x1 (ix2 k q)

/-- The third argument's bit at (position `r` in the batch, column `j`) as the number 0 or 1. -/
def maskG (x2 : (⟨2, ![196, 6272]⟩ : Shape).Idx → BitVec 1) (r : Fin 196) (j : Fin 6272) : EReal :=
  (((x2 (ix2 r j)).toNat : ℝ) : EReal)

/-- The unit rows of the two float arguments. -/
def zn (x0 : (⟨3, ![32, 196, 256]⟩ : Shape).Idx → EReal) : Fin 6272 → Fin 256 → EReal := unitRow (rowsZ x0)
def pn (x1 : (⟨2, ![100, 256]⟩ : Shape).Idx → EReal) : Fin 100 → Fin 256 → EReal := unitRow (rowsP x1)

/-- The similarities of the unit rows, and each row's threshold: its best similarity to a unit row of the second argument. -/
def simA (x0 : (⟨3, ![32, 196, 256]⟩ : Shape).Idx → EReal) : Fin 6272 → Fin 6272 → EReal := dotRows (zn x0) (zn x0)
def rpA (x0 : (⟨3, ![32, 196, 256]⟩ : Shape).Idx → EReal) (x1 : (⟨2, ![100, 256]⟩ : Shape).Idx → EReal) : Fin 6272 → EReal :=
  bestOf (zn x0) (pn x1)

/-- The inverse temperature: the reciprocal of the single-precision number nearest 0.07, which is 9395241 / 2^27. -/
def kappa : EReal := ((134217728 / 9395241 : ℝ) : EReal)

/-- Batch `b`'s sum over its positives of the shifted log-probabilities, and its number of positives. -/
def numA (x0 : (⟨3, ![32, 196, 256]⟩ : Shape).Idx → EReal) (x1 : (⟨2, ![100, 256]⟩ : Shape).Idx → EReal)
    (x2 : (⟨2, ![196, 6272]⟩ : Shape).Idx → BitVec 1) (b : Fin 32) : EReal :=
  numB kappa (simA x0) (rpA x0 x1) (maskG x2) b
def cntA (x0 : (⟨3, ![32, 196, 256]⟩ : Shape).Idx → EReal) (x1 : (⟨2, ![100, 256]⟩ : Shape).Idx → EReal) (b : Fin 32) : EReal :=
  cntB (simA x0) (rpA x0 x1) b

/-- A row whose sum of squares is a positive real (so that dividing by its norm means what it says). -/
def PosRows {n d : ℕ} (x : Fin n → Fin d → EReal) : Prop :=
  ∀ i : Fin n, (∀ q, ∃ r : ℝ, x i q = (r : EReal)) ∧ ∃ r : ℝ, 0 < r ∧ (∑ k : Fin d, x i k * x i k) = (r : EReal)

end Cert.Spec

end
-- ==== Proof.KI.Entry.lean ====
/-
  What the main kernel's region is entered with, in the specification's terms, at the ideal values. The first
  argument [32, 196, 256] is cast to [6272, 256] (row i is row i % 196 of batch i / 196); the normalising region
  leaves in its two output arrays the unit rows of that matrix and, per row, the largest inner product with a unit
  row of the second argument; these are cast to [32, 196, 256], [32, 196, 1] and [1, 6272], and the third argument's
  bits are converted to the numbers 0 and 1. Each array, read at an index written by coordinates, is the
  specification's unit row, threshold or mask there.
-/
import proofs.«149911_j6408091205873_1_alg».proof.Proof.KI.Run
import proofs.«149911_j6408091205873_1_alg».proof.Proof.KI.Reg0Value
import proofs.«149911_j6408091205873_1_alg».proof.Proof.KI.Reg0Array
import proofs.«149911_j6408091205873_1_alg».proof.Proof.SpecArgs
import Idealize.ShloMosaic.Lib.Pipeline.Value
import Idealize.ShloMosaic.Lib.ValueIdx
import Idealize.ShloMosaic.Lib.StableHlo.Run

set_option maxRecDepth 16384

noncomputable section

namespace Cert.KernelIdeal.Fr

open Idealize.ShloMosaic Idealize.ShloMosaic.TcCoe Idealize.ShloMosaic.Tactic Idealize.ShloMosaic.ValueIdx
open Idealize.SL Idealize.SL.Sem
open Cert.KernelIdeal Cert.KernelIdeal.Gen

/-! ## The four reshapes at an index -/

section Reshapes
variable {α : Type}

/-- [32, 196, 256] → [6272, 256]: row i is row i % 196 of batch i / 196. -/
theorem cast_v0_apply (x : S32x196x256.Idx → α) (h : S32x196x256.ShapeCasts S6272x256) (i : Fin 6272) (q : Fin 256) :
    shapeCast S6272x256 x h (ix2 i q)
      = x (ix3 (⟨i.val / 196, by have := i.isLt; omega⟩ : Fin 32) (⟨i.val % 196, Nat.mod_lt _ (by decide)⟩ : Fin 196) q) :=
  shapeCast_apply x h _ _ (by
    rw [Shape.rowMajor_val_three, Shape.rowMajor_val_two]
    show (i.val / 196 * 196 + i.val % 196) * 256 + q.val = i.val * 256 + q.val
    have := Nat.div_add_mod i.val 196
    omega)

/-- [6272, 256] → [32, 196, 256]: row r of batch b is row 196·b + r. -/
theorem cast_v2_apply (x : S6272x256.Idx → α) (h : S6272x256.ShapeCasts S32x196x256) (b : Fin 32) (r : Fin 196) (q : Fin 256) :
    shapeCast S32x196x256 x h (ix3 b r q) = x (ix2 (Cert.Spec.rowOf b r) q) :=
  shapeCast_apply x h _ _ (by
    rw [Shape.rowMajor_val_three, Shape.rowMajor_val_two]
    rfl)

/-- [6272, 1] → [32, 196, 1]. -/
theorem cast_v3_apply (x : S6272x1.Idx → α) (h : S6272x1.ShapeCasts S32x196x1) (b : Fin 32) (r : Fin 196) :
    shapeCast S32x196x1 x h (ix3 b r (0 : Fin 1)) = x (ix2 (Cert.Spec.rowOf b r) (0 : Fin 1)) :=
  shapeCast_apply x h _ _ (by
    rw [Shape.rowMajor_val_three, Shape.rowMajor_val_two]
    rfl)

/-- [6272, 1] → [1, 6272]. -/
theorem cast_v4_apply (x : S6272x1.Idx → α) (h : S6272x1.ShapeCasts S1x6272) (j : Fin 6272) :
    shapeCast S1x6272 x h (ix2 (0 : Fin 1) j) = x (ix2 j (0 : Fin 1)) :=
  shapeCast_apply x h _ _ (by
    rw [Shape.rowMajor_val_two, Shape.rowMajor_val_two]
    show j.val * 1 + 0 = 0 * 6272 + j.val
    omega)

end Reshapes

variable (m : (ℓ : Loc nD τ sig) → Buf (Elt Ideal) ℓ) (ρ : Dev nD → PrngReg)

/-- After the first reshape, main_v0 is the first argument cast to [6272, 256]. -/
theorem W1_main_v0 (c : Dev nD) :
    (W1 m ρ c (Proc.devRef .tc main_v0) : S6272x256.Idx → EReal)
      = shapeCast S6272x256 (m ((c : Thread nD τ).loc main_arg0)) shapeCasts_S32x196x256_S6272x256 := by
  show StableHlo.after hostOps0 (W0 m ρ c) (Proc.devRef .tc main_v0) = _
  after_results
  rfl

/-- The second argument is as launched when the first region is entered. -/
theorem W1_main_arg1 (c : Dev nD) : W1 m ρ c (Proc.devRef .tc main_arg1) = m ((c : Thread nD τ).loc main_arg1) :=
  (StableHlo.after_of_writes_sub hostOps0 _ hostOps0_writes (by decide)).trans rfl

/-- The third argument is as launched at the first region's exit. -/
theorem W2_main_arg2 (c : Dev nD) : W2 m ρ c (Proc.devRef .tc main_arg2) = m ((c : Thread nD τ).loc main_arg2) :=
  (W2_of_ne m ρ c main_arg2 (by decide)).trans
    ((StableHlo.after_of_writes_sub hostOps0 _ hostOps0_writes (by decide)).trans rfl)

/-- The first region leaves in its first output array the closed form of the array it read. -/
theorem W2_main_v1_0 (c : Dev nD) :
    (W2 m ρ c (Proc.devRef .tc main_v1_0) : S6272x256.Idx → EReal) = out0_2 (F := Ideal) (W1 m ρ c (Proc.devRef .tc main_v0)) :=
  (W2_arr m ρ c 2).trans (arr0_2 (E1 m ρ) c)

/-- … and in its second the closed form of the two arrays it read. -/
theorem W2_main_v1_1 (c : Dev nD) :
    (W2 m ρ c (Proc.devRef .tc main_v1_1) : S6272x1.Idx → EReal)
      = out0_3 (F := Ideal) (W1 m ρ c (Proc.devRef .tc main_v0)) (W1 m ρ c (Proc.devRef .tc main_arg1)) :=
  (W2_arr m ρ c 3).trans (arr0_3 (E1 m ρ) c)

/-- The first output array holds the unit rows of the first argument. -/
theorem W2_v1_0_apply (c : Dev nD) (j : Fin 6272) (q : Fin 256) :
    (W2 m ρ c (Proc.devRef .tc main_v1_0) : S6272x256.Idx → EReal) (ix2 j q)
      = Cert.Spec.zn (m ((c : Thread nD τ).loc main_arg0)) j q := by
  rw [W2_main_v1_0, out0_2_apply, W1_main_v0]
  simp only [cast_v0_apply]
  rfl

/-- The second output array holds each row's best similarity to a unit row of the second argument. -/
theorem W2_v1_1_apply (c : Dev nD) (i : Fin 6272) :
    (W2 m ρ c (Proc.devRef .tc main_v1_1) : S6272x1.Idx → EReal) (ix2 i (0 : Fin 1))
      = Cert.Spec.rpA (m ((c : Thread nD τ).loc main_arg0)) (m ((c : Thread nD τ).loc main_arg1)) i := by
  rw [W2_main_v1_1, out0_3_apply, W1_main_v0, W1_main_arg1]
  simp only [cast_v0_apply]
  rfl

/-! ## The second region's entry -/

/-- The reshapes and the conversion between the regions, as terms over the first region's exit contents. -/
theorem W3_main_v2 (c : Dev nD) :
    (W3 m ρ c (Proc.devRef .tc main_v2) : S32x196x256.Idx → EReal)
      = shapeCast S32x196x256 (W2 m ρ c (Proc.devRef .tc main_v1_0)) shapeCasts_S6272x256_S32x196x256 := by
  show StableHlo.after hostOps1 (W2 m ρ c) (Proc.devRef .tc main_v2) = _
  after_results
  rfl

theorem W3_main_v3 (c : Dev nD) :
    (W3 m ρ c (Proc.devRef .tc main_v3) : S32x196x1.Idx → EReal)
      = shapeCast S32x196x1 (W2 m ρ c (Proc.devRef .tc main_v1_1)) shapeCasts_S6272x1_S32x196x1 := by
  show StableHlo.after hostOps1 (W2 m ρ c) (Proc.devRef .tc main_v3) = _
  after_results
  rfl

theorem W3_main_v4 (c : Dev nD) :
    (W3 m ρ c (Proc.devRef .tc main_v4) : S1x6272.Idx → EReal)
      = shapeCast S1x6272 (W2 m ρ c (Proc.devRef .tc main_v1_1)) shapeCasts_S6272x1_S1x6272 := by
  show StableHlo.after hostOps1 (W2 m ρ c) (Proc.devRef .tc main_v4) = _
  after_results
  rfl

theorem W3_main_v5 (c : Dev nD) :
    (W3 m ρ c (Proc.devRef .tc main_v5) : S196x6272.Idx → EReal)
      = uitofp (F := Ideal) .f32 (W2 m ρ c (Proc.devRef .tc main_arg2) : S196x6272.Idx → BitVec 1) := by
  show StableHlo.after hostOps1 (W2 m ρ c) (Proc.devRef .tc main_v5) = _
  after_results

theorem W3_main_v1_0 (c : Dev nD) : W3 m ρ c (Proc.devRef .tc main_v1_0) = W2 m ρ c (Proc.devRef .tc main_v1_0) :=
  StableHlo.after_of_writes_sub hostOps1 _ hostOps1_writes (by decide)

/-- What the main kernel's region is entered with, in the specification's terms. -/
theorem entry_v1_0 (c : Dev nD) (j : Fin 6272) (q : Fin 256) :
    (E3 m ρ c main_v1_0 : S6272x256.Idx → EReal) (ix2 j q) = Cert.Spec.zn (m ((c : Thread nD τ).loc main_arg0)) j q := by
  show (W3 m ρ c (Proc.devRef .tc main_v1_0) : S6272x256.Idx → EReal) (ix2 j q) = _
  rw [W3_main_v1_0]
  exact W2_v1_0_apply m ρ c j q

theorem entry_v2 (c : Dev nD) (b : Fin 32) (r : Fin 196) (q : Fin 256) :
    (E3 m ρ c main_v2 : S32x196x256.Idx → EReal) (ix3 b r q)
      = Cert.Spec.zn (m ((c : Thread nD τ).loc main_arg0)) (Cert.Spec.rowOf b r) q := by
  show (W3 m ρ c (Proc.devRef .tc main_v2) : S32x196x256.Idx → EReal) (ix3 b r q) = _
  rw [W3_main_v2, cast_v2_apply]
  exact W2_v1_0_apply m ρ c _ q

theorem entry_v3 (c : Dev nD) (b : Fin 32) (r : Fin 196) :
    (E3 m ρ c main_v3 : S32x196x1.Idx → EReal) (ix3 b r (0 : Fin 1))
      = Cert.Spec.rpA (m ((c : Thread nD τ).loc main_arg0)) (m ((c : Thread nD τ).loc main_arg1)) (Cert.Spec.rowOf b r) := by
  show (W3 m ρ c (Proc.devRef .tc main_v3) : S32x196x1.Idx → EReal) (ix3 b r (0 : Fin 1)) = _
  rw [W3_main_v3, cast_v3_apply]
  exact W2_v1_1_apply m ρ c _

theorem entry_v4 (c : Dev nD) (j : Fin 6272) :
    (E3 m ρ c main_v4 : S1x6272.Idx → EReal) (ix2 (0 : Fin 1) j)
      = Cert.Spec.rpA (m ((c : Thread nD τ).loc main_arg0)) (m ((c : Thread nD τ).loc main_arg1)) j := by
  show (W3 m ρ c (Proc.devRef .tc main_v4) : S1x6272.Idx → EReal) (ix2 (0 : Fin 1) j) = _
  rw [W3_main_v4, cast_v4_apply]
  exact W2_v1_1_apply m ρ c j

theorem entry_v5 (c : Dev nD) (r : Fin 196) (j : Fin 6272) :
    (E3 m ρ c main_v5 : S196x6272.Idx → EReal) (ix2 r j) = Cert.Spec.maskG (m ((c : Thread nD τ).loc main_arg2)) r j := by
  show (W3 m ρ c (Proc.devRef .tc main_v5) : S196x6272.Idx → EReal) (ix2 r j) = _
  rw [W3_main_v5, W2_main_arg2]
  rfl

end Cert.KernelIdeal.Fr

end
-- ==== Proof.KI.Reg1Val.lean ====
/- Region 1's kernel body, case by case, as VALUES at any float model: what each case's run leaves in each of the
   four scratch buffers (and, in the last column block's case, in the two output windows' buffers), read back over
   junk, is the payload of the case's last store into it — a function of the blocks the body loads and of what the
   scratch buffers held (the first branch's constants in the first column block's case, what the point before
   left in the others). -/
import proofs.«149911_j6408091205873_1_alg».proof.Proof.KI.Reg1RunC
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-! ## The blocks the body loads and the values part 1 hands part 2 -/

/-- The 896 rows of the resident normalised matrix that the point's column block names. -/
abbrev rv10 (i : grid1.Coords) (x1 : Vec F S6272x256 .f32) : Vec F S896x256 .f32 :=
  View.ld x1 (Rect.unit (s := S6272x256) (k1_off1 i) S896x256.size (k1_off1_inb i))
/-- The 896 entries of the resident row of thresholds that the point's column block names. -/
abbrev rv13 (i : grid1.Coords) (x3 : Vec F S1x6272 .f32) : Vec F S1x896 .f32 :=
  View.ld x3 (Rect.unit (s := S1x6272) (k1_off2 i) S1x896.size (k1_off2_inb i))
/-- The 896 columns of the resident mask that the point's column block names. -/
abbrev rv16 (i : grid1.Coords) (x4 : Vec F S196x6272 .f32) : Vec F S196x896 .f32 :=
  View.ld x4 (Rect.unit (s := S196x6272) (k1_off3 i) S196x896.size (k1_off3_inb i))
/-- The scaled logits of the row block against the column block. -/
abbrev rv21 (i : grid1.Coords) (x0 : Vec F S1x196x256 .f32) (x1 : Vec F S6272x256 .f32) : FVec F S196x896 .f32 :=
  k1_pay8 x0 (rv10 i x1)
/-- The mask of the columns that enter the denominator. -/
abbrev rv39 (i : grid1.Coords) (x0 : Vec F S1x196x256 .f32) (x1 : Vec F S6272x256 .f32) (x2 : Vec F S1x196x1 .f32) (x3 : Vec F S1x6272 .f32) (x4 : Vec F S196x6272 .f32) : FVec F S196x896 .f32 :=
  k1_pay11 i x0 x2 (rv10 i x1) (rv13 i x3) (rv16 i x4)
/-- The mask of the positives. -/
abbrev rv40 (i : grid1.Coords) (x0 : Vec F S1x196x256 .f32) (x1 : Vec F S6272x256 .f32) (x2 : Vec F S1x196x1 .f32) (x3 : Vec F S1x6272 .f32) : FVec F S196x896 .f32 :=
  k1_pay12 i x0 x2 (rv10 i x1) (rv13 i x3)
/-- The row maxima of the scaled logits over the column block. -/
abbrev rv41 (i : grid1.Coords) (x0 : Vec F S1x196x256 .f32) (x1 : Vec F S6272x256 .f32) : FVec F S196 .f32 :=
  k1_pay13 x0 (rv10 i x1)

/-! ## One step of the four running quantities -/

/-- The running maximum after the point, from the one before (m). -/
abbrev nm1 (i : grid1.Coords) (x0 : Vec F S1x196x256 .f32) (x1 : Vec F S6272x256 .f32) (m : Vec F S196x1 .f32) : FVec F S196x1 .f32 :=
  k1_pay15 (rv41 i x0 x1) m
/-- The running denominator after the point, from the maximum (m) and denominator (l) before. -/
abbrev nl1 (i : grid1.Coords) (x0 : Vec F S1x196x256 .f32) (x1 : Vec F S6272x256 .f32) (x2 : Vec F S1x196x1 .f32) (x3 : Vec F S1x6272 .f32) (x4 : Vec F S196x6272 .f32) (m l : Vec F S196x1 .f32) : FVec F S196x1 .f32 :=
  k1_pay16 (rv21 i x0 x1) (rv39 i x0 x1 x2 x3 x4) (rv41 i x0 x1) m l
/-- The running sum of the positives' logits after the point, from the one before (A). -/
abbrev nA1 (i : grid1.Coords) (x0 : Vec F S1x196x256 .f32) (x1 : Vec F S6272x256 .f32) (x2 : Vec F S1x196x1 .f32) (x3 : Vec F S1x6272 .f32) (A : Vec F S196x1 .f32) : FVec F S196x1 .f32 :=
  k1_pay17 (rv21 i x0 x1) (rv40 i x0 x1 x2 x3) A
/-- The running count of the positives after the point, from the one before (D). -/
abbrev nD1 (i : grid1.Coords) (x0 : Vec F S1x196x256 .f32) (x1 : Vec F S6272x256 .f32) (x2 : Vec F S1x196x1 .f32) (x3 : Vec F S1x6272 .f32) (D : Vec F S196x1 .f32) : FVec F S196x1 .f32 :=
  k1_pay18 (rv40 i x0 x1 x2 x3) D

/-! ## The first column block of a row block (case A) -/

/-- What case A leaves in scratch buffer 0: the payload of its last store, over the blocks the body loads and the values the first branch stored. -/
theorem val1_A_s0 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : cond1_0 i) (hc1 : ¬cond1_1 i)
    (x0 : Vec F S1x196x256 .f32) (x1 : Vec F S6272x256 .f32) (x2 : Vec F S1x196x1 .f32) (x3 : Vec F S1x6272 .f32) (x4 : Vec F S196x6272 .f32) :
    VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.1)
      = nm1 i x0 x1 (k1_pay3 (F := F)) := by
  rw [View.read_writes_junk_eq_canon]
  unfold kernelRun1_A
  dsimp only
  sl_unfold_run_names
  rw [View.canon_cons_unit_zero (S := S196x1) hz2]
  simp only [View.readCov_unit_zero (S := S196x1) _ hz2, View.readAt_eq_ld, harg2.read_unread, harg3.read_unread, harg4.read_unread, harg5.read_unread, harg6.read_unread, harg9.read_unread, harg10.read_unread, harg11.read_unread, harg12.read_unread, View.ld_unit_zero (S := S1x196x256) hz3, View.ld_unit_zero (S := S1x196x1) hz3, View.ld_unit_zero (S := S196x1) hz2]

/-- What case A leaves in scratch buffer 1: the payload of its last store, over the blocks the body loads and the values the first branch stored. -/
theorem val1_A_s1 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : cond1_0 i) (hc1 : ¬cond1_1 i)
    (x0 : Vec F S1x196x256 .f32) (x1 : Vec F S6272x256 .f32) (x2 : Vec F S1x196x1 .f32) (x3 : Vec F S1x6272 .f32) (x4 : Vec F S196x6272 .f32) :
    VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.2.1)
      = nl1 i x0 x1 x2 x3 x4 (k1_pay3 (F := F)) (k1_pay4 (F := F)) := by
  rw [View.read_writes_junk_eq_canon]
  unfold kernelRun1_A
  dsimp only
  sl_unfold_run_names
  rw [View.canon_cons_unit_zero (S := S196x1) hz2]
  simp only [View.readCov_unit_zero (S := S196x1) _ hz2, View.readAt_eq_ld, harg2.read_unread, harg3.read_unread, harg4.read_unread, harg5.read_unread, harg6.read_unread, harg9.read_unread, harg10.read_unread, harg11.read_unread, harg12.read_unread, View.ld_unit_zero (S := S1x196x256) hz3, View.ld_unit_zero (S := S1x196x1) hz3, View.ld_unit_zero (S := S196x1) hz2]

/-- What case A leaves in scratch buffer 2: the payload of its last store, over the blocks the body loads and the values the first branch stored. -/
theorem val1_A_s2 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : cond1_0 i) (hc1 : ¬cond1_1 i)
    (x0 : Vec F S1x196x256 .f32) (x1 : Vec F S6272x256 .f32) (x2 : Vec F S1x196x1 .f32) (x3 : Vec F S1x6272 .f32) (x4 : Vec F S196x6272 .f32) :
    VS1_2.read (Elt F) (VS1_2.writes (Elt F) VS1_2.junk (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.2.2.1)
      = nA1 i x0 x1 x2 x3 (k1_pay5 (F := F)) := by
  rw [View.read_writes_junk_eq_canon]
  unfold kernelRun1_A
  dsimp only
  sl_unfold_run_names
  rw [View.canon_cons_unit_zero (S := S196x1) hz2]
  simp only [View.readCov_unit_zero (S := S196x1) _ hz2, View.readAt_eq_ld, harg2.read_unread, harg3.read_unread, harg4.read_unread, harg5.read_unread, harg6.read_unread, harg9.read_unread, harg10.read_unread, harg11.read_unread, harg12.read_unread, View.ld_unit_zero (S := S1x196x256) hz3, View.ld_unit_zero (S := S1x196x1) hz3, View.ld_unit_zero (S := S196x1) hz2]

/-- What case A leaves in scratch buffer 3: the payload of its last store, over the blocks the body loads and the values the first branch stored. -/
theorem val1_A_s3 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : cond1_0 i) (hc1 : ¬cond1_1 i)
    (x0 : Vec F S1x196x256 .f32) (x1 : Vec F S6272x256 .f32) (x2 : Vec F S1x196x1 .f32) (x3 : Vec F S1x6272 .f32) (x4 : Vec F S196x6272 .f32) :
    VS1_3.read (Elt F) (VS1_3.writes (Elt F) VS1_3.junk (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.2.2.2.1)
      = nD1 i x0 x1 x2 x3 (k1_pay6 (F := F)) := by
  rw [View.read_writes_junk_eq_canon]
  unfold kernelRun1_A
  dsimp only
  sl_unfold_run_names
  rw [View.canon_cons_unit_zero (S := S196x1) hz2]
  simp only [View.readCov_unit_zero (S := S196x1) _ hz2, View.readAt_eq_ld, harg2.read_unread, harg3.read_unread, harg4.read_unread, harg5.read_unread, harg6.read_unread, harg9.read_unread, harg10.read_unread, harg11.read_unread, harg12.read_unread, View.ld_unit_zero (S := S1x196x256) hz3, View.ld_unit_zero (S := S1x196x1) hz3, View.ld_unit_zero (S := S196x1) hz2]

/-! ## A middle column block (case B) -/

/-- What case B leaves in scratch buffer 0: the payload of its last store, over the blocks the body loads and what the point before left. -/
theorem val1_B_s0 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : ¬cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) :
    VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.1)
      = nm1 i x0 x1 xs0 := by
  rw [View.read_writes_junk_eq_canon]
  unfold kernelRun1_B
  dsimp only
  sl_unfold_run_names
  rw [View.canon_cons_unit_zero (S := S196x1) hz2]
  simp only [View.readCov_unit_zero (S := S196x1) _ hz2, View.readAt_eq_ld, harg2.read_unread, harg3.read_unread, harg4.read_unread, harg5.read_unread, harg6.read_unread, harg9.read_unread, harg10.read_unread, harg11.read_unread, harg12.read_unread, View.ld_unit_zero (S := S1x196x256) hz3, View.ld_unit_zero (S := S1x196x1) hz3, View.ld_unit_zero (S := S196x1) hz2]

/-- What case B leaves in scratch buffer 1: the payload of its last store, over the blocks the body loads and what the point before left. -/
theorem val1_B_s1 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : ¬cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) :
    VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1)
      = nl1 i x0 x1 x2 x3 x4 xs0 xs1 := by
  rw [View.read_writes_junk_eq_canon]
  unfold kernelRun1_B
  dsimp only
  sl_unfold_run_names
  rw [View.canon_cons_unit_zero (S := S196x1) hz2]
  simp only [View.readCov_unit_zero (S := S196x1) _ hz2, View.readAt_eq_ld, harg2.read_unread, harg3.read_unread, harg4.read_unread, harg5.read_unread, harg6.read_unread, harg9.read_unread, harg10.read_unread, harg11.read_unread, harg12.read_unread, View.ld_unit_zero (S := S1x196x256) hz3, View.ld_unit_zero (S := S1x196x1) hz3, View.ld_unit_zero (S := S196x1) hz2]

/-- What case B leaves in scratch buffer 2: the payload of its last store, over the blocks the body loads and what the point before left. -/
theorem val1_B_s2 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : ¬cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) :
    VS1_2.read (Elt F) (VS1_2.writes (Elt F) VS1_2.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1)
      = nA1 i x0 x1 x2 x3 xs2 := by
  rw [View.read_writes_junk_eq_canon]
  unfold kernelRun1_B
  dsimp only
  sl_unfold_run_names
  rw [View.canon_cons_unit_zero (S := S196x1) hz2]
  simp only [View.readCov_unit_zero (S := S196x1) _ hz2, View.readAt_eq_ld, harg2.read_unread, harg3.read_unread, harg4.read_unread, harg5.read_unread, harg6.read_unread, harg9.read_unread, harg10.read_unread, harg11.read_unread, harg12.read_unread, View.ld_unit_zero (S := S1x196x256) hz3, View.ld_unit_zero (S := S1x196x1) hz3, View.ld_unit_zero (S := S196x1) hz2]

/-- What case B leaves in scratch buffer 3: the payload of its last store, over the blocks the body loads and what the point before left. -/
theorem val1_B_s3 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : ¬cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) :
    VS1_3.read (Elt F) (VS1_3.writes (Elt F) VS1_3.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.2.1)
      = nD1 i x0 x1 x2 x3 xs3 := by
  rw [View.read_writes_junk_eq_canon]
  unfold kernelRun1_B
  dsimp only
  sl_unfold_run_names
  rw [View.canon_cons_unit_zero (S := S196x1) hz2]
  simp only [View.readCov_unit_zero (S := S196x1) _ hz2, View.readAt_eq_ld, harg2.read_unread, harg3.read_unread, harg4.read_unread, harg5.read_unread, harg6.read_unread, harg9.read_unread, harg10.read_unread, harg11.read_unread, harg12.read_unread, View.ld_unit_zero (S := S1x196x256) hz3, View.ld_unit_zero (S := S1x196x1) hz3, View.ld_unit_zero (S := S196x1) hz2]

/-! ## The last column block of a row block (case C) -/

/-- What case C leaves in scratch buffer 0: the payload of its last store, over the blocks the body loads and what the point before left. -/
theorem val1_C_s0 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) :
    VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.1)
      = nm1 i x0 x1 xs0 := by
  rw [View.read_writes_junk_eq_canon]
  unfold kernelRun1_C
  dsimp only
  sl_unfold_run_names
  rw [View.canon_cons_unit_zero (S := S196x1) hz2]
  simp only [View.readCov_unit_zero (S := S196x1) _ hz2, View.readAt_eq_ld, harg2.read_unread, harg3.read_unread, harg4.read_unread, harg5.read_unread, harg6.read_unread, harg9.read_unread, harg10.read_unread, harg11.read_unread, harg12.read_unread, View.ld_unit_zero (S := S1x196x256) hz3, View.ld_unit_zero (S := S1x196x1) hz3, View.ld_unit_zero (S := S196x1) hz2]

/-- What case C leaves in scratch buffer 1: the payload of its last store, over the blocks the body loads and what the point before left. -/
theorem val1_C_s1 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) :
    VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1)
      = nl1 i x0 x1 x2 x3 x4 xs0 xs1 := by
  rw [View.read_writes_junk_eq_canon]
  unfold kernelRun1_C
  dsimp only
  sl_unfold_run_names
  rw [View.canon_cons_unit_zero (S := S196x1) hz2]
  simp only [View.readCov_unit_zero (S := S196x1) _ hz2, View.readAt_eq_ld, harg2.read_unread, harg3.read_unread, harg4.read_unread, harg5.read_unread, harg6.read_unread, harg9.read_unread, harg10.read_unread, harg11.read_unread, harg12.read_unread, View.ld_unit_zero (S := S1x196x256) hz3, View.ld_unit_zero (S := S1x196x1) hz3, View.ld_unit_zero (S := S196x1) hz2]

/-- What case C leaves in scratch buffer 2: the payload of its last store, over the blocks the body loads and what the point before left. -/
theorem val1_C_s2 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) :
    VS1_2.read (Elt F) (VS1_2.writes (Elt F) VS1_2.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1)
      = nA1 i x0 x1 x2 x3 xs2 := by
  rw [View.read_writes_junk_eq_canon]
  unfold kernelRun1_C
  dsimp only
  sl_unfold_run_names
  rw [View.canon_cons_unit_zero (S := S196x1) hz2]
  simp only [View.readCov_unit_zero (S := S196x1) _ hz2, View.readAt_eq_ld, harg2.read_unread, harg3.read_unread, harg4.read_unread, harg5.read_unread, harg6.read_unread, harg9.read_unread, harg10.read_unread, harg11.read_unread, harg12.read_unread, View.ld_unit_zero (S := S1x196x256) hz3, View.ld_unit_zero (S := S1x196x1) hz3, View.ld_unit_zero (S := S196x1) hz2]

/-- What case C leaves in scratch buffer 3: the payload of its last store, over the blocks the body loads and what the point before left. -/
theorem val1_C_s3 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) :
    VS1_3.read (Elt F) (VS1_3.writes (Elt F) VS1_3.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.2.1)
      = nD1 i x0 x1 x2 x3 xs3 := by
  rw [View.read_writes_junk_eq_canon]
  unfold kernelRun1_C
  dsimp only
  sl_unfold_run_names
  rw [View.canon_cons_unit_zero (S := S196x1) hz2]
  simp only [View.readCov_unit_zero (S := S196x1) _ hz2, View.readAt_eq_ld, harg2.read_unread, harg3.read_unread, harg4.read_unread, harg5.read_unread, harg6.read_unread, harg9.read_unread, harg10.read_unread, harg11.read_unread, harg12.read_unread, View.ld_unit_zero (S := S1x196x256) hz3, View.ld_unit_zero (S := S1x196x1) hz3, View.ld_unit_zero (S := S196x1) hz2]

/-- What case C leaves in output window 5's buffer: the row block's numerators, formed from the four running quantities the point has just stored. -/
theorem val1_C_o5 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) :
    VO1_5.read (Elt F) (VO1_5.writes (Elt F) VO1_5.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).1)
      = k1_pay1 (nA1 i x0 x1 x2 x3 xs2) (nm1 i x0 x1 xs0) (nD1 i x0 x1 x2 x3 xs3) (nl1 i x0 x1 x2 x3 x4 xs0 xs1) (nD1 i x0 x1 x2 x3 xs3) := by
  rw [View.read_writes_junk_eq_canon]
  unfold kernelRun1_C
  dsimp only
  sl_unfold_run_names
  rw [View.canon_cons_unit_zero (S := S1x196x1) hz3]
  simp only [View.readCov_unit_zero (S := S196x1) _ hz2, View.readAt_eq_ld, harg2.read_unread, harg3.read_unread, harg4.read_unread, harg5.read_unread, harg6.read_unread, harg9.read_unread, harg10.read_unread, harg11.read_unread, harg12.read_unread, View.ld_unit_zero (S := S1x196x256) hz3, View.ld_unit_zero (S := S1x196x1) hz3, View.ld_unit_zero (S := S196x1) hz2]

/-- What case C leaves in output window 6's buffer: the row block's counts of positives, the running count the point has just stored. -/
theorem val1_C_o6 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec F S1x196x256 .f32) (x1 : Vec F S6272x256 .f32) (x2 : Vec F S1x196x1 .f32) (x3 : Vec F S1x6272 .f32) (x4 : Vec F S196x6272 .f32) (xs0 : Vec F S196x1 .f32) (xs1 : Vec F S196x1 .f32) (xs2 : Vec F S196x1 .f32) (xs3 : Vec F S196x1 .f32) :
    VO1_6.read (Elt F) (VO1_6.writes (Elt F) VO1_6.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.1)
      = k1_pay2 (nD1 i x0 x1 x2 x3 xs3) := by
  rw [View.read_writes_junk_eq_canon]
  unfold kernelRun1_C
  dsimp only
  sl_unfold_run_names
  rw [View.canon_cons_unit_zero (S := S1x196x1) hz3]
  simp only [View.readCov_unit_zero (S := S196x1) _ hz2, View.readAt_eq_ld, harg2.read_unread, harg3.read_unread, harg4.read_unread, harg5.read_unread, harg6.read_unread, harg9.read_unread, harg10.read_unread, harg11.read_unread, harg12.read_unread, View.ld_unit_zero (S := S1x196x256) hz3, View.ld_unit_zero (S := S1x196x1) hz3, View.ld_unit_zero (S := S196x1) hz2]

end Cert.KernelIdeal.Fr

end
-- ==== Proof.LibOnlineSoftmaxAux.lean ====
/-
  Finite sums and maxima on the extended reals through real witnesses: the coercion of a finite real sum, the
  maximum of finitely many reals, the initial segments of `Fin n`, and the closing identity of the blocked
  evaluation of one row:
    `(∑ π·l − M·∑ π) − log d · ∑ π = ∑ π · ((l − M) − log d)`,  `d = ∑ exp (l − M) · κ`,
  for 0/1 masks `π ≤ κ`.
-/
import proofs.«149911_j6408091205873_1_alg».proof.Proof.Spec

noncomputable section

namespace Cert.Online

open Idealize.ShloMosaic

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The fold of `max` from `-∞` over finitely many (at least one) reals is one of them. -/
theorem fold_max_coe {C : Type} [Fintype C] [Nonempty C] (f : C → ℝ) :
    ∃ r : ℝ, (Finset.univ : Finset C).fold max ⊥ (fun c => (f c : EReal)) = (r : EReal) := by
  obtain ⟨c, -, hc⟩ := Finset.exists_mem_eq_sup (Finset.univ : Finset C) Finset.univ_nonempty (fun c => (f c : EReal))
  exact ⟨f c, hc⟩

/-- The maximum of `-∞` or a real with a real is a real. -/
theorem max_coe_real (k : ℕ) (m : EReal) (M r : ℝ) (h0 : k = 0 → m = ⊥) (h1 : 0 < k → m = (M : EReal)) :
    ∃ M' : ℝ, max m (r : EReal) = (M' : EReal) := by
  rcases Nat.eq_zero_or_pos k with hk | hk
  · exact ⟨r, by rw [h0 hk]; exact max_bot_left _⟩
  · exact ⟨max M r, by rw [h1 hk]; exact (EReal.coe_strictMono.monotone.map_max).symm⟩

/-! ## The first `k` of `n` blocks -/

/-- The blocks `0 … k−1` of `n`. -/
def pre (n k : ℕ) : Finset (Fin n) := Finset.univ.filter (fun i => i.val < k)

theorem pre_zero (n : ℕ) : pre n 0 = ∅ := by simp [pre]

theorem pre_succ {n k : ℕ} (h : k < n) : pre n (k + 1) = insert (⟨k, h⟩ : Fin n) (pre n k) := by
  ext i
  simp only [pre, Finset.mem_filter, Finset.mem_univ, true_and, Finset.mem_insert, Fin.ext_iff]
  omega

theorem not_mem_pre {n k : ℕ} (h : k < n) : (⟨k, h⟩ : Fin n) ∉ pre n k := by simp [pre]

theorem pre_self (n : ℕ) : pre n n = Finset.univ := by
  ext i; simp [pre]

/-! ## The closing identity -/

/-- With real logits `l`, a real shift `M`, nonnegative weights `κ` and weights `π` that vanish wherever `κ ≠ 1`:
    distributing the sum over `π`. If every `π` is 0 both sides are 0 (whatever the logarithm is); otherwise the
    denominator is positive and everything is real. -/
theorem out_real {J : Type} [Fintype J] (l κ π : J → ℝ) (M : ℝ) (hκ : ∀ j, 0 ≤ κ j) (hπ : ∀ j, π j ≠ 0 → κ j = 1) :
    (((∑ j, π j * l j : ℝ) : EReal) - (M : EReal) * ((∑ j, π j : ℝ) : EReal))
        - Ideal.log ((∑ j, Real.exp (l j - M) * κ j : ℝ) : EReal) * ((∑ j, π j : ℝ) : EReal)
      = ∑ j, (π j : EReal) * (((l j : EReal) - (M : EReal)) - Ideal.log ((∑ j, Real.exp (l j - M) * κ j : ℝ) : EReal)) := by
  by_cases hz : ∀ j, π j = 0
  · simp [hz]
  · rw [not_forall] at hz
    obtain ⟨j0, hj0⟩ := hz
    have hden : 0 < ∑ j, Real.exp (l j - M) * κ j := by
      apply Finset.sum_pos'
      · intro j _; exact mul_nonneg (Real.exp_pos _).le (hκ j)
      · exact ⟨j0, Finset.mem_univ _, by rw [hπ j0 hj0, mul_one]; exact Real.exp_pos _⟩
    rw [Ideal.log_coe, if_neg (not_le.mpr hden)]
    have hterm : ∀ j, (π j : EReal) * (((l j : EReal) - (M : EReal)) - ((Real.log (∑ j, Real.exp (l j - M) * κ j) : ℝ) : EReal))
        = ((π j * l j - M * π j - Real.log (∑ j, Real.exp (l j - M) * κ j) * π j : ℝ) : EReal) := by
      intro j
      rw [← EReal.coe_sub, ← EReal.coe_sub, ← EReal.coe_mul]
      congr 1; ring
    rw [Finset.sum_congr rfl (fun j _ => hterm j), ← coe_sum, ← EReal.coe_mul, ← EReal.coe_sub, ← EReal.coe_mul, ← EReal.coe_sub]
    congr 1
    rw [Finset.sum_sub_distrib, Finset.sum_sub_distrib, ← Finset.mul_sum, ← Finset.mul_sum]

end Cert.Online

end
-- ==== Proof.LibOnlineSoftmax.lean ====
/-
  The blocked evaluation of one row agrees with the row's plain sums.

  After the first `k ≥ 1` blocks the four numbers kept are real: the largest logit `M` among those blocks, the
  denominator `∑ exp (l − M) · κ` over those blocks, `∑ π · l` and `∑ π`. A block raises the maximum to `M'` and
  rescales the old denominator by `exp (M − M')`: `exp (a − M) · exp (M − M') = exp (a − M')`. Before the first
  block the maximum is `-∞` and the denominator 0, and `0 · x = 0`. At the end the closing identity of the
  auxiliary module turns `(A − M·D) − log d · D` into the sum over the positives.
-/
import proofs.«149911_j6408091205873_1_alg».proof.Proof.LibOnlineSoftmaxAux

noncomputable section

namespace Cert.Online

open Idealize.ShloMosaic

variable {C : Type} [Fintype C]

/-! ## One step, component by component -/

theorem step_m (s : St) (L keep pos : C → EReal) :
    (step s L keep pos).m = max s.m ((Finset.univ : Finset C).fold max ⊥ L) := rfl

theorem step_l (s : St) (L keep pos : C → EReal) (M' : EReal)
    (h : max s.m ((Finset.univ : Finset C).fold max ⊥ L) = M') :
    (step s L keep pos).l = s.l * Ideal.exp (s.m - M') + ∑ c, Ideal.exp (L c - M') * keep c := by
  subst h; rfl

theorem step_A (s : St) (L keep pos : C → EReal) : (step s L keep pos).A = s.A + ∑ c, pos c * L c := rfl

theorem step_D (s : St) (L keep pos : C → EReal) : (step s L keep pos).D = s.D + ∑ c, pos c := rfl

/-! ## The invariant -/

/-- After `k` blocks: the maximum is the largest logit so far (a real once `k ≥ 1`), the denominator is the sum so
    far shifted by it, and the two plain sums are the sums so far. -/
theorem run_real {n : ℕ} [Nonempty C] (l κ π : Fin n → C → ℝ) (k : ℕ) (h : k ≤ n) :
    ∃ M : ℝ,
      (run (fun i c => (l i c : EReal)) (fun i c => (κ i c : EReal)) (fun i c => (π i c : EReal)) k h).m
          = (pre n k).sup (fun i => (Finset.univ : Finset C).sup (fun c => (l i c : EReal)))
      ∧ (0 < k → (run (fun i c => (l i c : EReal)) (fun i c => (κ i c : EReal)) (fun i c => (π i c : EReal)) k h).m = (M : EReal))
      ∧ (run (fun i c => (l i c : EReal)) (fun i c => (κ i c : EReal)) (fun i c => (π i c : EReal)) k h).l
          = ((∑ i ∈ pre n k, ∑ c, Real.exp (l i c - M) * κ i c : ℝ) : EReal)
      ∧ (run (fun i c => (l i c : EReal)) (fun i c => (κ i c : EReal)) (fun i c => (π i c : EReal)) k h).A
          = ((∑ i ∈ pre n k, ∑ c, π i c * l i c : ℝ) : EReal)
      ∧ (run (fun i c => (l i c : EReal)) (fun i c => (κ i c : EReal)) (fun i c => (π i c : EReal)) k h).D
          = ((∑ i ∈ pre n k, ∑ c, π i c : ℝ) : EReal) := by
  induction k with
  | zero =>
    refine ⟨0, ?_, fun h0 => absurd h0 (lt_irrefl 0), ?_, ?_, ?_⟩ <;>
      simp [run, init, pre_zero]
  | succ k ih =>
    have hk : k < n := h
    obtain ⟨M, hm, hM, hl, hA, hD⟩ := ih (Nat.le_of_succ_le h)
    generalize hs : run (fun i c => (l i c : EReal)) (fun i c => (κ i c : EReal)) (fun i c => (π i c : EReal)) k
      (Nat.le_of_succ_le h) = s at hm hM hl hA hD
    have hrun : run (fun i c => (l i c : EReal)) (fun i c => (κ i c : EReal)) (fun i c => (π i c : EReal)) (k + 1) h
        = step s (fun c => (l ⟨k, hk⟩ c : EReal)) (fun c => (κ ⟨k, hk⟩ c : EReal)) (fun c => (π ⟨k, hk⟩ c : EReal)) := by
      rw [← hs]; rfl
    rw [hrun]
    obtain ⟨r, hr⟩ := fold_max_coe (l ⟨k, hk⟩)
    have h0 : k = 0 → s.m = ⊥ := by
      intro hk0; subst hk0; rw [hm, pre_zero, Finset.sup_empty]
    obtain ⟨M', hM'⟩ := max_coe_real k s.m M r h0 hM
    have hmax : max s.m ((Finset.univ : Finset C).fold max ⊥ (fun c => (l ⟨k, hk⟩ c : EReal))) = (M' : EReal) := by
      rw [hr]; exact hM'
    -- the old denominator, rescaled
    have hresc : s.l * Ideal.exp (s.m - (M' : EReal))
        = ((∑ i ∈ pre n k, ∑ c, Real.exp (l i c - M') * κ i c : ℝ) : EReal) := by
      rcases Nat.eq_zero_or_pos k with hk0 | hk0
      · subst hk0
        rw [hl, pre_zero, Finset.sum_empty, Finset.sum_empty, EReal.coe_zero, zero_mul]
      · rw [hl, hM hk0, ← EReal.coe_sub, Ideal.exp_coe, ← EReal.coe_mul]
        congr 1
        rw [Finset.sum_mul]
        refine Finset.sum_congr rfl (fun i _ => ?_)
        rw [Finset.sum_mul]
        refine Finset.sum_congr rfl (fun c _ => ?_)
        rw [mul_right_comm, ← Real.exp_add]
        congr 2; ring
    -- the block's own terms
    have hblock : ∑ c, Ideal.exp ((l ⟨k, hk⟩ c : EReal) - (M' : EReal)) * (κ ⟨k, hk⟩ c : EReal)
        = ((∑ c, Real.exp (l ⟨k, hk⟩ c - M') * κ ⟨k, hk⟩ c : ℝ) : EReal) := by
      rw [coe_sum]
      refine Finset.sum_congr rfl (fun c _ => ?_)
      rw [← EReal.coe_sub, Ideal.exp_coe, ← EReal.coe_mul]
    refine ⟨M', ?_, fun _ => ?_, ?_, ?_, ?_⟩
    · rw [step_m, pre_succ hk, Finset.sup_insert, ← hm, sup_comm]; rfl
    · rw [step_m]; exact hmax
    · rw [step_l _ _ _ _ _ hmax, hresc, hblock, pre_succ hk, Finset.sum_insert (not_mem_pre hk), EReal.coe_add, add_comm]
    · rw [step_A, hA, pre_succ hk, Finset.sum_insert (not_mem_pre hk), EReal.coe_add, add_comm,
        coe_sum Finset.univ (fun c => π ⟨k, hk⟩ c * l ⟨k, hk⟩ c)]
      congr 1
    · rw [step_D, hD, pre_succ hk, Finset.sum_insert (not_mem_pre hk), EReal.coe_add, add_comm,
        coe_sum Finset.univ (π ⟨k, hk⟩)]

/-! ## The result -/

/-- The blocked evaluation of a row of real logits over `n ≥ 1` nonempty blocks, with 0/1 masks `pos ≤ keep`, forms
    the row's sum over its positives and counts them. -/
theorem run_out {n : ℕ} {C : Type} [Fintype C] [Nonempty C] (hn : 0 < n) (L keep pos : Fin n → C → EReal)
    (hL : ∀ k c, ∃ r : ℝ, L k c = (r : EReal))
    (hkeep : ∀ k c, keep k c = 0 ∨ keep k c = 1) (hpos : ∀ k c, pos k c = 0 ∨ pos k c = 1)
    (himp : ∀ k c, pos k c = 1 → keep k c = 1) :
    out (run L keep pos n le_rfl)
        = Cert.Spec.rowNum (fun p : Fin n × C => L p.1 p.2) (fun p => keep p.1 p.2) (fun p => pos p.1 p.2)
      ∧ (run L keep pos n le_rfl).D = Cert.Spec.rowCnt (fun p : Fin n × C => pos p.1 p.2) := by
  choose l hl using hL
  have hkeep' : ∀ k c, ∃ r : ℝ, keep k c = (r : EReal) ∧ (r = 0 ∨ r = 1) := by
    intro k c
    rcases hkeep k c with h | h
    · exact ⟨0, by rw [h, EReal.coe_zero], Or.inl rfl⟩
    · exact ⟨1, by rw [h, EReal.coe_one], Or.inr rfl⟩
  have hpos' : ∀ k c, ∃ r : ℝ, pos k c = (r : EReal) ∧ (r = 0 ∨ r = 1) := by
    intro k c
    rcases hpos k c with h | h
    · exact ⟨0, by rw [h, EReal.coe_zero], Or.inl rfl⟩
    · exact ⟨1, by rw [h, EReal.coe_one], Or.inr rfl⟩
  choose κ hκ hκ01 using hkeep'
  choose π hπ hπ01 using hpos'
  obtain rfl : L = fun k c => (l k c : EReal) := funext fun k => funext fun c => hl k c
  obtain rfl : keep = fun k c => (κ k c : EReal) := funext fun k => funext fun c => hκ k c
  obtain rfl : pos = fun k c => (π k c : EReal) := funext fun k => funext fun c => hπ k c
  have hκ0 : ∀ p : Fin n × C, 0 ≤ κ p.1 p.2 := by
    intro p; rcases hκ01 p.1 p.2 with h | h <;> rw [h] <;> norm_num
  have hπκ : ∀ p : Fin n × C, π p.1 p.2 ≠ 0 → κ p.1 p.2 = 1 := by
    intro p hp
    have h1 : π p.1 p.2 = 1 := by rcases hπ01 p.1 p.2 with h | h; exact absurd h hp; exact h
    have h2 : ((κ p.1 p.2 : ℝ) : EReal) = 1 :=
      himp p.1 p.2 (show ((π p.1 p.2 : ℝ) : EReal) = 1 by rw [h1, EReal.coe_one])
    exact_mod_cast h2
  obtain ⟨M, hm, hM, hlq, hA, hD⟩ := run_real l κ π n le_rfl
  have hM := hM hn
  rw [pre_self] at hm hlq hA hD
  have hmax : Cert.Spec.rowMax (fun p : Fin n × C => (l p.1 p.2 : EReal)) = (M : EReal) := by
    rw [← hM, hm]
    show (Finset.univ : Finset (Fin n × C)).sup (fun p : Fin n × C => (l p.1 p.2 : EReal)) = _
    rw [← Finset.univ_product_univ, Finset.sup_product_left]
  have hden : Cert.Spec.rowDen (fun p : Fin n × C => (l p.1 p.2 : EReal)) (fun p => (κ p.1 p.2 : EReal))
      = ((∑ p : Fin n × C, Real.exp (l p.1 p.2 - M) * κ p.1 p.2 : ℝ) : EReal) := by
    unfold Cert.Spec.rowDen
    rw [hmax, coe_sum]
    refine Finset.sum_congr rfl (fun p _ => ?_)
    rw [← EReal.coe_sub, Ideal.exp_coe, ← EReal.coe_mul]
  have e1 : (∑ i, ∑ c, Real.exp (l i c - M) * κ i c) = ∑ p : Fin n × C, Real.exp (l p.1 p.2 - M) * κ p.1 p.2 :=
    (Fintype.sum_prod_type (fun p : Fin n × C => Real.exp (l p.1 p.2 - M) * κ p.1 p.2)).symm
  have e2 : (∑ i, ∑ c, π i c * l i c) = ∑ p : Fin n × C, π p.1 p.2 * l p.1 p.2 :=
    (Fintype.sum_prod_type (fun p : Fin n × C => π p.1 p.2 * l p.1 p.2)).symm
  have e3 : (∑ i, ∑ c, π i c) = ∑ p : Fin n × C, π p.1 p.2 :=
    (Fintype.sum_prod_type (fun p : Fin n × C => π p.1 p.2)).symm
  constructor
  · unfold out Cert.Spec.rowNum
    rw [hM, hlq, hA, hD, hmax, hden, e1, e2, e3]
    exact out_real (fun p : Fin n × C => l p.1 p.2) (fun p => κ p.1 p.2) (fun p => π p.1 p.2) M hκ0 hπκ
  · unfold Cert.Spec.rowCnt
    rw [hD, e3, coe_sum]

end Cert.Online

end
-- ==== Proof.LibSumBlocks.lean ====
/-
  The 6272 columns of a row as 7 blocks of 896: column `j = 896·a + b` is column `b` of block `a`. Sums and maxima
  over the columns are sums and maxima over the pairs `(a, b)`; so the blocked evaluation over 7 blocks of 896
  forms the row's sum over its positives and counts them.
-/
import proofs.«149911_j6408091205873_1_alg».proof.Proof.LibOnlineSoftmax

noncomputable section

namespace Cert.Online

open Idealize.ShloMosaic

/-- Column `b` of block `a`. -/
def col (a : Fin 7) (b : Fin 896) : Fin 6272 :=
  ⟨a.val * 896 + b.val, by have := a.isLt; have := b.isLt; omega⟩

/-- The pairs `(a, b)` and the columns `896·a + b`. -/
def blockEquiv : Fin 7 × Fin 896 ≃ Fin 6272 := finProdFinEquiv

theorem blockEquiv_apply (p : Fin 7 × Fin 896) : blockEquiv p = col p.1 p.2 := by
  apply Fin.ext
  show p.2.val + 896 * p.1.val = p.1.val * 896 + p.2.val
  omega

theorem sum_blocks (f : Fin 6272 → EReal) :
    ∑ j : Fin 6272, f j
      = ∑ p : Fin 7 × Fin 896, f ⟨p.1.val * 896 + p.2.val, by have := p.1.isLt; have := p.2.isLt; omega⟩ := by
  rw [← Equiv.sum_comp blockEquiv f]
  exact Finset.sum_congr rfl (fun p _ => congrArg f (blockEquiv_apply p))

theorem fold_max_blocks (f : Fin 6272 → EReal) :
    (Finset.univ : Finset (Fin 6272)).fold max ⊥ f
      = (Finset.univ : Finset (Fin 7 × Fin 896)).fold max ⊥
          (fun p => f ⟨p.1.val * 896 + p.2.val, by have := p.1.isLt; have := p.2.isLt; omega⟩) := by
  show (Finset.univ : Finset (Fin 6272)).sup f = (Finset.univ : Finset (Fin 7 × Fin 896)).sup _
  rw [← Finset.map_univ_equiv blockEquiv, Finset.sup_map]
  exact Finset.sup_congr rfl (fun p _ => congrArg f (blockEquiv_apply p))

/-- The row's sums do not see the arrangement of the columns in blocks. -/
theorem rowNum_blocks (L keep pos : Fin 6272 → EReal) :
    Cert.Spec.rowNum (fun p : Fin 7 × Fin 896 => L (col p.1 p.2)) (fun p => keep (col p.1 p.2)) (fun p => pos (col p.1 p.2))
      = Cert.Spec.rowNum L keep pos := by
  have hmax : Cert.Spec.rowMax (fun p : Fin 7 × Fin 896 => L (col p.1 p.2)) = Cert.Spec.rowMax L :=
    (fold_max_blocks L).symm
  have hden : Cert.Spec.rowDen (fun p : Fin 7 × Fin 896 => L (col p.1 p.2)) (fun p => keep (col p.1 p.2))
      = Cert.Spec.rowDen L keep := by
    unfold Cert.Spec.rowDen
    rw [hmax]
    exact (sum_blocks (fun j => Ideal.exp (L j - Cert.Spec.rowMax L) * keep j)).symm
  unfold Cert.Spec.rowNum
  rw [hmax, hden]
  exact (sum_blocks (fun j => pos j * ((L j - Cert.Spec.rowMax L) - Ideal.log (Cert.Spec.rowDen L keep)))).symm

theorem rowCnt_blocks (pos : Fin 6272 → EReal) :
    Cert.Spec.rowCnt (fun p : Fin 7 × Fin 896 => pos (col p.1 p.2)) = Cert.Spec.rowCnt pos :=
  (sum_blocks pos).symm

/-- The blocked evaluation of a row of 6272 real logits, 7 blocks of 896 columns, with 0/1 masks `pos ≤ keep`. -/
theorem run_out_6272 (L keep pos : Fin 6272 → EReal)
    (hL : ∀ j, ∃ r : ℝ, L j = (r : EReal))
    (hkeep : ∀ j, keep j = 0 ∨ keep j = 1) (hpos : ∀ j, pos j = 0 ∨ pos j = 1)
    (himp : ∀ j, pos j = 1 → keep j = 1) :
    out (run (n := 7) (C := Fin 896)
          (fun k c => L ⟨k.val * 896 + c.val, by have := k.isLt; have := c.isLt; omega⟩)
          (fun k c => keep ⟨k.val * 896 + c.val, by have := k.isLt; have := c.isLt; omega⟩)
          (fun k c => pos ⟨k.val * 896 + c.val, by have := k.isLt; have := c.isLt; omega⟩) 7 le_rfl)
        = Cert.Spec.rowNum L keep pos
      ∧ (run (n := 7) (C := Fin 896)
          (fun k c => L ⟨k.val * 896 + c.val, by have := k.isLt; have := c.isLt; omega⟩)
          (fun k c => keep ⟨k.val * 896 + c.val, by have := k.isLt; have := c.isLt; omega⟩)
          (fun k c => pos ⟨k.val * 896 + c.val, by have := k.isLt; have := c.isLt; omega⟩) 7 le_rfl).D
        = Cert.Spec.rowCnt pos := by
  have h := run_out (n := 7) (C := Fin 896) (by norm_num)
    (fun k c => L (col k c)) (fun k c => keep (col k c)) (fun k c => pos (col k c))
    (fun k c => hL _) (fun k c => hkeep _) (fun k c => hpos _) (fun k c => himp _)
  rw [rowNum_blocks, rowCnt_blocks] at h
  exact h

end Cert.Online

end
-- ==== Proof.KI.Reg1Blocks.lean ====
/- Region 1's input blocks at a point, in coordinates. The grid is 32 × 7; point t has coordinates (t / 7, t % 7).
   Windows 0 and 2 move along the first grid axis over the leading axis of their arrays; windows 1, 3 and 4 are
   their whole arrays at every point, and the body loads of them the slice of 896 consecutive rows or columns that
   starts at 896 times the second grid coordinate. -/
import proofs.«149911_j6408091205873_1_alg».proof.Proof.KI.Reg1Base
import proofs.«149911_j6408091205873_1_alg».proof.Proof.LibSumBlocks
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The grid's coordinates and the windows' block indices, decided over the grid -/

/-- A point is below the number of points, as a numeral. -/
theorem lt_N1 (t : Fin cfg1.N) : t.val < 224 := Nat.lt_of_lt_of_eq t.isLt N_1

/-- Point t's first coordinate is below 32. -/
theorem div7_lt (t : Fin cfg1.N) : t.val / 7 < 32 := by have := lt_N1 t; omega

/-- Point t's second coordinate is below 7. -/
theorem mod7_lt (t : Fin cfg1.N) : t.val % 7 < 7 := Nat.mod_lt _ (by decide)

/-- Point t has coordinates (t / 7, t % 7). -/
theorem coords1 : ∀ t : Fin cfg1.N, (grid1.coords t 0).val = t.val / 7 ∧ (grid1.coords t 1).val = t.val % 7 :=
  (by decide +kernel : ∀ t : Fin grid1.N, _)

/-- The printed index maps at a point: windows 0 and 2 are at block t / 7 of their leading axis and block 0 of the
    others; windows 1, 3 and 4 are at block 0 of both axes. -/
theorem idx_facts1 : ∀ t : Fin cfg1.N,
    win1_0.index t (0 : Fin 3) = t.val / 7 ∧ win1_0.index t (1 : Fin 3) = 0 ∧ win1_0.index t (2 : Fin 3) = 0
    ∧ win1_1.index t (0 : Fin 2) = 0 ∧ win1_1.index t (1 : Fin 2) = 0
    ∧ win1_2.index t (0 : Fin 3) = t.val / 7 ∧ win1_2.index t (1 : Fin 3) = 0 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

section Regions
variable (V : (c : Dev nD) → (b : Ref sig .tc) → Buf (Elt F) ((c : Thread nD τ).loc b))

/-! ## The blocks in coordinates -/

/-- Window 0's block at point t is slab t / 7 of its array. -/
theorem iblk1_0_apply (c : Dev nD) (t : Fin cfg1.N) (r : Fin 196) (q : Fin 256) :
    iblk1 V c 0 t (ix3 (0 : Fin 1) r q) = V c main_v2 (ix3 (⟨t.val / 7, div7_lt t⟩ : Fin 32) r q) := by
  obtain ⟨e0, e1, e2, -⟩ := idx_facts1 t
  show V c main_v2 (((cfg1.win 0).blk t).view.emb (ix3 (0 : Fin 1) r q)) = _
  refine congrArg (V c main_v2) (funext fun a => Fin.ext ?_)
  match a with
  | ⟨0, _⟩ => show win1_0.index t (0 : Fin 3) * 1 + 1 * 0 = t.val / 7; omega
  | ⟨1, _⟩ => show win1_0.index t (1 : Fin 3) * 196 + 1 * r.val = r.val; omega
  | ⟨2, _⟩ => show win1_0.index t (2 : Fin 3) * 256 + 1 * q.val = q.val; omega

/-- Window 2's block at point t is slab t / 7 of its array. -/
theorem iblk1_2_apply (c : Dev nD) (t : Fin cfg1.N) (r : Fin 196) :
    iblk1 V c 2 t (ix3 (0 : Fin 1) r (0 : Fin 1)) = V c main_v3 (ix3 (⟨t.val / 7, div7_lt t⟩ : Fin 32) r (0 : Fin 1)) := by
  obtain ⟨-, -, -, -, -, e0, e1, e2, -⟩ := idx_facts1 t
  show V c main_v3 (((cfg1.win 2).blk t).view.emb (ix3 (0 : Fin 1) r (0 : Fin 1))) = _
  refine congrArg (V c main_v3) (funext fun a => Fin.ext ?_)
  match a with
  | ⟨0, _⟩ => show win1_2.index t (0 : Fin 3) * 1 + 1 * 0 = t.val / 7; omega
  | ⟨1, _⟩ => show win1_2.index t (1 : Fin 3) * 196 + 1 * r.val = r.val; omega
  | ⟨2, _⟩ => show win1_2.index t (2 : Fin 3) * 1 + 1 * 0 = 0; omega

/-- Window 1's block at every point is its whole array. -/
theorem iblk1_1_eq (c : Dev nD) (t : Fin cfg1.N) : iblk1 V c 1 t = V c main_v1_0 := by
  obtain ⟨-, -, -, e0, e1, -⟩ := idx_facts1 t
  funext j
  show V c main_v1_0 (((cfg1.win 1).blk t).view.emb j) = V c main_v1_0 j
  refine congrArg (V c main_v1_0) (funext fun a => Fin.ext ?_)
  match a with
  | ⟨0, _⟩ => show win1_1.index t (0 : Fin 2) * 6272 + 1 * (j 0).val = (j 0).val; omega
  | ⟨1, _⟩ => show win1_1.index t (1 : Fin 2) * 256 + 1 * (j 1).val = (j 1).val; omega

/-- Window 3's block at every point is its whole array. -/
theorem iblk1_3_eq (c : Dev nD) (t : Fin cfg1.N) : iblk1 V c 3 t = V c main_v4 := by
  obtain ⟨-, -, -, -, -, -, -, -, e0, e1, -⟩ := idx_facts1 t
  funext j
  show V c main_v4 (((cfg1.win 3).blk t).view.emb j) = V c main_v4 j
  refine congrArg (V c main_v4) (funext fun a => Fin.ext ?_)
  match a with
  | ⟨0, _⟩ => show win1_3.index t (0 : Fin 2) * 1 + 1 * (j 0).val = (j 0).val; omega
  | ⟨1, _⟩ => show win1_3.index t (1 : Fin 2) * 6272 + 1 * (j 1).val = (j 1).val; omega

/-- Window 4's block at every point is its whole array. -/
theorem iblk1_4_eq (c : Dev nD) (t : Fin cfg1.N) : iblk1 V c 4 t = V c main_v5 := by
  obtain ⟨-, -, -, -, -, -, -, -, -, -, e0, e1⟩ := idx_facts1 t
  funext j
  show V c main_v5 (((cfg1.win 4).blk t).view.emb j) = V c main_v5 j
  refine congrArg (V c main_v5) (funext fun a => Fin.ext ?_)
  match a with
  | ⟨0, _⟩ => show win1_4.index t (0 : Fin 2) * 196 + 1 * (j 0).val = (j 0).val; omega
  | ⟨1, _⟩ => show win1_4.index t (1 : Fin 2) * 6272 + 1 * (j 1).val = (j 1).val; omega

/-- The three whole-array windows at an entry. -/
theorem iblk1_1_apply (c : Dev nD) (t : Fin cfg1.N) (i : Fin 6272) (q : Fin 256) :
    iblk1 V c 1 t (ix2 i q) = V c main_v1_0 (ix2 i q) := congrFun (iblk1_1_eq V c t) (ix2 i q)
theorem iblk1_3_apply (c : Dev nD) (t : Fin cfg1.N) (i : Fin 6272) :
    iblk1 V c 3 t (ix2 (0 : Fin 1) i) = V c main_v4 (ix2 (0 : Fin 1) i) := congrFun (iblk1_3_eq V c t) (ix2 (0 : Fin 1) i)
theorem iblk1_4_apply (c : Dev nD) (t : Fin cfg1.N) (r : Fin 196) (i : Fin 6272) :
    iblk1 V c 4 t (ix2 r i) = V c main_v5 (ix2 r i) := congrFun (iblk1_4_eq V c t) (ix2 r i)

end Regions

/-! ## The body's three slice loads of the resident windows -/

/-- The word product the kernel computes for the slice offset is 896 times the coordinate, for a coordinate below 7. -/
theorem off_word_val : ∀ n : Fin 7, (Scalar.indexCast (Scalar.muli (BitVec.ofNat 32 n.val) 896#32) : Index).toNat = 896 * n.val := by
  decide +kernel

/-- The three offsets, as vectors of naturals. -/
theorem k1_off1_eq (i : grid1.Coords) : k1_off1 i = ![896 * (i 1).val, 0] := by
  show ![(Scalar.indexCast (Scalar.muli (BitVec.ofNat 32 (i 1).val) 896#32) : Index).toNat, 0] = _
  rw [off_word_val (i 1)]
theorem k1_off2_eq (i : grid1.Coords) : k1_off2 i = ![0, 896 * (i 1).val] := by
  show ![0, (Scalar.indexCast (Scalar.muli (BitVec.ofNat 32 (i 1).val) 896#32) : Index).toNat] = _
  rw [off_word_val (i 1)]
theorem k1_off3_eq (i : grid1.Coords) : k1_off3 i = ![0, 896 * (i 1).val] := by
  show ![0, (Scalar.indexCast (Scalar.muli (BitVec.ofNat 32 (i 1).val) 896#32) : Index).toNat] = _
  rw [off_word_val (i 1)]

/-- A column index of a slice, in the resident array: below its extent. -/
theorem slice_lt (n : Fin 7) (cc : Fin 896) : 896 * n.val + cc.val < 6272 := by
  have h1 := n.isLt; have h2 := cc.isLt; omega

/-- The slice of 896 rows of the [6272, 256] window: entry (cc, q) is the window's entry (896 * j + cc, q). -/
theorem ld_off1 (i : grid1.Coords) (x1 : Vec F S6272x256 .f32) (cc : Fin 896) (q : Fin 256) :
    View.ld x1 (Rect.unit (s := S6272x256) (k1_off1 i) S896x256.size (Facts₀.k1_off1_inb i)) (ix2 cc q)
      = x1 (ix2 (⟨896 * (i 1).val + cc.val, slice_lt (i 1) cc⟩ : Fin 6272) q) := by
  show x1 ((Rect.unit (s := S6272x256) (k1_off1 i) S896x256.size (Facts₀.k1_off1_inb i)).emb (ix2 cc q)) = _
  refine congrArg x1 (funext fun a => Fin.ext ?_)
  have e := k1_off1_eq i
  match a with
  | ⟨0, _⟩ => show k1_off1 i 0 + 1 * cc.val = 896 * (i 1).val + cc.val; rw [e]; show 896 * (i 1).val + 1 * cc.val = _; omega
  | ⟨1, _⟩ => show k1_off1 i 1 + 1 * q.val = q.val; rw [e]; show 0 + 1 * q.val = q.val; omega

/-- The slice of 896 columns of the [1, 6272] window. -/
theorem ld_off2 (i : grid1.Coords) (x3 : Vec F S1x6272 .f32) (cc : Fin 896) :
    View.ld x3 (Rect.unit (s := S1x6272) (k1_off2 i) S1x896.size (Facts₀.k1_off2_inb i)) (ix2 (0 : Fin 1) cc)
      = x3 (ix2 (0 : Fin 1) (⟨896 * (i 1).val + cc.val, slice_lt (i 1) cc⟩ : Fin 6272)) := by
  show x3 ((Rect.unit (s := S1x6272) (k1_off2 i) S1x896.size (Facts₀.k1_off2_inb i)).emb (ix2 (0 : Fin 1) cc)) = _
  refine congrArg x3 (funext fun a => Fin.ext ?_)
  have e := k1_off2_eq i
  match a with
  | ⟨0, _⟩ => show k1_off2 i 0 + 1 * 0 = 0; rw [e]; rfl
  | ⟨1, _⟩ => show k1_off2 i 1 + 1 * cc.val = 896 * (i 1).val + cc.val; rw [e]; show 896 * (i 1).val + 1 * cc.val = _; omega

/-- The slice of 896 columns of the [196, 6272] window. -/
theorem ld_off3 (i : grid1.Coords) (x4 : Vec F S196x6272 .f32) (r : Fin 196) (cc : Fin 896) :
    View.ld x4 (Rect.unit (s := S196x6272) (k1_off3 i) S196x896.size (Facts₀.k1_off3_inb i)) (ix2 r cc)
      = x4 (ix2 r (⟨896 * (i 1).val + cc.val, slice_lt (i 1) cc⟩ : Fin 6272)) := by
  show x4 ((Rect.unit (s := S196x6272) (k1_off3 i) S196x896.size (Facts₀.k1_off3_inb i)).emb (ix2 r cc)) = _
  refine congrArg x4 (funext fun a => Fin.ext ?_)
  have e := k1_off3_eq i
  match a with
  | ⟨0, _⟩ => show k1_off3 i 0 + 1 * r.val = r.val; rw [e]; show 0 + 1 * r.val = r.val; omega
  | ⟨1, _⟩ => show k1_off3 i 1 + 1 * cc.val = 896 * (i 1).val + cc.val; rw [e]; show 896 * (i 1).val + 1 * cc.val = _; omega

/-! ## The same three loads at a point's coordinates, with the second coordinate written t % 7 -/

/-- A column index of a slice at point t, in the resident array: below its extent. -/
theorem slice_lt_pt (t : Fin cfg1.N) (cc : Fin 896) : 896 * (t.val % 7) + cc.val < 6272 := by
  have h1 := mod7_lt t; have h2 := cc.isLt; omega

theorem ld_off1_pt (t : Fin cfg1.N) (x1 : Vec F S6272x256 .f32) (cc : Fin 896) (q : Fin 256) :
    View.ld x1 (Rect.unit (s := S6272x256) (k1_off1 (grid1.coords t)) S896x256.size (Facts₀.k1_off1_inb (grid1.coords t))) (ix2 cc q)
      = x1 (ix2 (⟨896 * (t.val % 7) + cc.val, slice_lt_pt t cc⟩ : Fin 6272) q) := by
  rw [ld_off1]
  exact congrArg (fun z => x1 (ix2 z q)) (Fin.ext (by show 896 * (grid1.coords t 1).val + cc.val = _; rw [(coords1 t).2]))

theorem ld_off2_pt (t : Fin cfg1.N) (x3 : Vec F S1x6272 .f32) (cc : Fin 896) :
    View.ld x3 (Rect.unit (s := S1x6272) (k1_off2 (grid1.coords t)) S1x896.size (Facts₀.k1_off2_inb (grid1.coords t))) (ix2 (0 : Fin 1) cc)
      = x3 (ix2 (0 : Fin 1) (⟨896 * (t.val % 7) + cc.val, slice_lt_pt t cc⟩ : Fin 6272)) := by
  rw [ld_off2]
  exact congrArg (fun z => x3 (ix2 (0 : Fin 1) z)) (Fin.ext (by show 896 * (grid1.coords t 1).val + cc.val = _; rw [(coords1 t).2]))

theorem ld_off3_pt (t : Fin cfg1.N) (x4 : Vec F S196x6272 .f32) (r : Fin 196) (cc : Fin 896) :
    View.ld x4 (Rect.unit (s := S196x6272) (k1_off3 (grid1.coords t)) S196x896.size (Facts₀.k1_off3_inb (grid1.coords t))) (ix2 r cc)
      = x4 (ix2 r (⟨896 * (t.val % 7) + cc.val, slice_lt_pt t cc⟩ : Fin 6272)) := by
  rw [ld_off3]
  exact congrArg (fun z => x4 (ix2 r z)) (Fin.ext (by show 896 * (grid1.coords t 1).val + cc.val = _; rw [(coords1 t).2]))

/-! ## The same three loads with the column written as column cc of block t % 7 -/

/-- Point t's second coordinate, as an index of the seven blocks of columns. -/
abbrev blkOf (t : Fin cfg1.N) : Fin 7 := ⟨t.val % 7, mod7_lt t⟩

/-- Column cc of block t % 7 is 896 * (t % 7) + cc. -/
theorem col_pt (t : Fin cfg1.N) (cc : Fin 896) :
    (⟨896 * (t.val % 7) + cc.val, slice_lt_pt t cc⟩ : Fin 6272) = Cert.Online.col (blkOf t) cc :=
  Fin.ext (by show 896 * (t.val % 7) + cc.val = (t.val % 7) * 896 + cc.val; omega)

theorem ld_off1_col (t : Fin cfg1.N) (x1 : Vec F S6272x256 .f32) (cc : Fin 896) (q : Fin 256) :
    View.ld x1 (Rect.unit (s := S6272x256) (k1_off1 (grid1.coords t)) S896x256.size (Facts₀.k1_off1_inb (grid1.coords t))) (ix2 cc q)
      = x1 (ix2 (Cert.Online.col (blkOf t) cc) q) :=
  (ld_off1_pt t x1 cc q).trans (congrArg (fun z => x1 (ix2 z q)) (col_pt t cc))

theorem ld_off2_col (t : Fin cfg1.N) (x3 : Vec F S1x6272 .f32) (cc : Fin 896) :
    View.ld x3 (Rect.unit (s := S1x6272) (k1_off2 (grid1.coords t)) S1x896.size (Facts₀.k1_off2_inb (grid1.coords t))) (ix2 (0 : Fin 1) cc)
      = x3 (ix2 (0 : Fin 1) (Cert.Online.col (blkOf t) cc)) :=
  (ld_off2_pt t x3 cc).trans (congrArg (fun z => x3 (ix2 (0 : Fin 1) z)) (col_pt t cc))

theorem ld_off3_col (t : Fin cfg1.N) (x4 : Vec F S196x6272 .f32) (r : Fin 196) (cc : Fin 896) :
    View.ld x4 (Rect.unit (s := S196x6272) (k1_off3 (grid1.coords t)) S196x896.size (Facts₀.k1_off3_inb (grid1.coords t))) (ix2 r cc)
      = x4 (ix2 r (Cert.Online.col (blkOf t) cc)) :=
  (ld_off3_pt t x4 r cc).trans (congrArg (fun z => x4 (ix2 r z)) (col_pt t cc))

end Cert.KernelIdeal.Fr

end
-- ==== Proof.KI.Pay1A.lean ====
/-
  The four numbers a row carries from one block of columns to the next, read at the row: the values the main
  kernel stores into its four column buffers are one step of the running form on the values it loaded from them;
  the values it stores at a row's first block are the running form's start; and what it writes out at a row's last
  block is what the running form forms at the end.
-/
import proofs.«149911_j6408091205873_1_alg».proof.Proof.Gen.KernelIdeal.Skeleton
import proofs.«149911_j6408091205873_1_alg».proof.Proof.SpecArgs
import proofs.«149911_j6408091205873_1_alg».proof.Proof.LibKeepdims
import proofs.«149911_j6408091205873_1_alg».proof.Proof.LibRank3
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-- The word of `-∞` is the bottom of the extended reals. -/
theorem ofBits_neg_inf : Ideal.ofBits .f32 0xFF800000#32 = (⊥ : EReal) := by
  simp [Ideal.ofBits, Ideal.ieee]

/-- The raised maximum at row `r`: the larger of the carried one and the block's. -/
theorem pay14_apply (v41 : FVec Ideal S196 .f32) (m : Vec Ideal S196x1 .f32) (r : Fin 196) :
    k1_pay14 (F := Ideal) v41 m (ix2 r 0) = max (m (ix2 r 0)) (v41 (ix1 r)) := by
  unfold k1_pay14
  exact congrArg (max (m (ix2 r 0))) (Cert.LibKeepdims.shapeCast_a_a1_apply v41 _ r 0)

theorem pay15_apply (v41 : FVec Ideal S196 .f32) (m : Vec Ideal S196x1 .f32) (r : Fin 196) :
    k1_pay15 (F := Ideal) v41 m (ix2 r 0) = max (m (ix2 r 0)) (v41 (ix1 r)) := by
  unfold k1_pay15
  rw [shapeCast_self]
  exact pay14_apply v41 m r

theorem pay16_apply (v21 v39 : FVec Ideal S196x896 .f32) (v41 : FVec Ideal S196 .f32) (m l : Vec Ideal S196x1 .f32) (r : Fin 196) :
    k1_pay16 (F := Ideal) v21 v39 v41 m l (ix2 r 0)
      = l (ix2 r 0) * Ideal.exp (m (ix2 r 0) - max (m (ix2 r 0)) (v41 (ix1 r)))
        + ∑ c : Fin 896, Ideal.exp (v21 (ix2 r c) - max (m (ix2 r 0)) (v41 (ix1 r))) * v39 (ix2 r c) := by
  unfold k1_pay16
  rw [shapeCast_self]
  refine congrArg₂ (· + ·) (congrArg (fun t => l (ix2 r 0) * Ideal.exp (m (ix2 r 0) - t)) (pay14_apply v41 m r)) ?_
  refine (Cert.LibKeepdims.shapeCast_a_a1_apply _ _ r 0).trans ?_
  refine (Cert.LibRank3.sum_last2 _ _ _ _ _ r).trans ?_
  refine Finset.sum_congr rfl fun c _ => ?_
  refine congrArg (fun t => Ideal.exp (v21 (ix2 r c) - t) * v39 (ix2 r c)) ?_
  exact (Cert.LibKeepdims.broadcastTo_a1_ab_apply _ _ r c).trans (pay14_apply v41 m r)

theorem pay17_apply (v21 v40 : FVec Ideal S196x896 .f32) (A : Vec Ideal S196x1 .f32) (r : Fin 196) :
    k1_pay17 (F := Ideal) v21 v40 A (ix2 r 0) = A (ix2 r 0) + ∑ c : Fin 896, v40 (ix2 r c) * v21 (ix2 r c) := by
  unfold k1_pay17
  rw [shapeCast_self]
  refine congrArg (A (ix2 r 0) + ·) ?_
  refine (Cert.LibKeepdims.shapeCast_a_a1_apply _ _ r 0).trans ?_
  exact Cert.LibRank3.sum_last2 _ _ _ _ _ r

theorem pay18_apply (v40 : FVec Ideal S196x896 .f32) (D : Vec Ideal S196x1 .f32) (r : Fin 196) :
    k1_pay18 (F := Ideal) v40 D (ix2 r 0) = D (ix2 r 0) + ∑ c : Fin 896, v40 (ix2 r c) := by
  unfold k1_pay18
  rw [shapeCast_self]
  refine congrArg (D (ix2 r 0) + ·) ?_
  refine (Cert.LibKeepdims.shapeCast_a_a1_apply _ _ r 0).trans ?_
  exact Cert.LibRank3.sum_last2 _ _ _ _ _ r

/-- The four stored values at row `r` are one step of the running form on the four loaded ones. -/
theorem step_apply (m l A D : Vec Ideal S196x1 .f32) (v21 v39 v40 : FVec Ideal S196x896 .f32) (v41 : FVec Ideal S196 .f32)
    (hv41 : ∀ r : Fin 196, v41 (ix1 r) = (Finset.univ : Finset (Fin 896)).fold max ⊥ (fun c => v21 (ix2 r c))) (r : Fin 196) :
    (⟨k1_pay15 (F := Ideal) v41 m (ix2 r 0), k1_pay16 (F := Ideal) v21 v39 v41 m l (ix2 r 0),
      k1_pay17 (F := Ideal) v21 v40 A (ix2 r 0), k1_pay18 (F := Ideal) v40 D (ix2 r 0)⟩ : Cert.Online.St)
      = Cert.Online.step ⟨m (ix2 r 0), l (ix2 r 0), A (ix2 r 0), D (ix2 r 0)⟩
          (fun c => v21 (ix2 r c)) (fun c => v39 (ix2 r c)) (fun c => v40 (ix2 r c)) := by
  rw [pay15_apply, pay16_apply, pay17_apply, pay18_apply, hv41 r]
  rfl

/-- The values stored at a row's first block are the running form's start. -/
theorem init_apply (r : Fin 196) :
    (⟨k1_pay3 (F := Ideal) (ix2 r 0), k1_pay4 (F := Ideal) (ix2 r 0), k1_pay5 (F := Ideal) (ix2 r 0),
      k1_pay6 (F := Ideal) (ix2 r 0)⟩ : Cert.Online.St) = Cert.Online.init := by
  unfold k1_pay3 k1_pay4 k1_pay5 k1_pay6
  simp only [shapeCast_self, broadcast_apply]
  show (⟨Ideal.ofBits .f32 0xFF800000#32, Ideal.ofBits .f32 0x00000000#32, Ideal.ofBits .f32 0x00000000#32,
    Ideal.ofBits .f32 0x00000000#32⟩ : Cert.Online.St) = _
  rw [ofBits_neg_inf, Ideal.ofBits_zero_f32]
  rfl

/-- What is written out at a row's last block. -/
theorem out_apply (m l A D : Vec Ideal S196x1 .f32) (r : Fin 196) :
    k1_pay1 (F := Ideal) A m D l D (ix3 0 r 0) = Cert.Online.out ⟨m (ix2 r 0), l (ix2 r 0), A (ix2 r 0), D (ix2 r 0)⟩ := by
  unfold k1_pay1
  exact shapeCast_ab_1ab_apply _ _ 0 r 0

theorem out2_apply (D : Vec Ideal S196x1 .f32) (r : Fin 196) :
    k1_pay2 (F := Ideal) D (ix3 0 r 0) = D (ix2 r 0) := by
  unfold k1_pay2
  exact shapeCast_ab_1ab_apply _ _ 0 r 0

end Cert.KernelIdeal.Val

end
-- ==== Proof.KI.Pay1B.lean ====
/-
  The similarities of a block, the logits, and the block's largest logit of a row, read at an entry: the product of
  the rows' block with the transposed block of all rows is, at row `r` and column `c`, the inner product of row `r`
  with row `c`; the logits are these times the inverse temperature; the maximum over the block's columns is the
  fold of `max` from `-∞`.
-/
import proofs.«149911_j6408091205873_1_alg».proof.Proof.Gen.KernelIdeal.Skeleton
import proofs.«149911_j6408091205873_1_alg».proof.Proof.SpecArgs
import proofs.«149911_j6408091205873_1_alg».proof.Proof.KI.Pay1A
import proofs.«149911_j6408091205873_1_alg».proof.Proof.LibKeepdims
import proofs.«149911_j6408091205873_1_alg».proof.Proof.LibRank3
import proofs.«149911_j6408091205873_1_alg».proof.Proof.LibPlainDot
import Idealize.ShloMosaic.PureOps.IdealRules
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-- The similarity of row `r` of the batch's rows with row `c` of the block. -/
theorem pay7_apply (x0 : Vec Ideal S1x196x256 .f32) (v10 : Vec Ideal S896x256 .f32) (r : Fin 196) (c : Fin 896) :
    k1_pay7 (F := Ideal) x0 v10 (ix2 r c) = ∑ q : Fin 256, x0 (ix3 0 r q) * v10 (ix2 c q) := by
  unfold k1_pay7
  rw [shapeCast_self]
  refine (Cert.PlainDot.matmul_zero_ix2 _ rfl none _ _ r c).trans ?_
  refine Finset.sum_congr rfl fun q _ => ?_
  exact congrArg₂ (· * ·) (shapeCast_1ab_ab_apply x0 _ r q) (transpose_ix2_apply v10 _ q c)

/-- The named inverse temperature denotes the rational of the certificate's table. -/
theorem inv_temp : Named.named (F := Ideal) κ "inv_temp" (φ := .f32) 0x41649249#32 = Cert.Spec.kappa :=
  IdealRules.named_const.ideal_named_scalar _ _ _ _ rfl

/-- The logit: the similarity times the inverse temperature. -/
theorem pay8_apply (x0 : Vec Ideal S1x196x256 .f32) (v10 : Vec Ideal S896x256 .f32) (r : Fin 196) (c : Fin 896) :
    k1_pay8 (F := Ideal) x0 v10 (ix2 r c) = (∑ q : Fin 256, x0 (ix3 0 r q) * v10 (ix2 c q)) * Cert.Spec.kappa := by
  unfold k1_pay8
  exact congrArg₂ (· * ·) (pay7_apply x0 v10 r c) inv_temp

/-- The largest logit of row `r` over the block's columns. -/
theorem pay13_apply (x0 : Vec Ideal S1x196x256 .f32) (v10 : Vec Ideal S896x256 .f32) (r : Fin 196) :
    k1_pay13 (F := Ideal) x0 v10 (ix1 r)
      = (Finset.univ : Finset (Fin 896)).fold max ⊥ (fun c => k1_pay8 (F := Ideal) x0 v10 (ix2 r c)) := by
  unfold k1_pay13
  refine (Cert.LibRank3.max_last2 _ _ _ _ _ r).trans ?_
  rw [ofBits_neg_inf]

end Cert.KernelIdeal.Val

end
-- ==== Proof.KI.Pay1C.lean ====
/-
  The two 0/1 masks of a block read at an entry: the mask of the columns other than the row's own (the block's
  column number, offset by 896 times the block's number, differs from the row's number) and the mask of the hits
  (the similarity exceeds the row's threshold or the column's); and the two products the running sums take them in.
-/
import proofs.«149911_j6408091205873_1_alg».proof.Proof.Gen.KernelIdeal.Skeleton
import proofs.«149911_j6408091205873_1_alg».proof.Proof.SpecArgs
import proofs.«149911_j6408091205873_1_alg».proof.Proof.KI.Pay1B
import proofs.«149911_j6408091205873_1_alg».proof.Proof.LibKeepdims
import proofs.«149911_j6408091205873_1_alg».proof.Proof.LibRank3
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-- The number 1 or 0 of a proposition does not depend on how the proposition is decided or spelt. -/
theorem ind_congr {p q : Prop} [Decidable p] [Decidable q] (h : p ↔ q) : Cert.Spec.ind p = Cert.Spec.ind q := by
  unfold Cert.Spec.ind
  by_cases hp : p
  · rw [if_pos hp, if_pos (h.1 hp)]
  · rw [if_neg hp, if_neg (fun hq => hp (h.2 hq))]

/-- A one-bit word widened to 32 bits and read as a signed integer is the number 1 or 0. -/
theorem bit_toEReal (b : Bool) :
    (((((BitVec.ofBool b).setWidth 32).toInt : ℤ) : ℝ) : EReal) = Cert.Spec.ind (b = true) := by
  cases b
  · have h : ((BitVec.ofBool false).setWidth 32).toInt = 0 := by decide
    rw [h]; simp [Cert.Spec.ind]
  · have h : ((BitVec.ofBool true).setWidth 32).toInt = 1 := by decide
    rw [h]; simp [Cert.Spec.ind]

/-- Below the seventh block nothing wraps in 32 bits: the words differ exactly when the numbers do. -/
theorem ne_words (a : ℕ) (ha : a < 7) (r : Fin 196) (c : Fin 896) :
    ((BitVec.ofNat 32 c.val + BitVec.ofNat 32 a * 896#32 != BitVec.ofNat 32 r.val) = true) ↔ c.val + 896 * a ≠ r.val := by
  rw [bne_iff_ne, Ne, Ne, ← BitVec.toNat_inj]
  simp only [BitVec.toNat_add, BitVec.toNat_mul, BitVec.toNat_ofNat, Nat.reducePow]
  have := r.isLt
  have := c.isLt
  omega

/-- The mask of the columns other than the row's own. -/
theorem pay9_apply (i : grid1.Coords) (r : Fin 196) (c : Fin 896) :
    k1_pay9 (F := Ideal) i (ix2 r c) = Cert.Spec.ind (c.val + 896 * (i 1).val ≠ r.val) := by
  have hi : (i 1).val < 7 := (i 1).isLt
  have h26 : broadcastTo S196x896 (addi (iota .tc S1x896 32 [1] iota_S1x896_d1_w32)
        (broadcast S1x896 (Scalar.muli (BitVec.ofNat 32 (i 1).val) 896#32))) broadcasts_S1x896_S196x896 (ix2 r c)
      = BitVec.ofNat 32 c.val + BitVec.ofNat 32 (i 1).val * 896#32 := by
    refine (broadcastTo_1b_ab_apply _ _ r c).trans ?_
    exact congrArg (· + BitVec.ofNat 32 (i 1).val * 896#32) (iota_single_apply .tc S1x896 32 1 iota_S1x896_d1_w32 (ix2 0 c))
  have h27 : broadcastTo S196x896 (iota .tc S196x1 32 [0] iota_S196x1_d0_w32) broadcasts_S196x1_S196x896 (ix2 r c)
      = BitVec.ofNat 32 r.val := by
    refine (Cert.LibKeepdims.broadcastTo_a1_ab_apply _ _ r c).trans ?_
    exact iota_single_apply .tc S196x1 32 0 iota_S196x1_d0_w32 (ix2 r 0)
  unfold k1_pay9
  show (((((IntOp.cmpi .ne (broadcastTo S196x896 (addi (iota .tc S1x896 32 [1] iota_S1x896_d1_w32)
        (broadcast S1x896 (Scalar.muli (BitVec.ofNat 32 (i 1).val) 896#32))) broadcasts_S1x896_S196x896 (ix2 r c))
      (broadcastTo S196x896 (iota .tc S196x1 32 [0] iota_S196x1_d0_w32) broadcasts_S196x1_S196x896 (ix2 r c))).setWidth 32).toInt : ℤ) : ℝ) : EReal) = _
  rw [h26, h27]
  exact (bit_toEReal _).trans (ind_congr (ne_words (i 1).val hi r c))

open Classical in
/-- The mask of the hits. -/
theorem pay10_apply (x0 : Vec Ideal S1x196x256 .f32) (x2 : Vec Ideal S1x196x1 .f32) (v10 : Vec Ideal S896x256 .f32)
    (v13 : Vec Ideal S1x896 .f32) (r : Fin 196) (c : Fin 896) :
    k1_pay10 (F := Ideal) x0 x2 v10 v13 (ix2 r c)
      = Cert.Spec.ind (x2 (ix3 0 r 0) < k1_pay7 (F := Ideal) x0 v10 (ix2 r c) ∨ v13 (ix2 0 c) < k1_pay7 (F := Ideal) x0 v10 (ix2 r c)) := by
  have h31 : broadcastTo S196x896 (shapeCast S196x1 x2 shapeCasts_S1x196x1_S196x1) broadcasts_S196x1_S196x896 (ix2 r c)
      = x2 (ix3 0 r 0) :=
    (Cert.LibKeepdims.broadcastTo_a1_ab_apply _ _ r c).trans (shapeCast_1ab_ab_apply x2 _ r 0)
  have h33 : broadcastTo S196x896 (shapeCast S1x896 v13 shapeCasts_S1x896_S1x896) broadcasts_S1x896_S196x896 (ix2 r c)
      = v13 (ix2 0 c) := by
    rw [shapeCast_self]
    exact broadcastTo_1b_ab_apply _ _ r c
  unfold k1_pay10
  show (((((IntOp.ori
        (Ideal.cmp .olt (broadcastTo S196x896 (shapeCast S196x1 x2 shapeCasts_S1x196x1_S196x1) broadcasts_S196x1_S196x896 (ix2 r c))
          (k1_pay7 (F := Ideal) x0 v10 (ix2 r c)))
        (Ideal.cmp .olt (broadcastTo S196x896 (shapeCast S1x896 v13 shapeCasts_S1x896_S1x896) broadcasts_S1x896_S196x896 (ix2 r c))
          (k1_pay7 (F := Ideal) x0 v10 (ix2 r c)))).setWidth 32).toInt : ℤ) : ℝ) : EReal) = _
  rw [h31, h33]
  have hor : ∀ a b : Bool, IntOp.ori (BitVec.ofBool a) (BitVec.ofBool b) = BitVec.ofBool (a || b) := by decide
  show (((((IntOp.ori (BitVec.ofBool (decide (x2 (ix3 0 r 0) < k1_pay7 (F := Ideal) x0 v10 (ix2 r c))))
      (BitVec.ofBool (decide (v13 (ix2 0 c) < k1_pay7 (F := Ideal) x0 v10 (ix2 r c))))).setWidth 32).toInt : ℤ) : ℝ) : EReal) = _
  rw [hor]
  refine (bit_toEReal _).trans (ind_congr ?_)
  rw [Bool.or_eq_true, decide_eq_true_eq, decide_eq_true_eq]

/-- The hits among the columns other than the row's own. -/
theorem pay12_apply (i : grid1.Coords) (x0 : Vec Ideal S1x196x256 .f32) (x2 : Vec Ideal S1x196x1 .f32) (v10 : Vec Ideal S896x256 .f32)
    (v13 : Vec Ideal S1x896 .f32) (r : Fin 196) (c : Fin 896) :
    k1_pay12 (F := Ideal) i x0 x2 v10 v13 (ix2 r c)
      = k1_pay10 (F := Ideal) x0 x2 v10 v13 (ix2 r c) * k1_pay9 (F := Ideal) i (ix2 r c) := by
  unfold k1_pay12
  rfl

/-- The columns kept in the denominator: other than the row's own, and a hit or marked in the fifth argument's block. -/
theorem pay11_apply (i : grid1.Coords) (x0 : Vec Ideal S1x196x256 .f32) (x2 : Vec Ideal S1x196x1 .f32) (v10 : Vec Ideal S896x256 .f32)
    (v13 : Vec Ideal S1x896 .f32) (v16 : Vec Ideal S196x896 .f32) (r : Fin 196) (c : Fin 896) :
    k1_pay11 (F := Ideal) i x0 x2 v10 v13 v16 (ix2 r c)
      = k1_pay9 (F := Ideal) i (ix2 r c) * max (k1_pay10 (F := Ideal) x0 x2 v10 v13 (ix2 r c)) (v16 (ix2 r c)) := by
  unfold k1_pay11
  rw [shapeCast_self]
  rfl

end Cert.KernelIdeal.Val

end
-- ==== Proof.KI.Pay1D.lean ====
/-
  One block of columns of one batch in the specification's terms. When the rows the kernel loaded at a point are
  the unit rows of batch `b` and of column block `k`, the two threshold vectors the thresholds of those rows, and the
  fifth argument's block the neglect mask's, then at row `r` and column `c` of the block the logit, the mask of the
  kept columns and the mask of the positives are the specification's at row `196·b + r` and column `896·k + c`.
-/
import proofs.«149911_j6408091205873_1_alg».proof.Proof.Gen.KernelIdeal.Skeleton
import proofs.«149911_j6408091205873_1_alg».proof.Proof.SpecArgs
import proofs.«149911_j6408091205873_1_alg».proof.Proof.LibSumBlocks
import proofs.«149911_j6408091205873_1_alg».proof.Proof.KI.Pay1C
import proofs.«149911_j6408091205873_1_alg».proof.Proof.LibKeepdims
import proofs.«149911_j6408091205873_1_alg».proof.Proof.LibRank3
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

section Point

variable (zn : Fin 6272 → Fin 256 → EReal) (rp : Fin 6272 → EReal) (g : Fin 196 → Fin 6272 → EReal)
  (b : Fin 32) (k : Fin 7) (r : Fin 196)

/-- The similarity at `(r, c)` of the block is the similarity of row `196·b + r` with row `896·k + c`. -/
theorem point_sim (x0 : Vec Ideal S1x196x256 .f32) (v10 : Vec Ideal S896x256 .f32)
    (h0 : ∀ q : Fin 256, x0 (ix3 0 r q) = zn (Cert.Spec.rowOf b r) q)
    (h10 : ∀ (c : Fin 896) (q : Fin 256), v10 (ix2 c q) = zn (Cert.Online.col k c) q) (c : Fin 896) :
    k1_pay7 (F := Ideal) x0 v10 (ix2 r c) = Cert.Spec.dotRows zn zn (Cert.Spec.rowOf b r) (Cert.Online.col k c) :=
  (pay7_apply x0 v10 r c).trans (Finset.sum_congr rfl fun q _ => congrArg₂ (· * ·) (h0 q) (h10 c q))

/-- The logit. -/
theorem point_logit (x0 : Vec Ideal S1x196x256 .f32) (v10 : Vec Ideal S896x256 .f32)
    (h0 : ∀ q : Fin 256, x0 (ix3 0 r q) = zn (Cert.Spec.rowOf b r) q)
    (h10 : ∀ (c : Fin 896) (q : Fin 256), v10 (ix2 c q) = zn (Cert.Online.col k c) q) (c : Fin 896) :
    k1_pay8 (F := Ideal) x0 v10 (ix2 r c)
      = Cert.Spec.logit Cert.Spec.kappa (Cert.Spec.dotRows zn zn) (Cert.Spec.rowOf b r) (Cert.Online.col k c) :=
  (pay8_apply x0 v10 r c).trans
    (congrArg (· * Cert.Spec.kappa) (Finset.sum_congr rfl fun q _ => congrArg₂ (· * ·) (h0 q) (h10 c q)))

/-- The mask of the columns other than the row's own. -/
theorem point_off (i : grid1.Coords) (hi : (i 1).val = k.val) (c : Fin 896) :
    k1_pay9 (F := Ideal) i (ix2 r c) = Cert.Spec.off (Cert.Spec.rowOf b r) (Cert.Online.col k c) := by
  refine (pay9_apply i r c).trans (ind_congr ?_)
  show c.val + 896 * (i 1).val ≠ r.val ↔ k.val * 896 + c.val ≠ (b.val * 196 + r.val) % 196
  have := r.isLt
  rw [hi]
  omega

/-- The mask of the hits. -/
theorem point_hit (x0 : Vec Ideal S1x196x256 .f32) (x2 : Vec Ideal S1x196x1 .f32) (v10 : Vec Ideal S896x256 .f32)
    (v13 : Vec Ideal S1x896 .f32)
    (h0 : ∀ q : Fin 256, x0 (ix3 0 r q) = zn (Cert.Spec.rowOf b r) q)
    (h10 : ∀ (c : Fin 896) (q : Fin 256), v10 (ix2 c q) = zn (Cert.Online.col k c) q)
    (h2 : x2 (ix3 0 r 0) = rp (Cert.Spec.rowOf b r)) (h13 : ∀ c : Fin 896, v13 (ix2 0 c) = rp (Cert.Online.col k c)) (c : Fin 896) :
    k1_pay10 (F := Ideal) x0 x2 v10 v13 (ix2 r c)
      = Cert.Spec.hit (Cert.Spec.dotRows zn zn) rp (Cert.Spec.rowOf b r) (Cert.Online.col k c) := by
  refine (pay10_apply x0 x2 v10 v13 r c).trans ?_
  unfold Cert.Spec.hit
  refine ind_congr ?_
  rw [h2, h13 c, point_sim zn b k r x0 v10 h0 h10 c]

/-- The row's position inside its batch. -/
theorem lrow_rowOf : Cert.Spec.lrow (Cert.Spec.rowOf b r) = r :=
  Fin.ext (by
    show (b.val * 196 + r.val) % 196 = r.val
    have := r.isLt
    omega)

/-- The mask of the columns kept in the denominator. -/
theorem point_keep (i : grid1.Coords) (hi : (i 1).val = k.val)
    (x0 : Vec Ideal S1x196x256 .f32) (x2 : Vec Ideal S1x196x1 .f32) (v10 : Vec Ideal S896x256 .f32)
    (v13 : Vec Ideal S1x896 .f32) (v16 : Vec Ideal S196x896 .f32)
    (h0 : ∀ q : Fin 256, x0 (ix3 0 r q) = zn (Cert.Spec.rowOf b r) q)
    (h10 : ∀ (c : Fin 896) (q : Fin 256), v10 (ix2 c q) = zn (Cert.Online.col k c) q)
    (h2 : x2 (ix3 0 r 0) = rp (Cert.Spec.rowOf b r)) (h13 : ∀ c : Fin 896, v13 (ix2 0 c) = rp (Cert.Online.col k c))
    (h16 : ∀ c : Fin 896, v16 (ix2 r c) = g r (Cert.Online.col k c)) (c : Fin 896) :
    k1_pay11 (F := Ideal) i x0 x2 v10 v13 v16 (ix2 r c)
      = Cert.Spec.keep (Cert.Spec.dotRows zn zn) rp g (Cert.Spec.rowOf b r) (Cert.Online.col k c) := by
  refine (pay11_apply i x0 x2 v10 v13 v16 r c).trans ?_
  unfold Cert.Spec.keep
  rw [point_off b k r i hi c, point_hit zn rp b k r x0 x2 v10 v13 h0 h10 h2 h13 c, h16 c, lrow_rowOf b r]

/-- The mask of the positives. -/
theorem point_pos (i : grid1.Coords) (hi : (i 1).val = k.val)
    (x0 : Vec Ideal S1x196x256 .f32) (x2 : Vec Ideal S1x196x1 .f32) (v10 : Vec Ideal S896x256 .f32)
    (v13 : Vec Ideal S1x896 .f32)
    (h0 : ∀ q : Fin 256, x0 (ix3 0 r q) = zn (Cert.Spec.rowOf b r) q)
    (h10 : ∀ (c : Fin 896) (q : Fin 256), v10 (ix2 c q) = zn (Cert.Online.col k c) q)
    (h2 : x2 (ix3 0 r 0) = rp (Cert.Spec.rowOf b r)) (h13 : ∀ c : Fin 896, v13 (ix2 0 c) = rp (Cert.Online.col k c)) (c : Fin 896) :
    k1_pay12 (F := Ideal) i x0 x2 v10 v13 (ix2 r c)
      = Cert.Spec.pos (Cert.Spec.dotRows zn zn) rp (Cert.Spec.rowOf b r) (Cert.Online.col k c) := by
  refine (pay12_apply i x0 x2 v10 v13 r c).trans ?_
  unfold Cert.Spec.pos
  rw [point_off b k r i hi c, point_hit zn rp b k r x0 x2 v10 v13 h0 h10 h2 h13 c]

end Point

end Cert.KernelIdeal.Val

end
-- ==== Proof.KI.Reg1Point.lean ====
/- Region 1's three block values at a point in the specification's terms. When the arrays the region finds hold the
   unit rows (in both layouts), the thresholds (in both layouts) and the neglect mask, then at point 7·b + k the
   logits, the mask of the kept columns and the mask of the positives that the body forms from its blocks are, at row
   r and column c of the block, the specification's at row 196·b + r and column 896·k + c. -/
import proofs.«149911_j6408091205873_1_alg».proof.Proof.KI.Reg1Val
import proofs.«149911_j6408091205873_1_alg».proof.Proof.KI.Reg1Blocks
import proofs.«149911_j6408091205873_1_alg».proof.Proof.KI.Pay1D

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Point

variable (V : (c : Dev nD) → (b : Ref sig .tc) → Buf (Elt Ideal) ((c : Thread nD τ).loc b)) (c : Dev nD)
  (zn : Fin 6272 → Fin 256 → EReal) (rp : Fin 6272 → EReal) (g : Fin 196 → Fin 6272 → EReal)

/-- Point 7·b + k has first coordinate b. -/
theorem pt_div (t : Fin cfg1.N) (bb : Fin 32) (k : Fin 7) (ht : t.val = 7 * bb.val + k.val) :
    bb = (⟨t.val / 7, div7_lt t⟩ : Fin 32) :=
  Fin.ext (by
    show bb.val = t.val / 7
    have := k.isLt
    omega)

/-- Point 7·b + k has second coordinate k. -/
theorem pt_mod (t : Fin cfg1.N) (bb : Fin 32) (k : Fin 7) (ht : t.val = 7 * bb.val + k.val) : k = blkOf t :=
  Fin.ext (by
    show k.val = t.val % 7
    have := k.isLt
    omega)

/-- The logits. -/
theorem rv21_eq
    (hV1 : ∀ (jj : Fin 6272) (q : Fin 256), V c main_v1_0 (ix2 jj q) = zn jj q)
    (hV2 : ∀ (bb : Fin 32) (r : Fin 196) (q : Fin 256), V c main_v2 (ix3 bb r q) = zn (Cert.Spec.rowOf bb r) q)
    (t : Fin cfg1.N) (bb : Fin 32) (k : Fin 7) (ht : t.val = 7 * bb.val + k.val) (r : Fin 196) (cc : Fin 896) :
    rv21 (F := Ideal) (grid1.coords t) (iblk1 V c 0 t) (iblk1 V c 1 t) (ix2 r cc)
      = Cert.Spec.logit Cert.Spec.kappa (Cert.Spec.dotRows zn zn) (Cert.Spec.rowOf bb r) (Cert.Online.col k cc) := by
  rw [pt_div t bb k ht, pt_mod t bb k ht]
  exact Cert.KernelIdeal.Val.point_logit zn _ (blkOf t) r (iblk1 V c 0 t) (rv10 (grid1.coords t) (iblk1 V c 1 t))
    (fun q => (iblk1_0_apply V c t r q).trans (hV2 _ r q))
    (fun c' q => (ld_off1_col t (iblk1 V c 1 t) c' q).trans ((iblk1_1_apply V c t _ q).trans (hV1 _ q))) cc

/-- The mask of the columns kept in the denominator. -/
theorem rv39_eq
    (hV1 : ∀ (jj : Fin 6272) (q : Fin 256), V c main_v1_0 (ix2 jj q) = zn jj q)
    (hV2 : ∀ (bb : Fin 32) (r : Fin 196) (q : Fin 256), V c main_v2 (ix3 bb r q) = zn (Cert.Spec.rowOf bb r) q)
    (hV3 : ∀ (bb : Fin 32) (r : Fin 196), V c main_v3 (ix3 bb r (0 : Fin 1)) = rp (Cert.Spec.rowOf bb r))
    (hV4 : ∀ jj : Fin 6272, V c main_v4 (ix2 (0 : Fin 1) jj) = rp jj)
    (hV5 : ∀ (r : Fin 196) (jj : Fin 6272), V c main_v5 (ix2 r jj) = g r jj)
    (t : Fin cfg1.N) (bb : Fin 32) (k : Fin 7) (ht : t.val = 7 * bb.val + k.val) (r : Fin 196) (cc : Fin 896) :
    rv39 (F := Ideal) (grid1.coords t) (iblk1 V c 0 t) (iblk1 V c 1 t) (iblk1 V c 2 t) (iblk1 V c 3 t) (iblk1 V c 4 t) (ix2 r cc)
      = Cert.Spec.keep (Cert.Spec.dotRows zn zn) rp g (Cert.Spec.rowOf bb r) (Cert.Online.col k cc) := by
  rw [pt_div t bb k ht, pt_mod t bb k ht]
  exact Cert.KernelIdeal.Val.point_keep zn rp g _ (blkOf t) r (grid1.coords t) (coords1 t).2
    (iblk1 V c 0 t) (iblk1 V c 2 t) (rv10 (grid1.coords t) (iblk1 V c 1 t)) (rv13 (grid1.coords t) (iblk1 V c 3 t))
    (rv16 (grid1.coords t) (iblk1 V c 4 t))
    (fun q => (iblk1_0_apply V c t r q).trans (hV2 _ r q))
    (fun c' q => (ld_off1_col t (iblk1 V c 1 t) c' q).trans ((iblk1_1_apply V c t _ q).trans (hV1 _ q)))
    ((iblk1_2_apply V c t r).trans (hV3 _ r))
    (fun c' => (ld_off2_col t (iblk1 V c 3 t) c').trans ((iblk1_3_apply V c t _).trans (hV4 _)))
    (fun c' => (ld_off3_col t (iblk1 V c 4 t) r c').trans ((iblk1_4_apply V c t r _).trans (hV5 r _))) cc

/-- The mask of the positives. -/
theorem rv40_eq
    (hV1 : ∀ (jj : Fin 6272) (q : Fin 256), V c main_v1_0 (ix2 jj q) = zn jj q)
    (hV2 : ∀ (bb : Fin 32) (r : Fin 196) (q : Fin 256), V c main_v2 (ix3 bb r q) = zn (Cert.Spec.rowOf bb r) q)
    (hV3 : ∀ (bb : Fin 32) (r : Fin 196), V c main_v3 (ix3 bb r (0 : Fin 1)) = rp (Cert.Spec.rowOf bb r))
    (hV4 : ∀ jj : Fin 6272, V c main_v4 (ix2 (0 : Fin 1) jj) = rp jj)
    (t : Fin cfg1.N) (bb : Fin 32) (k : Fin 7) (ht : t.val = 7 * bb.val + k.val) (r : Fin 196) (cc : Fin 896) :
    rv40 (F := Ideal) (grid1.coords t) (iblk1 V c 0 t) (iblk1 V c 1 t) (iblk1 V c 2 t) (iblk1 V c 3 t) (ix2 r cc)
      = Cert.Spec.pos (Cert.Spec.dotRows zn zn) rp (Cert.Spec.rowOf bb r) (Cert.Online.col k cc) := by
  rw [pt_div t bb k ht, pt_mod t bb k ht]
  exact Cert.KernelIdeal.Val.point_pos zn rp _ (blkOf t) r (grid1.coords t) (coords1 t).2
    (iblk1 V c 0 t) (iblk1 V c 2 t) (rv10 (grid1.coords t) (iblk1 V c 1 t)) (rv13 (grid1.coords t) (iblk1 V c 3 t))
    (fun q => (iblk1_0_apply V c t r q).trans (hV2 _ r q))
    (fun c' q => (ld_off1_col t (iblk1 V c 1 t) c' q).trans ((iblk1_1_apply V c t _ q).trans (hV1 _ q)))
    ((iblk1_2_apply V c t r).trans (hV3 _ r))
    (fun c' => (ld_off2_col t (iblk1 V c 3 t) c').trans ((iblk1_3_apply V c t _).trans (hV4 _))) cc

end Point

end Cert.KernelIdeal.Fr

end
-- ==== Proof.KI.Reg1Step.lean ====
/- Region 1's kernel body at the ideal model, read at one row: what each case's run leaves in the four scratch
   buffers at row r is one step of the running form — from its start in the first column block's case, from what
   the buffers held at that row in the others — over the row's logits, kept-column mask and positives mask of the
   point's column block; and what the last column block's case leaves in the two output buffers at row r is what
   the running form forms from the state just stored, and its count of positives. -/
import proofs.«149911_j6408091205873_1_alg».proof.Proof.KI.Reg1Val
import proofs.«149911_j6408091205873_1_alg».proof.Proof.KI.Pay1A
import proofs.«149911_j6408091205873_1_alg».proof.Proof.KI.Pay1B
import proofs.«149911_j6408091205873_1_alg».proof.Proof.Spec

set_option maxRecDepth 16384

noncomputable section

namespace Cert.KernelIdeal.Fr

open Cert.KernelIdeal Cert.KernelIdeal.Gen Cert.KernelIdeal.Val
open Idealize.ShloMosaic Idealize.ShloMosaic.TcCoe Idealize.ShloMosaic.ValueIdx
open Idealize.SL Idealize.SL.Sem

/-- Two states with equal components are equal. -/
theorem St_congr {a a' b b' d d' e e' : EReal} (ha : a = a') (hb : b = b') (hd : d = d') (he : e = e') :
    (⟨a, b, d, e⟩ : Cert.Online.St) = ⟨a', b', d', e'⟩ := by subst ha hb hd he; rfl

/-- The first column block of a row block: the four scratch buffers at row r are one step from the start. -/
theorem stepA (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : cond1_0 i) (hc1 : ¬cond1_1 i)
    (x0 : Vec Ideal S1x196x256 .f32) (x1 : Vec Ideal S6272x256 .f32) (x2 : Vec Ideal S1x196x1 .f32) (x3 : Vec Ideal S1x6272 .f32) (x4 : Vec Ideal S196x6272 .f32) (r : Fin 196) :
    (⟨VS1_0.read (Elt Ideal) (VS1_0.writes (Elt Ideal) VS1_0.junk (kernelRun1_A (F := Ideal) c i arg2 harg2 arg3 harg3 arg4 harg4 arg5 harg5 arg6 harg6 arg7 harg7 arg8 harg8 arg9 harg9 arg10 harg10 arg11 harg11 arg12 harg12 hc0 hc1 x0 x1 x2 x3 x4).2.2.1) (ix2 r 0),
      VS1_1.read (Elt Ideal) (VS1_1.writes (Elt Ideal) VS1_1.junk (kernelRun1_A (F := Ideal) c i arg2 harg2 arg3 harg3 arg4 harg4 arg5 harg5 arg6 harg6 arg7 harg7 arg8 harg8 arg9 harg9 arg10 harg10 arg11 harg11 arg12 harg12 hc0 hc1 x0 x1 x2 x3 x4).2.2.2.1) (ix2 r 0),
      VS1_2.read (Elt Ideal) (VS1_2.writes (Elt Ideal) VS1_2.junk (kernelRun1_A (F := Ideal) c i arg2 harg2 arg3 harg3 arg4 harg4 arg5 harg5 arg6 harg6 arg7 harg7 arg8 harg8 arg9 harg9 arg10 harg10 arg11 harg11 arg12 harg12 hc0 hc1 x0 x1 x2 x3 x4).2.2.2.2.1) (ix2 r 0),
      VS1_3.read (Elt Ideal) (VS1_3.writes (Elt Ideal) VS1_3.junk (kernelRun1_A (F := Ideal) c i arg2 harg2 arg3 harg3 arg4 harg4 arg5 harg5 arg6 harg6 arg7 harg7 arg8 harg8 arg9 harg9 arg10 harg10 arg11 harg11 arg12 harg12 hc0 hc1 x0 x1 x2 x3 x4).2.2.2.2.2.1) (ix2 r 0)⟩ : Cert.Online.St)
      = Cert.Online.step Cert.Online.init (fun cc => rv21 (F := Ideal) i x0 x1 (ix2 r cc)) (fun cc => rv39 (F := Ideal) i x0 x1 x2 x3 x4 (ix2 r cc)) (fun cc => rv40 (F := Ideal) i x0 x1 x2 x3 (ix2 r cc)) := by
  refine (St_congr (congrFun (val1_A_s0 (F := Ideal) c i arg2 harg2 arg3 harg3 arg4 harg4 arg5 harg5 arg6 harg6 arg7 harg7 arg8 harg8 arg9 harg9 arg10 harg10 arg11 harg11 arg12 harg12 hc0 hc1 x0 x1 x2 x3 x4) (ix2 r 0)) (congrFun (val1_A_s1 (F := Ideal) c i arg2 harg2 arg3 harg3 arg4 harg4 arg5 harg5 arg6 harg6 arg7 harg7 arg8 harg8 arg9 harg9 arg10 harg10 arg11 harg11 arg12 harg12 hc0 hc1 x0 x1 x2 x3 x4) (ix2 r 0))
    (congrFun (val1_A_s2 (F := Ideal) c i arg2 harg2 arg3 harg3 arg4 harg4 arg5 harg5 arg6 harg6 arg7 harg7 arg8 harg8 arg9 harg9 arg10 harg10 arg11 harg11 arg12 harg12 hc0 hc1 x0 x1 x2 x3 x4) (ix2 r 0)) (congrFun (val1_A_s3 (F := Ideal) c i arg2 harg2 arg3 harg3 arg4 harg4 arg5 harg5 arg6 harg6 arg7 harg7 arg8 harg8 arg9 harg9 arg10 harg10 arg11 harg11 arg12 harg12 hc0 hc1 x0 x1 x2 x3 x4) (ix2 r 0))).trans ?_
  exact (step_apply _ _ _ _ _ _ _ _ (pay13_apply x0 (rv10 i x1)) r).trans
    (congrArg (fun s => Cert.Online.step s _ _ _) (init_apply r))

/-- A middle column block: the four scratch buffers at row r are one step from what they held there. -/
theorem stepB (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : ¬cond1_1 i)
    (x0 : Vec Ideal S1x196x256 .f32) (x1 : Vec Ideal S6272x256 .f32) (x2 : Vec Ideal S1x196x1 .f32) (x3 : Vec Ideal S1x6272 .f32) (x4 : Vec Ideal S196x6272 .f32) (xs0 : Vec Ideal S196x1 .f32) (xs1 : Vec Ideal S196x1 .f32) (xs2 : Vec Ideal S196x1 .f32) (xs3 : Vec Ideal S196x1 .f32) (r : Fin 196) :
    (⟨VS1_0.read (Elt Ideal) (VS1_0.writes (Elt Ideal) VS1_0.junk (kernelRun1_B (F := Ideal) c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.1) (ix2 r 0),
      VS1_1.read (Elt Ideal) (VS1_1.writes (Elt Ideal) VS1_1.junk (kernelRun1_B (F := Ideal) c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1) (ix2 r 0),
      VS1_2.read (Elt Ideal) (VS1_2.writes (Elt Ideal) VS1_2.junk (kernelRun1_B (F := Ideal) c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1) (ix2 r 0),
      VS1_3.read (Elt Ideal) (VS1_3.writes (Elt Ideal) VS1_3.junk (kernelRun1_B (F := Ideal) c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.2.1) (ix2 r 0)⟩ : Cert.Online.St)
      = Cert.Online.step ⟨xs0 (ix2 r 0), xs1 (ix2 r 0), xs2 (ix2 r 0), xs3 (ix2 r 0)⟩ (fun cc => rv21 (F := Ideal) i x0 x1 (ix2 r cc)) (fun cc => rv39 (F := Ideal) i x0 x1 x2 x3 x4 (ix2 r cc)) (fun cc => rv40 (F := Ideal) i x0 x1 x2 x3 (ix2 r cc)) := by
  refine (St_congr (congrFun (val1_B_s0 (F := Ideal) c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3) (ix2 r 0)) (congrFun (val1_B_s1 (F := Ideal) c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3) (ix2 r 0))
    (congrFun (val1_B_s2 (F := Ideal) c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3) (ix2 r 0)) (congrFun (val1_B_s3 (F := Ideal) c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3) (ix2 r 0))).trans ?_
  exact step_apply xs0 xs1 xs2 xs3 _ _ _ _ (pay13_apply x0 (rv10 i x1)) r

/-- The last column block of a row block: the same step, -/
theorem stepC (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec Ideal S1x196x256 .f32) (x1 : Vec Ideal S6272x256 .f32) (x2 : Vec Ideal S1x196x1 .f32) (x3 : Vec Ideal S1x6272 .f32) (x4 : Vec Ideal S196x6272 .f32) (xs0 : Vec Ideal S196x1 .f32) (xs1 : Vec Ideal S196x1 .f32) (xs2 : Vec Ideal S196x1 .f32) (xs3 : Vec Ideal S196x1 .f32) (r : Fin 196) :
    (⟨VS1_0.read (Elt Ideal) (VS1_0.writes (Elt Ideal) VS1_0.junk (kernelRun1_C (F := Ideal) c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.1) (ix2 r 0),
      VS1_1.read (Elt Ideal) (VS1_1.writes (Elt Ideal) VS1_1.junk (kernelRun1_C (F := Ideal) c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1) (ix2 r 0),
      VS1_2.read (Elt Ideal) (VS1_2.writes (Elt Ideal) VS1_2.junk (kernelRun1_C (F := Ideal) c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.1) (ix2 r 0),
      VS1_3.read (Elt Ideal) (VS1_3.writes (Elt Ideal) VS1_3.junk (kernelRun1_C (F := Ideal) c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.2.2.1) (ix2 r 0)⟩ : Cert.Online.St)
      = Cert.Online.step ⟨xs0 (ix2 r 0), xs1 (ix2 r 0), xs2 (ix2 r 0), xs3 (ix2 r 0)⟩ (fun cc => rv21 (F := Ideal) i x0 x1 (ix2 r cc)) (fun cc => rv39 (F := Ideal) i x0 x1 x2 x3 x4 (ix2 r cc)) (fun cc => rv40 (F := Ideal) i x0 x1 x2 x3 (ix2 r cc)) := by
  refine (St_congr (congrFun (val1_C_s0 (F := Ideal) c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3) (ix2 r 0)) (congrFun (val1_C_s1 (F := Ideal) c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3) (ix2 r 0))
    (congrFun (val1_C_s2 (F := Ideal) c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3) (ix2 r 0)) (congrFun (val1_C_s3 (F := Ideal) c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3) (ix2 r 0))).trans ?_
  exact step_apply xs0 xs1 xs2 xs3 _ _ _ _ (pay13_apply x0 (rv10 i x1)) r

/-- and output window 5's buffer at row r holds what the running form forms from the stepped state, -/
theorem outC5 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec Ideal S1x196x256 .f32) (x1 : Vec Ideal S6272x256 .f32) (x2 : Vec Ideal S1x196x1 .f32) (x3 : Vec Ideal S1x6272 .f32) (x4 : Vec Ideal S196x6272 .f32) (xs0 : Vec Ideal S196x1 .f32) (xs1 : Vec Ideal S196x1 .f32) (xs2 : Vec Ideal S196x1 .f32) (xs3 : Vec Ideal S196x1 .f32) (r : Fin 196) :
    VO1_5.read (Elt Ideal) (VO1_5.writes (Elt Ideal) VO1_5.junk (kernelRun1_C (F := Ideal) c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).1) (ix3 0 r 0)
      = Cert.Online.out (Cert.Online.step ⟨xs0 (ix2 r 0), xs1 (ix2 r 0), xs2 (ix2 r 0), xs3 (ix2 r 0)⟩ (fun cc => rv21 (F := Ideal) i x0 x1 (ix2 r cc)) (fun cc => rv39 (F := Ideal) i x0 x1 x2 x3 x4 (ix2 r cc)) (fun cc => rv40 (F := Ideal) i x0 x1 x2 x3 (ix2 r cc))) := by
  refine (congrFun (val1_C_o5 (F := Ideal) c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3) (ix3 0 r 0)).trans ?_
  exact (out_apply _ _ _ _ r).trans
    (congrArg Cert.Online.out (step_apply xs0 xs1 xs2 xs3 _ _ _ _ (pay13_apply x0 (rv10 i x1)) r))

/-- output window 6's its count of positives. -/
theorem outC6 (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec Ideal S1x196x256 .f32) (x1 : Vec Ideal S6272x256 .f32) (x2 : Vec Ideal S1x196x1 .f32) (x3 : Vec Ideal S1x6272 .f32) (x4 : Vec Ideal S196x6272 .f32) (xs0 : Vec Ideal S196x1 .f32) (xs1 : Vec Ideal S196x1 .f32) (xs2 : Vec Ideal S196x1 .f32) (xs3 : Vec Ideal S196x1 .f32) (r : Fin 196) :
    VO1_6.read (Elt Ideal) (VO1_6.writes (Elt Ideal) VO1_6.junk (kernelRun1_C (F := Ideal) c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3).2.1) (ix3 0 r 0)
      = (Cert.Online.step ⟨xs0 (ix2 r 0), xs1 (ix2 r 0), xs2 (ix2 r 0), xs3 (ix2 r 0)⟩ (fun cc => rv21 (F := Ideal) i x0 x1 (ix2 r cc)) (fun cc => rv39 (F := Ideal) i x0 x1 x2 x3 x4 (ix2 r cc)) (fun cc => rv40 (F := Ideal) i x0 x1 x2 x3 (ix2 r cc))).D := by
  refine (congrFun (val1_C_o6 (F := Ideal) c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3) (ix3 0 r 0)).trans ?_
  exact (out2_apply _ r).trans
    (congrArg Cert.Online.St.D (step_apply xs0 xs1 xs2 xs3 _ _ _ _ (pay13_apply x0 (rv10 i x1)) r))

end Cert.KernelIdeal.Fr

end
-- ==== Proof.LibGridRec.lean ====
/-
  The order of the grid. The 224 points are visited in the order `t = 7·b + k`, `b < 32`, `k < 7`. The state kept for a
  row is started afresh at the points `t ≡ 0 (mod 7)` and stepped at every point; so at the last point `7·b + 6` of
  batch `b` it is the blocked evaluation of the seven blocks `7·b, …, 7·b + 6`.
-/
import proofs.«149911_j6408091205873_1_alg».proof.Proof.LibOnlineSoftmax

noncomputable section

namespace Cert.Online

open Idealize.ShloMosaic

variable {C : Type} [Fintype C]

/-- One batch: started at its first point and stepped at the six others, the state after point `7·b + k` is the
    blocked evaluation of the first `k + 1` blocks. -/
theorem grid_rec_block (S : ℕ → St) (L keep pos : ℕ → C → EReal) (b : ℕ)
    (h0 : S (7 * b) = step init (L (7 * b)) (keep (7 * b)) (pos (7 * b)))
    (hs : ∀ k, k < 6 → S (7 * b + (k + 1))
        = step (S (7 * b + k)) (L (7 * b + (k + 1))) (keep (7 * b + (k + 1))) (pos (7 * b + (k + 1)))) :
    ∀ (k : ℕ) (hk : k + 1 ≤ 7), S (7 * b + k)
        = run (n := 7) (C := C) (fun i c => L (7 * b + i.val) c) (fun i c => keep (7 * b + i.val) c)
            (fun i c => pos (7 * b + i.val) c) (k + 1) hk := by
  intro k
  induction k with
  | zero => intro hk; rw [Nat.add_zero, h0]; rfl
  | succ k ih => intro hk; rw [hs k (by omega), ih (by omega)]; rfl

theorem grid_rec (S : ℕ → St) (L keep pos : ℕ → C → EReal)
    (h0 : ∀ t, t % 7 = 0 → S t = step init (L t) (keep t) (pos t))
    (hs : ∀ t, t % 7 ≠ 0 → S t = step (S (t - 1)) (L t) (keep t) (pos t)) (b : ℕ) :
    S (7 * b + 6)
      = run (n := 7) (C := C) (fun k c => L (7 * b + k.val) c) (fun k c => keep (7 * b + k.val) c)
          (fun k c => pos (7 * b + k.val) c) 7 le_rfl := by
  refine grid_rec_block S L keep pos b (h0 (7 * b) (by omega)) (fun k hk => ?_) 6 le_rfl
  have h := hs (7 * b + (k + 1)) (by omega)
  rw [show 7 * b + (k + 1) - 1 = 7 * b + k by omega] at h
  exact h

theorem grid_rec_224 (S : ℕ → St) (L keep pos : ℕ → C → EReal)
    (h0 : ∀ t, t < 224 → t % 7 = 0 → S t = step init (L t) (keep t) (pos t))
    (hs : ∀ t, t < 224 → t % 7 ≠ 0 → S t = step (S (t - 1)) (L t) (keep t) (pos t)) (b : ℕ) (hb : b < 32) :
    S (7 * b + 6)
      = run (n := 7) (C := C) (fun k c => L (7 * b + k.val) c) (fun k c => keep (7 * b + k.val) c)
          (fun k c => pos (7 * b + k.val) c) 7 le_rfl := by
  refine grid_rec_block S L keep pos b (h0 (7 * b) (by omega) (by omega)) (fun k hk => ?_) 6 le_rfl
  have h := hs (7 * b + (k + 1)) (by omega) (by omega)
  rw [show 7 * b + (k + 1) - 1 = 7 * b + k by omega] at h
  exact h

end Cert.Online

end
-- ==== Proof.KI.Reg1Rows.lean ====
/- Region 1 of the program at the ideal model, one row at a time: the four scratch buffers at a row, point by point,
   are the running form of the row's blocked evaluation — started at the first column block of each row block,
   stepped at every column block over the block's logits, kept-column mask and positives mask —, so after the
   last column block of a row block they are the blocked evaluation of its seven column blocks, and there the two
   output windows' buffers hold at the row what the running form forms from that state and its count of
   positives. -/
import proofs.«149911_j6408091205873_1_alg».proof.Proof.KI.Reg1Outs
import proofs.«149911_j6408091205873_1_alg».proof.Proof.KI.Reg1Step
import proofs.«149911_j6408091205873_1_alg».proof.Proof.LibGridRec

set_option maxRecDepth 16384

noncomputable section

namespace Cert.KernelIdeal.Fr

open Cert.KernelIdeal Cert.KernelIdeal.Gen
open Idealize.ShloMosaic Idealize.ShloMosaic.TcCoe
open Idealize.SL Idealize.SL.Sem

/-! # The four running quantities of one row, point by point (at the ideal model) -/

section Rows

open Cert.KernelIdeal.Val Idealize.ShloMosaic.ValueIdx

/-- The three cases' steps, restated through the names of what each case leaves. -/
theorem stepA' (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : cond1_0 i) (hc1 : ¬cond1_1 i)
    (x0 : Vec Ideal S1x196x256 .f32) (x1 : Vec Ideal S6272x256 .f32) (x2 : Vec Ideal S1x196x1 .f32) (x3 : Vec Ideal S1x6272 .f32) (x4 : Vec Ideal S196x6272 .f32) (r : Fin 196) :
    (⟨sout1_A_0 (F := Ideal) c i arg2 harg2 arg3 harg3 arg4 harg4 arg5 harg5 arg6 harg6 arg7 harg7 arg8 harg8 arg9 harg9 arg10 harg10 arg11 harg11 arg12 harg12 hc0 hc1 x0 x1 x2 x3 x4 (ix2 r 0), sout1_A_1 (F := Ideal) c i arg2 harg2 arg3 harg3 arg4 harg4 arg5 harg5 arg6 harg6 arg7 harg7 arg8 harg8 arg9 harg9 arg10 harg10 arg11 harg11 arg12 harg12 hc0 hc1 x0 x1 x2 x3 x4 (ix2 r 0),
      sout1_A_2 (F := Ideal) c i arg2 harg2 arg3 harg3 arg4 harg4 arg5 harg5 arg6 harg6 arg7 harg7 arg8 harg8 arg9 harg9 arg10 harg10 arg11 harg11 arg12 harg12 hc0 hc1 x0 x1 x2 x3 x4 (ix2 r 0), sout1_A_3 (F := Ideal) c i arg2 harg2 arg3 harg3 arg4 harg4 arg5 harg5 arg6 harg6 arg7 harg7 arg8 harg8 arg9 harg9 arg10 harg10 arg11 harg11 arg12 harg12 hc0 hc1 x0 x1 x2 x3 x4 (ix2 r 0)⟩ : Cert.Online.St)
      = Cert.Online.step Cert.Online.init (fun cc => rv21 (F := Ideal) i x0 x1 (ix2 r cc)) (fun cc => rv39 (F := Ideal) i x0 x1 x2 x3 x4 (ix2 r cc)) (fun cc => rv40 (F := Ideal) i x0 x1 x2 x3 (ix2 r cc)) :=
  stepA c i arg2 harg2 arg3 harg3 arg4 harg4 arg5 harg5 arg6 harg6 arg7 harg7 arg8 harg8 arg9 harg9 arg10 harg10 arg11 harg11 arg12 harg12 hc0 hc1 x0 x1 x2 x3 x4 r

theorem stepB' (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : ¬cond1_1 i)
    (x0 : Vec Ideal S1x196x256 .f32) (x1 : Vec Ideal S6272x256 .f32) (x2 : Vec Ideal S1x196x1 .f32) (x3 : Vec Ideal S1x6272 .f32) (x4 : Vec Ideal S196x6272 .f32) (xs0 : Vec Ideal S196x1 .f32) (xs1 : Vec Ideal S196x1 .f32) (xs2 : Vec Ideal S196x1 .f32) (xs3 : Vec Ideal S196x1 .f32) (r : Fin 196) :
    (⟨sout1_B_0 (F := Ideal) c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 (ix2 r 0), sout1_B_1 (F := Ideal) c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 (ix2 r 0),
      sout1_B_2 (F := Ideal) c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 (ix2 r 0), sout1_B_3 (F := Ideal) c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 (ix2 r 0)⟩ : Cert.Online.St)
      = Cert.Online.step ⟨xs0 (ix2 r 0), xs1 (ix2 r 0), xs2 (ix2 r 0), xs3 (ix2 r 0)⟩ (fun cc => rv21 (F := Ideal) i x0 x1 (ix2 r cc)) (fun cc => rv39 (F := Ideal) i x0 x1 x2 x3 x4 (ix2 r cc)) (fun cc => rv40 (F := Ideal) i x0 x1 x2 x3 (ix2 r cc)) :=
  stepB c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 r

theorem stepC' (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec Ideal S1x196x256 .f32) (x1 : Vec Ideal S6272x256 .f32) (x2 : Vec Ideal S1x196x1 .f32) (x3 : Vec Ideal S1x6272 .f32) (x4 : Vec Ideal S196x6272 .f32) (xs0 : Vec Ideal S196x1 .f32) (xs1 : Vec Ideal S196x1 .f32) (xs2 : Vec Ideal S196x1 .f32) (xs3 : Vec Ideal S196x1 .f32) (r : Fin 196) :
    (⟨sout1_C_0 (F := Ideal) c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 (ix2 r 0), sout1_C_1 (F := Ideal) c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 (ix2 r 0),
      sout1_C_2 (F := Ideal) c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 (ix2 r 0), sout1_C_3 (F := Ideal) c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 (ix2 r 0)⟩ : Cert.Online.St)
      = Cert.Online.step ⟨xs0 (ix2 r 0), xs1 (ix2 r 0), xs2 (ix2 r 0), xs3 (ix2 r 0)⟩ (fun cc => rv21 (F := Ideal) i x0 x1 (ix2 r cc)) (fun cc => rv39 (F := Ideal) i x0 x1 x2 x3 x4 (ix2 r cc)) (fun cc => rv40 (F := Ideal) i x0 x1 x2 x3 (ix2 r cc)) :=
  stepC c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 r

theorem outC5' (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec Ideal S1x196x256 .f32) (x1 : Vec Ideal S6272x256 .f32) (x2 : Vec Ideal S1x196x1 .f32) (x3 : Vec Ideal S1x6272 .f32) (x4 : Vec Ideal S196x6272 .f32) (xs0 : Vec Ideal S196x1 .f32) (xs1 : Vec Ideal S196x1 .f32) (xs2 : Vec Ideal S196x1 .f32) (xs3 : Vec Ideal S196x1 .f32) (r : Fin 196) :
    out1_C_5 (F := Ideal) c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 (ix3 0 r 0)
      = Cert.Online.out (Cert.Online.step ⟨xs0 (ix2 r 0), xs1 (ix2 r 0), xs2 (ix2 r 0), xs3 (ix2 r 0)⟩ (fun cc => rv21 (F := Ideal) i x0 x1 (ix2 r cc)) (fun cc => rv39 (F := Ideal) i x0 x1 x2 x3 x4 (ix2 r cc)) (fun cc => rv40 (F := Ideal) i x0 x1 x2 x3 (ix2 r cc))) :=
  outC5 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 r

theorem outC6' (c : Dev nD) (i : grid1.Coords) (arg2 : Memref sig .tc .vmem S1x196x256 .f32) (harg2 : arg2.IsWhole) (arg3 : Memref sig .tc .vmem S6272x256 .f32) (harg3 : arg3.IsWhole) (arg4 : Memref sig .tc .vmem S1x196x1 .f32) (harg4 : arg4.IsWhole) (arg5 : Memref sig .tc .vmem S1x6272 .f32) (harg5 : arg5.IsWhole) (arg6 : Memref sig .tc .vmem S196x6272 .f32) (harg6 : arg6.IsWhole) (arg7 : Memref sig .tc .vmem S1x196x1 .f32) (harg7 : arg7.IsWhole) (arg8 : Memref sig .tc .vmem S1x196x1 .f32) (harg8 : arg8.IsWhole) (arg9 : Memref sig .tc .vmem S196x1 .f32) (harg9 : arg9.IsWhole) (arg10 : Memref sig .tc .vmem S196x1 .f32) (harg10 : arg10.IsWhole) (arg11 : Memref sig .tc .vmem S196x1 .f32) (harg11 : arg11.IsWhole) (arg12 : Memref sig .tc .vmem S196x1 .f32) (harg12 : arg12.IsWhole) (hc0 : ¬cond1_0 i) (hc1 : cond1_1 i)
    (x0 : Vec Ideal S1x196x256 .f32) (x1 : Vec Ideal S6272x256 .f32) (x2 : Vec Ideal S1x196x1 .f32) (x3 : Vec Ideal S1x6272 .f32) (x4 : Vec Ideal S196x6272 .f32) (xs0 : Vec Ideal S196x1 .f32) (xs1 : Vec Ideal S196x1 .f32) (xs2 : Vec Ideal S196x1 .f32) (xs3 : Vec Ideal S196x1 .f32) (r : Fin 196) :
    out1_C_6 (F := Ideal) c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 (ix3 0 r 0)
      = (Cert.Online.step ⟨xs0 (ix2 r 0), xs1 (ix2 r 0), xs2 (ix2 r 0), xs3 (ix2 r 0)⟩ (fun cc => rv21 (F := Ideal) i x0 x1 (ix2 r cc)) (fun cc => rv39 (F := Ideal) i x0 x1 x2 x3 x4 (ix2 r cc)) (fun cc => rv40 (F := Ideal) i x0 x1 x2 x3 (ix2 r cc))).D :=
  outC6 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 xs3 r

variable (V : (c : Dev nD) → (b : Ref sig .tc) → Buf (Elt Ideal) ((c : Thread nD τ).loc b)) (c : Dev nD) (r : Fin 196)

/-- The four scratch buffers at row r after point n: the running state of the row. -/
def rowSt (n : ℕ) : Cert.Online.St :=
  if hn : n < cfg1.N then
    ⟨(outsAt1 (F := Ideal) V c n hn).2.2.1 (ix2 r 0), (outsAt1 (F := Ideal) V c n hn).2.2.2.1 (ix2 r 0), (outsAt1 (F := Ideal) V c n hn).2.2.2.2.1 (ix2 r 0), (outsAt1 (F := Ideal) V c n hn).2.2.2.2.2 (ix2 r 0)⟩
  else Cert.Online.init

/-- Row r's logits over the column block of point n. -/
def ptL (n : ℕ) : Fin 896 → EReal :=
  if hn : n < cfg1.N then fun cc => rv21 (F := Ideal) (grid1.coords ⟨n, hn⟩) (iblk1 V c 0 ⟨n, hn⟩) (iblk1 V c 1 ⟨n, hn⟩) (ix2 r cc)
  else fun _ => 0
/-- Row r's mask of the columns of point n's block that enter the denominator. -/
def ptKeep (n : ℕ) : Fin 896 → EReal :=
  if hn : n < cfg1.N then fun cc => rv39 (F := Ideal) (grid1.coords ⟨n, hn⟩) (iblk1 V c 0 ⟨n, hn⟩) (iblk1 V c 1 ⟨n, hn⟩) (iblk1 V c 2 ⟨n, hn⟩) (iblk1 V c 3 ⟨n, hn⟩) (iblk1 V c 4 ⟨n, hn⟩) (ix2 r cc)
  else fun _ => 0
/-- Row r's mask of the positives among the columns of point n's block. -/
def ptPos (n : ℕ) : Fin 896 → EReal :=
  if hn : n < cfg1.N then fun cc => rv40 (F := Ideal) (grid1.coords ⟨n, hn⟩) (iblk1 V c 0 ⟨n, hn⟩) (iblk1 V c 1 ⟨n, hn⟩) (iblk1 V c 2 ⟨n, hn⟩) (iblk1 V c 3 ⟨n, hn⟩) (ix2 r cc)
  else fun _ => 0

theorem rowSt_eq (n : ℕ) (hn : n < cfg1.N) : rowSt V c r n
    = ⟨(outsAt1 (F := Ideal) V c n hn).2.2.1 (ix2 r 0), (outsAt1 (F := Ideal) V c n hn).2.2.2.1 (ix2 r 0), (outsAt1 (F := Ideal) V c n hn).2.2.2.2.1 (ix2 r 0), (outsAt1 (F := Ideal) V c n hn).2.2.2.2.2 (ix2 r 0)⟩ := dif_pos hn
theorem ptL_eq (n : ℕ) (hn : n < cfg1.N) : ptL V c r n
    = fun cc => rv21 (F := Ideal) (grid1.coords ⟨n, hn⟩) (iblk1 V c 0 ⟨n, hn⟩) (iblk1 V c 1 ⟨n, hn⟩) (ix2 r cc) := dif_pos hn
theorem ptKeep_eq (n : ℕ) (hn : n < cfg1.N) : ptKeep V c r n
    = fun cc => rv39 (F := Ideal) (grid1.coords ⟨n, hn⟩) (iblk1 V c 0 ⟨n, hn⟩) (iblk1 V c 1 ⟨n, hn⟩) (iblk1 V c 2 ⟨n, hn⟩) (iblk1 V c 3 ⟨n, hn⟩) (iblk1 V c 4 ⟨n, hn⟩) (ix2 r cc) := dif_pos hn
theorem ptPos_eq (n : ℕ) (hn : n < cfg1.N) : ptPos V c r n
    = fun cc => rv40 (F := Ideal) (grid1.coords ⟨n, hn⟩) (iblk1 V c 0 ⟨n, hn⟩) (iblk1 V c 1 ⟨n, hn⟩) (iblk1 V c 2 ⟨n, hn⟩) (iblk1 V c 3 ⟨n, hn⟩) (ix2 r cc) := dif_pos hn

/-- At the first column block of a row block the state is one step from the start. -/
theorem rowSt_first (t : ℕ) (ht : t < 224) (h0 : t % 7 = 0) :
    rowSt V c r t = Cert.Online.step Cert.Online.init (ptL V c r t) (ptKeep V c r t) (ptPos V c r t) := by
  have hN : t < cfg1.N := lt_of_lt_of_eq ht N_1.symm
  have h6 : ¬t % 7 = 6 := by omega
  rw [rowSt_eq V c r t hN, ptL_eq V c r t hN, ptKeep_eq V c r t hN, ptPos_eq V c r t hN]
  have e := outsAt1_A (F := Ideal) V c ⟨t, hN⟩ h0 h6
  refine (St_congr (congrFun (congrArg (fun p => p.2.2.1) e) (ix2 r 0)) (congrFun (congrArg (fun p => p.2.2.2.1) e) (ix2 r 0))
    (congrFun (congrArg (fun p => p.2.2.2.2.1) e) (ix2 r 0)) (congrFun (congrArg (fun p => p.2.2.2.2.2) e) (ix2 r 0))).trans ?_
  dsimp only
  exact stepA' c (grid1.coords ⟨t, hN⟩) (ms1_0 ⟨t, hN⟩) (hs1_0 ⟨t, hN⟩) (ms1_1 ⟨t, hN⟩) (hs1_1 ⟨t, hN⟩) (ms1_2 ⟨t, hN⟩) (hs1_2 ⟨t, hN⟩) (ms1_3 ⟨t, hN⟩) (hs1_3 ⟨t, hN⟩) (ms1_4 ⟨t, hN⟩) (hs1_4 ⟨t, hN⟩) (ms1_5 ⟨t, hN⟩) (hs1_5 ⟨t, hN⟩) (ms1_6 ⟨t, hN⟩) (hs1_6 ⟨t, hN⟩) scM1_0 (Memref.isWhole_whole _) scM1_1 (Memref.isWhole_whole _) scM1_2 (Memref.isWhole_whole _) scM1_3 (Memref.isWhole_whole _) ((hcond1_0 ⟨t, hN⟩).mpr h0) (fun h => h6 ((hcond1_1 ⟨t, hN⟩).mp h)) (iblk1 V c 0 ⟨t, hN⟩) (iblk1 V c 1 ⟨t, hN⟩) (iblk1 V c 2 ⟨t, hN⟩) (iblk1 V c 3 ⟨t, hN⟩) (iblk1 V c 4 ⟨t, hN⟩) r

/-- At every other column block it is one step from the state after the point before. -/
theorem rowSt_next (t : ℕ) (ht : t < 224) (h0 : t % 7 ≠ 0) :
    rowSt V c r t = Cert.Online.step (rowSt V c r (t - 1)) (ptL V c r t) (ptKeep V c r t) (ptPos V c r t) := by
  have hN : t < cfg1.N := lt_of_lt_of_eq ht N_1.symm
  have hN' : t - 1 < cfg1.N := Nat.lt_of_le_of_lt (Nat.sub_le _ _) hN
  rw [rowSt_eq V c r t hN, rowSt_eq V c r (t - 1) hN', ptL_eq V c r t hN, ptKeep_eq V c r t hN, ptPos_eq V c r t hN]
  by_cases h6 : t % 7 = 6
  · have e := outsAt1_C (F := Ideal) V c ⟨t, hN⟩ h0 h6
    refine (St_congr (congrFun (congrArg (fun p => p.2.2.1) e) (ix2 r 0)) (congrFun (congrArg (fun p => p.2.2.2.1) e) (ix2 r 0))
      (congrFun (congrArg (fun p => p.2.2.2.2.1) e) (ix2 r 0)) (congrFun (congrArg (fun p => p.2.2.2.2.2) e) (ix2 r 0))).trans ?_
    dsimp only
    exact stepC' c (grid1.coords ⟨t, hN⟩) (ms1_0 ⟨t, hN⟩) (hs1_0 ⟨t, hN⟩) (ms1_1 ⟨t, hN⟩) (hs1_1 ⟨t, hN⟩) (ms1_2 ⟨t, hN⟩) (hs1_2 ⟨t, hN⟩) (ms1_3 ⟨t, hN⟩) (hs1_3 ⟨t, hN⟩) (ms1_4 ⟨t, hN⟩) (hs1_4 ⟨t, hN⟩) (ms1_5 ⟨t, hN⟩) (hs1_5 ⟨t, hN⟩) (ms1_6 ⟨t, hN⟩) (hs1_6 ⟨t, hN⟩) scM1_0 (Memref.isWhole_whole _) scM1_1 (Memref.isWhole_whole _) scM1_2 (Memref.isWhole_whole _) scM1_3 (Memref.isWhole_whole _) (fun h => h0 ((hcond1_0 ⟨t, hN⟩).mp h)) ((hcond1_1 ⟨t, hN⟩).mpr h6) (iblk1 V c 0 ⟨t, hN⟩) (iblk1 V c 1 ⟨t, hN⟩) (iblk1 V c 2 ⟨t, hN⟩) (iblk1 V c 3 ⟨t, hN⟩) (iblk1 V c 4 ⟨t, hN⟩) (outsAt1 (F := Ideal) V c (t - 1) hN').2.2.1 (outsAt1 (F := Ideal) V c (t - 1) hN').2.2.2.1 (outsAt1 (F := Ideal) V c (t - 1) hN').2.2.2.2.1 (outsAt1 (F := Ideal) V c (t - 1) hN').2.2.2.2.2 r
  · have e := outsAt1_B (F := Ideal) V c ⟨t, hN⟩ h0 h6
    refine (St_congr (congrFun (congrArg (fun p => p.2.2.1) e) (ix2 r 0)) (congrFun (congrArg (fun p => p.2.2.2.1) e) (ix2 r 0))
      (congrFun (congrArg (fun p => p.2.2.2.2.1) e) (ix2 r 0)) (congrFun (congrArg (fun p => p.2.2.2.2.2) e) (ix2 r 0))).trans ?_
    dsimp only
    exact stepB' c (grid1.coords ⟨t, hN⟩) (ms1_0 ⟨t, hN⟩) (hs1_0 ⟨t, hN⟩) (ms1_1 ⟨t, hN⟩) (hs1_1 ⟨t, hN⟩) (ms1_2 ⟨t, hN⟩) (hs1_2 ⟨t, hN⟩) (ms1_3 ⟨t, hN⟩) (hs1_3 ⟨t, hN⟩) (ms1_4 ⟨t, hN⟩) (hs1_4 ⟨t, hN⟩) (ms1_5 ⟨t, hN⟩) (hs1_5 ⟨t, hN⟩) (ms1_6 ⟨t, hN⟩) (hs1_6 ⟨t, hN⟩) scM1_0 (Memref.isWhole_whole _) scM1_1 (Memref.isWhole_whole _) scM1_2 (Memref.isWhole_whole _) scM1_3 (Memref.isWhole_whole _) (fun h => h0 ((hcond1_0 ⟨t, hN⟩).mp h)) (fun h => h6 ((hcond1_1 ⟨t, hN⟩).mp h)) (iblk1 V c 0 ⟨t, hN⟩) (iblk1 V c 1 ⟨t, hN⟩) (iblk1 V c 2 ⟨t, hN⟩) (iblk1 V c 3 ⟨t, hN⟩) (iblk1 V c 4 ⟨t, hN⟩) (outsAt1 (F := Ideal) V c (t - 1) hN').2.2.1 (outsAt1 (F := Ideal) V c (t - 1) hN').2.2.2.1 (outsAt1 (F := Ideal) V c (t - 1) hN').2.2.2.2.1 (outsAt1 (F := Ideal) V c (t - 1) hN').2.2.2.2.2 r

/-- So after the last column block of row block b the state is the blocked evaluation of the row block's seven
    column blocks. -/
theorem rowSt_last (b : Fin 32) :
    rowSt V c r (7 * b.val + 6)
      = Cert.Online.run (n := 7) (C := Fin 896) (fun k cc => ptL V c r (7 * b.val + k.val) cc)
          (fun k cc => ptKeep V c r (7 * b.val + k.val) cc) (fun k cc => ptPos V c r (7 * b.val + k.val) cc) 7 le_rfl :=
  Cert.Online.grid_rec_224 (rowSt V c r) (ptL V c r) (ptKeep V c r) (ptPos V c r)
    (rowSt_first V c r) (rowSt_next V c r) b.val b.isLt

/-- There output window 5's buffer holds, at row r, what the running form forms from that state, -/
theorem out5_last (b : Fin 32) (hN : 7 * b.val + 6 < cfg1.N) :
    (outsAt1 (F := Ideal) V c (7 * b.val + 6) hN).1 (ix3 0 r 0) = Cert.Online.out (rowSt V c r (7 * b.val + 6)) := by
  have ht : 7 * b.val + 6 < 224 := by have := b.isLt; omega
  have h0 : (7 * b.val + 6) % 7 ≠ 0 := by omega
  have h6 : (7 * b.val + 6) % 7 = 6 := by omega
  have hN' : 7 * b.val + 6 - 1 < cfg1.N := Nat.lt_of_le_of_lt (Nat.sub_le _ _) hN
  rw [rowSt_next V c r (7 * b.val + 6) ht h0, rowSt_eq V c r (7 * b.val + 6 - 1) hN', ptL_eq V c r (7 * b.val + 6) hN,
    ptKeep_eq V c r (7 * b.val + 6) hN, ptPos_eq V c r (7 * b.val + 6) hN]
  have e := outsAt1_C (F := Ideal) V c ⟨7 * b.val + 6, hN⟩ h0 h6
  refine (congrFun (congrArg (fun p => p.1) e) (ix3 0 r 0)).trans ?_
  dsimp only
  exact outC5' c (grid1.coords ⟨7 * b.val + 6, hN⟩) (ms1_0 ⟨7 * b.val + 6, hN⟩) (hs1_0 ⟨7 * b.val + 6, hN⟩) (ms1_1 ⟨7 * b.val + 6, hN⟩) (hs1_1 ⟨7 * b.val + 6, hN⟩) (ms1_2 ⟨7 * b.val + 6, hN⟩) (hs1_2 ⟨7 * b.val + 6, hN⟩) (ms1_3 ⟨7 * b.val + 6, hN⟩) (hs1_3 ⟨7 * b.val + 6, hN⟩) (ms1_4 ⟨7 * b.val + 6, hN⟩) (hs1_4 ⟨7 * b.val + 6, hN⟩) (ms1_5 ⟨7 * b.val + 6, hN⟩) (hs1_5 ⟨7 * b.val + 6, hN⟩) (ms1_6 ⟨7 * b.val + 6, hN⟩) (hs1_6 ⟨7 * b.val + 6, hN⟩) scM1_0 (Memref.isWhole_whole _) scM1_1 (Memref.isWhole_whole _) scM1_2 (Memref.isWhole_whole _) scM1_3 (Memref.isWhole_whole _) (fun h => h0 ((hcond1_0 ⟨7 * b.val + 6, hN⟩).mp h)) ((hcond1_1 ⟨7 * b.val + 6, hN⟩).mpr h6) (iblk1 V c 0 ⟨7 * b.val + 6, hN⟩) (iblk1 V c 1 ⟨7 * b.val + 6, hN⟩) (iblk1 V c 2 ⟨7 * b.val + 6, hN⟩) (iblk1 V c 3 ⟨7 * b.val + 6, hN⟩) (iblk1 V c 4 ⟨7 * b.val + 6, hN⟩) (outsAt1 (F := Ideal) V c (7 * b.val + 6 - 1) hN').2.2.1 (outsAt1 (F := Ideal) V c (7 * b.val + 6 - 1) hN').2.2.2.1 (outsAt1 (F := Ideal) V c (7 * b.val + 6 - 1) hN').2.2.2.2.1 (outsAt1 (F := Ideal) V c (7 * b.val + 6 - 1) hN').2.2.2.2.2 r

/-- and output window 6's its count of positives. -/
theorem out6_last (b : Fin 32) (hN : 7 * b.val + 6 < cfg1.N) :
    (outsAt1 (F := Ideal) V c (7 * b.val + 6) hN).2.1 (ix3 0 r 0) = (rowSt V c r (7 * b.val + 6)).D := by
  have ht : 7 * b.val + 6 < 224 := by have := b.isLt; omega
  have h0 : (7 * b.val + 6) % 7 ≠ 0 := by omega
  have h6 : (7 * b.val + 6) % 7 = 6 := by omega
  have hN' : 7 * b.val + 6 - 1 < cfg1.N := Nat.lt_of_le_of_lt (Nat.sub_le _ _) hN
  rw [rowSt_next V c r (7 * b.val + 6) ht h0, rowSt_eq V c r (7 * b.val + 6 - 1) hN', ptL_eq V c r (7 * b.val + 6) hN,
    ptKeep_eq V c r (7 * b.val + 6) hN, ptPos_eq V c r (7 * b.val + 6) hN]
  have e := outsAt1_C (F := Ideal) V c ⟨7 * b.val + 6, hN⟩ h0 h6
  refine (congrFun (congrArg (fun p => p.2.1) e) (ix3 0 r 0)).trans ?_
  dsimp only
  exact outC6' c (grid1.coords ⟨7 * b.val + 6, hN⟩) (ms1_0 ⟨7 * b.val + 6, hN⟩) (hs1_0 ⟨7 * b.val + 6, hN⟩) (ms1_1 ⟨7 * b.val + 6, hN⟩) (hs1_1 ⟨7 * b.val + 6, hN⟩) (ms1_2 ⟨7 * b.val + 6, hN⟩) (hs1_2 ⟨7 * b.val + 6, hN⟩) (ms1_3 ⟨7 * b.val + 6, hN⟩) (hs1_3 ⟨7 * b.val + 6, hN⟩) (ms1_4 ⟨7 * b.val + 6, hN⟩) (hs1_4 ⟨7 * b.val + 6, hN⟩) (ms1_5 ⟨7 * b.val + 6, hN⟩) (hs1_5 ⟨7 * b.val + 6, hN⟩) (ms1_6 ⟨7 * b.val + 6, hN⟩) (hs1_6 ⟨7 * b.val + 6, hN⟩) scM1_0 (Memref.isWhole_whole _) scM1_1 (Memref.isWhole_whole _) scM1_2 (Memref.isWhole_whole _) scM1_3 (Memref.isWhole_whole _) (fun h => h0 ((hcond1_0 ⟨7 * b.val + 6, hN⟩).mp h)) ((hcond1_1 ⟨7 * b.val + 6, hN⟩).mpr h6) (iblk1 V c 0 ⟨7 * b.val + 6, hN⟩) (iblk1 V c 1 ⟨7 * b.val + 6, hN⟩) (iblk1 V c 2 ⟨7 * b.val + 6, hN⟩) (iblk1 V c 3 ⟨7 * b.val + 6, hN⟩) (iblk1 V c 4 ⟨7 * b.val + 6, hN⟩) (outsAt1 (F := Ideal) V c (7 * b.val + 6 - 1) hN').2.2.1 (outsAt1 (F := Ideal) V c (7 * b.val + 6 - 1) hN').2.2.2.1 (outsAt1 (F := Ideal) V c (7 * b.val + 6 - 1) hN').2.2.2.2.1 (outsAt1 (F := Ideal) V c (7 * b.val + 6 - 1) hN').2.2.2.2.2 r

end Rows

end Cert.KernelIdeal.Fr

end
-- ==== Proof.KI.Reg1Array.lean ====
/- Region 1's two output arrays after the region. The grid is 32 × 7; each output window's block is one slab
   [1, 196, 1] of its [32, 196, 1] array, at the slab the first grid coordinate names, and it is written back only at
   the last point of each row of the grid, t = 7 b + 6. So slab b of the array ends holding what the body leaves in
   the window's buffer at that point. Stated for any proof data of the pipeline and any family of per-point outputs
   that the data's buffers after the body are read from. -/
import proofs.«149911_j6408091205873_1_alg».proof.Proof.KI.Reg1Base
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The points that write back, and the output windows' block indices -/

/-- The last point of row b of the grid is a point. -/
theorem flushPt_lt (b : Fin 32) : 7 * b.val + 6 < cfg1.N :=
  Nat.lt_of_lt_of_eq (by have := b.isLt; omega : 7 * b.val + 6 < 224) N_1.symm

/-- The last point of row b of the grid. -/
abbrev flushPt (b : Fin 32) : Fin cfg1.N := ⟨7 * b.val + 6, flushPt_lt b⟩

/-- A point is below the number of points, as a numeral. -/
theorem lt_N1' (t : Fin cfg1.N) : t.val < 224 := Nat.lt_of_lt_of_eq t.isLt N_1

/-- The printed index maps of the two output windows at a point: block t / 7 of the leading axis, block 0 of the others. -/
theorem idx_facts1o : ∀ t : Fin cfg1.N,
    win1_5.index t (0 : Fin 3) = t.val / 7 ∧ win1_5.index t (1 : Fin 3) = 0 ∧ win1_5.index t (2 : Fin 3) = 0
    ∧ win1_6.index t (0 : Fin 3) = t.val / 7 ∧ win1_6.index t (1 : Fin 3) = 0 ∧ win1_6.index t (2 : Fin 3) = 0 :=
  (by decide +kernel : ∀ t : Fin grid1.N, _)

/-- An index of a [1, 196, 1] block is its middle coordinate between two zeros. -/
theorem eq_ix3_mid (y : S1x196x1.Idx) : y = ix3 (0 : Fin 1) (y 1 : Fin 196) (0 : Fin 1) := by
  funext a
  match a with
  | ⟨0, _⟩ => exact Fin.ext (by have : (y 0).val < 1 := (y 0).isLt; show (y 0).val = 0; omega)
  | ⟨1, _⟩ => rfl
  | ⟨2, _⟩ => exact Fin.ext (by have : (y 2).val < 1 := (y 2).isLt; show (y 2).val = 0; omega)

/-- The block of output window 5 at point t embeds its index y at (t / 7, y 1, 0) of the array. -/
theorem emb1_5 (t : Fin cfg1.N) (y : S1x196x1.Idx) :
    ((cfg1.win 5).blk t).view.emb y
      = ix3 (⟨t.val / 7, by have := lt_N1' t; omega⟩ : Fin 32) (y 1 : Fin 196) (0 : Fin 1) := by
  obtain ⟨e0, e1, e2, -⟩ := idx_facts1o t
  funext a; apply Fin.ext
  match a with
  | ⟨0, _⟩ => show win1_5.index t (0 : Fin 3) * 1 + 1 * (y 0).val = t.val / 7; have : (y 0).val < 1 := (y 0).isLt; omega
  | ⟨1, _⟩ => show win1_5.index t (1 : Fin 3) * 196 + 1 * (y 1).val = (y 1).val; omega
  | ⟨2, _⟩ => show win1_5.index t (2 : Fin 3) * 1 + 1 * (y 2).val = 0; have : (y 2).val < 1 := (y 2).isLt; omega

/-- The same for output window 6. -/
theorem emb1_6 (t : Fin cfg1.N) (y : S1x196x1.Idx) :
    ((cfg1.win 6).blk t).view.emb y
      = ix3 (⟨t.val / 7, by have := lt_N1' t; omega⟩ : Fin 32) (y 1 : Fin 196) (0 : Fin 1) := by
  obtain ⟨-, -, -, e0, e1, e2⟩ := idx_facts1o t
  funext a; apply Fin.ext
  match a with
  | ⟨0, _⟩ => show win1_6.index t (0 : Fin 3) * 1 + 1 * (y 0).val = t.val / 7; have : (y 0).val < 1 := (y 0).isLt; omega
  | ⟨1, _⟩ => show win1_6.index t (1 : Fin 3) * 196 + 1 * (y 1).val = (y 1).val; omega
  | ⟨2, _⟩ => show win1_6.index t (2 : Fin 3) * 1 + 1 * (y 2).val = 0; have : (y 2).val < 1 := (y 2).isLt; omega

/-- An index of the array is in a point's block iff each coordinate is in the block's range on its axis. -/
theorem mem_blk1_5 (t : Fin cfg1.N) (i : S32x196x1.Idx) :
    i ∈ ((cfg1.win 5).blk t).view.set ↔ ∀ a : Fin 3, win1_5.index t a * S1x196x1.size a ≤ (i a).val ∧ (i a).val < win1_5.index t a * S1x196x1.size a + S1x196x1.size a := by
  show i ∈ ((View.whole main_v6_0).slice (win1_5.rect t)).set ↔ _
  rw [View.set_slice_whole, Rect.mem_set_unit]
  exact Iff.rfl

theorem mem_blk1_6 (t : Fin cfg1.N) (i : S32x196x1.Idx) :
    i ∈ ((cfg1.win 6).blk t).view.set ↔ ∀ a : Fin 3, win1_6.index t a * S1x196x1.size a ≤ (i a).val ∧ (i a).val < win1_6.index t a * S1x196x1.size a + S1x196x1.size a := by
  show i ∈ ((View.whole main_v6_1).slice (win1_6.rect t)).set ↔ _
  rw [View.set_slice_whole, Rect.mem_set_unit]
  exact Iff.rfl

/-- Every index of output window 5's array is in the block of a point that writes back: the last point of its row. -/
theorem covered1_5 (i : S32x196x1.Idx) : ∃ t : Fin cfg1.N, (cfg1.win 5).flush t = true ∧ i ∈ ((cfg1.win 5).blk t).view.set := by
  refine ⟨flushPt (i 0 : Fin 32), (flush1_5 _).mpr (by show (7 * (i 0).val + 6) % 7 = 6; omega), ?_⟩
  rw [mem_blk1_5]
  obtain ⟨e0, e1, e2, -⟩ := idx_facts1o (flushPt (i 0 : Fin 32))
  have h0 : (7 * (i 0).val + 6) / 7 = (i 0).val := by omega
  have e0' : win1_5.index (flushPt (i 0 : Fin 32)) (0 : Fin 3) = (i 0).val := e0.trans h0
  intro a
  match a with
  | ⟨0, _⟩ => show win1_5.index (flushPt (i 0 : Fin 32)) (0 : Fin 3) * 1 ≤ (i 0).val ∧ (i 0).val < win1_5.index (flushPt (i 0 : Fin 32)) (0 : Fin 3) * 1 + 1; omega
  | ⟨1, _⟩ => show win1_5.index (flushPt (i 0 : Fin 32)) (1 : Fin 3) * 196 ≤ (i 1).val ∧ (i 1).val < win1_5.index (flushPt (i 0 : Fin 32)) (1 : Fin 3) * 196 + 196; have hi : (i 1).val < 196 := (i 1).isLt; omega
  | ⟨2, _⟩ => show win1_5.index (flushPt (i 0 : Fin 32)) (2 : Fin 3) * 1 ≤ (i 2).val ∧ (i 2).val < win1_5.index (flushPt (i 0 : Fin 32)) (2 : Fin 3) * 1 + 1; have hi : (i 2).val < 1 := (i 2).isLt; omega

theorem covered1_6 (i : S32x196x1.Idx) : ∃ t : Fin cfg1.N, (cfg1.win 6).flush t = true ∧ i ∈ ((cfg1.win 6).blk t).view.set := by
  refine ⟨flushPt (i 0 : Fin 32), (flush1_6 _).mpr (by show (7 * (i 0).val + 6) % 7 = 6; omega), ?_⟩
  rw [mem_blk1_6]
  obtain ⟨-, -, -, e0, e1, e2⟩ := idx_facts1o (flushPt (i 0 : Fin 32))
  have h0 : (7 * (i 0).val + 6) / 7 = (i 0).val := by omega
  have e0' : win1_6.index (flushPt (i 0 : Fin 32)) (0 : Fin 3) = (i 0).val := e0.trans h0
  intro a
  match a with
  | ⟨0, _⟩ => show win1_6.index (flushPt (i 0 : Fin 32)) (0 : Fin 3) * 1 ≤ (i 0).val ∧ (i 0).val < win1_6.index (flushPt (i 0 : Fin 32)) (0 : Fin 3) * 1 + 1; omega
  | ⟨1, _⟩ => show win1_6.index (flushPt (i 0 : Fin 32)) (1 : Fin 3) * 196 ≤ (i 1).val ∧ (i 1).val < win1_6.index (flushPt (i 0 : Fin 32)) (1 : Fin 3) * 196 + 196; have hi : (i 1).val < 196 := (i 1).isLt; omega
  | ⟨2, _⟩ => show win1_6.index (flushPt (i 0 : Fin 32)) (2 : Fin 3) * 1 ≤ (i 2).val ∧ (i 2).val < win1_6.index (flushPt (i 0 : Fin 32)) (2 : Fin 3) * 1 + 1; have hi : (i 2).val < 1 := (i 2).isLt; omega

/-! ## The arrays, for any proof data whose two output buffers after the body are read from a family of per-point outputs -/

section Arrays
variable {α : Type} {c : Dev nD} (dat : Dat τ (Elt F) Unit ℕ (UR sig nD τ) ℕ cfg1 c)
-- what the body leaves at point n, the two output windows' buffers first, then whatever else is carried
variable (outs : (n : ℕ) → n < cfg1.N → Vec F S1x196x1 .f32 × Vec F S1x196x1 .f32 × α)

/-- The family of per-point outputs depends on the point only. -/
theorem outs_congr {n m : ℕ} (e : n = m) (hn : n < cfg1.N) (hm : m < cfg1.N) : outs n hn = outs m hm := by
  subst e; rfl

/-- Output window 5's array as one function: slab b holds what the body leaves in the window's buffer at the last
    point of row b. -/
def G5 : S32x196x1.Idx → Elt F .f32 :=
  fun idx => (outs (7 * (idx 0).val + 6) (flushPt_lt (idx 0 : Fin 32))).1 (ix3 (0 : Fin 1) (idx 1 : Fin 196) (0 : Fin 1))

/-- The same for output window 6. -/
def G6 : S32x196x1.Idx → Elt F .f32 :=
  fun idx => (outs (7 * (idx 0).val + 6) (flushPt_lt (idx 0 : Fin 32))).2.1 (ix3 (0 : Fin 1) (idx 1 : Fin 196) (0 : Fin 1))

/-- What a point that writes back writes of output window 5 is its block of that function. -/
theorem flushed1_5 (hafter5 : ∀ t : Fin cfg1.N, dat.after 5 t = (outs t.val t.isLt).1) (t : Fin cfg1.N)
    (hf : (cfg1.win 5).flush t = true) : dat.flushed 5 t = ((cfg1.win 5).blk t).view.read (Elt F) (G5 outs) := by
  have hm : t.val % 7 = 6 := (flush1_5 t).mp hf
  have ht : t.val = 7 * (t.val / 7) + 6 := by omega
  show (cfg1.win 5).cut (grid1.coords t) (dat.after 5 t) = _
  rw [hafter5]
  funext y
  show (outs t.val t.isLt).1 ((cfg1.win 5).xinj (grid1.coords t) y) = G5 outs (((cfg1.win 5).blk t).view.emb y)
  rw [emb1_5]
  show (outs t.val t.isLt).1 y = (outs (7 * (t.val / 7) + 6) _).1 (ix3 (0 : Fin 1) (y 1 : Fin 196) (0 : Fin 1))
  rw [outs_congr outs ht t.isLt (flushPt_lt ⟨t.val / 7, by have := lt_N1' t; omega⟩)]
  exact congrArg _ (eq_ix3_mid y)

theorem flushed1_6 (hafter6 : ∀ t : Fin cfg1.N, dat.after 6 t = (outs t.val t.isLt).2.1) (t : Fin cfg1.N)
    (hf : (cfg1.win 6).flush t = true) : dat.flushed 6 t = ((cfg1.win 6).blk t).view.read (Elt F) (G6 outs) := by
  have hm : t.val % 7 = 6 := (flush1_6 t).mp hf
  have ht : t.val = 7 * (t.val / 7) + 6 := by omega
  show (cfg1.win 6).cut (grid1.coords t) (dat.after 6 t) = _
  rw [hafter6]
  funext y
  show (outs t.val t.isLt).2.1 ((cfg1.win 6).xinj (grid1.coords t) y) = G6 outs (((cfg1.win 6).blk t).view.emb y)
  rw [emb1_6]
  show (outs t.val t.isLt).2.1 y = (outs (7 * (t.val / 7) + 6) _).2.1 (ix3 (0 : Fin 1) (y 1 : Fin 196) (0 : Fin 1))
  rw [outs_congr outs ht t.isLt (flushPt_lt ⟨t.val / 7, by have := lt_N1' t; omega⟩)]
  exact congrArg _ (eq_ix3_mid y)

/-- Output window 5's array after the region, whole. -/
theorem arr1_5_eq_of (hafter5 : ∀ t : Fin cfg1.N, dat.after 5 t = (outs t.val t.isLt).1) :
    dat.arrAt 5 cfg1.N = G5 outs :=
  dat.arrAt_eq_of_cover 5 (G5 outs) (flushed1_5 dat outs hafter5) covered1_5

theorem arr1_6_eq_of (hafter6 : ∀ t : Fin cfg1.N, dat.after 6 t = (outs t.val t.isLt).2.1) :
    dat.arrAt 6 cfg1.N = G6 outs :=
  dat.arrAt_eq_of_cover 6 (G6 outs) (flushed1_6 dat outs hafter6) covered1_6

/-- Output window 5's array after the region at (b, r, 0): what the body leaves at (0, r, 0) of the window's buffer at
    the last point of row b. -/
theorem arr1_5_of (hafter5 : ∀ t : Fin cfg1.N, dat.after 5 t = (outs t.val t.isLt).1) (b : Fin 32) (r : Fin 196) :
    dat.arrAt 5 cfg1.N (ix3 b r (0 : Fin 1)) = (outs (7 * b.val + 6) (flushPt_lt b)).1 (ix3 (0 : Fin 1) r (0 : Fin 1)) :=
  congrFun (arr1_5_eq_of dat outs hafter5) (ix3 b r (0 : Fin 1))

theorem arr1_6_of (hafter6 : ∀ t : Fin cfg1.N, dat.after 6 t = (outs t.val t.isLt).2.1) (b : Fin 32) (r : Fin 196) :
    dat.arrAt 6 cfg1.N (ix3 b r (0 : Fin 1)) = (outs (7 * b.val + 6) (flushPt_lt b)).2.1 (ix3 (0 : Fin 1) r (0 : Fin 1)) :=
  congrFun (arr1_6_eq_of dat outs hafter6) (ix3 b r (0 : Fin 1))

end Arrays

end Cert.KernelIdeal.Fr

end
-- ==== Proof.Ref.Tail.lean ====
/-
  The last six operations of the reference, as one function of the two vectors of 32 batch sums.

  From the batches' sums `num` (over the positives, of the shifted log-probabilities) and `den` (the numbers of
  positives) the reference forms, batch by batch, `(-1 · num b) / den b`, adds the 32 quotients from 0, divides the
  sum by 32 and multiplies by 1: the mean over the batches of the negated mean log-probability of the positives.
  Everything before these operations enters only through the two vectors, so the result of the whole reference
  is this function of them, and it depends on them only through their 32 entries.
-/
import proofs.«149911_j6408091205873_1_alg».proof.Proof.Gen.ReferenceIdeal.Read
import Idealize.ShloMosaic.Lib.ValueIdx

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The mean over the 32 batches of `(-1 · num b) / den b`, spelt with the operations the reference applies. -/
def tail (num den : FVec Ideal ⟨1, ![32]⟩ .f32) : FVec Ideal ⟨0, ![]⟩ .f32 :=
  mulf (F := Ideal)
    (Host.divf (F := Ideal)
      (Host.reduceAdd (F := Ideal)
        (Host.divf (F := Ideal)
          (mulf (F := Ideal) (broadcastInDim S32 ![] bcast_S_S32 (constant (F := Ideal) S_ .f32 0xBF800000#32)) num) den)
        (constant (F := Ideal) S_ .f32 0x00000000#32) reducesTo_S32_S_d0 h_S_)
      (constant (F := Ideal) S_ .f32 0x42000000#32))
    (constant (F := Ideal) S_ .f32 0x3F800000#32)

/-- The reference's result is `tail` of its two vectors of batch sums: the six operations after them, read off. -/
theorem result_eq_tail (x0 : (⟨S32x196x256, .f32⟩ : BufTy).Contents (Elt Ideal)) (x1 : (⟨S100x256, .f32⟩ : BufTy).Contents (Elt Ideal))
    (x2 : (⟨S196x6272, .i1⟩ : BufTy).Contents (Elt Ideal)) :
    val_main_v71 (F := Ideal) x0 x1 x2 = tail (val_main_v63 (F := Ideal) x0 x1 x2) (val_main_v65 (F := Ideal) x0 x1) := by
  unfold val_main_v71 val_main_v70 val_main_v69 val_main_v68 val_main_v67 val_main_v66 val_main_cst_10 val_main_cst_11
    val_main_cst_12 val_main_cst_13 tail
  rfl

/-- `tail` reads its two vectors only at their 32 entries. -/
theorem tail_congr (num num' den den' : FVec Ideal ⟨1, ![32]⟩ .f32)
    (hn : ∀ b : Fin 32, num (ix1 b) = num' (ix1 b)) (hd : ∀ b : Fin 32, den (ix1 b) = den' (ix1 b)) :
    tail num den = tail num' den' := by
  have en : num = num' := funext fun j => by rw [eq_ix1 j]; exact hn _
  have ed : den = den' := funext fun j => by rw [eq_ix1 j]; exact hd _
  rw [en, ed]

end Cert.RefValue

end
-- ==== Proof.KI.Result.lean ====
/-
  What the program returns. The sixteen closing host operations turn the main kernel's two arrays of 32 × 196 × 1 row
  values into one number: each array is read as 32 × 196 and summed along its rows from 0 (the batches' sums `numK`
  and `denK`), and the last six operations — the mean over the 32 batches of `(-1 · num b) / den b` — are the
  reference's own last six, applied to these two vectors. A batch's sum at `b` is the sum over the 196 rows `r` of
  the array at `(b, r, 0)`.
-/
import proofs.«149911_j6408091205873_1_alg».proof.Proof.KI.Run
import proofs.«149911_j6408091205873_1_alg».proof.Proof.Ref.Tail

noncomputable section

namespace Cert.KernelIdeal.Fr

open Idealize.ShloMosaic Idealize.ShloMosaic.TcCoe Idealize.ShloMosaic.Tactic
open Idealize.SL.Sem Idealize.ShloMosaic.StableHlo Idealize.ShloMosaic.ValueIdx
open Cert.KernelIdeal Cert.KernelIdeal.Gen

variable (m : (ℓ : Loc nD τ sig) → Buf (Elt Ideal) ℓ) (ρ : Dev nD → PrngReg) (c : Dev nD)

/-- An array of 32 × 196 × 1 values read as 32 × 196 and summed along its rows from 0. -/
def rowSums (y : (⟨S32x196x1, .f32⟩ : BufTy).Contents (Elt Ideal)) : FVec Ideal ⟨1, ![32]⟩ .f32 :=
  Host.reduceAdd (F := Ideal) (shapeCast S32x196 y shapeCasts_S32x196x1_S32x196)
    (constant (F := Ideal) S_ .f32 0x00000000#32) reducesTo_S32x196_S32_d1 h_S_

/-- The batches' sums of the first array the main kernel leaves. -/
def numK : FVec Ideal ⟨1, ![32]⟩ .f32 := rowSums (W4 (F := Ideal) m ρ c (Proc.devRef .tc main_v6_0))

/-- The batches' sums of the second array the main kernel leaves. -/
def denK : FVec Ideal ⟨1, ![32]⟩ .f32 := rowSums (W4 (F := Ideal) m ρ c (Proc.devRef .tc main_v6_1))

/-- The program's result is the reference's last six operations applied to the two vectors of batch sums. -/
theorem result_eq :
    W5 (F := Ideal) m ρ c (Proc.devRef .tc main_v16) = Cert.RefValue.tail (numK m ρ c) (denK m ρ c) := by
  show StableHlo.after hostOps2 (W4 (F := Ideal) m ρ c) (Proc.devRef .tc main_v16) = _
  unfold numK denK
  generalize W4 (F := Ideal) m ρ c = X
  after_results
  rfl

/-- A batch's sum: the sum over its 196 rows of the array at `(b, r, 0)`. -/
theorem rowSums_apply (y : (⟨S32x196x1, .f32⟩ : BufTy).Contents (Elt Ideal)) (b : Fin 32) :
    rowSums y (ix1 b) = ∑ r : Fin 196, y (ix3 b r 0) := by
  unfold rowSums
  simp only [Host.reduceAdd, Ideal.hostReduceAdd_def]
  rw [Ideal.hostReduceAdd_single reducesTo_S32x196_S32_d1 (by decide)]
  have h0 : (constant (F := Ideal) S_ .f32 0x00000000#32) (Shape.Idx.first h_S_) = (0 : EReal) := Ideal.ofBits_zero_f32
  rw [h0, zero_add]
  refine Finset.sum_congr rfl fun r _ => ?_
  refine shapeCast_apply y shapeCasts_S32x196x1_S32x196 _ (ix3 b r 0) ?_
  rw [Shape.rowMajor_val_three, Shape.rowMajor_val_two]
  show (b.val * 196 + r.val) * 1 + 0 = b.val * 196 + r.val
  omega

theorem numK_apply (b : Fin 32) :
    numK m ρ c (ix1 b)
      = (∑ r : Fin 196, W4 (F := Ideal) m ρ c (Proc.devRef .tc main_v6_0) (ix3 b r 0) : EReal) :=
  rowSums_apply _ b

theorem denK_apply (b : Fin 32) :
    denK m ρ c (ix1 b)
      = (∑ r : Fin 196, W4 (F := Ideal) m ρ c (Proc.devRef .tc main_v6_1) (ix3 b r 0) : EReal) :=
  rowSums_apply _ b

end Cert.KernelIdeal.Fr

end
-- ==== Proof.SpecFacts.lean ====
/-
  Facts about the specification's own functions, on the extended reals. Under the hypothesis that every row is a row
  of reals with a positive real sum of squares: the unit rows are real (a real times the reciprocal root of a positive
  real), so their inner products and the logits are real. The masks take the values 0 and 1 only, and a positive
  column is a kept one. With these the running form of a row, over 7 blocks of 896 columns, is the row's sum over its
  positives and its count.
-/
import proofs.«149911_j6408091205873_1_alg».proof.Proof.SpecArgs
import proofs.«149911_j6408091205873_1_alg».proof.Proof.LibSumBlocks

noncomputable section

namespace Cert.Spec

open Idealize.ShloMosaic Idealize.ShloMosaic.ValueIdx

/-- A finite sum of reals is a real. -/
theorem sum_coe_real {ι : Type} (S : Finset ι) (f : ι → ℝ) :
    (∑ k ∈ S, ((f k : ℝ) : EReal)) = ((∑ k ∈ S, f k : ℝ) : EReal) := by
  classical
  induction S using Finset.induction_on with
  | empty => simp
  | insert a S ha ih => rw [Finset.sum_insert ha, Finset.sum_insert ha, ih, EReal.coe_add]

/-- The unit rows of rows of reals with positive sums of squares are rows of reals. -/
theorem unit_real {n d : ℕ} (x : Fin n → Fin d → EReal) (h : PosRows x) (i : Fin n) (q : Fin d) :
    ∃ r : ℝ, unitRow x i q = (r : EReal) := by
  obtain ⟨hr, r, hr0, hs⟩ := h i
  obtain ⟨a, ha⟩ := hr q
  refine ⟨a * (Real.sqrt r)⁻¹, ?_⟩
  unfold unitRow
  rw [hs, ha, Ideal.rsqrt_coe, if_neg (not_lt.2 hr0.le), if_neg hr0.ne', EReal.coe_mul]

/-- The inner products of rows of reals are reals. -/
theorem dot_real {n n' d : ℕ} (a : Fin n → Fin d → EReal) (b : Fin n' → Fin d → EReal)
    (ha : ∀ i q, ∃ r : ℝ, a i q = (r : EReal)) (hb : ∀ j q, ∃ r : ℝ, b j q = (r : EReal)) (i : Fin n) (j : Fin n') :
    ∃ r : ℝ, dotRows a b i j = (r : EReal) := by
  choose f hf using ha
  choose g hg using hb
  refine ⟨∑ q : Fin d, f i q * g j q, ?_⟩
  unfold dotRows
  rw [← sum_coe_real]
  exact Finset.sum_congr rfl fun q _ => by rw [hf i q, hg j q, EReal.coe_mul]

/-- The similarities of the unit rows are reals. -/
theorem sim_real (x0 : (⟨3, ![32, 196, 256]⟩ : Shape).Idx → EReal) (hz : PosRows (rowsZ x0)) (i j : Fin 6272) :
    ∃ r : ℝ, simA x0 i j = (r : EReal) :=
  dot_real _ _ (unit_real _ hz) (unit_real _ hz) i j

/-- The logits are reals. -/
theorem logit_real (x0 : (⟨3, ![32, 196, 256]⟩ : Shape).Idx → EReal) (hz : PosRows (rowsZ x0)) (i j : Fin 6272) :
    ∃ r : ℝ, logit kappa (simA x0) i j = (r : EReal) := by
  obtain ⟨r, hr⟩ := sim_real x0 hz i j
  refine ⟨r * (134217728 / 9395241), ?_⟩
  unfold logit kappa
  rw [hr, EReal.coe_mul]

/-- A proposition's number is 0 or 1. -/
theorem ind_01 (p : Prop) [Decidable p] : ind p = 0 ∨ ind p = 1 := by
  unfold ind; split_ifs
  · exact Or.inr rfl
  · exact Or.inl rfl

theorem hit_01 (s : Fin 6272 → Fin 6272 → EReal) (rp : Fin 6272 → EReal) (i j : Fin 6272) :
    hit s rp i j = 0 ∨ hit s rp i j = 1 := ind_01 _

theorem off_01 (i j : Fin 6272) : off i j = 0 ∨ off i j = 1 := ind_01 _

/-- A bit as a number is 0 or 1. -/
theorem maskG_01 (x2 : (⟨2, ![196, 6272]⟩ : Shape).Idx → BitVec 1) (r : Fin 196) (j : Fin 6272) :
    maskG x2 r j = 0 ∨ maskG x2 r j = 1 := by
  have hb : ∀ b : BitVec 1, b.toNat = 0 ∨ b.toNat = 1 := by decide
  unfold maskG
  rcases hb (x2 (ix2 r j)) with h | h <;> rw [h]
  · left; simp
  · right; simp

/-- A product of two numbers that are 0 or 1 is 0 or 1, and is 1 only when both are. -/
theorem mul_01 {a b : EReal} (ha : a = 0 ∨ a = 1) (hb : b = 0 ∨ b = 1) : a * b = 0 ∨ a * b = 1 := by
  rcases ha with rfl | rfl <;> rcases hb with rfl | rfl <;> simp

theorem mul_eq_one_01 {a b : EReal} (ha : a = 0 ∨ a = 1) (hb : b = 0 ∨ b = 1) (h : a * b = 1) : a = 1 ∧ b = 1 := by
  rcases ha with rfl | rfl <;> rcases hb with rfl | rfl <;> simp at h ⊢

/-- The larger of two numbers that are 0 or 1 is 0 or 1. -/
theorem max_01 {a b : EReal} (ha : a = 0 ∨ a = 1) (hb : b = 0 ∨ b = 1) : max a b = 0 ∨ max a b = 1 := by
  rcases ha with rfl | rfl <;> rcases hb with rfl | rfl <;> simp

theorem max_one_01 {b : EReal} (hb : b = 0 ∨ b = 1) : max 1 b = 1 := by
  rcases hb with rfl | rfl <;> simp

theorem pos_01 (s : Fin 6272 → Fin 6272 → EReal) (rp : Fin 6272 → EReal) (i j : Fin 6272) :
    pos s rp i j = 0 ∨ pos s rp i j = 1 := mul_01 (hit_01 s rp i j) (off_01 i j)

theorem keep_01 (s : Fin 6272 → Fin 6272 → EReal) (rp : Fin 6272 → EReal) (g : Fin 196 → Fin 6272 → EReal)
    (hg : ∀ r j, g r j = 0 ∨ g r j = 1) (i j : Fin 6272) : keep s rp g i j = 0 ∨ keep s rp g i j = 1 :=
  mul_01 (off_01 i j) (max_01 (hit_01 s rp i j) (hg _ j))

/-- A positive column is a kept column. -/
theorem pos_keep (s : Fin 6272 → Fin 6272 → EReal) (rp : Fin 6272 → EReal) (g : Fin 196 → Fin 6272 → EReal)
    (hg : ∀ r j, g r j = 0 ∨ g r j = 1) (i j : Fin 6272) : pos s rp i j = 1 → keep s rp g i j = 1 := by
  intro h
  obtain ⟨hh, ho⟩ := mul_eq_one_01 (hit_01 s rp i j) (off_01 i j) h
  unfold keep
  rw [ho, hh, max_one_01 (hg _ j), one_mul]

/-- Column c of block k of 7 blocks of 896 is a column of the 6272. -/
theorem col_lt (k : Fin 7) (c : Fin 896) : k.val * 896 + c.val < 6272 := by omega

/-- The statement that the running form over 7 blocks of 896 columns of a row of real logits, with 0/1 masks
    pos ≤ keep, forms the row's sum over its positives and counts them. -/
def RunOut6272 : Prop :=
  ∀ (L keep pos : Fin 6272 → EReal), (∀ j, ∃ r : ℝ, L j = (r : EReal)) → (∀ j, keep j = 0 ∨ keep j = 1) →
    (∀ j, pos j = 0 ∨ pos j = 1) → (∀ j, pos j = 1 → keep j = 1) →
    Cert.Online.out (Cert.Online.run (n := 7) (C := Fin 896) (fun k c => L ⟨k.val * 896 + c.val, col_lt k c⟩)
        (fun k c => keep ⟨k.val * 896 + c.val, col_lt k c⟩) (fun k c => pos ⟨k.val * 896 + c.val, col_lt k c⟩) 7 le_rfl)
      = rowNum L keep pos
    ∧ (Cert.Online.run (n := 7) (C := Fin 896) (fun k c => L ⟨k.val * 896 + c.val, col_lt k c⟩)
        (fun k c => keep ⟨k.val * 896 + c.val, col_lt k c⟩) (fun k c => pos ⟨k.val * 896 + c.val, col_lt k c⟩) 7 le_rfl).D
      = rowCnt pos

/-- Row i of the problem, evaluated block of columns by block of columns, is the row's two sums. -/
theorem row_online_of (hd : RunOut6272) (x0 : (⟨3, ![32, 196, 256]⟩ : Shape).Idx → EReal)
    (x1 : (⟨2, ![100, 256]⟩ : Shape).Idx → EReal) (x2 : (⟨2, ![196, 6272]⟩ : Shape).Idx → BitVec 1)
    (hz : PosRows (rowsZ x0)) (i : Fin 6272) :
    Cert.Online.out (Cert.Online.run (n := 7) (C := Fin 896)
        (fun k c => logit kappa (simA x0) i ⟨k.val * 896 + c.val, col_lt k c⟩)
        (fun k c => keep (simA x0) (rpA x0 x1) (maskG x2) i ⟨k.val * 896 + c.val, col_lt k c⟩)
        (fun k c => pos (simA x0) (rpA x0 x1) i ⟨k.val * 896 + c.val, col_lt k c⟩) 7 le_rfl)
      = numRow kappa (simA x0) (rpA x0 x1) (maskG x2) i
    ∧ (Cert.Online.run (n := 7) (C := Fin 896)
        (fun k c => logit kappa (simA x0) i ⟨k.val * 896 + c.val, col_lt k c⟩)
        (fun k c => keep (simA x0) (rpA x0 x1) (maskG x2) i ⟨k.val * 896 + c.val, col_lt k c⟩)
        (fun k c => pos (simA x0) (rpA x0 x1) i ⟨k.val * 896 + c.val, col_lt k c⟩) 7 le_rfl).D
      = cntRow (simA x0) (rpA x0 x1) i :=
  hd (logit kappa (simA x0) i) (keep (simA x0) (rpA x0 x1) (maskG x2) i) (pos (simA x0) (rpA x0 x1) i)
    (logit_real x0 hz i) (keep_01 _ _ _ (maskG_01 x2) i) (pos_01 _ _ i) (pos_keep _ _ _ (maskG_01 x2) i)

/-- The 7 × 896 blocked evaluation is the row's two sums. -/
theorem runOut6272 : RunOut6272 := fun L keep pos hL hkeep hpos himp => Cert.Online.run_out_6272 L keep pos hL hkeep hpos himp

/-- Row i of the problem, evaluated over 7 blocks of 896 columns, is the row's sum over its positives and its count. -/
theorem row_online (x0 : (⟨3, ![32, 196, 256]⟩ : Shape).Idx → EReal)
    (x1 : (⟨2, ![100, 256]⟩ : Shape).Idx → EReal) (x2 : (⟨2, ![196, 6272]⟩ : Shape).Idx → BitVec 1)
    (hz : PosRows (rowsZ x0)) (i : Fin 6272) :
    Cert.Online.out (Cert.Online.run (n := 7) (C := Fin 896)
        (fun k c => logit kappa (simA x0) i ⟨k.val * 896 + c.val, col_lt k c⟩)
        (fun k c => keep (simA x0) (rpA x0 x1) (maskG x2) i ⟨k.val * 896 + c.val, col_lt k c⟩)
        (fun k c => pos (simA x0) (rpA x0 x1) i ⟨k.val * 896 + c.val, col_lt k c⟩) 7 le_rfl)
      = numRow kappa (simA x0) (rpA x0 x1) (maskG x2) i
    ∧ (Cert.Online.run (n := 7) (C := Fin 896)
        (fun k c => logit kappa (simA x0) i ⟨k.val * 896 + c.val, col_lt k c⟩)
        (fun k c => keep (simA x0) (rpA x0 x1) (maskG x2) i ⟨k.val * 896 + c.val, col_lt k c⟩)
        (fun k c => pos (simA x0) (rpA x0 x1) i ⟨k.val * 896 + c.val, col_lt k c⟩) 7 le_rfl).D
      = cntRow (simA x0) (rpA x0 x1) i :=
  row_online_of runOut6272 x0 x1 x2 hz i

end Cert.Spec

end
-- ==== Proof.KI.Bridge.lean ====
/-
  The program's two vectors of batch sums are the specification's. At point 7·b + k of the 32 × 7 grid the logits, the
  mask of the kept columns and the mask of the positives the body forms are, at row r and column c of the block, the
  specification's at row 196·b + r and column 896·k + c; the four running quantities at row r after row block b's
  last point are the blocked evaluation of that row over its seven column blocks, and what the two output arrays
  hold at (b, r, 0) is formed from them; the blocked evaluation of a row of real logits with 0/1 masks is the row's
  sum over its positives and its count. Summed over the 196 rows of a batch these are the specification's batch sums.
-/
import proofs.«149911_j6408091205873_1_alg».proof.Proof.KI.Entry
import proofs.«149911_j6408091205873_1_alg».proof.Proof.KI.Reg1Point
import proofs.«149911_j6408091205873_1_alg».proof.Proof.KI.Reg1Rows
import proofs.«149911_j6408091205873_1_alg».proof.Proof.KI.Reg1Array
import proofs.«149911_j6408091205873_1_alg».proof.Proof.KI.Result
import proofs.«149911_j6408091205873_1_alg».proof.Proof.SpecFacts

set_option maxRecDepth 16384

noncomputable section

namespace Cert.KernelIdeal.Fr

open Idealize.ShloMosaic Idealize.ShloMosaic.TcCoe Idealize.ShloMosaic.Tactic Idealize.ShloMosaic.ValueIdx
open Idealize.SL Idealize.SL.Sem
open Cert.KernelIdeal Cert.KernelIdeal.Gen

variable (m : (ℓ : Loc nD τ sig) → Buf (Elt Ideal) ℓ) (ρ : Dev nD → PrngReg) (c : Dev nD)

/-- Column block k of row block b is a point of the 32 × 7 grid. -/
theorem pt_lt (b : Fin 32) (k : Fin 7) : 7 * b.val + k.val < cfg1.N :=
  Nat.lt_of_lt_of_eq (by have := b.isLt; have := k.isLt; omega : 7 * b.val + k.val < 224) N_1.symm

section Chain

/- The three block values at a point, by row and point number. -/
variable (L K P : Fin 196 → ℕ → Fin 896 → EReal)

theorem hV1 : ∀ (jj : Fin 6272) (q : Fin 256), E3 m ρ c main_v1_0 (ix2 jj q) = Cert.Spec.zn (m ((c : Thread nD τ).loc main_arg0)) jj q :=
  entry_v1_0 m ρ c
theorem hV2 : ∀ (bb : Fin 32) (r : Fin 196) (q : Fin 256), E3 m ρ c main_v2 (ix3 bb r q) = Cert.Spec.zn (m ((c : Thread nD τ).loc main_arg0)) (Cert.Spec.rowOf bb r) q :=
  entry_v2 m ρ c
theorem hV3 : ∀ (bb : Fin 32) (r : Fin 196), E3 m ρ c main_v3 (ix3 bb r (0 : Fin 1))
    = Cert.Spec.rpA (m ((c : Thread nD τ).loc main_arg0)) (m ((c : Thread nD τ).loc main_arg1)) (Cert.Spec.rowOf bb r) :=
  entry_v3 m ρ c
theorem hV4 : ∀ jj : Fin 6272, E3 m ρ c main_v4 (ix2 (0 : Fin 1) jj)
    = Cert.Spec.rpA (m ((c : Thread nD τ).loc main_arg0)) (m ((c : Thread nD τ).loc main_arg1)) jj :=
  entry_v4 m ρ c
theorem hV5 : ∀ (r : Fin 196) (jj : Fin 6272), E3 m ρ c main_v5 (ix2 r jj) = Cert.Spec.maskG (m ((c : Thread nD τ).loc main_arg2)) r jj :=
  entry_v5 m ρ c

/-- The logits the body forms at point 7·b + k. -/
theorem pt_logit (b : Fin 32) (k : Fin 7) (r : Fin 196) (cc : Fin 896) :
    rv21 (F := Ideal) (grid1.coords ⟨7 * b.val + k.val, pt_lt b k⟩) (iblk1 (E3 m ρ) c 0 ⟨7 * b.val + k.val, pt_lt b k⟩)
        (iblk1 (E3 m ρ) c 1 ⟨7 * b.val + k.val, pt_lt b k⟩) (ix2 r cc)
      = Cert.Spec.logit Cert.Spec.kappa (Cert.Spec.dotRows (Cert.Spec.zn (m ((c : Thread nD τ).loc main_arg0))) (Cert.Spec.zn (m ((c : Thread nD τ).loc main_arg0))))
          (Cert.Spec.rowOf b r) (Cert.Online.col k cc) :=
  rv21_eq (E3 m ρ) c (Cert.Spec.zn (m ((c : Thread nD τ).loc main_arg0))) (hV1 m ρ c) (hV2 m ρ c)
      ⟨7 * b.val + k.val, pt_lt b k⟩ b k rfl r cc

/-- The kept columns at point 7·b + k. -/
theorem pt_keep (b : Fin 32) (k : Fin 7) (r : Fin 196) (cc : Fin 896) :
    rv39 (F := Ideal) (grid1.coords ⟨7 * b.val + k.val, pt_lt b k⟩) (iblk1 (E3 m ρ) c 0 ⟨7 * b.val + k.val, pt_lt b k⟩)
        (iblk1 (E3 m ρ) c 1 ⟨7 * b.val + k.val, pt_lt b k⟩) (iblk1 (E3 m ρ) c 2 ⟨7 * b.val + k.val, pt_lt b k⟩)
        (iblk1 (E3 m ρ) c 3 ⟨7 * b.val + k.val, pt_lt b k⟩) (iblk1 (E3 m ρ) c 4 ⟨7 * b.val + k.val, pt_lt b k⟩) (ix2 r cc)
      = Cert.Spec.keep (Cert.Spec.dotRows (Cert.Spec.zn (m ((c : Thread nD τ).loc main_arg0))) (Cert.Spec.zn (m ((c : Thread nD τ).loc main_arg0))))
          (Cert.Spec.rpA (m ((c : Thread nD τ).loc main_arg0)) (m ((c : Thread nD τ).loc main_arg1)))
          (Cert.Spec.maskG (m ((c : Thread nD τ).loc main_arg2))) (Cert.Spec.rowOf b r) (Cert.Online.col k cc) :=
  rv39_eq (E3 m ρ) c (Cert.Spec.zn (m ((c : Thread nD τ).loc main_arg0)))
      (Cert.Spec.rpA (m ((c : Thread nD τ).loc main_arg0)) (m ((c : Thread nD τ).loc main_arg1)))
      (Cert.Spec.maskG (m ((c : Thread nD τ).loc main_arg2)))
      (hV1 m ρ c) (hV2 m ρ c) (hV3 m ρ c) (hV4 m ρ c) (hV5 m ρ c) ⟨7 * b.val + k.val, pt_lt b k⟩ b k rfl r cc

/-- The positives at point 7·b + k. -/
theorem pt_pos (b : Fin 32) (k : Fin 7) (r : Fin 196) (cc : Fin 896) :
    rv40 (F := Ideal) (grid1.coords ⟨7 * b.val + k.val, pt_lt b k⟩) (iblk1 (E3 m ρ) c 0 ⟨7 * b.val + k.val, pt_lt b k⟩)
        (iblk1 (E3 m ρ) c 1 ⟨7 * b.val + k.val, pt_lt b k⟩) (iblk1 (E3 m ρ) c 2 ⟨7 * b.val + k.val, pt_lt b k⟩)
        (iblk1 (E3 m ρ) c 3 ⟨7 * b.val + k.val, pt_lt b k⟩) (ix2 r cc)
      = Cert.Spec.pos (Cert.Spec.dotRows (Cert.Spec.zn (m ((c : Thread nD τ).loc main_arg0))) (Cert.Spec.zn (m ((c : Thread nD τ).loc main_arg0))))
          (Cert.Spec.rpA (m ((c : Thread nD τ).loc main_arg0)) (m ((c : Thread nD τ).loc main_arg1)))
          (Cert.Spec.rowOf b r) (Cert.Online.col k cc) :=
  rv40_eq (E3 m ρ) c (Cert.Spec.zn (m ((c : Thread nD τ).loc main_arg0)))
      (Cert.Spec.rpA (m ((c : Thread nD τ).loc main_arg0)) (m ((c : Thread nD τ).loc main_arg1)))
      (hV1 m ρ c) (hV2 m ρ c) (hV3 m ρ c) (hV4 m ρ c) ⟨7 * b.val + k.val, pt_lt b k⟩ b k rfl r cc

/-- The specification's row, evaluated over 7 blocks of 896 columns (the columns written 896·k + c). -/
theorem spec_row (x0 : (⟨3, ![32, 196, 256]⟩ : Shape).Idx → EReal)
    (x1 : (⟨2, ![100, 256]⟩ : Shape).Idx → EReal) (x2 : (⟨2, ![196, 6272]⟩ : Shape).Idx → BitVec 1)
    (hz : Cert.Spec.PosRows (Cert.Spec.rowsZ x0)) (i : Fin 6272) :
    Cert.Online.out (Cert.Online.run (n := 7) (C := Fin 896)
        (fun k cc => Cert.Spec.logit Cert.Spec.kappa (Cert.Spec.dotRows (Cert.Spec.zn x0) (Cert.Spec.zn x0)) i (Cert.Online.col k cc))
        (fun k cc => Cert.Spec.keep (Cert.Spec.dotRows (Cert.Spec.zn x0) (Cert.Spec.zn x0)) (Cert.Spec.rpA x0 x1) (Cert.Spec.maskG x2) i (Cert.Online.col k cc))
        (fun k cc => Cert.Spec.pos (Cert.Spec.dotRows (Cert.Spec.zn x0) (Cert.Spec.zn x0)) (Cert.Spec.rpA x0 x1) i (Cert.Online.col k cc)) 7 le_rfl)
      = Cert.Spec.numRow Cert.Spec.kappa (Cert.Spec.simA x0) (Cert.Spec.rpA x0 x1) (Cert.Spec.maskG x2) i
    ∧ (Cert.Online.run (n := 7) (C := Fin 896)
        (fun k cc => Cert.Spec.logit Cert.Spec.kappa (Cert.Spec.dotRows (Cert.Spec.zn x0) (Cert.Spec.zn x0)) i (Cert.Online.col k cc))
        (fun k cc => Cert.Spec.keep (Cert.Spec.dotRows (Cert.Spec.zn x0) (Cert.Spec.zn x0)) (Cert.Spec.rpA x0 x1) (Cert.Spec.maskG x2) i (Cert.Online.col k cc))
        (fun k cc => Cert.Spec.pos (Cert.Spec.dotRows (Cert.Spec.zn x0) (Cert.Spec.zn x0)) (Cert.Spec.rpA x0 x1) i (Cert.Online.col k cc)) 7 le_rfl).D
      = Cert.Spec.cntRow (Cert.Spec.simA x0) (Cert.Spec.rpA x0 x1) i :=
  Cert.Spec.row_online x0 x1 x2 hz i

/-- The blocked evaluation of row r of batch b over the block values at the points 7·b … 7·b + 6 is the blocked
    evaluation of the specification's row 196·b + r. -/
theorem run_pts
    (hL : ∀ (r : Fin 196) (n : ℕ) (hn : n < cfg1.N) (cc : Fin 896), L r n cc
      = rv21 (F := Ideal) (grid1.coords ⟨n, hn⟩) (iblk1 (E3 m ρ) c 0 ⟨n, hn⟩) (iblk1 (E3 m ρ) c 1 ⟨n, hn⟩) (ix2 r cc))
    (hK : ∀ (r : Fin 196) (n : ℕ) (hn : n < cfg1.N) (cc : Fin 896), K r n cc
      = rv39 (F := Ideal) (grid1.coords ⟨n, hn⟩) (iblk1 (E3 m ρ) c 0 ⟨n, hn⟩) (iblk1 (E3 m ρ) c 1 ⟨n, hn⟩)
          (iblk1 (E3 m ρ) c 2 ⟨n, hn⟩) (iblk1 (E3 m ρ) c 3 ⟨n, hn⟩) (iblk1 (E3 m ρ) c 4 ⟨n, hn⟩) (ix2 r cc))
    (hP : ∀ (r : Fin 196) (n : ℕ) (hn : n < cfg1.N) (cc : Fin 896), P r n cc
      = rv40 (F := Ideal) (grid1.coords ⟨n, hn⟩) (iblk1 (E3 m ρ) c 0 ⟨n, hn⟩) (iblk1 (E3 m ρ) c 1 ⟨n, hn⟩)
          (iblk1 (E3 m ρ) c 2 ⟨n, hn⟩) (iblk1 (E3 m ρ) c 3 ⟨n, hn⟩) (ix2 r cc))
    (b : Fin 32) (r : Fin 196) :
    Cert.Online.run (n := 7) (C := Fin 896) (fun k cc => L r (7 * b.val + k.val) cc) (fun k cc => K r (7 * b.val + k.val) cc)
        (fun k cc => P r (7 * b.val + k.val) cc) 7 le_rfl
      = Cert.Online.run (n := 7) (C := Fin 896)
        (fun k cc => Cert.Spec.logit Cert.Spec.kappa (Cert.Spec.dotRows (Cert.Spec.zn (m ((c : Thread nD τ).loc main_arg0))) (Cert.Spec.zn (m ((c : Thread nD τ).loc main_arg0))))
          (Cert.Spec.rowOf b r) (Cert.Online.col k cc))
        (fun k cc => Cert.Spec.keep (Cert.Spec.dotRows (Cert.Spec.zn (m ((c : Thread nD τ).loc main_arg0))) (Cert.Spec.zn (m ((c : Thread nD τ).loc main_arg0))))
          (Cert.Spec.rpA (m ((c : Thread nD τ).loc main_arg0)) (m ((c : Thread nD τ).loc main_arg1)))
          (Cert.Spec.maskG (m ((c : Thread nD τ).loc main_arg2))) (Cert.Spec.rowOf b r) (Cert.Online.col k cc))
        (fun k cc => Cert.Spec.pos (Cert.Spec.dotRows (Cert.Spec.zn (m ((c : Thread nD τ).loc main_arg0))) (Cert.Spec.zn (m ((c : Thread nD τ).loc main_arg0))))
          (Cert.Spec.rpA (m ((c : Thread nD τ).loc main_arg0)) (m ((c : Thread nD τ).loc main_arg1)))
          (Cert.Spec.rowOf b r) (Cert.Online.col k cc)) 7 le_rfl :=
  have eL : (fun (k : Fin 7) (cc : Fin 896) => L r (7 * b.val + k.val) cc) = _ :=
    funext fun k => funext fun cc => (hL r _ (pt_lt b k) cc).trans (pt_logit m ρ c b k r cc)
  have eK : (fun (k : Fin 7) (cc : Fin 896) => K r (7 * b.val + k.val) cc) = _ :=
    funext fun k => funext fun cc => (hK r _ (pt_lt b k) cc).trans (pt_keep m ρ c b k r cc)
  have eP : (fun (k : Fin 7) (cc : Fin 896) => P r (7 * b.val + k.val) cc) = _ :=
    funext fun k => funext fun cc => (hP r _ (pt_lt b k) cc).trans (pt_pos m ρ c b k r cc)
  eL ▸ eK ▸ eP ▸ rfl

/-- THE BRIDGE over its hypotheses: when the two arrays the main kernel leaves hold, at (b, r, 0), what the blocked
    evaluation of the block values at row b's seven points forms, the program's two batch vectors are the specification's. -/
theorem numK_eq_of
    (hL : ∀ (r : Fin 196) (n : ℕ) (hn : n < cfg1.N) (cc : Fin 896), L r n cc
      = rv21 (F := Ideal) (grid1.coords ⟨n, hn⟩) (iblk1 (E3 m ρ) c 0 ⟨n, hn⟩) (iblk1 (E3 m ρ) c 1 ⟨n, hn⟩) (ix2 r cc))
    (hK : ∀ (r : Fin 196) (n : ℕ) (hn : n < cfg1.N) (cc : Fin 896), K r n cc
      = rv39 (F := Ideal) (grid1.coords ⟨n, hn⟩) (iblk1 (E3 m ρ) c 0 ⟨n, hn⟩) (iblk1 (E3 m ρ) c 1 ⟨n, hn⟩)
          (iblk1 (E3 m ρ) c 2 ⟨n, hn⟩) (iblk1 (E3 m ρ) c 3 ⟨n, hn⟩) (iblk1 (E3 m ρ) c 4 ⟨n, hn⟩) (ix2 r cc))
    (hP : ∀ (r : Fin 196) (n : ℕ) (hn : n < cfg1.N) (cc : Fin 896), P r n cc
      = rv40 (F := Ideal) (grid1.coords ⟨n, hn⟩) (iblk1 (E3 m ρ) c 0 ⟨n, hn⟩) (iblk1 (E3 m ρ) c 1 ⟨n, hn⟩)
          (iblk1 (E3 m ρ) c 2 ⟨n, hn⟩) (iblk1 (E3 m ρ) c 3 ⟨n, hn⟩) (ix2 r cc))
    (h5 : ∀ (b : Fin 32) (r : Fin 196), (W4 (F := Ideal) m ρ c (Proc.devRef .tc main_v6_0) : S32x196x1.Idx → EReal) (ix3 b r (0 : Fin 1))
      = Cert.Online.out (Cert.Online.run (n := 7) (C := Fin 896) (fun k cc => L r (7 * b.val + k.val) cc)
          (fun k cc => K r (7 * b.val + k.val) cc) (fun k cc => P r (7 * b.val + k.val) cc) 7 le_rfl))
    (hz : Cert.Spec.PosRows (Cert.Spec.rowsZ (m ((c : Thread nD τ).loc main_arg0)))) (b : Fin 32) :
    numK m ρ c (ix1 b) = Cert.Spec.numA (m ((c : Thread nD τ).loc main_arg0)) (m ((c : Thread nD τ).loc main_arg1)) (m ((c : Thread nD τ).loc main_arg2)) b := by
  rw [numK_apply]
  show _ = ∑ r : Fin 196, Cert.Spec.numRow Cert.Spec.kappa (Cert.Spec.simA (m ((c : Thread nD τ).loc main_arg0)))
    (Cert.Spec.rpA (m ((c : Thread nD τ).loc main_arg0)) (m ((c : Thread nD τ).loc main_arg1))) (Cert.Spec.maskG (m ((c : Thread nD τ).loc main_arg2))) (Cert.Spec.rowOf b r)
  refine Finset.sum_congr rfl fun r _ => ?_
  rw [h5 b r, run_pts m ρ c L K P hL hK hP b r]
  exact (spec_row _ _ _ hz _).1

theorem denK_eq_of
    (hL : ∀ (r : Fin 196) (n : ℕ) (hn : n < cfg1.N) (cc : Fin 896), L r n cc
      = rv21 (F := Ideal) (grid1.coords ⟨n, hn⟩) (iblk1 (E3 m ρ) c 0 ⟨n, hn⟩) (iblk1 (E3 m ρ) c 1 ⟨n, hn⟩) (ix2 r cc))
    (hK : ∀ (r : Fin 196) (n : ℕ) (hn : n < cfg1.N) (cc : Fin 896), K r n cc
      = rv39 (F := Ideal) (grid1.coords ⟨n, hn⟩) (iblk1 (E3 m ρ) c 0 ⟨n, hn⟩) (iblk1 (E3 m ρ) c 1 ⟨n, hn⟩)
          (iblk1 (E3 m ρ) c 2 ⟨n, hn⟩) (iblk1 (E3 m ρ) c 3 ⟨n, hn⟩) (iblk1 (E3 m ρ) c 4 ⟨n, hn⟩) (ix2 r cc))
    (hP : ∀ (r : Fin 196) (n : ℕ) (hn : n < cfg1.N) (cc : Fin 896), P r n cc
      = rv40 (F := Ideal) (grid1.coords ⟨n, hn⟩) (iblk1 (E3 m ρ) c 0 ⟨n, hn⟩) (iblk1 (E3 m ρ) c 1 ⟨n, hn⟩)
          (iblk1 (E3 m ρ) c 2 ⟨n, hn⟩) (iblk1 (E3 m ρ) c 3 ⟨n, hn⟩) (ix2 r cc))
    (h6 : ∀ (b : Fin 32) (r : Fin 196), (W4 (F := Ideal) m ρ c (Proc.devRef .tc main_v6_1) : S32x196x1.Idx → EReal) (ix3 b r (0 : Fin 1))
      = (Cert.Online.run (n := 7) (C := Fin 896) (fun k cc => L r (7 * b.val + k.val) cc)
          (fun k cc => K r (7 * b.val + k.val) cc) (fun k cc => P r (7 * b.val + k.val) cc) 7 le_rfl).D)
    (hz : Cert.Spec.PosRows (Cert.Spec.rowsZ (m ((c : Thread nD τ).loc main_arg0)))) (b : Fin 32) :
    denK m ρ c (ix1 b) = Cert.Spec.cntA (m ((c : Thread nD τ).loc main_arg0)) (m ((c : Thread nD τ).loc main_arg1)) b := by
  rw [denK_apply]
  show _ = ∑ r : Fin 196, Cert.Spec.cntRow (Cert.Spec.simA (m ((c : Thread nD τ).loc main_arg0)))
    (Cert.Spec.rpA (m ((c : Thread nD τ).loc main_arg0)) (m ((c : Thread nD τ).loc main_arg1))) (Cert.Spec.rowOf b r)
  refine Finset.sum_congr rfl fun r _ => ?_
  rw [h6 b r, run_pts m ρ c L K P hL hK hP b r]
  exact (spec_row _ _ (m ((c : Thread nD τ).loc main_arg2)) hz _).2

end Chain

/-! ## The two batch vectors -/

/-- The first array the main kernel leaves, at (b, r, 0): the blocked evaluation of row r over row block b's seven points. -/
theorem W4_v6_0_apply (b : Fin 32) (r : Fin 196) :
    (W4 (F := Ideal) m ρ c (Proc.devRef .tc main_v6_0) : S32x196x1.Idx → EReal) (ix3 b r (0 : Fin 1))
      = Cert.Online.out (Cert.Online.run (n := 7) (C := Fin 896) (fun k cc => ptL (E3 m ρ) c r (7 * b.val + k.val) cc)
          (fun k cc => ptKeep (E3 m ρ) c r (7 * b.val + k.val) cc) (fun k cc => ptPos (E3 m ρ) c r (7 * b.val + k.val) cc) 7 le_rfl) :=
  (congrFun (W4_arr m ρ c 5) (ix3 b r (0 : Fin 1))).trans
    ((arr1_5_of (dat1 (E3 m ρ) c) (outsAt1 (F := Ideal) (E3 m ρ) c) (after1_5 (E3 m ρ) c) b r).trans
      ((out5_last (E3 m ρ) c r b (flushPt_lt b)).trans (congrArg Cert.Online.out (rowSt_last (E3 m ρ) c r b))))

/-- The second, at (b, r, 0): that evaluation's count. -/
theorem W4_v6_1_apply (b : Fin 32) (r : Fin 196) :
    (W4 (F := Ideal) m ρ c (Proc.devRef .tc main_v6_1) : S32x196x1.Idx → EReal) (ix3 b r (0 : Fin 1))
      = (Cert.Online.run (n := 7) (C := Fin 896) (fun k cc => ptL (E3 m ρ) c r (7 * b.val + k.val) cc)
          (fun k cc => ptKeep (E3 m ρ) c r (7 * b.val + k.val) cc) (fun k cc => ptPos (E3 m ρ) c r (7 * b.val + k.val) cc) 7 le_rfl).D :=
  (congrFun (W4_arr m ρ c 6) (ix3 b r (0 : Fin 1))).trans
    ((arr1_6_of (dat1 (E3 m ρ) c) (outsAt1 (F := Ideal) (E3 m ρ) c) (after1_6 (E3 m ρ) c) b r).trans
      ((out6_last (E3 m ρ) c r b (flushPt_lt b)).trans (congrArg Cert.Online.St.D (rowSt_last (E3 m ρ) c r b))))

/-- The program's vector of batch sums is the specification's. -/
theorem numK_eq (hz : Cert.Spec.PosRows (Cert.Spec.rowsZ (m ((c : Thread nD τ).loc main_arg0)))) (b : Fin 32) :
    numK m ρ c (ix1 b) = Cert.Spec.numA (m ((c : Thread nD τ).loc main_arg0)) (m ((c : Thread nD τ).loc main_arg1)) (m ((c : Thread nD τ).loc main_arg2)) b :=
  numK_eq_of m ρ c (fun r n => ptL (E3 m ρ) c r n) (fun r n => ptKeep (E3 m ρ) c r n) (fun r n => ptPos (E3 m ρ) c r n)
    (fun r n hn cc => congrFun (ptL_eq (E3 m ρ) c r n hn) cc) (fun r n hn cc => congrFun (ptKeep_eq (E3 m ρ) c r n hn) cc)
    (fun r n hn cc => congrFun (ptPos_eq (E3 m ρ) c r n hn) cc) (W4_v6_0_apply m ρ c) hz b

/-- The program's vector of batch counts is the specification's. -/
theorem denK_eq (hz : Cert.Spec.PosRows (Cert.Spec.rowsZ (m ((c : Thread nD τ).loc main_arg0)))) (b : Fin 32) :
    denK m ρ c (ix1 b) = Cert.Spec.cntA (m ((c : Thread nD τ).loc main_arg0)) (m ((c : Thread nD τ).loc main_arg1)) b :=
  denK_eq_of m ρ c (fun r n => ptL (E3 m ρ) c r n) (fun r n => ptKeep (E3 m ρ) c r n) (fun r n => ptPos (E3 m ρ) c r n)
    (fun r n hn cc => congrFun (ptL_eq (E3 m ρ) c r n hn) cc) (fun r n hn cc => congrFun (ptKeep_eq (E3 m ρ) c r n hn) cc)
    (fun r n hn cc => congrFun (ptPos_eq (E3 m ρ) c r n hn) cc) (W4_v6_1_apply m ρ c) hz b

end Cert.KernelIdeal.Fr

end
-- ==== Proof.Ref.Consts.lean ====
/-
  The four single-precision constants of the reference as the extended reals they denote: zero, minus
  infinity, one, and the temperature 9395241 / 2^27 (the number nearest 0.07), whose reciprocal is the inverse
  temperature.
-/
import Idealize.ShloMosaic.PureOps.Ideal
import Idealize.ShloMosaic.PureOps.Ideal.Laws

noncomputable section

namespace Cert.RefValue

open Idealize.ShloMosaic

/-- The pattern of `+0.0` denotes `0`. -/
theorem ofBits_zero : Ideal.ofBits .f32 0x00000000#32 = 0 := Ideal.ofBits_zero_f32

/-- The pattern of `-inf` denotes `⊥`. -/
theorem ofBits_neg_inf : Ideal.ofBits .f32 0xFF800000#32 = ⊥ := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-- The pattern of the temperature denotes the real `9395241 / 134217728`. -/
theorem ofBits_temp : Ideal.ofBits .f32 0x3D8F5C29#32 = ((9395241 / 134217728 : ℝ) : EReal) := by
  simp [Ideal.ofBits, Ideal.ieee, -EReal.coe_mul]; norm_num

end Cert.RefValue

end
-- ==== Proof.Ref.Norm.lean ====
/-
  The unit rows as the reference computes them: each entry divided by the square root of its row's sum of
  squares, which for a row whose sum of squares is a positive real is the entry times the reciprocal root.
-/
import proofs.«149911_j6408091205873_1_alg».proof.Proof.Gen.ReferenceIdeal.Read
import proofs.«149911_j6408091205873_1_alg».proof.Proof.SpecArgs
import proofs.«149911_j6408091205873_1_alg».proof.Proof.Ref.Consts

noncomputable section

namespace Cert.RefValue

open Idealize.ShloMosaic Idealize.ShloMosaic.ValueIdx Cert.ReferenceIdeal Cert.ReferenceIdeal.Read

/-- For a positive real `s`: `x / √s = x · (√s)⁻¹`, the product with the reciprocal root of `s`. -/
theorem div_sqrt_eq_mul_rsqrt (x : EReal) {s : ℝ} (hs : 0 < s) :
    Ideal.div x (Ideal.sqrt (s : EReal)) = x * Ideal.rsqrt (s : EReal) := by
  rw [Ideal.sqrt_coe, Ideal.rsqrt_coe, if_neg (not_lt.2 hs.le), if_neg (not_lt.2 hs.le), if_neg hs.ne']
  rw [Ideal.div_coe (Real.sqrt_pos.2 hs).ne', one_div]

/-- The sum of squares of row `r` of batch `b` of the first argument. -/
theorem sumsq_z (x0 : (⟨3, ![32, 196, 256]⟩ : Shape).Idx → EReal) (b : Fin 32) (r : Fin 196) :
    val_main_call1_v1 (F := Ideal) x0 (ix2 b r) = ∑ k : Fin 256, x0 (ix3 b r k) * x0 (ix3 b r k) := by
  rw [val_main_call1_v1_apply, val_main_call1_cst_apply, Ideal.ofBits_def, ofBits_zero, zero_add]
  refine Finset.sum_congr rfl fun k _ => ?_
  have e : idx_main_call1_v1 (ix2 b r) k = ix3 b r k := funext fun a => by
    match a with
    | ⟨0, _⟩ => rfl
    | ⟨1, _⟩ => rfl
    | ⟨2, _⟩ => rfl
  rw [e, val_main_call1_v0_apply, Ideal.mulf_def]

/-- The sum of squares of row `k` of the second argument. -/
theorem sumsq_p (x1 : (⟨2, ![100, 256]⟩ : Shape).Idx → EReal) (k : Fin 100) :
    val_main_call0_v1 (F := Ideal) x1 (ix1 k) = ∑ q : Fin 256, x1 (ix2 k q) * x1 (ix2 k q) := by
  rw [val_main_call0_v1_apply, val_main_call0_cst_apply, Ideal.ofBits_def, ofBits_zero, zero_add]
  refine Finset.sum_congr rfl fun q _ => ?_
  have e : idx_main_call0_v1 (ix1 k) q = ix2 k q := funext fun a => by
    match a with
    | ⟨0, _⟩ => rfl
    | ⟨1, _⟩ => rfl
  rw [e, val_main_call0_v0_apply, Ideal.mulf_def]

/-- Row `i` (of 6272) of the reshaped quotient is row `i % 196` of batch `i / 196`. -/
theorem idx_v6 (i : Fin 6272) (q : Fin 256) :
    idx_main_v6 (ix2 i q)
      = ix3 (⟨i.val / 196, by have := i.isLt; omega⟩ : Fin 32) (⟨i.val % 196, Nat.mod_lt _ (by decide)⟩ : Fin 196) q :=
  funext fun a => Fin.ext (by
    have hi := i.isLt
    have hq := q.isLt
    match a with
    | ⟨0, _⟩ => show (i.val * 256 + q.val) / 50176 = i.val / 196; omega
    | ⟨1, _⟩ => show (i.val * 256 + q.val) / 256 % 196 = i.val % 196; omega
    | ⟨2, _⟩ => show (i.val * 256 + q.val) % 256 = q.val; omega)

/-- The reference's unit row of the first argument, before the positivity of the sums is used. -/
theorem v6_read (x0 : (⟨3, ![32, 196, 256]⟩ : Shape).Idx → EReal) (i : Fin 6272) (q : Fin 256) :
    val_main_v6 (F := Ideal) x0 (ix2 i q)
      = Ideal.div (Cert.Spec.rowsZ x0 i q) (Ideal.sqrt (∑ k : Fin 256, Cert.Spec.rowsZ x0 i k * Cert.Spec.rowsZ x0 i k)) := by
  rw [val_main_v6_apply, idx_v6, val_main_v5_apply, val_main_v4_apply, val_main_v3_apply, val_main_call1_v2_apply]
  have e : idx_main_call1_v2 (idx_main_v4
      (ix3 (⟨i.val / 196, by have := i.isLt; omega⟩ : Fin 32) (⟨i.val % 196, Nat.mod_lt _ (by decide)⟩ : Fin 196) q))
      = ix2 (⟨i.val / 196, by have := i.isLt; omega⟩ : Fin 32) (⟨i.val % 196, Nat.mod_lt _ (by decide)⟩ : Fin 196) :=
    funext fun a => by
      match a with
      | ⟨0, _⟩ => rfl
      | ⟨1, _⟩ => rfl
  rw [e, sumsq_z, Ideal.hostDivf_def, Ideal.hostUnary_sqrt_def]
  rfl

/-- The reference's unit rows of the first argument are the specification's. -/
theorem v6_eq (x0 : (⟨3, ![32, 196, 256]⟩ : Shape).Idx → EReal) (hz : Cert.Spec.PosRows (Cert.Spec.rowsZ x0))
    (i : Fin 6272) (q : Fin 256) : val_main_v6 (F := Ideal) x0 (ix2 i q) = Cert.Spec.zn x0 i q := by
  obtain ⟨_, s, hs, hsum⟩ := hz i
  rw [v6_read, Cert.Spec.zn, Cert.Spec.unitRow, hsum]
  exact div_sqrt_eq_mul_rsqrt _ hs

/-- The reference's unit row of the second argument, before the positivity of the sums is used. -/
theorem v2_read (x1 : (⟨2, ![100, 256]⟩ : Shape).Idx → EReal) (k : Fin 100) (q : Fin 256) :
    val_main_v2 (F := Ideal) x1 (ix2 k q)
      = Ideal.div (Cert.Spec.rowsP x1 k q) (Ideal.sqrt (∑ q' : Fin 256, Cert.Spec.rowsP x1 k q' * Cert.Spec.rowsP x1 k q')) := by
  rw [val_main_v2_apply, val_main_v1_apply, val_main_v0_apply, val_main_call0_v2_apply]
  have e : idx_main_call0_v2 (idx_main_v1 (ix2 k q)) = ix1 k := funext fun a => by
    match a with
    | ⟨0, _⟩ => rfl
  rw [e, sumsq_p, Ideal.hostDivf_def, Ideal.hostUnary_sqrt_def]
  rfl

/-- The reference's unit rows of the second argument are the specification's. -/
theorem v2_eq (x1 : (⟨2, ![100, 256]⟩ : Shape).Idx → EReal) (hp : Cert.Spec.PosRows (Cert.Spec.rowsP x1))
    (k : Fin 100) (q : Fin 256) : val_main_v2 (F := Ideal) x1 (ix2 k q) = Cert.Spec.pn x1 k q := by
  obtain ⟨_, s, hs, hsum⟩ := hp k
  rw [v2_read, Cert.Spec.pn, Cert.Spec.unitRow, hsum]
  exact div_sqrt_eq_mul_rsqrt _ hs

end Cert.RefValue

end
-- ==== Proof.Ref.Sim.lean ====
/-
  The similarities of the unit rows, each row's threshold (its best similarity to a unit row of the second
  argument: the fold of `max` from `-∞`), and the logits (the similarities divided by the temperature, which is
  their product with the inverse temperature).
-/
import proofs.«149911_j6408091205873_1_alg».proof.Proof.Ref.Norm

noncomputable section

namespace Cert.RefValue

open Idealize.ShloMosaic Idealize.ShloMosaic.ValueIdx Cert.ReferenceIdeal Cert.ReferenceIdeal.Gen Cert.ReferenceIdeal.Read

/-- The similarity of rows `i` and `j`. -/
theorem v11_eq (x0 : (⟨3, ![32, 196, 256]⟩ : Shape).Idx → EReal) (hz : Cert.Spec.PosRows (Cert.Spec.rowsZ x0))
    (i j : Fin 6272) : val_main_v11 (F := Ideal) x0 (ix2 i j) = Cert.Spec.simA x0 i j := by
  rw [val_main_v11_apply, Cert.Spec.simA, Cert.Spec.dotRows]
  refine Finset.sum_congr rfl fun k _ => ?_
  have el : lidx_main_v11 (ix2 i j) k = ix2 i k := funext fun a => by
    match a with
    | ⟨0, _⟩ => rfl
    | ⟨1, _⟩ => rfl
  have er : idx_main_v10 (ridx_main_v11 (ix2 i j) k) = ix2 j k := funext fun a => by
    match a with
    | ⟨0, _⟩ => rfl
    | ⟨1, _⟩ => rfl
  rw [el, val_main_v10_apply, er, v6_eq x0 hz, v6_eq x0 hz]

/-- The inner product of unit row `i` of the first argument with unit row `c` of the second. -/
theorem v8_eq (x0 : (⟨3, ![32, 196, 256]⟩ : Shape).Idx → EReal) (x1 : (⟨2, ![100, 256]⟩ : Shape).Idx → EReal)
    (hz : Cert.Spec.PosRows (Cert.Spec.rowsZ x0)) (hp : Cert.Spec.PosRows (Cert.Spec.rowsP x1)) (i : Fin 6272) (c : Fin 100) :
    val_main_v8 (F := Ideal) x0 x1 (ix2 i c) = Cert.Spec.dotRows (Cert.Spec.zn x0) (Cert.Spec.pn x1) i c := by
  rw [val_main_v8_apply, Cert.Spec.dotRows]
  refine Finset.sum_congr rfl fun k _ => ?_
  have el : lidx_main_v8 (ix2 i c) k = ix2 i k := funext fun a => by
    match a with
    | ⟨0, _⟩ => rfl
    | ⟨1, _⟩ => rfl
  have er : idx_main_v7 (ridx_main_v8 (ix2 i c) k) = ix2 c k := funext fun a => by
    match a with
    | ⟨0, _⟩ => rfl
    | ⟨1, _⟩ => rfl
  rw [el, val_main_v7_apply, er, v6_eq x0 hz, v2_eq x1 hp]

set_option maxRecDepth 16384 in
/-- A row's maximum over the hundred columns, as the fold of `max` from `-∞`. -/
theorem v9_read (x0 : (⟨3, ![32, 196, 256]⟩ : Shape).Idx → EReal) (x1 : (⟨2, ![100, 256]⟩ : Shape).Idx → EReal) (i : Fin 6272) :
    val_main_v9 (F := Ideal) x0 x1 (ix1 i)
      = (Finset.univ : Finset (Fin 100)).fold max ⊥ (fun c => val_main_v8 (F := Ideal) x0 x1 (ix2 i c)) := by
  unfold val_main_v9
  generalize val_main_v8 (F := Ideal) x0 x1 = y
  have h : S6272x100.Reduces [1] S6272 :=
    ⟨reducesTo_S6272x100_S6272_d1.1, Nat.one_pos, reducesTo_S6272x100_S6272_d1.2⟩
  refine (Host.reduce_eq_fold_single (FloatOps.maximumf (F := Ideal) (φ := .f32)) y (val_main_cst (F := Ideal))
    reducesTo_S6272x100_S6272_d1 h h_S_ (ix1 i)).trans ?_
  rw [val_main_cst_apply, Ideal.ofBits_def, ofBits_neg_inf]
  exact congrArg (Finset.fold max ⊥ · (Finset.univ : Finset (Fin 100)))
    (funext fun c => congrArg y (funext fun d => Fin.ext (by
      match d with
      | ⟨0, _⟩ => rfl
      | ⟨1, _⟩ => rfl)))

/-- Each row's threshold. -/
theorem v9_eq (x0 : (⟨3, ![32, 196, 256]⟩ : Shape).Idx → EReal) (x1 : (⟨2, ![100, 256]⟩ : Shape).Idx → EReal)
    (hz : Cert.Spec.PosRows (Cert.Spec.rowsZ x0)) (hp : Cert.Spec.PosRows (Cert.Spec.rowsP x1)) (i : Fin 6272) :
    val_main_v9 (F := Ideal) x0 x1 (ix1 i) = Cert.Spec.rpA x0 x1 i := by
  rw [v9_read, Cert.Spec.rpA, Cert.Spec.bestOf]
  exact congrArg (Finset.fold max ⊥ · (Finset.univ : Finset (Fin 100))) (funext fun c => v8_eq x0 x1 hz hp i c)

/-- The logits: the similarities divided by the temperature. -/
theorem v49_eq (x0 : (⟨3, ![32, 196, 256]⟩ : Shape).Idx → EReal) (hz : Cert.Spec.PosRows (Cert.Spec.rowsZ x0))
    (i j : Fin 6272) :
    val_main_v49 (F := Ideal) x0 (ix2 i j) = Cert.Spec.logit Cert.Spec.kappa (Cert.Spec.simA x0) i j := by
  rw [val_main_v49_apply, val_main_v48_apply, val_main_cst_5_apply, Ideal.hostDivf_def, Ideal.ofBits_def, ofBits_temp,
    v11_eq x0 hz, Ideal.div_coe (by norm_num), Cert.Spec.logit, Cert.Spec.kappa]
  congr 2
  norm_num

end Cert.RefValue

end
-- ==== Proof.Ref.Masks.lean ====
/-
  The hit mask: the bit "the similarity exceeds the row's threshold, or the column's", as the number 1 or 0.
-/
import proofs.«149911_j6408091205873_1_alg».proof.Proof.Ref.Sim

noncomputable section

namespace Cert.RefValue

open Idealize.ShloMosaic Idealize.ShloMosaic.ValueIdx Cert.ReferenceIdeal Cert.ReferenceIdeal.Gen Cert.ReferenceIdeal.Read

/-- The OR of the bits of two propositions, as a number, is the indicator of their disjunction. -/
theorem uitofp_ori_ofBool (p q : Prop) [Decidable p] [Decidable q] [Decidable (p ∨ q)] :
    FloatOps.uitofp (F := Ideal) .f32 (IntOp.ori (BitVec.ofBool (decide p)) (BitVec.ofBool (decide q)))
      = Cert.Spec.ind (p ∨ q) := by
  by_cases hp : p <;> by_cases hq : q <;> simp [Cert.Spec.ind, hp, hq, IntOp.ori, FloatOps.uitofp]

/-- The OR of two bits, as a number, is the larger of the two bits as numbers. -/
theorem uitofp_ori (a b : BitVec 1) :
    FloatOps.uitofp (F := Ideal) .f32 (IntOp.ori a b)
      = max (FloatOps.uitofp (F := Ideal) .f32 a) (FloatOps.uitofp (F := Ideal) .f32 b) := by
  rcases BitVec.eq_zero_or_eq_one a with h | h <;> rcases BitVec.eq_zero_or_eq_one b with h' | h' <;> subst h <;> subst h' <;>
    simp [IntOp.ori, FloatOps.uitofp]

/-- The row's threshold, broadcast along the row. -/
theorem v13_eq (x0 : (⟨3, ![32, 196, 256]⟩ : Shape).Idx → EReal) (x1 : (⟨2, ![100, 256]⟩ : Shape).Idx → EReal)
    (hz : Cert.Spec.PosRows (Cert.Spec.rowsZ x0)) (hp : Cert.Spec.PosRows (Cert.Spec.rowsP x1)) (i j : Fin 6272) :
    val_main_v13 (F := Ideal) x0 x1 (ix2 i j) = Cert.Spec.rpA x0 x1 i := by
  rw [val_main_v13_apply, val_main_v12_apply]
  have e : idx_main_v12 (idx_main_v13 (ix2 i j)) = ix1 i := funext fun a => by
    match a with
    | ⟨0, _⟩ => rfl
  rw [e, v9_eq x0 x1 hz hp]

/-- The column's threshold, broadcast along the column. -/
theorem v16_eq (x0 : (⟨3, ![32, 196, 256]⟩ : Shape).Idx → EReal) (x1 : (⟨2, ![100, 256]⟩ : Shape).Idx → EReal)
    (hz : Cert.Spec.PosRows (Cert.Spec.rowsZ x0)) (hp : Cert.Spec.PosRows (Cert.Spec.rowsP x1)) (i j : Fin 6272) :
    val_main_v16 (F := Ideal) x0 x1 (ix2 i j) = Cert.Spec.rpA x0 x1 j := by
  rw [val_main_v16_apply, val_main_v15_apply]
  have e : idx_main_v15 (idx_main_v16 (ix2 i j)) = ix1 j := funext fun a => by
    match a with
    | ⟨0, _⟩ => rfl
  rw [e, v9_eq x0 x1 hz hp]

/-- The hit bit: the OR of the two comparisons. -/
theorem v18_read (x0 : (⟨3, ![32, 196, 256]⟩ : Shape).Idx → EReal) (x1 : (⟨2, ![100, 256]⟩ : Shape).Idx → EReal)
    (hz : Cert.Spec.PosRows (Cert.Spec.rowsZ x0)) (hp : Cert.Spec.PosRows (Cert.Spec.rowsP x1)) (i j : Fin 6272) :
    val_main_v18 (F := Ideal) x0 x1 (ix2 i j)
      = IntOp.ori (BitVec.ofBool (decide (Cert.Spec.rpA x0 x1 i < Cert.Spec.simA x0 i j)))
          (BitVec.ofBool (decide (Cert.Spec.rpA x0 x1 j < Cert.Spec.simA x0 i j))) := by
  rw [val_main_v18_apply, val_main_v14_apply, val_main_v17_apply, v13_eq x0 x1 hz hp, v16_eq x0 x1 hz hp, v11_eq x0 hz,
    Ideal.cmpf_def, Ideal.cmpf_def]
  rfl

/-- The hit mask as a number. -/
theorem v46_eq (x0 : (⟨3, ![32, 196, 256]⟩ : Shape).Idx → EReal) (x1 : (⟨2, ![100, 256]⟩ : Shape).Idx → EReal)
    (hz : Cert.Spec.PosRows (Cert.Spec.rowsZ x0)) (hp : Cert.Spec.PosRows (Cert.Spec.rowsP x1)) (i j : Fin 6272) :
    val_main_v46 (F := Ideal) x0 x1 (ix2 i j) = Cert.Spec.hit (Cert.Spec.simA x0) (Cert.Spec.rpA x0 x1) i j := by
  rw [val_main_v46_apply, v18_read x0 x1 hz hp, Cert.Spec.hit]
  exact uitofp_ori_ofBool _ _

end Cert.RefValue

end
-- ==== Proof.Ref.Tiles.lean ====
/-
  The reference's excluded-column mask and its tiled neglect mask, read at an index.

  The excluded-column mask starts as a 196 × 6272 array of ones in which a scatter writes 0 at the 196 points
  (e, e): each update e reads its landing point off two index columns, both the numbers 0 … 195 (a guard that
  would add the extent to a negative index never fires on them). Every update writes the same value, so the
  scattered array holds that value exactly at the points some update lands on and the operand's value elsewhere:
  0 at column r of row r, 1 everywhere else. That array, and the argument's bit mask of the same shape, are then
  tiled 32 times down the rows: row i of the 6272 × 6272 result is row i % 196 of the 196 × 6272 array.
-/
import proofs.«149911_j6408091205873_1_alg».proof.Proof.Gen.ReferenceIdeal.Read
import proofs.«149911_j6408091205873_1_alg».proof.Proof.SpecArgs

noncomputable section

namespace Cert.RefValue.Tiles

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## A scatter whose updates all write one value -/

section Scatter

variable {α : Type} {s si u : Shape} {w : Nat} (d : ScatterDims s si u) (idx : IVec si w)

/-- Where no update lands the scattered array keeps the operand's element, whatever the body. -/
theorem scatter_miss (f : α → α → α) (x : s.Idx → α) (upd : u.Idx → α) (i' : s.Idx)
    (h : ∀ j : u.Idx, d.resultIdx? j idx ≠ some i') : Host.scatter d f x idx upd i' = x i' := by
  unfold Host.scatter
  generalize List.finRange u.numel = L
  induction L generalizing x with
  | nil => rfl
  | cons n L ih =>
    rw [List.foldl_cons, ih]
    cases hq : d.resultIdx? (u.rowMajor.symm n) idx with
    | none => rfl
    | some i =>
      have hne : i' ≠ i := fun e => h _ (e ▸ hq)
      show (if i' = i then f (x i) (upd (u.rowMajor.symm n)) else x i') = x i'
      rw [if_neg hne]

/-- One step of the scatter keeps an element that already is the common update value. -/
theorem scatter_fold_keep (x : s.Idx → α) (upd : u.Idx → α) (c : α) (hc : ∀ j, upd j = c) (i' : s.Idx) (L : List (Fin u.numel))
    (hx : x i' = c) :
    (L.foldl (fun r n =>
      match d.resultIdx? (u.rowMajor.symm n) idx with
      | some i => fun i' => if i' = i then (fun _ b => b) (r i) (upd (u.rowMajor.symm n)) else r i'
      | none => r) x) i' = c := by
  induction L generalizing x with
  | nil => exact hx
  | cons n L ih =>
    rw [List.foldl_cons]
    refine ih _ ?_
    cases hq : d.resultIdx? (u.rowMajor.symm n) idx with
    | none => exact hx
    | some i =>
      show (if i' = i then upd (u.rowMajor.symm n) else x i') = c
      by_cases e : i' = i
      · rw [if_pos e]; exact hc _
      · rw [if_neg e]; exact hx

/-- Where some update lands, a scatter whose updates all hold c and whose body returns the update leaves c. -/
theorem scatter_hit_const (x : s.Idx → α) (upd : u.Idx → α) (c : α) (hc : ∀ j, upd j = c) (i' : s.Idx) (j : u.Idx)
    (hj : d.resultIdx? j idx = some i') : Host.scatter d (fun _ b => b) x idx upd i' = c := by
  unfold Host.scatter
  have hmem : u.rowMajor j ∈ List.finRange u.numel := List.mem_finRange _
  generalize List.finRange u.numel = L at hmem
  induction L generalizing x with
  | nil => cases hmem
  | cons n L ih =>
    rw [List.foldl_cons]
    rcases List.mem_cons.1 hmem with e | hL
    · refine scatter_fold_keep d idx _ upd c hc i' L ?_
      rw [← e, Equiv.symm_apply_apply, hj]
      show (if i' = i' then upd j else x i') = c
      rw [if_pos rfl]; exact hc _
    · exact ih _ hL

end Scatter

/-! ## The scatter's landing points

Update e reads its landing point off row e of the two index columns; both hold e, read signed; no window
coordinate is added (both operand axes are inserted); so update e lands at (e, e), inside the operand. -/

/-- A number below 196, as a 32-bit pattern read signed, is itself. -/
theorem toInt_ofNat_small (e : Nat) (he : e < 196) : (BitVec.ofNat 32 e).toInt = (e : Int) := by
  rw [BitVec.toInt_eq_toNat_cond, BitVec.toNat_ofNat]; omega

/-- Such a number is not below 0 as a signed 32-bit integer. -/
theorem slt_zero (e : Nat) (he : e < 196) : IntOp.cmpi .slt (BitVec.ofNat 32 e) 0#32 = 0#1 := by
  have h : (BitVec.ofNat 32 e).slt 0#32 = false := by
    have h1 := toInt_ofNat_small e he
    have h2 : (0#32 : BitVec 32).toInt = 0 := by decide
    unfold BitVec.slt
    rw [h1, h2]
    exact decide_eq_false (by omega)
  show BitVec.ofBool ((BitVec.ofNat 32 e).slt 0#32) = 0#1
  rw [h]; rfl

/-- The scatter's dimension numbers: both operand axes inserted, the index vector along axis 1 of the [196, 2] indices. -/
abbrev dS := scatter_S196x6272_S196x2_S196_n_01_01_1

/-- No window coordinate: the operand has no axis that is not inserted. -/
theorem window_zero (j : S196.Idx) (a : Fin 2) : dS.window j a = 0 := by
  have hk : dS.sKept = [] := by decide
  unfold ScatterDims.window
  rw [dif_neg (by rw [hk]; exact List.not_mem_nil)]

/-- Update e reads component c of its start index at (e, c) of the index array. -/
theorem siIdx_eq (e : Fin 196) (c : Fin dS.scatterDimsToOperandDims.length) :
    dS.siIdx (ix1 e) c = ix2 e (⟨c.val, c.isLt⟩ : Fin 2) := by
  funext b
  match b with
  | ⟨0, _⟩ => exact Fin.ext rfl
  | ⟨1, _⟩ => exact Fin.ext rfl

/-- The window's start on operand axis a, for update e: the index array's entry (e, a), read signed. -/
theorem start_eq (e : Fin 196) (idx : IVec S196x2 32) (a : Fin 2) :
    dS.start (ix1 e) idx a = (idx (ix2 e a)).toInt := by
  fin_cases a
  · unfold ScatterDims.start
    rw [dif_pos (by decide)]
    exact congrArg (fun k => (idx k).toInt) ((siIdx_eq e _).trans (by rfl))
  · unfold ScatterDims.start
    rw [dif_pos (by decide)]
    exact congrArg (fun k => (idx k).toInt) ((siIdx_eq e _).trans (by rfl))

/-- Both index columns hold the row number: the guard against a negative index never fires on 0 … 195. -/
theorem v26_eq (e : Fin 196) : val_main_v26 (F := Ideal) (ix1 e) = BitVec.ofNat 32 e.val := by
  rw [val_main_v26_apply, val_main_v23_apply, val_main_v20_apply, val_main_v22_apply, val_main_c_apply]
  show Scalar.select (IntOp.cmpi .slt (BitVec.ofNat 32 e.val) 0#32) _ (BitVec.ofNat 32 e.val) = _
  rw [slt_zero e.val e.isLt]
  exact select_zero _ _

/-- The second index column likewise. -/
theorem v31_eq (e : Fin 196) : val_main_v31 (F := Ideal) (ix1 e) = BitVec.ofNat 32 e.val := by
  rw [val_main_v31_apply, val_main_v28_apply, val_main_v21_apply, val_main_v27_apply, val_main_c_2_apply]
  show Scalar.select (IntOp.cmpi .slt (BitVec.ofNat 32 e.val) 0#32) _ (BitVec.ofNat 32 e.val) = _
  rw [slt_zero e.val e.isLt]
  exact select_zero _ _

/-- The joined index array's entry (e, c) is e, on either column. -/
theorem v34_eq (e : Fin 196) (c : Fin 2) : val_main_v34 (F := Ideal) (ix2 e c) = BitVec.ofNat 32 e.val := by
  unfold val_main_v34
  fin_cases c
  · refine (concatenate_pair_apply_left (1 : Fin 2) (val_main_v32 (F := Ideal)) (val_main_v33 (F := Ideal))
      concatenates_S196x1_S196x1_S196x2_d1 (ix2 e (0 : Fin 2)) rfl (ix2 e (0 : Fin 1)) (fun b => by fin_cases b <;> rfl)).trans ?_
    rw [val_main_v32_apply]
    exact (congrArg (val_main_v26 (F := Ideal)) (funext fun a => match a with | ⟨0, _⟩ => rfl)).trans (v26_eq e)
  · refine (concatenate_pair_apply_right (1 : Fin 2) (val_main_v32 (F := Ideal)) (val_main_v33 (F := Ideal))
      concatenates_S196x1_S196x1_S196x2_d1 (ix2 e (1 : Fin 2)) rfl rfl (ix2 e (0 : Fin 1))
      (fun b hb => by fin_cases b <;> first | rfl | exact absurd rfl hb) rfl).trans ?_
    rw [val_main_v33_apply]
    exact (congrArg (val_main_v31 (F := Ideal)) (funext fun a => match a with | ⟨0, _⟩ => rfl)).trans (v31_eq e)

/-- Update e lands at (e, e). -/
theorem resultIdx_diag (e : Fin 196) :
    dS.resultIdx? (ix1 e) (val_main_v34 (F := Ideal)) = some (ix2 e (⟨e.val, by have := e.isLt; omega⟩ : Fin 6272)) := by
  have he := e.isLt
  have h : ∀ a : Fin 2, dS.start (ix1 e) (val_main_v34 (F := Ideal)) a + dS.window (ix1 e) a = (e.val : Int) := fun a => by
    rw [start_eq, window_zero, v34_eq, toInt_ofNat_small e.val e.isLt]; simp
  unfold ScatterDims.resultIdx?
  rw [dif_pos (fun a => by
    rw [h a]
    refine ⟨by omega, ?_⟩
    fin_cases a
    · show (e.val : Int) < ((196 : Nat) : Int); omega
    · show (e.val : Int) < ((6272 : Nat) : Int); omega)]
  refine congrArg some (funext fun a => Fin.ext ?_)
  show (dS.start (ix1 e) (val_main_v34 (F := Ideal)) a + dS.window (ix1 e) a).toNat = _
  rw [h a, Int.toNat_natCast]
  fin_cases a <;> rfl

/-- The pattern of 1. -/
theorem ofBits_one : Ideal.ofBits .f32 0x3F800000#32 = (1 : EReal) := by
  simp [Ideal.ofBits, Ideal.ieee, -EReal.coe_mul]; norm_num

/-! ## The tiling of a 196 × 6272 array down the 32 batches -/

/-- The tiled array's entry (i, j) sits at (i % 196, j) of the 196 × 6272 one. -/
theorem idx_tile (i j : Fin 6272) : idx_main_v40 (idx_main_v41 (idx_main_v42 (ix2 i j))) = ix2 (Cert.Spec.lrow i) j := by
  have hi := i.isLt; have hj := j.isLt
  funext a
  match a with
  | ⟨0, _⟩ =>
    exact Fin.ext (by
      show (((0 * 196 + (i.val * 6272 + j.val) / 6272 % 196) * 1 + 0) * 6272 + (i.val * 6272 + j.val) % 6272) / 6272 = i.val % 196
      omega)
  | ⟨1, _⟩ =>
    exact Fin.ext (by
      show (((0 * 196 + (i.val * 6272 + j.val) / 6272 % 196) * 1 + 0) * 6272 + (i.val * 6272 + j.val) % 6272) % 6272 = j.val
      omega)

theorem idx_tile' (i j : Fin 6272) : idx_main_v37 (idx_main_v38 (idx_main_v39 (ix2 i j))) = ix2 (Cert.Spec.lrow i) j := by
  have hi := i.isLt; have hj := j.isLt
  funext a
  match a with
  | ⟨0, _⟩ =>
    exact Fin.ext (by
      show (((0 * 196 + (i.val * 6272 + j.val) / 6272 % 196) * 1 + 0) * 6272 + (i.val * 6272 + j.val) % 6272) / 6272 = i.val % 196
      omega)
  | ⟨1, _⟩ =>
    exact Fin.ext (by
      show (((0 * 196 + (i.val * 6272 + j.val) / 6272 % 196) * 1 + 0) * 6272 + (i.val * 6272 + j.val) % 6272) % 6272 = j.val
      omega)

end Cert.RefValue.Tiles

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- Stage 36 at (r, j): 0 at column r of row r, 1 elsewhere. -/
theorem v36_eq (r : Fin 196) (j : Fin 6272) : val_main_v36 (F := Ideal) (ix2 r j) = Cert.Spec.ind (j.val ≠ r.val) := by
  have hupd : ∀ k : S196.Idx, val_main_v35 (F := Ideal) k = (0 : EReal) := fun k => by
    rw [val_main_v35_apply]; exact Ideal.ofBits_zero_f32
  unfold val_main_v36 Cert.Spec.ind
  by_cases h : j.val = r.val
  · rw [if_neg (not_not.2 h)]
    refine Tiles.scatter_hit_const Tiles.dS (val_main_v34 (F := Ideal)) (val_main_v19 (F := Ideal)) (val_main_v35 (F := Ideal)) 0 hupd
      (ix2 r j) (ix1 r) ?_
    rw [Tiles.resultIdx_diag r]
    exact congrArg (fun c : Fin 6272 => some (ix2 r c)) (Fin.ext h.symm)
  · rw [if_pos h]
    refine (Tiles.scatter_miss Tiles.dS (val_main_v34 (F := Ideal)) (fun _ b => b) (val_main_v19 (F := Ideal)) (val_main_v35 (F := Ideal))
      (ix2 r j) ?_).trans ?_
    · intro k hk
      obtain ⟨e, rfl⟩ : ∃ e : Fin 196, k = ix1 e := ⟨k 0, eq_ix1 k⟩
      rw [Tiles.resultIdx_diag e] at hk
      have hk' := Option.some.inj hk
      have h0 : e.val = r.val := congrArg (fun t : S196x6272.Idx => (t 0).val) hk'
      have h1 : e.val = j.val := congrArg (fun t : S196x6272.Idx => (t 1).val) hk'
      exact h (h1.symm.trans h0)
    · rw [val_main_v19_apply]
      exact Tiles.ofBits_one

/-- Stage 39 at (i, j): 0 at the column whose number is row i's position in its batch, 1 elsewhere. -/
theorem v39_eq (i j : Fin 6272) : val_main_v39 (F := Ideal) (ix2 i j) = Cert.Spec.off i j := by
  rw [val_main_v39_apply, val_main_v38_apply, val_main_v37_apply, Tiles.idx_tile', v36_eq]
  rfl

/-- Stage 42 at (i, j): the argument's bit at (position of row i in its batch, column j). -/
theorem v42_eq (x2 : (⟨S196x6272, .i1⟩ : BufTy).Contents (Elt Ideal)) (i j : Fin 6272) :
    val_main_v42 (F := Ideal) x2 (ix2 i j) = x2 (ix2 (Cert.Spec.lrow i) j) := by
  rw [val_main_v42_apply, val_main_v41_apply, val_main_v40_apply, Tiles.idx_tile]

end Cert.RefValue

end
-- ==== Proof.Ref.Inner.lean ====
/-
  The three inner stages of the reference over the specification's similarities and thresholds: the logits, the
  kept columns of each row's denominator, and each row's positives. The two tilings of a 196-row pattern over the
  32 batches — the excluded column and the third argument's bits — enter first as hypotheses, then as proved.
-/
import proofs.«149911_j6408091205873_1_alg».proof.Proof.Ref.Masks
import proofs.«149911_j6408091205873_1_alg».proof.Proof.Ref.Tiles

noncomputable section

namespace Cert.RefValue

open Idealize.ShloMosaic Idealize.ShloMosaic.ValueIdx Cert.ReferenceIdeal Cert.ReferenceIdeal.Gen Cert.ReferenceIdeal.Read

/-- The logits. -/
theorem stage49 (x0 : (⟨3, ![32, 196, 256]⟩ : Shape).Idx → EReal) (hz : Cert.Spec.PosRows (Cert.Spec.rowsZ x0)) :
    ∀ (i j : Fin 6272),
      val_main_v49 (F := Ideal) x0 (ix2 i j) = Cert.Spec.logit Cert.Spec.kappa (Cert.Spec.simA x0) i j :=
  fun i j => v49_eq x0 hz i j

/-- Each row's positives, given the excluded column's tiling: the hits off the excluded column. -/
theorem stage47_of (x0 : (⟨3, ![32, 196, 256]⟩ : Shape).Idx → EReal) (x1 : (⟨2, ![100, 256]⟩ : Shape).Idx → EReal)
    (hz : Cert.Spec.PosRows (Cert.Spec.rowsZ x0)) (hp : Cert.Spec.PosRows (Cert.Spec.rowsP x1))
    (h39 : ∀ (i j : Fin 6272), val_main_v39 (F := Ideal) (ix2 i j) = Cert.Spec.off i j) :
    ∀ (i j : Fin 6272),
      val_main_v47 (F := Ideal) x0 x1 (ix2 i j) = Cert.Spec.pos (Cert.Spec.simA x0) (Cert.Spec.rpA x0 x1) i j := by
  intro i j
  rw [val_main_v47_apply, v46_eq x0 x1 hz hp, h39, Ideal.mulf_def, Cert.Spec.pos]

/-- The columns kept in each row's denominator, given the two tilings: off the excluded column, a hit or a set bit
    of the third argument. -/
theorem stage45_of (x0 : (⟨3, ![32, 196, 256]⟩ : Shape).Idx → EReal) (x1 : (⟨2, ![100, 256]⟩ : Shape).Idx → EReal)
    (x2 : (⟨2, ![196, 6272]⟩ : Shape).Idx → BitVec 1)
    (hz : Cert.Spec.PosRows (Cert.Spec.rowsZ x0)) (hp : Cert.Spec.PosRows (Cert.Spec.rowsP x1))
    (h39 : ∀ (i j : Fin 6272), val_main_v39 (F := Ideal) (ix2 i j) = Cert.Spec.off i j)
    (h42 : ∀ (i j : Fin 6272), val_main_v42 (F := Ideal) x2 (ix2 i j) = x2 (ix2 (Cert.Spec.lrow i) j)) :
    ∀ (i j : Fin 6272),
      val_main_v45 (F := Ideal) x0 x1 x2 (ix2 i j)
        = Cert.Spec.keep (Cert.Spec.simA x0) (Cert.Spec.rpA x0 x1) (Cert.Spec.maskG x2) i j := by
  intro i j
  have h46 := v46_eq x0 x1 hz hp i j
  rw [val_main_v46_apply] at h46
  rw [val_main_v45_apply, val_main_v44_apply, val_main_v43_apply, h39, h42, uitofp_ori, h46, Ideal.mulf_def,
    Cert.Spec.keep, Cert.Spec.maskG]
  rfl

/-- Each row's positives. -/
theorem stage47 (x0 : (⟨3, ![32, 196, 256]⟩ : Shape).Idx → EReal) (x1 : (⟨2, ![100, 256]⟩ : Shape).Idx → EReal)
    (hz : Cert.Spec.PosRows (Cert.Spec.rowsZ x0)) (hp : Cert.Spec.PosRows (Cert.Spec.rowsP x1)) :
    ∀ (i j : Fin 6272),
      val_main_v47 (F := Ideal) x0 x1 (ix2 i j) = Cert.Spec.pos (Cert.Spec.simA x0) (Cert.Spec.rpA x0 x1) i j :=
  stage47_of x0 x1 hz hp v39_eq

/-- The columns kept in each row's denominator. -/
theorem stage45 (x0 : (⟨3, ![32, 196, 256]⟩ : Shape).Idx → EReal) (x1 : (⟨2, ![100, 256]⟩ : Shape).Idx → EReal)
    (x2 : (⟨2, ![196, 6272]⟩ : Shape).Idx → BitVec 1)
    (hz : Cert.Spec.PosRows (Cert.Spec.rowsZ x0)) (hp : Cert.Spec.PosRows (Cert.Spec.rowsP x1)) :
    ∀ (i j : Fin 6272),
      val_main_v45 (F := Ideal) x0 x1 x2 (ix2 i j)
        = Cert.Spec.keep (Cert.Spec.simA x0) (Cert.Spec.rpA x0 x1) (Cert.Spec.maskG x2) i j :=
  stage45_of x0 x1 x2 hz hp v39_eq (v42_eq x2)

end Cert.RefValue

end
-- ==== Proof.LibSumRegroup.lean ====
/-
  Regrouping a finite sum over a range of naturals.

  A sum over `Fin (a * b)` is a double sum: every index below `a * b` is `p * b + q` for exactly one `p < a` and
  `q < b` (division with remainder by `b`), so summing block by block, `b` consecutive indices to a block, visits
  every index once. Twice over, a sum over `Fin (a * b * c)` is a triple sum over the indices `(p * b + q) * c + r`.
  This is how a column of `500000` rows is summed tile by tile: `2000` rows to a tile, `125` tiles to a core, `2` cores.

  A sum over `Fin (a + b + c + d)` is the sum of four sums, one over each consecutive part. This is how a product
  against a matrix whose columns are four blocks side by side is the sum of four partial products.

  All statements are for an arbitrary commutative additive monoid.
-/
import Mathlib.Algebra.BigOperators.Fin
import Mathlib.Data.Fintype.BigOperators
import Mathlib.Logic.Equiv.Fin.Basic

namespace Cert.SumRegroup

variable {M : Type*} [AddCommMonoid M]

/-! ## Products of ranges: block by block -/

/-- The index `p * b + q` of the `q`-th entry of the `p`-th block of length `b` lies below `a * b`. -/
theorem mul_add_lt {a b : ℕ} (p : Fin a) (q : Fin b) : p.val * b + q.val < a * b :=
  calc p.val * b + q.val < p.val * b + b := Nat.add_lt_add_left q.isLt _
    _ = (p.val + 1) * b := (Nat.succ_mul _ _).symm
    _ ≤ a * b := Nat.mul_le_mul_right b p.isLt

/-- A sum over `Fin (a * b)` taken block by block: `a` blocks of `b` consecutive indices. -/
theorem sum_fin_mul (a b : ℕ) (f : Fin (a * b) → M) :
    ∑ i, f i = ∑ p : Fin a, ∑ q : Fin b, f ⟨p.val * b + q.val, mul_add_lt p q⟩ := by
  rw [← (finProdFinEquiv (m := a) (n := b)).sum_comp f, Fintype.sum_prod_type]
  refine Finset.sum_congr rfl fun p _ => Finset.sum_congr rfl fun q _ => congrArg f (Fin.ext ?_)
  show q.val + b * p.val = p.val * b + q.val
  rw [Nat.add_comm, Nat.mul_comm]

/-- The index `(p * b + q) * c + r` lies below `a * b * c`. -/
theorem mul_add_mul_add_lt {a b c : ℕ} (p : Fin a) (q : Fin b) (r : Fin c) :
    (p.val * b + q.val) * c + r.val < a * b * c :=
  mul_add_lt (⟨p.val * b + q.val, mul_add_lt p q⟩ : Fin (a * b)) r

/-- A sum over `Fin (a * b * c)` taken in `a` groups of `b` blocks of `c` consecutive indices. -/
theorem sum_fin_mul_mul (a b c : ℕ) (f : Fin (a * b * c) → M) :
    ∑ i, f i = ∑ p : Fin a, ∑ q : Fin b, ∑ r : Fin c,
      f ⟨(p.val * b + q.val) * c + r.val, mul_add_mul_add_lt p q r⟩ := by
  rw [sum_fin_mul (a * b) c f,
    sum_fin_mul a b fun t : Fin (a * b) => ∑ r : Fin c, f ⟨t.val * c + r.val, mul_add_lt t r⟩]

/-- A column of `500000` rows summed tile by tile: two halves of `125` tiles of `2000` rows; row
    `(cc * 125 + j) * 2000 + r` is row `r` of tile `j` of half `cc`. -/
theorem sum_rows_by_tile (f : Fin 500000 → M) :
    ∑ e, f e = ∑ cc : Fin 2, ∑ j : Fin 125, ∑ r : Fin 2000,
      f ⟨(cc.val * 125 + j.val) * 2000 + r.val, mul_add_mul_add_lt (a := 2) cc j r⟩ :=
  sum_fin_mul_mul 2 125 2000 f

/-! ## Sums of ranges: part by part -/

/-- A sum over `Fin (a + b + c + d)` is the sum of the sums over its four consecutive parts. -/
theorem sum_fin_add4 (a b c d : ℕ) (g : Fin (a + b + c + d) → M) :
    ∑ i, g i
      = (∑ i : Fin a, g ⟨i.val, by omega⟩) + (∑ i : Fin b, g ⟨a + i.val, by omega⟩)
        + (∑ i : Fin c, g ⟨a + b + i.val, by omega⟩) + (∑ i : Fin d, g ⟨a + b + c + i.val, by omega⟩) := by
  rw [Fin.sum_univ_add, Fin.sum_univ_add, Fin.sum_univ_add]
  rfl

/-- A sum over `384` columns made of four blocks side by side, of widths `128`, `128`, `64`, `64`. -/
theorem sum_cols_by_part (g : Fin 384 → M) :
    ∑ i, g i
      = (∑ i : Fin 128, g ⟨i.val, by omega⟩) + (∑ i : Fin 128, g ⟨128 + i.val, by omega⟩)
        + (∑ i : Fin 64, g ⟨256 + i.val, by omega⟩) + (∑ i : Fin 64, g ⟨320 + i.val, by omega⟩) :=
  sum_fin_add4 128 128 64 64 g

end Cert.SumRegroup
-- ==== Proof.Ref.Outer.lean ====
/-
  The outer stages of the reference, read at an index: from the logits, the kept columns and the positives
  of the 6272 × 6272 problem to each batch's two sums.

  Row by row the reference takes the largest logit (the fold of the maximum from -∞ over the columns), shifts the
  row by it, exponentiates, multiplies by the kept-column mask and sums: the row's softmax denominator. Its
  logarithm is subtracted from the shifted logits, the result is multiplied by the positives' mask, and the
  6272 × 6272 products are regrouped as 32 rows of 196 · 6272 entries — entry k of row b is the entry
  (b · 196 + k / 6272, k % 6272) — and summed along each row: batch b's sum is the sum over its 196 rows of the
  rows' sums over the 6272 columns. The positives' mask, regrouped and summed the same way, gives the counts.

  The three stages the outer ones start from — the logits (stage 49), the kept columns (stage 45) and the
  positives (stage 47) — enter as hypotheses: each is assumed to be, entry by entry, the specification's function.
-/
import proofs.«149911_j6408091205873_1_alg».proof.Proof.Gen.ReferenceIdeal.Read
import proofs.«149911_j6408091205873_1_alg».proof.Proof.SpecArgs
import proofs.«149911_j6408091205873_1_alg».proof.Proof.LibSumRegroup

noncomputable section

namespace Cert.RefValue.Outer

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The pattern with the sign bit, an all-ones exponent and a zero significand denotes -∞. -/
theorem ofBits_negInf : Ideal.ofBits .f32 0xFF800000#32 = (⊥ : EReal) := by
  simp [Ideal.ofBits, Ideal.ieee]

/-! ## Regrouping 196 · 6272 consecutive entries as 196 rows of 6272 -/

theorem regroup_row_lt (b : Fin 32) (k : Fin 1229312) : (b.val * 1229312 + k.val) / 6272 < 6272 := by
  have := b.isLt; have := k.isLt; omega

theorem regroup_col_lt (b : Fin 32) (k : Fin 1229312) : (b.val * 1229312 + k.val) % 6272 < 6272 :=
  Nat.mod_lt _ (by decide)

/-- The sum over the 196 · 6272 entries of row b of the regrouped array is the sum over the batch's 196 rows of the
    sums over the 6272 columns: entry r · 6272 + j of row b is the entry (b · 196 + r, j). -/
theorem sum_regroup (f : Fin 6272 → Fin 6272 → EReal) (b : Fin 32) :
    ∑ k : Fin 1229312, f ⟨(b.val * 1229312 + k.val) / 6272, regroup_row_lt b k⟩ ⟨(b.val * 1229312 + k.val) % 6272, regroup_col_lt b k⟩
      = ∑ r : Fin 196, ∑ j : Fin 6272, f (Cert.Spec.rowOf b r) j := by
  refine (Cert.SumRegroup.sum_fin_mul 196 6272 (fun k : Fin (196 * 6272) =>
    f ⟨(b.val * 1229312 + k.val) / 6272, regroup_row_lt b k⟩ ⟨(b.val * 1229312 + k.val) % 6272, regroup_col_lt b k⟩)).trans ?_
  refine Finset.sum_congr rfl fun r _ => Finset.sum_congr rfl fun j _ => ?_
  have hb := b.isLt; have hr := r.isLt; have hj := j.isLt
  exact congrArg₂ f (Fin.ext (by show (b.val * 1229312 + (r.val * 6272 + j.val)) / 6272 = b.val * 196 + r.val; omega))
    (Fin.ext (by show (b.val * 1229312 + (r.val * 6272 + j.val)) % 6272 = j.val; omega))

section Stages

variable (x0 : (⟨S32x196x256, .f32⟩ : BufTy).Contents (Elt Ideal)) (x1 : (⟨S100x256, .f32⟩ : BufTy).Contents (Elt Ideal))
  (x2 : (⟨S196x6272, .i1⟩ : BufTy).Contents (Elt Ideal))

/-- The logits, the kept columns and the positives of the specification at the reference's arguments. -/
local notation "Lg" => Cert.Spec.logit Cert.Spec.kappa (Cert.Spec.simA x0)
local notation "Kp" => Cert.Spec.keep (Cert.Spec.simA x0) (Cert.Spec.rpA x0 x1) (Cert.Spec.maskG x2)
local notation "Ps" => Cert.Spec.pos (Cert.Spec.simA x0) (Cert.Spec.rpA x0 x1)

/-! ## The row maximum -/

/-- The reduced index i with column k put back is (i, k). -/
theorem lift_col (h : S6272x6272.Reduces [1] S6272) (i : Fin 6272) (k : Fin (S6272x6272.size 1)) :
    h.lift (ix1 i) k = ix2 i (⟨k.val, k.isLt⟩ : Fin 6272) := by
  funext c; apply Fin.ext
  fin_cases c <;> rfl

/-- Stage 50 at row i: the largest logit of the row. -/
theorem v50_eq (h49 : ∀ i j : Fin 6272, val_main_v49 (F := Ideal) x0 (ix2 i j) = Lg i j) (i : Fin 6272) :
    val_main_v50 (F := Ideal) x0 (ix1 i) = Cert.Spec.rowMax (Lg i) := by
  have hred : S6272x6272.Reduces [1] S6272 := by decide
  unfold val_main_v50
  refine (Host.reduce_eq_fold_single (FloatOps.maximumf (F := Ideal) (φ := .f32)) (val_main_v49 (F := Ideal) x0)
    (val_main_cst_6 (F := Ideal)) reducesTo_S6272x6272_S6272_d1 hred h_S_ (ix1 i)).trans ?_
  have hf : (val_main_v49 (F := Ideal) x0 ∘ hred.lift (ix1 i)) = fun k : Fin 6272 => Lg i k := funext fun k => by
    show val_main_v49 (F := Ideal) x0 (hred.lift (ix1 i) k) = _
    rw [lift_col hred i k]; exact h49 i _
  rw [hf]
  show Finset.fold max (Ideal.ofBits .f32 0xFF800000#32) _ _ = _
  rw [ofBits_negInf]
  rfl

/-- Stage 52 at (i, j): stage 50 at row i, kept as a column and spread along the row. -/
theorem v52_eq (i j : Fin 6272) : val_main_v52 (F := Ideal) x0 (ix2 i j) = val_main_v50 (F := Ideal) x0 (ix1 i) := by
  rw [val_main_v52_apply, val_main_v51_apply]
  exact congrArg (val_main_v50 (F := Ideal) x0) (funext fun a => match a with | ⟨0, _⟩ => rfl)

/-! ## The shifted logits, their exponentials and the denominator -/

/-- Stage 53 at (i, j): the logit less the row's largest. -/
theorem v53_eq (h49 : ∀ i j : Fin 6272, val_main_v49 (F := Ideal) x0 (ix2 i j) = Lg i j) (i j : Fin 6272) :
    val_main_v53 (F := Ideal) x0 (ix2 i j) = Lg i j - Cert.Spec.rowMax (Lg i) := by
  rw [val_main_v53_apply, v52_eq, v50_eq x0 h49, h49]
  rfl

/-- Stage 54 at (i, j): the exponential of the shifted logit. -/
theorem v54_eq (h49 : ∀ i j : Fin 6272, val_main_v49 (F := Ideal) x0 (ix2 i j) = Lg i j) (i j : Fin 6272) :
    val_main_v54 (F := Ideal) x0 (ix2 i j) = Ideal.exp (Lg i j - Cert.Spec.rowMax (Lg i)) := by
  rw [val_main_v54_apply, v53_eq x0 h49]
  rfl

/-- Stage 55 at (i, j): the exponential on the kept columns, 0 elsewhere. -/
theorem v55_eq (h49 : ∀ i j : Fin 6272, val_main_v49 (F := Ideal) x0 (ix2 i j) = Lg i j)
    (h45 : ∀ i j : Fin 6272, val_main_v45 (F := Ideal) x0 x1 x2 (ix2 i j) = Kp i j) (i j : Fin 6272) :
    val_main_v55 (F := Ideal) x0 x1 x2 (ix2 i j) = Ideal.exp (Lg i j - Cert.Spec.rowMax (Lg i)) * Kp i j := by
  rw [val_main_v55_apply, v54_eq x0 h49, h45]
  rfl

/-- Stage 56 at row i: the row's softmax denominator over the kept columns. -/
theorem v56_eq (h49 : ∀ i j : Fin 6272, val_main_v49 (F := Ideal) x0 (ix2 i j) = Lg i j)
    (h45 : ∀ i j : Fin 6272, val_main_v45 (F := Ideal) x0 x1 x2 (ix2 i j) = Kp i j) (i : Fin 6272) :
    val_main_v56 (F := Ideal) x0 x1 x2 (ix1 i) = Cert.Spec.rowDen (Lg i) (Kp i) := by
  rw [val_main_v56_apply]
  show Ideal.ofBits .f32 0x00000000#32 + _ = _
  rw [Ideal.ofBits_zero_f32, zero_add]
  unfold Cert.Spec.rowDen
  refine Finset.sum_congr rfl fun k _ => ?_
  have e : idx_main_v56 (ix1 i) k = ix2 i k := funext fun a => match a with | ⟨0, _⟩ => rfl | ⟨1, _⟩ => rfl
  rw [e, v55_eq x0 x1 x2 h49 h45]

/-- Stage 59 at (i, j): the logarithm of row i's denominator, kept as a column and spread along the row. -/
theorem v59_eq (h49 : ∀ i j : Fin 6272, val_main_v49 (F := Ideal) x0 (ix2 i j) = Lg i j)
    (h45 : ∀ i j : Fin 6272, val_main_v45 (F := Ideal) x0 x1 x2 (ix2 i j) = Kp i j) (i j : Fin 6272) :
    val_main_v59 (F := Ideal) x0 x1 x2 (ix2 i j) = Ideal.log (Cert.Spec.rowDen (Lg i) (Kp i)) := by
  rw [val_main_v59_apply, val_main_v58_apply, val_main_v57_apply]
  have e : idx_main_v57 (idx_main_v59 (ix2 i j)) = ix1 i := funext fun a => match a with | ⟨0, _⟩ => rfl
  rw [e, v56_eq x0 x1 x2 h49 h45]
  rfl

/-! ## The log-probabilities on the positives -/

/-- Stage 60 at (i, j): the shifted logit less the logarithm of the row's denominator. -/
theorem v60_eq (h49 : ∀ i j : Fin 6272, val_main_v49 (F := Ideal) x0 (ix2 i j) = Lg i j)
    (h45 : ∀ i j : Fin 6272, val_main_v45 (F := Ideal) x0 x1 x2 (ix2 i j) = Kp i j) (i j : Fin 6272) :
    val_main_v60 (F := Ideal) x0 x1 x2 (ix2 i j)
      = (Lg i j - Cert.Spec.rowMax (Lg i)) - Ideal.log (Cert.Spec.rowDen (Lg i) (Kp i)) := by
  rw [val_main_v60_apply, v53_eq x0 h49, v59_eq x0 x1 x2 h49 h45]
  rfl

/-- Stage 61 at (i, j): that log-probability on the positives, 0 elsewhere. -/
theorem v61_eq (h49 : ∀ i j : Fin 6272, val_main_v49 (F := Ideal) x0 (ix2 i j) = Lg i j)
    (h45 : ∀ i j : Fin 6272, val_main_v45 (F := Ideal) x0 x1 x2 (ix2 i j) = Kp i j)
    (h47 : ∀ i j : Fin 6272, val_main_v47 (F := Ideal) x0 x1 (ix2 i j) = Ps i j) (i j : Fin 6272) :
    val_main_v61 (F := Ideal) x0 x1 x2 (ix2 i j)
      = Ps i j * ((Lg i j - Cert.Spec.rowMax (Lg i)) - Ideal.log (Cert.Spec.rowDen (Lg i) (Kp i))) := by
  rw [val_main_v61_apply, h47, v60_eq x0 x1 x2 h49 h45]
  rfl

/-- The contribution of column j to row i's sum: the positives' mask times the shifted log-probability. -/
def term (i j : Fin 6272) : EReal :=
  Ps i j * ((Lg i j - Cert.Spec.rowMax (Lg i)) - Ideal.log (Cert.Spec.rowDen (Lg i) (Kp i)))

/-! ## The batches' sums -/

/-- Entry k of row b of the regrouped array sits at (b · 196 + k / 6272, k % 6272) of the square one. -/
theorem idx_regroup (b : Fin 32) (k : Fin 1229312) :
    idx_main_v62 (idx_main_v63 (ix1 b) k)
      = ix2 (⟨(b.val * 1229312 + k.val) / 6272, regroup_row_lt b k⟩ : Fin 6272) (⟨(b.val * 1229312 + k.val) % 6272, regroup_col_lt b k⟩ : Fin 6272) :=
  funext fun a => match a with | ⟨0, _⟩ => rfl | ⟨1, _⟩ => rfl

theorem idx_regroup' (b : Fin 32) (k : Fin 1229312) :
    idx_main_v64 (idx_main_v65 (ix1 b) k)
      = ix2 (⟨(b.val * 1229312 + k.val) / 6272, regroup_row_lt b k⟩ : Fin 6272) (⟨(b.val * 1229312 + k.val) % 6272, regroup_col_lt b k⟩ : Fin 6272) :=
  funext fun a => match a with | ⟨0, _⟩ => rfl | ⟨1, _⟩ => rfl

end Stages

end Cert.RefValue.Outer

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- Stage 63 at batch b: the batch's sum, over its 196 rows and their positives, of the shifted log-probabilities. -/
theorem num_of_stages (x0 : (⟨S32x196x256, .f32⟩ : BufTy).Contents (Elt Ideal)) (x1 : (⟨S100x256, .f32⟩ : BufTy).Contents (Elt Ideal))
    (x2 : (⟨S196x6272, .i1⟩ : BufTy).Contents (Elt Ideal))
    (h49 : ∀ (i j : Fin 6272), val_main_v49 (F := Ideal) x0 (ix2 i j) = Cert.Spec.logit Cert.Spec.kappa (Cert.Spec.simA x0) i j)
    (h45 : ∀ (i j : Fin 6272), val_main_v45 (F := Ideal) x0 x1 x2 (ix2 i j)
      = Cert.Spec.keep (Cert.Spec.simA x0) (Cert.Spec.rpA x0 x1) (Cert.Spec.maskG x2) i j)
    (h47 : ∀ (i j : Fin 6272), val_main_v47 (F := Ideal) x0 x1 (ix2 i j) = Cert.Spec.pos (Cert.Spec.simA x0) (Cert.Spec.rpA x0 x1) i j)
    (b : Fin 32) :
    val_main_v63 (F := Ideal) x0 x1 x2 (ix1 b) = Cert.Spec.numA x0 x1 x2 b := by
  rw [val_main_v63_apply]
  show Ideal.ofBits .f32 0x00000000#32 + _ = _
  rw [Ideal.ofBits_zero_f32, zero_add]
  have hk : ∀ k : Fin 1229312, val_main_v62 (F := Ideal) x0 x1 x2 (idx_main_v63 (ix1 b) k)
      = Outer.term x0 x1 x2 ⟨(b.val * 1229312 + k.val) / 6272, Outer.regroup_row_lt b k⟩
          ⟨(b.val * 1229312 + k.val) % 6272, Outer.regroup_col_lt b k⟩ := fun k => by
    rw [val_main_v62_apply, Outer.idx_regroup, Outer.v61_eq x0 x1 x2 h49 h45 h47]
    rfl
  refine (Finset.sum_congr rfl fun k _ => hk k).trans ((Outer.sum_regroup (Outer.term x0 x1 x2) b).trans ?_)
  rfl

/-- Stage 65 at batch b: the batch's number of positives. -/
theorem cnt_of_stages (x0 : (⟨S32x196x256, .f32⟩ : BufTy).Contents (Elt Ideal)) (x1 : (⟨S100x256, .f32⟩ : BufTy).Contents (Elt Ideal))
    (h47 : ∀ (i j : Fin 6272), val_main_v47 (F := Ideal) x0 x1 (ix2 i j) = Cert.Spec.pos (Cert.Spec.simA x0) (Cert.Spec.rpA x0 x1) i j)
    (b : Fin 32) :
    val_main_v65 (F := Ideal) x0 x1 (ix1 b) = Cert.Spec.cntA x0 x1 b := by
  rw [val_main_v65_apply]
  show Ideal.ofBits .f32 0x00000000#32 + _ = _
  rw [Ideal.ofBits_zero_f32, zero_add]
  have hk : ∀ k : Fin 1229312, val_main_v64 (F := Ideal) x0 x1 (idx_main_v65 (ix1 b) k)
      = Cert.Spec.pos (Cert.Spec.simA x0) (Cert.Spec.rpA x0 x1) ⟨(b.val * 1229312 + k.val) / 6272, Outer.regroup_row_lt b k⟩
          ⟨(b.val * 1229312 + k.val) % 6272, Outer.regroup_col_lt b k⟩ := fun k => by
    rw [val_main_v64_apply, Outer.idx_regroup', h47]
  refine (Finset.sum_congr rfl fun k _ => hk k).trans
    ((Outer.sum_regroup (Cert.Spec.pos (Cert.Spec.simA x0) (Cert.Spec.rpA x0 x1)) b).trans ?_)
  rfl

end Cert.RefValue

end
-- ==== Proof.PreFacts.lean ====
/-
  The precondition read back. It says of the two float arguments that every entry x has |x| < +∞, and that every
  row's 0 + ∑ x·x over the last axis is > 0, all four statements and-ed into one bit that is 1. At the extended reals:
  |x| = max x (−x) < ⊤ leaves x neither ⊤ nor ⊥, so x is a real; the row sum of the squares is then the real
  ∑ r·r, and "> 0" makes it a positive real. Row i of the first argument's 32 × 196 rows is row i % 196 of batch i / 196.
-/
import proofs.«149911_j6408091205873_1_alg».proof.Pre_finite_inputs
import proofs.«149911_j6408091205873_1_alg».proof.Proof.SpecArgs
import Idealize.ShloMosaic.Lib.ReduceAll
import Idealize.ShloMosaic.Lib.IdealHost
import Idealize.ShloMosaic.Lib.ValueIdx
import Idealize.ShloMosaic.PureOps.Ideal.Laws

noncomputable section

namespace Cert.PreFacts

open Idealize.ShloMosaic Idealize.ShloMosaic.ValueIdx
open Cert.Pre_finite_inputs

instance : Subsingleton S_.Idx := ⟨fun a b => funext fun d => d.elim0⟩

/-- The pattern 0x7F800000 is +∞. -/
theorem ofBits_inf_f32 : Ideal.ofBits .f32 0x7F800000#32 = ⊤ := by simp [Ideal.ofBits, Ideal.ieee]

/-- |x| < +∞ says x is a real. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- s > 0 read back. -/
theorem pos_of_cmp_ogt (s : EReal) (h : Ideal.cmp .ogt s 0 = 1#1) : 0 < s := by
  by_contra hn
  simp [Ideal.cmp, hn] at h

/-- A finite sum of reals is a real. -/
theorem sum_coe {ι : Type} (S : Finset ι) (f : ι → ℝ) : (∑ k ∈ S, ((f k : ℝ) : EReal)) = ((∑ k ∈ S, f k : ℝ) : EReal) := by
  classical
  induction S using Finset.induction_on with
  | empty => simp
  | insert a S ha ih => rw [Finset.sum_insert ha, Finset.sum_insert ha, ih, EReal.coe_add]

/-- A row of reals whose sum of squares is positive: that sum is a positive real. -/
theorem posRow_of {d : ℕ} (v : Fin d → EReal) (hr : ∀ q, ∃ r : ℝ, v q = (r : EReal)) (hp : 0 < ∑ k, v k * v k) :
    ∃ r : ℝ, 0 < r ∧ (∑ k : Fin d, v k * v k) = (r : EReal) := by
  choose f hf using hr
  have e : (∑ k : Fin d, v k * v k) = ((∑ k, f k * f k : ℝ) : EReal) := by
    rw [← sum_coe]; exact Finset.sum_congr rfl fun k _ => by rw [hf k, EReal.coe_mul]
  rw [e] at hp ⊢
  exact ⟨_, EReal.coe_pos.1 hp, rfl⟩

/-- The host's sum over the last axis of the squares of the first argument, at row (b, r): the sum of the squares of that row. -/
theorem rowsum_x0 [Facts] (x0 : FVec Ideal S32x196x256 .f32) (j : S32x196.Idx) :
    Host.reduceAdd (mulf x0 x0) (constant S_ .f32 0x00000000#32) Facts.reducesTo_S32x196x256_S32x196_d2 Facts.h_S_ j
      = ∑ k : Fin 256, x0 (ix3 (j 0 : Fin 32) (j 1 : Fin 196) k) * x0 (ix3 (j 0 : Fin 32) (j 1 : Fin 196) k) := by
  simp only [Host.reduceAdd, Ideal.hostReduceAdd_def]
  rw [Ideal.hostReduceAdd_single Facts.reducesTo_S32x196x256_S32x196_d2 (by decide)]
  show Ideal.ofBits .f32 0x00000000#32 + _ = _
  rw [Ideal.ofBits_zero_f32, zero_add]
  refine Finset.sum_congr rfl fun k _ => ?_
  show x0 _ * x0 _ = _
  have e : ∀ i i' : S32x196x256.Idx, i = i' → x0 i * x0 i = x0 i' * x0 i' := fun _ _ h => by rw [h]
  exact e _ _ (funext fun a => Fin.ext (by match a with | ⟨0, _⟩ => rfl | ⟨1, _⟩ => rfl | ⟨2, _⟩ => rfl))

/-- The same for the second argument, at row k. -/
theorem rowsum_x1 [Facts] (x1 : FVec Ideal S100x256 .f32) (j : S100.Idx) :
    Host.reduceAdd (mulf x1 x1) (constant S_ .f32 0x00000000#32) Facts.reducesTo_S100x256_S100_d1 Facts.h_S_ j
      = ∑ k : Fin 256, x1 (ix2 (j 0 : Fin 100) k) * x1 (ix2 (j 0 : Fin 100) k) := by
  simp only [Host.reduceAdd, Ideal.hostReduceAdd_def]
  rw [Ideal.hostReduceAdd_single Facts.reducesTo_S100x256_S100_d1 (by decide)]
  show Ideal.ofBits .f32 0x00000000#32 + _ = _
  rw [Ideal.ofBits_zero_f32, zero_add]
  refine Finset.sum_congr rfl fun k _ => ?_
  show x1 _ * x1 _ = _
  have e : ∀ i i' : S100x256.Idx, i = i' → x1 i * x1 i = x1 i' * x1 i' := fun _ _ h => by rw [h]
  exact e _ _ (funext fun a => Fin.ext (by match a with | ⟨0, _⟩ => rfl | ⟨1, _⟩ => rfl))

/-- The precondition read back: every entry of the two float arguments is a real, and every row's sum of squares is positive. -/
theorem pre_split [Facts] (x0 : FVec Ideal S32x196x256 .f32) (x1 : FVec Ideal S100x256 .f32) (x2 : IVec S196x6272 1)
    (h : fn (F := Ideal) x0 x1 x2 = fun _ => 1#1) :
    (∀ i : S32x196x256.Idx, ∃ r : ℝ, x0 i = (r : EReal)) ∧ (∀ i : S100x256.Idx, ∃ r : ℝ, x1 i = (r : EReal))
      ∧ (∀ (b : Fin 32) (r : Fin 196), 0 < ∑ k : Fin 256, x0 (ix3 b r k) * x0 (ix3 b r k))
      ∧ (∀ c : Fin 100, 0 < ∑ k : Fin 256, x1 (ix2 c k) * x1 (ix2 c k)) := by
  have e := congrFun h ix0
  dsimp only [fn, fn_part1] at e
  simp only [andi, IntOp.andi_eq_one] at e
  obtain ⟨⟨⟨e0, e1⟩, e2⟩, e3⟩ := e
  have a0 := fun i => Host.reduce_andi_all _ _ _ _ _ e0 i
  have a1 := fun i => Host.reduce_andi_all _ _ _ _ _ e1 i
  have a2 := fun i => Host.reduce_andi_all _ _ _ _ _ e2 i
  have a3 := fun i => Host.reduce_andi_all _ _ _ _ _ e3 i
  refine ⟨fun i => ?_, fun i => ?_, fun b r => ?_, fun c => ?_⟩
  · have t := a0 i
    change Ideal.cmp .olt (max (x0 i) (-(x0 i))) (Ideal.ofBits .f32 0x7F800000#32) = 1#1 at t
    rw [ofBits_inf_f32] at t
    exact real_of_abs_lt_top _ t
  · have t := a1 i
    change Ideal.cmp .olt (max (x1 i) (-(x1 i))) (Ideal.ofBits .f32 0x7F800000#32) = 1#1 at t
    rw [ofBits_inf_f32] at t
    exact real_of_abs_lt_top _ t
  · have t := a2 (ix2 b r)
    change Ideal.cmp .ogt (Host.reduceAdd (mulf x0 x0) (constant S_ .f32 0x00000000#32) Facts.reducesTo_S32x196x256_S32x196_d2 Facts.h_S_ (ix2 b r))
      (Ideal.ofBits .f32 0x00000000#32) = 1#1 at t
    rw [Ideal.ofBits_zero_f32, rowsum_x0] at t
    exact pos_of_cmp_ogt _ t
  · have t := a3 (ix1 c)
    change Ideal.cmp .ogt (Host.reduceAdd (mulf x1 x1) (constant S_ .f32 0x00000000#32) Facts.reducesTo_S100x256_S100_d1 Facts.h_S_ (ix1 c))
      (Ideal.ofBits .f32 0x00000000#32) = 1#1 at t
    rw [Ideal.ofBits_zero_f32, rowsum_x1] at t
    exact pos_of_cmp_ogt _ t

/-- The precondition gives the specification's hypothesis on both float arguments: every row is a row of reals
    whose sum of squares is a positive real. -/
theorem posRows_of_pre [Facts] (x0 : FVec Ideal S32x196x256 .f32) (x1 : FVec Ideal S100x256 .f32) (x2 : IVec S196x6272 1)
    (h : fn (F := Ideal) x0 x1 x2 = fun _ => 1#1) :
    Cert.Spec.PosRows (Cert.Spec.rowsZ x0) ∧ Cert.Spec.PosRows (Cert.Spec.rowsP x1) := by
  obtain ⟨r0, r1, p0, p1⟩ := pre_split x0 x1 x2 h
  refine ⟨fun i => ?_, fun c => ?_⟩
  · have hr : ∀ q, ∃ r : ℝ, Cert.Spec.rowsZ x0 i q = (r : EReal) := fun q => r0 _
    exact ⟨hr, posRow_of _ hr (p0 _ _)⟩
  · have hr : ∀ q, ∃ r : ℝ, Cert.Spec.rowsP x1 c q = (r : EReal) := fun q => r1 _
    exact ⟨hr, posRow_of _ hr (p1 c)⟩

end Cert.PreFacts

end
-- ==== Proof.lean ====
/-
  The proof of `Cert.Claim`: the three frames, the sanctioned idealization, and the equality of the two idealized
  programs' results on the extended reals.

  The kernel program normalises the rows of its two float arguments in one kernel (each row times the reciprocal
  root of its sum of squares; the rows' best similarities to the second argument's unit rows are the thresholds), and
  in a second kernel visits, for each batch of 196 rows, the 6272 columns in 7 blocks of 896, keeping per row a
  running maximum of the logits, a softmax denominator rescaled to it, the sum of the positives' logits and the
  number of positives; after the last block it forms `(A − m·D) − log l · D` per row. The reference computes, per
  row, the sum over the positives of `(L − max L) − log ∑ exp (L − max L) · keep` directly. The two agree on the
  extended reals: the rescalings telescope (`exp (a − b) · exp (b − c) = exp (a − c)` on the reals), the finite sum
  distributes, and a row with an empty denominator has no positives, so both sides are `0` there. The inverse
  temperature the kernel multiplies by is named the reciprocal of the reference's divisor. Rows of norm zero are
  excluded by the precondition: there the reference divides zero by zero.
-/
import proofs.«149911_j6408091205873_1_alg».proof.Defs
import proofs.«149911_j6408091205873_1_alg».proof.Proof.Gen.Kernel
import proofs.«149911_j6408091205873_1_alg».proof.Proof.Gen.KernelIdeal
import proofs.«149911_j6408091205873_1_alg».proof.Proof.Gen.ReferenceIdeal
import proofs.«149911_j6408091205873_1_alg».proof.Proof.Gen.Pre_finite_inputs
import proofs.«149911_j6408091205873_1_alg».proof.Proof.Gen.ReferenceIdeal.Run
import proofs.«149911_j6408091205873_1_alg».proof.Proof.Gen.ReferenceIdeal.Read
import proofs.«149911_j6408091205873_1_alg».proof.Proof.K.Run
import proofs.«149911_j6408091205873_1_alg».proof.Proof.KI.Run
import proofs.«149911_j6408091205873_1_alg».proof.Proof.KI.Bridge
import proofs.«149911_j6408091205873_1_alg».proof.Proof.Ref.Inner
import proofs.«149911_j6408091205873_1_alg».proof.Proof.Ref.Outer
import proofs.«149911_j6408091205873_1_alg».proof.Proof.Ref.Tail
import proofs.«149911_j6408091205873_1_alg».proof.Proof.PreFacts
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level program runs to the end, faults nowhere, and leaves its arguments as launched. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the inverse temperature, named the reciprocal of the single-precision
    number nearest 0.07. -/
theorem preserves : Cert.preserves_Kernel_KernelIdeal :=
  IdealRules.named_const.statement Cert.KernelIdeal.κ "inv_temp" .f32 0x41649249#32 ((134217728 / 9395241 : ℝ) : EReal) rfl

open Cert.KernelIdeal.Fr in
/-- From memories agreeing on the arguments, both idealized programs end with the same number. -/
theorem algebraic : Cert.algebraic_KernelIdeal_ReferenceIdeal := by
  intro m ρ m' ρ' hpre hagree
  refine ⟨fun c => W5 (F := Ideal) m ρ c (Proc.devRef .tc Cert.KernelIdeal.main_v16), ?_, ?_⟩
  · exact (θ_run Cert.KernelIdeal.defs _ _).mono (fun r h c =>
      ⟨h c _ (mem_uc Cert.KernelIdeal.main_v16 (by decide)),
       (h c _ (mem_uc Cert.KernelIdeal.main_arg0 (by decide))).trans (W5_main_arg0 m ρ c),
       (h c _ (mem_uc Cert.KernelIdeal.main_arg1 (by decide))).trans (W5_main_arg1 m ρ c),
       (h c _ (mem_uc Cert.KernelIdeal.main_arg2 (by decide))).trans (W5_main_arg2 m ρ c)⟩) (run_all m ρ)
  · refine (θ_run Cert.ReferenceIdeal.defs _ _).mono (fun _ h c => ⟨(h c).1.trans ?_, (h c).2⟩)
      (Cert.ReferenceIdeal.Value.run (F := Ideal) m' ρ')
    obtain ⟨hz, hp⟩ := Cert.PreFacts.posRows_of_pre _ _ _ (hpre c)
    rw [Cert.ReferenceIdeal.Read.val_main_v71_eq, (hagree c).1, (hagree c).2.1, (hagree c).2.2,
      Cert.RefValue.result_eq_tail]
    exact (Cert.RefValue.tail_congr _ _ _ _
      (fun b => (numK_eq m ρ c hz b).trans
        (Cert.RefValue.num_of_stages _ _ _ (Cert.RefValue.stage49 _ hz) (Cert.RefValue.stage45 _ _ _ hz hp) (Cert.RefValue.stage47 _ _ hz hp) b).symm)
      (fun b => (denK_eq m ρ c hz b).trans (Cert.RefValue.cnt_of_stages _ _ (Cert.RefValue.stage47 _ _ hz hp) b).symm)).symm.trans
        (result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
